-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v245)) (v1 : (c : Dev Cert.KernelIdeal.nD) → Buf (Elt Ideal) ((c.tc : Thread Cert.KernelIdeal.nD Cert.KernelIdeal.τ).loc Cert.KernelIdeal.main_v243)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v245) = v0 c
          ∧ r.2.mem ((c.tc : Thread Cert.KernelIdeal.nD Cert.KernelIdeal.τ).loc Cert.KernelIdeal.main_v243) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v480) = v0 c
          ∧ r.2.mem ((c.tc : Thread Cert.ReferenceIdeal.nD Cert.ReferenceIdeal.τ).loc Cert.ReferenceIdeal.main_v476) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S3x256x128 : Shape := ⟨3, ![3, 256, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S2x400000 : Shape := ⟨2, ![2, 400000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S128x64 .f32) (main_arg10 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S3x128 .f32) (main_arg5 : FVec F S3x256x128 .f32) (main_arg6 : FVec F S3x128 .f32) (main_arg7 : FVec F S128 .f32) (main_arg8 : FVec F S128 .f32) (main_arg9 : FVec F S128x64 .f32) (main_arg10 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x256x128 .f32 := Host.absf main_arg5
  let main_cst_8 : FVec F S_ .f32 := constant S_ .f32 0x7F800000#32
  let main_v25 : FVec F S3x256x128 .f32 := broadcastInDim S3x256x128 ![] bcast_S_S3x256x128 main_cst_8
  let main_v26 : IVec S3x256x128 1 := cmpf .olt main_v24 main_v25
  let main_c_9 : IVec S_ 1 := constantI S_ 1 1#1
  let main_v27 : IVec S_ 1 := (fun x v => Host.reduce IntOp.andi x v reducesTo_S3x256x128_S_d0_1_2 h_S_) main_v26 main_c_9
  let main_v28 : IVec S_ 1 := andi main_v23 main_v27
  let main_v29 : FVec F S3x128 .f32 := Host.absf main_arg6
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S3x128x128 .f32) (main_arg2 : FVec F S3x128 .f32) (main_arg3 : FVec F S3x128x128 .f32) (main_arg4 : FVec F S3x128 .f32) (main_arg5 : FVec F S3x256x128 .f32) (main_arg6 : FVec F S3x128 .f32) (main_arg7 : FVec F S128 .f32) (main_arg8 : FVec F S128 .f32) (main_arg9 : FVec F S128x64 .f32) (main_arg10 : FVec F S64 .f32) (main_arg11 : IVec S2x600000 32) (main_arg12 : IVec S2x400000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S3x256x128 : Shape := ⟨3, ![3, 256, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S2x400000 : Shape := ⟨2, ![2, 400000]⟩
abbrev S1x600000 : Shape := ⟨2, ![1, 600000]⟩
abbrev S600000 : Shape := ⟨1, ![600000]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S600000x1 : Shape := ⟨2, ![600000, 1]⟩
abbrev S1x128x128 : Shape := ⟨3, ![1, 128, 128]⟩
abbrev S128x128 : Shape := ⟨2, ![128, 128]⟩
abbrev S5000x128 : Shape := ⟨2, ![5000, 128]⟩
abbrev S400000x128 : Shape := ⟨2, ![400000, 128]⟩
abbrev S50000x1 : Shape := ⟨2, ![50000, 1]⟩
abbrev S600000x128 : Shape := ⟨2, ![600000, 128]⟩
abbrev S1x128 : Shape := ⟨2, ![1, 128]⟩
abbrev S5000 : Shape := ⟨1, ![5000]⟩
abbrev S5000x1 : Shape := ⟨2, ![5000, 1]⟩
abbrev S1x256x128 : Shape := ⟨3, ![1, 256, 128]⟩
abbrev S256x128 : Shape := ⟨2, ![256, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 293
  | .vmem => 113
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S3x128x128, .f32⟩
  | 4 => ⟨S3x128, .f32⟩
  | 5 => ⟨S3x256x128, .f32⟩
  | 6 => ⟨S3x128, .f32⟩
  | 7 => ⟨S128, .f32⟩
  | 8 => ⟨S128, .f32⟩
  | 9 => ⟨S128x64, .f32⟩
  | 10 => ⟨S64, .f32⟩
  | 11 => ⟨S2x600000, .i32⟩
  | 12 => ⟨S2x400000, .i32⟩
  | 13 => ⟨S1x600000, .i32⟩
  | 14 => ⟨S600000, .i32⟩
  | 15 => ⟨S1x600000, .i32⟩
  | 16 => ⟨S600000, .i32⟩
  | 17 => ⟨S1x400000, .i32⟩
  | 18 => ⟨S400000, .i32⟩
  | 19 => ⟨S1x400000, .i32⟩
  | 20 => ⟨S400000, .i32⟩
  | 21 => ⟨S_, .f32⟩
  | 22 => ⟨S400000, .f32⟩
  | 23 => ⟨S_, .f32⟩
  | 24 => ⟨S50000, .f32⟩
  | 25 => ⟨S400000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .f32⟩
  | 32 => ⟨S600000, .f32⟩
  | 33 => ⟨S_, .f32⟩
  | 34 => ⟨S50000, .f32⟩
  | 35 => ⟨S600000x1, .i32⟩
  | 36 => ⟨S50000, .f32⟩
  | 37 => ⟨S_, .f32⟩
  | 38 => ⟨S50000, .f32⟩
  | 39 => ⟨S50000, .f32⟩
  | 40 => ⟨S50000, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000, .f32⟩
  | 59 => ⟨S400000, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000, .f32⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S600000, .f32⟩
  | 78 => ⟨S600000, .f32⟩
  | 79 => ⟨S_, .f32⟩
  | 80 => ⟨S50000, .f32⟩
  | 81 => ⟨S50000, .f32⟩
  | 82 => ⟨S50000, .f32⟩
  | 83 => ⟨S_, .f32⟩
  | 84 => ⟨S50000, .f32⟩
  | 85 => ⟨S50000, .f32⟩
  | 86 => ⟨S50000, .f32⟩
  | 87 => ⟨S1x128x128, .f32⟩
  | 88 => ⟨S128x128, .f32⟩
  | 89 => ⟨S50000x128, .f32⟩
  | 90 => ⟨S1x128x128, .f32⟩
  | 91 => ⟨S128x128, .f32⟩
  | 92 => ⟨S50000x128, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S400000x128, .f32⟩
  | 102 => ⟨S400000x1, .f32⟩
  | 103 => ⟨S400000x128, .f32⟩
  | 104 => ⟨S400000x128, .f32⟩
  | 105 => ⟨S_, .f32⟩
  | 106 => ⟨S50000x128, .f32⟩
  | 107 => ⟨S400000x1, .i32⟩
  | 108 => ⟨S50000x128, .f32⟩
  | 109 => ⟨S50000x1, .f32⟩
  | 110 => ⟨S50000x128, .f32⟩
  | 111 => ⟨S50000x128, .f32⟩
  | 112 => ⟨S50000x128, .f32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000x128, .f32⟩
  | 122 => ⟨S600000x1, .f32⟩
  | 123 => ⟨S600000x128, .f32⟩
  | 124 => ⟨S600000x128, .f32⟩
  | 125 => ⟨S_, .f32⟩
  | 126 => ⟨S50000x128, .f32⟩
  | 127 => ⟨S600000x1, .i32⟩
  | _ => ⟨S50000x128, .f32⟩

abbrev hbmTy0_1 (i : Nat) : BufTy := match i % 128 with
  | 0 => ⟨S50000x128, .f32⟩
  | 1 => ⟨S50000x1, .f32⟩
  | 2 => ⟨S50000x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S1x128, .f32⟩
  | 9 => ⟨S1x128, .f32⟩
  | 10 => ⟨S50000x128, .f32⟩
  | 11 => ⟨S1x128, .f32⟩
  | 12 => ⟨S128, .f32⟩
  | 13 => ⟨S1x128, .f32⟩
  | 14 => ⟨S1x128, .f32⟩
  | 15 => ⟨S1x128, .f32⟩
  | 16 => ⟨S50000x128, .f32⟩
  | 17 => ⟨S1x256x128, .f32⟩
  | 18 => ⟨S256x128, .f32⟩
  | 19 => ⟨S128x128, .f32⟩
  | 20 => ⟨S1x256x128, .f32⟩
  | 21 => ⟨S256x128, .f32⟩
  | 22 => ⟨S128x128, .f32⟩
  | 23 => ⟨S1x128, .f32⟩
  | 24 => ⟨S128, .f32⟩
  | 25 => ⟨S1x128, .f32⟩
  | 26 => ⟨S50000x128, .f32⟩
  | 27 => ⟨S1x128x128, .f32⟩
  | 28 => ⟨S128x128, .f32⟩
  | 29 => ⟨S50000x128, .f32⟩
  | 30 => ⟨S1x128x128, .f32⟩
  | 31 => ⟨S128x128, .f32⟩
  | 32 => ⟨S50000x128, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x128, .f32⟩
  | 42 => ⟨S400000x1, .f32⟩
  | 43 => ⟨S400000x128, .f32⟩
  | 44 => ⟨S400000x128, .f32⟩
  | 45 => ⟨S_, .f32⟩
  | 46 => ⟨S50000x128, .f32⟩
  | 47 => ⟨S400000x1, .i32⟩
  | 48 => ⟨S50000x128, .f32⟩
  | 49 => ⟨S50000x1, .f32⟩
  | 50 => ⟨S50000x128, .f32⟩
  | 51 => ⟨S50000x128, .f32⟩
  | 52 => ⟨S50000x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S600000x1, .f32⟩
  | 63 => ⟨S600000x128, .f32⟩
  | 64 => ⟨S600000x128, .f32⟩
  | 65 => ⟨S_, .f32⟩
  | 66 => ⟨S50000x128, .f32⟩
  | 67 => ⟨S600000x1, .i32⟩
  | 68 => ⟨S50000x128, .f32⟩
  | 69 => ⟨S50000x1, .f32⟩
  | 70 => ⟨S50000x128, .f32⟩
  | 71 => ⟨S50000x128, .f32⟩
  | 72 => ⟨S50000x128, .f32⟩
  | 73 => ⟨S1x128, .f32⟩
  | 74 => ⟨S128, .f32⟩
  | 75 => ⟨S1x128, .f32⟩
  | 76 => ⟨S1x128, .f32⟩
  | 77 => ⟨S1x128, .f32⟩
  | 78 => ⟨S50000x128, .f32⟩
  | 79 => ⟨S1x128, .f32⟩
  | 80 => ⟨S128, .f32⟩
  | 81 => ⟨S1x128, .f32⟩
  | 82 => ⟨S1x128, .f32⟩
  | 83 => ⟨S1x128, .f32⟩
  | 84 => ⟨S50000x128, .f32⟩
  | 85 => ⟨S1x256x128, .f32⟩
  | 86 => ⟨S256x128, .f32⟩
  | 87 => ⟨S128x128, .f32⟩
  | 88 => ⟨S1x256x128, .f32⟩
  | 89 => ⟨S256x128, .f32⟩
  | 90 => ⟨S128x128, .f32⟩
  | 91 => ⟨S1x128, .f32⟩
  | 92 => ⟨S128, .f32⟩
  | 93 => ⟨S1x128, .f32⟩
  | 94 => ⟨S50000x128, .f32⟩
  | 95 => ⟨S1x128x128, .f32⟩
  | 96 => ⟨S128x128, .f32⟩
  | 97 => ⟨S50000x128, .f32⟩
  | 98 => ⟨S1x128x128, .f32⟩
  | 99 => ⟨S128x128, .f32⟩
  | 100 => ⟨S50000x128, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x128, .f32⟩
  | 110 => ⟨S400000x1, .f32⟩
  | 111 => ⟨S400000x128, .f32⟩
  | 112 => ⟨S400000x128, .f32⟩
  | 113 => ⟨S_, .f32⟩
  | 114 => ⟨S50000x128, .f32⟩
  | 115 => ⟨S400000x1, .i32⟩
  | 116 => ⟨S50000x128, .f32⟩
  | 117 => ⟨S50000x1, .f32⟩
  | 118 => ⟨S50000x128, .f32⟩
  | 119 => ⟨S50000x128, .f32⟩
  | 120 => ⟨S50000x128, .f32⟩
  | 121 => ⟨S_, .i32⟩
  | 122 => ⟨S600000, .i32⟩
  | 123 => ⟨S600000, .i1⟩
  | 124 => ⟨S_, .i32⟩
  | 125 => ⟨S600000, .i32⟩
  | 126 => ⟨S600000, .i32⟩
  | 127 => ⟨S600000, .i32⟩
  | _ => ⟨S50000x128, .f32⟩

abbrev hbmTy0_2 (i : Nat) : BufTy := match i % 128 with
  | 0 => ⟨S600000x1, .i32⟩
  | 1 => ⟨S600000x128, .f32⟩
  | 2 => ⟨S600000x1, .f32⟩
  | 3 => ⟨S600000x128, .f32⟩
  | 4 => ⟨S600000x128, .f32⟩
  | 5 => ⟨S_, .f32⟩
  | 6 => ⟨S50000x128, .f32⟩
  | 7 => ⟨S600000x1, .i32⟩
  | 8 => ⟨S50000x128, .f32⟩
  | 9 => ⟨S50000x1, .f32⟩
  | 10 => ⟨S50000x128, .f32⟩
  | 11 => ⟨S50000x128, .f32⟩
  | 12 => ⟨S50000x128, .f32⟩
  | 13 => ⟨S1x128, .f32⟩
  | 14 => ⟨S128, .f32⟩
  | 15 => ⟨S1x128, .f32⟩
  | 16 => ⟨S1x128, .f32⟩
  | 17 => ⟨S1x128, .f32⟩
  | 18 => ⟨S50000x128, .f32⟩
  | 19 => ⟨S1x128, .f32⟩
  | 20 => ⟨S128, .f32⟩
  | 21 => ⟨S1x128, .f32⟩
  | 22 => ⟨S1x128, .f32⟩
  | 23 => ⟨S1x128, .f32⟩
  | 24 => ⟨S50000x128, .f32⟩
  | 25 => ⟨S1x256x128, .f32⟩
  | 26 => ⟨S256x128, .f32⟩
  | 27 => ⟨S128x128, .f32⟩
  | 28 => ⟨S1x256x128, .f32⟩
  | 29 => ⟨S256x128, .f32⟩
  | 30 => ⟨S128x128, .f32⟩
  | 31 => ⟨S1x128, .f32⟩
  | 32 => ⟨S128, .f32⟩
  | 33 => ⟨S1x128, .f32⟩
  | 34 => ⟨S50000x128, .f32⟩
  | 35 => ⟨S1x64, .f32⟩
  | 36 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S128x128, .f32⟩
  | .local _ .vmem, ⟨66, _⟩ => ⟨S128x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S128x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S128x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S1x128, .f32⟩
  | .local _ .vmem, ⟨83, _⟩ => ⟨S1x128, .f32⟩
  | .local _ .vmem, ⟨84, _⟩ => ⟨S1x128, .f32⟩
  | .local _ .vmem, ⟨85, _⟩ => ⟨S5000x128, .f32⟩
  | .local _ .vmem, ⟨86, _⟩ => ⟨S5000x128, .f32⟩
  | .local _ .vmem, ⟨87, _⟩ => ⟨S5000x128, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S1x128, .f32⟩
  | .local _ .vmem, ⟨92, _⟩ => ⟨S1x128, .f32⟩
  | .local _ .vmem, ⟨93, _⟩ => ⟨S1x128, .f32⟩
  | .local _ .vmem, ⟨94, _⟩ => ⟨S5000x128, .f32⟩
  | .local _ .vmem, ⟨95, _⟩ => ⟨S5000x128, .f32⟩
  | .local _ .vmem, ⟨96, _⟩ => ⟨S5000x128, .f32⟩
  | .local _ .vmem, ⟨97, _⟩ => ⟨S5000x128, .f32⟩
  | .local _ .vmem, ⟨98, _⟩ => ⟨S5000x128, .f32⟩
  | .local _ .vmem, ⟨99, _⟩ => ⟨S5000x128, .f32⟩
  | .local _ .vmem, ⟨100, _⟩ => ⟨S5000x128, .f32⟩
  | .local _ .vmem, ⟨101, _⟩ => ⟨S5000x128, .f32⟩
  | .local _ .vmem, ⟨102, _⟩ => ⟨S128x128, .f32⟩
  | .local _ .vmem, ⟨103, _⟩ => ⟨S128x128, .f32⟩
  | .local _ .vmem, ⟨104, _⟩ => ⟨S1x128, .f32⟩
  | .local _ .vmem, ⟨105, _⟩ => ⟨S5000x128, .f32⟩
  | .local _ .vmem, ⟨106, _⟩ => ⟨S5000x128, .f32⟩
  | .local _ .vmem, ⟨107, _⟩ => ⟨S5000x128, .f32⟩
  | .local _ .vmem, ⟨108, _⟩ => ⟨S5000x128, .f32⟩
  | .local _ .vmem, ⟨109, _⟩ => ⟨S128x64, .f32⟩
  | .local _ .vmem, ⟨110, _⟩ => ⟨S1x64, .f32⟩
  | .local _ .vmem, ⟨111, _⟩ => ⟨S5000x64, .f32⟩
  | .local _ .vmem, ⟨112, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | _, _ => false

abbrev semScoped : Fin 0 → Bool
  | ⟨_, h⟩ => absurd h (Nat.not_lt_zero _)

abbrev dmaSemScoped : Fin 113 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | _ => false

abbrev sig : RefSig :=
  ofTc nBuf bufTy 0 113 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_13 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_17 : Ref sig .tc := ⟨.hbm, 113, rfl⟩
abbrev main_v81 : Ref sig .tc := ⟨.hbm, 114, rfl⟩
abbrev main_v82 : Ref sig .tc := ⟨.hbm, 115, rfl⟩
abbrev main_c_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_c_20 : Ref sig .tc := ⟨.hbm, 161, rfl⟩
abbrev main_v126 : Ref sig .tc := ⟨.hbm, 162, rfl⟩
abbrev main_v127 : Ref sig .tc := ⟨.hbm, 163, rfl⟩
abbrev main_c_21 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_22 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_c_23 : Ref sig .tc := ⟨.hbm, 181, rfl⟩
abbrev main_v143 : Ref sig .tc := ⟨.hbm, 182, rfl⟩
abbrev main_v144 : Ref sig .tc := ⟨.hbm, 183, rfl⟩
abbrev main_c_24 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_25 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_c_26 : Ref sig .tc := ⟨.hbm, 229, rfl⟩
abbrev main_v188 : Ref sig .tc := ⟨.hbm, 230, rfl⟩
abbrev main_v189 : Ref sig .tc := ⟨.hbm, 231, rfl⟩
abbrev main_c_27 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_cst_28 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_c_29 : Ref sig .tc := ⟨.hbm, 249, rfl⟩
abbrev main_v205 : Ref sig .tc := ⟨.hbm, 250, rfl⟩
abbrev main_v206 : Ref sig .tc := ⟨.hbm, 251, rfl⟩
abbrev main_c_30 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_cst_31 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg5_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc7_stg4_0 : Ref sig .tc := ⟨.vmem, 48, rfl⟩
abbrev cc7_stg4_1 : Ref sig .tc := ⟨.vmem, 49, rfl⟩
abbrev cc7_stg5_0 : Ref sig .tc := ⟨.vmem, 50, rfl⟩
abbrev cc7_stg5_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg4_0 : Ref sig .tc := ⟨.vmem, 57, rfl⟩
abbrev cc8_stg4_1 : Ref sig .tc := ⟨.vmem, 58, rfl⟩
abbrev cc8_stg5_0 : Ref sig .tc := ⟨.vmem, 59, rfl⟩
abbrev cc8_stg5_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg1_1 : Ref sig .tc := ⟨.vmem, 64, rfl⟩
abbrev cc9_stg2_0 : Ref sig .tc := ⟨.vmem, 65, rfl⟩
abbrev cc9_stg3_0 : Ref sig .tc := ⟨.vmem, 66, rfl⟩
abbrev cc9_stg4_0 : Ref sig .tc := ⟨.vmem, 67, rfl⟩
abbrev cc9_stg5_0 : Ref sig .tc := ⟨.vmem, 68, rfl⟩
abbrev cc9_stg5_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg2_0 : Ref sig .tc := ⟨.vmem, 73, rfl⟩
abbrev cc10_stg2_1 : Ref sig .tc := ⟨.vmem, 74, rfl⟩
abbrev cc11_stg0_0 : Ref sig .tc := ⟨.vmem, 75, rfl⟩
abbrev cc11_stg0_1 : Ref sig .tc := ⟨.vmem, 76, rfl⟩
abbrev cc11_stg1_0 : Ref sig .tc := ⟨.vmem, 77, rfl⟩
abbrev cc11_stg2_0 : Ref sig .tc := ⟨.vmem, 78, rfl⟩
abbrev cc11_stg2_1 : Ref sig .tc := ⟨.vmem, 79, rfl⟩
abbrev cc12_stg0_0 : Ref sig .tc := ⟨.vmem, 80, rfl⟩
abbrev cc12_stg0_1 : Ref sig .tc := ⟨.vmem, 81, rfl⟩
abbrev cc12_stg1_0 : Ref sig .tc := ⟨.vmem, 82, rfl⟩
abbrev cc12_stg2_0 : Ref sig .tc := ⟨.vmem, 83, rfl⟩
abbrev cc12_stg3_0 : Ref sig .tc := ⟨.vmem, 84, rfl⟩
abbrev cc12_stg4_0 : Ref sig .tc := ⟨.vmem, 85, rfl⟩
abbrev cc12_stg4_1 : Ref sig .tc := ⟨.vmem, 86, rfl⟩
abbrev cc12_stg5_0 : Ref sig .tc := ⟨.vmem, 87, rfl⟩
abbrev cc12_stg5_1 : Ref sig .tc := ⟨.vmem, 88, rfl⟩
abbrev cc13_stg0_0 : Ref sig .tc := ⟨.vmem, 89, rfl⟩
abbrev cc13_stg0_1 : Ref sig .tc := ⟨.vmem, 90, rfl⟩
abbrev cc13_stg1_0 : Ref sig .tc := ⟨.vmem, 91, rfl⟩
abbrev cc13_stg2_0 : Ref sig .tc := ⟨.vmem, 92, rfl⟩
abbrev cc13_stg3_0 : Ref sig .tc := ⟨.vmem, 93, rfl⟩
abbrev cc13_stg4_0 : Ref sig .tc := ⟨.vmem, 94, rfl⟩
abbrev cc13_stg4_1 : Ref sig .tc := ⟨.vmem, 95, rfl⟩
abbrev cc13_stg5_0 : Ref sig .tc := ⟨.vmem, 96, rfl⟩
abbrev cc13_stg5_1 : Ref sig .tc := ⟨.vmem, 97, rfl⟩
abbrev cc14_stg0_0 : Ref sig .tc := ⟨.vmem, 98, rfl⟩
abbrev cc14_stg0_1 : Ref sig .tc := ⟨.vmem, 99, rfl⟩
abbrev cc14_stg1_0 : Ref sig .tc := ⟨.vmem, 100, rfl⟩
abbrev cc14_stg1_1 : Ref sig .tc := ⟨.vmem, 101, rfl⟩
abbrev cc14_stg2_0 : Ref sig .tc := ⟨.vmem, 102, rfl⟩
abbrev cc14_stg3_0 : Ref sig .tc := ⟨.vmem, 103, rfl⟩
abbrev cc14_stg4_0 : Ref sig .tc := ⟨.vmem, 104, rfl⟩
abbrev cc14_stg5_0 : Ref sig .tc := ⟨.vmem, 105, rfl⟩
abbrev cc14_stg5_1 : Ref sig .tc := ⟨.vmem, 106, rfl⟩
abbrev cc15_stg0_0 : Ref sig .tc := ⟨.vmem, 107, rfl⟩
abbrev cc15_stg0_1 : Ref sig .tc := ⟨.vmem, 108, rfl⟩
abbrev cc15_stg1_0 : Ref sig .tc := ⟨.vmem, 109, rfl⟩
abbrev cc15_stg2_0 : Ref sig .tc := ⟨.vmem, 110, rfl⟩
abbrev cc15_stg3_0 : Ref sig .tc := ⟨.vmem, 111, rfl⟩
abbrev cc15_stg3_1 : Ref sig .tc := ⟨.vmem, 112, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem5_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc7_sem4_0 : DmaSem sig := 48
abbrev cc7_sem4_1 : DmaSem sig := 49
abbrev cc7_sem5_0 : DmaSem sig := 50
abbrev cc7_sem5_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem4_0 : DmaSem sig := 57
abbrev cc8_sem4_1 : DmaSem sig := 58
abbrev cc8_sem5_0 : DmaSem sig := 59
abbrev cc8_sem5_1 : DmaSem sig := 60
abbrev cc9_sem0_0 : DmaSem sig := 61
abbrev cc9_sem0_1 : DmaSem sig := 62
abbrev cc9_sem1_0 : DmaSem sig := 63
abbrev cc9_sem1_1 : DmaSem sig := 64
abbrev cc9_sem2_0 : DmaSem sig := 65
abbrev cc9_sem3_0 : DmaSem sig := 66
abbrev cc9_sem4_0 : DmaSem sig := 67
abbrev cc9_sem5_0 : DmaSem sig := 68
abbrev cc9_sem5_1 : DmaSem sig := 69
abbrev cc10_sem0_0 : DmaSem sig := 70
abbrev cc10_sem0_1 : DmaSem sig := 71
abbrev cc10_sem1_0 : DmaSem sig := 72
abbrev cc10_sem2_0 : DmaSem sig := 73
abbrev cc10_sem2_1 : DmaSem sig := 74
abbrev cc11_sem0_0 : DmaSem sig := 75
abbrev cc11_sem0_1 : DmaSem sig := 76
abbrev cc11_sem1_0 : DmaSem sig := 77
abbrev cc11_sem2_0 : DmaSem sig := 78
abbrev cc11_sem2_1 : DmaSem sig := 79
abbrev cc12_sem0_0 : DmaSem sig := 80
abbrev cc12_sem0_1 : DmaSem sig := 81
abbrev cc12_sem1_0 : DmaSem sig := 82
abbrev cc12_sem2_0 : DmaSem sig := 83
abbrev cc12_sem3_0 : DmaSem sig := 84
abbrev cc12_sem4_0 : DmaSem sig := 85
abbrev cc12_sem4_1 : DmaSem sig := 86
abbrev cc12_sem5_0 : DmaSem sig := 87
abbrev cc12_sem5_1 : DmaSem sig := 88
abbrev cc13_sem0_0 : DmaSem sig := 89
abbrev cc13_sem0_1 : DmaSem sig := 90
abbrev cc13_sem1_0 : DmaSem sig := 91
abbrev cc13_sem2_0 : DmaSem sig := 92
abbrev cc13_sem3_0 : DmaSem sig := 93
abbrev cc13_sem4_0 : DmaSem sig := 94
abbrev cc13_sem4_1 : DmaSem sig := 95
abbrev cc13_sem5_0 : DmaSem sig := 96
abbrev cc13_sem5_1 : DmaSem sig := 97
abbrev cc14_sem0_0 : DmaSem sig := 98
abbrev cc14_sem0_1 : DmaSem sig := 99
abbrev cc14_sem1_0 : DmaSem sig := 100
abbrev cc14_sem1_1 : DmaSem sig := 101
abbrev cc14_sem2_0 : DmaSem sig := 102
abbrev cc14_sem3_0 : DmaSem sig := 103
abbrev cc14_sem4_0 : DmaSem sig := 104
abbrev cc14_sem5_0 : DmaSem sig := 105
abbrev cc14_sem5_1 : DmaSem sig := 106
abbrev cc15_sem0_0 : DmaSem sig := 107
abbrev cc15_sem0_1 : DmaSem sig := 108
abbrev cc15_sem1_0 : DmaSem sig := 109
abbrev cc15_sem2_0 : DmaSem sig := 110
abbrev cc15_sem3_0 : DmaSem sig := 111
abbrev cc15_sem3_1 : DmaSem sig := 112

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S5000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S5000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S5000x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S5000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S128x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S128x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S5000x64 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S_S600000 : S_.BroadcastsInDim S600000 (![] : Fin 0 → Fin S600000.rank)
  bcast_S600000_S600000x1_0 : S600000.BroadcastsInDim S600000x1 (![0] : Fin 1 → Fin S600000x1.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S600000x1_S600000x128_0_1 : S600000x1.BroadcastsInDim S600000x128 (![0, 1] : Fin 2 → Fin S600000x128.rank)
  slices_S3x128_S1x128_0_0 : S3x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  slices_S3x256x128_S1x256x128_0_0_0 : S3x256x128.Slices ![0, 0, 0] S1x256x128
  shapeCasts_S1x256x128_S256x128 : S1x256x128.ShapeCasts S256x128
  slices_S256x128_S128x128_0_0 : S256x128.Slices ![0, 0] S128x128
  slices_S256x128_S128x128_128_0 : S256x128.Slices ![128, 0] S128x128
  slices_S3x128x128_S1x128x128_1_0_0 : S3x128x128.Slices ![1, 0, 0] S1x128x128
  slices_S3x128_S1x128_1_0 : S3x128.Slices ![1, 0] S1x128
  slices_S3x256x128_S1x256x128_1_0_0 : S3x256x128.Slices ![1, 0, 0] S1x256x128
  slices_S3x128x128_S1x128x128_2_0_0 : S3x128x128.Slices ![2, 0, 0] S1x128x128
  slices_S3x128_S1x128_2_0 : S3x128.Slices ![2, 0] S1x128
  slices_S3x256x128_S1x256x128_2_0_0 : S3x256x128.Slices ![2, 0, 0] S1x256x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S400000x1_S400000_n_0_0_1_wf : ScatterDims.WF S50000 S400000x1 S400000 [] [0] [0] 1
  scatter_S50000_S600000x1_S600000_n_0_0_1_wf : ScatterDims.WF S50000 S600000x1 S600000 [] [0] [0] 1
  gather_S50000_S400000x1_S400000_n_0_n_n_0_1_1_wf : GatherDims.WF S50000 S400000x1 S400000 [] [0] [] [0] [] 1 ![1]
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S50000x128.size a
  hwx8_4 : ∀ i : grid8.Coords, EltTy.bits .f32 = 32 ∨ (Rect.block (s := S50000x128) S5000x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S50000x128.size a
  hwx10_2 : ∀ i : grid10.Coords, EltTy.bits .f32 = 32 ∨ (Rect.block (s := S50000x128) S5000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x128.size a ≤ S50000x128.size a
  hwx11_2 : ∀ i : grid11.Coords, EltTy.bits .f32 = 32 ∨ (Rect.block (s := S50000x128) S5000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x128.size a ≤ S50000x128.size a
  hwx12_4 : ∀ i : grid12.Coords, EltTy.bits .f32 = 32 ∨ (Rect.block (s := S50000x128) S5000x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x128.size a ≤ S50000x128.size a
  hwx12_5 : ∀ i : grid12.Coords, EltTy.bits .f32 = 32 ∨ (Rect.block (s := S50000x128) S5000x128.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x128.size a ≤ S50000x128.size a
  hwx13_4 : ∀ i : grid13.Coords, EltTy.bits .f32 = 32 ∨ (Rect.block (s := S50000x128) S5000x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x128.size a ≤ S50000x128.size a
  hwx13_5 : ∀ i : grid13.Coords, EltTy.bits .f32 = 32 ∨ (Rect.block (s := S50000x128) S5000x128.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x128.size a ≤ S50000x128.size a
  hwx14_1 : ∀ i : grid14.Coords, EltTy.bits .f32 = 32 ∨ (Rect.block (s := S50000x128) S5000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S128x128.size a ≤ S128x128.size a
  hwx14_2 : ∀ i : grid14.Coords, EltTy.bits .f32 = 32 ∨ (Rect.block (s := S128x128) S128x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S128x128.size a ≤ S128x128.size a
  hwx14_3 : ∀ i : grid14.Coords, EltTy.bits .f32 = 32 ∨ (Rect.block (s := S128x128) S128x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x128.size a ≤ S50000x128.size a
  hwx14_5 : ∀ i : grid14.Coords, EltTy.bits .f32 = 32 ∨ (Rect.block (s := S50000x128) S5000x128.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x64.size a ≤ S128x64.size a
  hwx15_1 : ∀ i : grid15.Coords, EltTy.bits .f32 = 32 ∨ (Rect.block (s := S128x64) S128x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x64.size a ≤ S1x64.size a
  hwx15_2 : ∀ i : grid15.Coords, EltTy.bits .f32 = 32 ∨ (Rect.block (s := S1x64) S1x64.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S5000x64.size a ≤ S50000x64.size a
  hwx15_3 : ∀ i : grid15.Coords, EltTy.bits .f32 = 32 ∨ (Rect.block (s := S50000x64) S5000x64.size (cc15_transform_3 i) (hinb15_3 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v60) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v80) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v100) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v101) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v102) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v103) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v97) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v106) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v107) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v108) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v109) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v109) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v103) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v112) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v115) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v118) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v119) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v119) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v121) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v122) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v119) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v124) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v125) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v142) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v162) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v163) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v164) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v119) S5000x128.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v165) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v159) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v168) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v169) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v170) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v119) S5000x128.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v171) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v171) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v165) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v174) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v177) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v180) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v181) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v181) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v183) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v184) S5000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v181) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v186) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v187) S5000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v204) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v224) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v225) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v226) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v181) S5000x128.size cc12_transform_4 reads12_4 false false 2 stage12_4 sem12_4
    hrank12 hreads12_4 hinb12_4 nbuf12_4 (Memref.isWhole_whole _) hwx12_4 hstage12_4

abbrev win12_5 : Pipeline.Window sig grid12 :=
  Pipeline.Window.ofSpec (Memref.whole main_v227) S5000x128.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v221) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v230) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v231) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v232) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v181) S5000x128.size cc13_transform_4 reads13_4 false false 2 stage13_4 sem13_4
    hrank13 hreads13_4 hinb13_4 nbuf13_4 (Memref.isWhole_whole _) hwx13_4 hstage13_4

abbrev win13_5 : Pipeline.Window sig grid13 :=
  Pipeline.Window.ofSpec (Memref.whole main_v233) S5000x128.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v233) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v227) S5000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v236) S128x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v239) S128x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v242) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v243) S5000x128.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v243) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg9) S128x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v244) S1x64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v245) S5000x64.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S3x256x128 : Shape := ⟨3, ![3, 256, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S2x400000 : Shape := ⟨2, ![2, 400000]⟩
abbrev S1x600000 : Shape := ⟨2, ![1, 600000]⟩
abbrev S600000 : Shape := ⟨1, ![600000]⟩
abbrev S1x400000 : Shape := ⟨2, ![1, 400000]⟩
abbrev S400000 : Shape := ⟨1, ![400000]⟩
abbrev S1x128x128 : Shape := ⟨3, ![1, 128, 128]⟩
abbrev S128x128 : Shape := ⟨2, ![128, 128]⟩
abbrev S1x128 : Shape := ⟨2, ![1, 128]⟩
abbrev S_ : Shape := ⟨0, ![]⟩
abbrev S50000 : Shape := ⟨1, ![50000]⟩
abbrev S400000x1 : Shape := ⟨2, ![400000, 1]⟩
abbrev S400000x128 : Shape := ⟨2, ![400000, 128]⟩
abbrev S50000x1 : Shape := ⟨2, ![50000, 1]⟩
abbrev S600000x1 : Shape := ⟨2, ![600000, 1]⟩
abbrev S600000x128 : Shape := ⟨2, ![600000, 128]⟩
abbrev S50000x256 : Shape := ⟨2, ![50000, 256]⟩
abbrev S1x256x128 : Shape := ⟨3, ![1, 256, 128]⟩
abbrev S256x128 : Shape := ⟨2, ![256, 128]⟩
abbrev S50000x64 : Shape := ⟨2, ![50000, 64]⟩
abbrev S1x64 : Shape := ⟨2, ![1, 64]⟩

abbrev nBuf : Space → Nat
  | .hbm => 602
  | .vmem => 0
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S3x128x128, .f32⟩
  | 4 => ⟨S3x128, .f32⟩
  | 5 => ⟨S3x256x128, .f32⟩
  | 6 => ⟨S3x128, .f32⟩
  | 7 => ⟨S128, .f32⟩
  | 8 => ⟨S128, .f32⟩
  | 9 => ⟨S128x64, .f32⟩
  | 10 => ⟨S64, .f32⟩
  | 11 => ⟨S2x600000, .i32⟩
  | 12 => ⟨S2x400000, .i32⟩
  | 13 => ⟨S1x600000, .i32⟩
  | 14 => ⟨S600000, .i32⟩
  | 15 => ⟨S1x600000, .i32⟩
  | 16 => ⟨S600000, .i32⟩
  | 17 => ⟨S1x400000, .i32⟩
  | 18 => ⟨S400000, .i32⟩
  | 19 => ⟨S1x400000, .i32⟩
  | 20 => ⟨S400000, .i32⟩
  | 21 => ⟨S1x128x128, .f32⟩
  | 22 => ⟨S128x128, .f32⟩
  | 23 => ⟨S1x128, .f32⟩
  | 24 => ⟨S128, .f32⟩
  | 25 => ⟨S50000x128, .f32⟩
  | 26 => ⟨S_, .f32⟩
  | 27 => ⟨S400000, .f32⟩
  | 28 => ⟨S_, .f32⟩
  | 29 => ⟨S50000, .f32⟩
  | 30 => ⟨S400000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000, .f32⟩
  | 54 => ⟨S400000, .f32⟩
  | 55 => ⟨S_, .i32⟩
  | 56 => ⟨S400000, .i32⟩
  | 57 => ⟨S400000, .i1⟩
  | 58 => ⟨S_, .i32⟩
  | 59 => ⟨S400000, .i32⟩
  | 60 => ⟨S400000, .i32⟩
  | 61 => ⟨S400000, .i32⟩
  | 62 => ⟨S400000x1, .i32⟩
  | 63 => ⟨S400000x128, .f32⟩
  | 64 => ⟨S400000x1, .f32⟩
  | 65 => ⟨S400000x128, .f32⟩
  | 66 => ⟨S400000x128, .f32⟩
  | 67 => ⟨S_, .f32⟩
  | 68 => ⟨S50000x128, .f32⟩
  | 69 => ⟨S400000x1, .i32⟩
  | 70 => ⟨S50000x128, .f32⟩
  | 71 => ⟨S_, .f32⟩
  | 72 => ⟨S50000, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000, .f32⟩
  | 84 => ⟨S50000x1, .f32⟩
  | 85 => ⟨S_, .f32⟩
  | 86 => ⟨S50000x1, .f32⟩
  | 87 => ⟨S50000x1, .f32⟩
  | 88 => ⟨S50000x128, .f32⟩
  | 89 => ⟨S50000x128, .f32⟩
  | 90 => ⟨S50000x128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S_, .f32⟩
  | 98 => ⟨S50000x1, .f32⟩
  | 99 => ⟨S50000x1, .f32⟩
  | 100 => ⟨S50000x1, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S1x128x128, .f32⟩
  | 113 => ⟨S128x128, .f32⟩
  | 114 => ⟨S1x128, .f32⟩
  | 115 => ⟨S128, .f32⟩
  | 116 => ⟨S50000x128, .f32⟩
  | 117 => ⟨S_, .f32⟩
  | 118 => ⟨S600000, .f32⟩
  | 119 => ⟨S_, .f32⟩
  | 120 => ⟨S50000, .f32⟩
  | 121 => ⟨S600000x1, .i32⟩
  | 122 => ⟨S50000, .f32⟩
  | 123 => ⟨S_, .f32⟩
  | 124 => ⟨S50000, .f32⟩
  | 125 => ⟨S50000, .f32⟩
  | 126 => ⟨S50000, .f32⟩
  | 127 => ⟨S_, .i32⟩
  | _ => ⟨S50000x128, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000, .f32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S600000, .f32⟩
  | 17 => ⟨S600000, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S600000x1, .f32⟩
  | 28 => ⟨S600000x128, .f32⟩
  | 29 => ⟨S600000x128, .f32⟩
  | 30 => ⟨S_, .f32⟩
  | 31 => ⟨S50000x128, .f32⟩
  | 32 => ⟨S600000x1, .i32⟩
  | 33 => ⟨S50000x128, .f32⟩
  | 34 => ⟨S_, .f32⟩
  | 35 => ⟨S50000, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000, .f32⟩
  | 47 => ⟨S50000x1, .f32⟩
  | 48 => ⟨S_, .f32⟩
  | 49 => ⟨S50000x1, .f32⟩
  | 50 => ⟨S50000x1, .f32⟩
  | 51 => ⟨S50000x128, .f32⟩
  | 52 => ⟨S50000x128, .f32⟩
  | 53 => ⟨S50000x128, .f32⟩
  | 54 => ⟨S_, .f32⟩
  | 55 => ⟨S50000, .f32⟩
  | 56 => ⟨S50000x1, .f32⟩
  | 57 => ⟨S_, .f32⟩
  | 58 => ⟨S50000x1, .f32⟩
  | 59 => ⟨S50000x1, .f32⟩
  | 60 => ⟨S_, .f32⟩
  | 61 => ⟨S50000x1, .f32⟩
  | 62 => ⟨S50000x1, .f32⟩
  | 63 => ⟨S50000x1, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x256, .f32⟩
  | 76 => ⟨S1x256x128, .f32⟩
  | 77 => ⟨S256x128, .f32⟩
  | 78 => ⟨S50000x128, .f32⟩
  | 79 => ⟨S1x128, .f32⟩
  | 80 => ⟨S128, .f32⟩
  | 81 => ⟨S1x128, .f32⟩
  | 82 => ⟨S50000x128, .f32⟩
  | 83 => ⟨S50000x128, .f32⟩
  | 84 => ⟨S1x128x128, .f32⟩
  | 85 => ⟨S128x128, .f32⟩
  | 86 => ⟨S1x128, .f32⟩
  | 87 => ⟨S128, .f32⟩
  | 88 => ⟨S50000x128, .f32⟩
  | 89 => ⟨S_, .f32⟩
  | 90 => ⟨S400000, .f32⟩
  | 91 => ⟨S_, .f32⟩
  | 92 => ⟨S50000, .f32⟩
  | 93 => ⟨S400000x1, .i32⟩
  | 94 => ⟨S50000, .f32⟩
  | 95 => ⟨S_, .f32⟩
  | 96 => ⟨S50000, .f32⟩
  | 97 => ⟨S50000, .f32⟩
  | 98 => ⟨S50000, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000, .f32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000, .f32⟩
  | 117 => ⟨S400000, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S400000x128, .f32⟩
  | 127 => ⟨S400000x1, .f32⟩
  | _ => ⟨S50000x128, .f32⟩

abbrev hbmTy0_2 (i : Nat) : BufTy := match i % 128 with
  | 0 => ⟨S400000x128, .f32⟩
  | 1 => ⟨S400000x128, .f32⟩
  | 2 => ⟨S_, .f32⟩
  | 3 => ⟨S50000x128, .f32⟩
  | 4 => ⟨S400000x1, .i32⟩
  | 5 => ⟨S50000x128, .f32⟩
  | 6 => ⟨S_, .f32⟩
  | 7 => ⟨S50000, .f32⟩
  | 8 => ⟨S50000, .f32⟩
  | 9 => ⟨S50000, .f32⟩
  | 10 => ⟨S50000x1, .f32⟩
  | 11 => ⟨S50000x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000, .f32⟩
  | 19 => ⟨S50000x1, .f32⟩
  | 20 => ⟨S_, .f32⟩
  | 21 => ⟨S50000x1, .f32⟩
  | 22 => ⟨S50000x1, .f32⟩
  | 23 => ⟨S50000x128, .f32⟩
  | 24 => ⟨S50000x128, .f32⟩
  | 25 => ⟨S50000x128, .f32⟩
  | 26 => ⟨S_, .f32⟩
  | 27 => ⟨S50000, .f32⟩
  | 28 => ⟨S50000x1, .f32⟩
  | 29 => ⟨S_, .f32⟩
  | 30 => ⟨S50000x1, .f32⟩
  | 31 => ⟨S50000x1, .f32⟩
  | 32 => ⟨S_, .f32⟩
  | 33 => ⟨S50000x1, .f32⟩
  | 34 => ⟨S50000x1, .f32⟩
  | 35 => ⟨S50000x1, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S1x128x128, .f32⟩
  | 48 => ⟨S128x128, .f32⟩
  | 49 => ⟨S1x128, .f32⟩
  | 50 => ⟨S128, .f32⟩
  | 51 => ⟨S50000x128, .f32⟩
  | 52 => ⟨S_, .f32⟩
  | 53 => ⟨S600000, .f32⟩
  | 54 => ⟨S_, .f32⟩
  | 55 => ⟨S50000, .f32⟩
  | 56 => ⟨S600000x1, .i32⟩
  | 57 => ⟨S50000, .f32⟩
  | 58 => ⟨S_, .f32⟩
  | 59 => ⟨S50000, .f32⟩
  | 60 => ⟨S50000, .f32⟩
  | 61 => ⟨S50000, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000, .f32⟩
  | 80 => ⟨S600000, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x128, .f32⟩
  | 90 => ⟨S600000x1, .f32⟩
  | 91 => ⟨S600000x128, .f32⟩
  | 92 => ⟨S600000x128, .f32⟩
  | 93 => ⟨S_, .f32⟩
  | 94 => ⟨S50000x128, .f32⟩
  | 95 => ⟨S600000x1, .i32⟩
  | 96 => ⟨S50000x128, .f32⟩
  | 97 => ⟨S_, .f32⟩
  | 98 => ⟨S50000, .f32⟩
  | 99 => ⟨S50000, .f32⟩
  | 100 => ⟨S50000, .f32⟩
  | 101 => ⟨S50000x1, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000, .f32⟩
  | 110 => ⟨S50000x1, .f32⟩
  | 111 => ⟨S_, .f32⟩
  | 112 => ⟨S50000x1, .f32⟩
  | 113 => ⟨S50000x1, .f32⟩
  | 114 => ⟨S50000x128, .f32⟩
  | 115 => ⟨S50000x128, .f32⟩
  | 116 => ⟨S50000x128, .f32⟩
  | 117 => ⟨S_, .f32⟩
  | 118 => ⟨S50000, .f32⟩
  | 119 => ⟨S50000x1, .f32⟩
  | 120 => ⟨S_, .f32⟩
  | 121 => ⟨S50000x1, .f32⟩
  | 122 => ⟨S50000x1, .f32⟩
  | 123 => ⟨S_, .f32⟩
  | 124 => ⟨S50000x1, .f32⟩
  | 125 => ⟨S50000x1, .f32⟩
  | 126 => ⟨S50000x1, .f32⟩
  | 127 => ⟨S50000x128, .f32⟩
  | _ => ⟨S50000x128, .f32⟩

abbrev hbmTy0_3 (i : Nat) : BufTy := match i % 128 with
  | 0 => ⟨S50000x128, .f32⟩
  | 1 => ⟨S1x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S50000x128, .f32⟩
  | 11 => ⟨S50000x128, .f32⟩
  | 12 => ⟨S50000x256, .f32⟩
  | 13 => ⟨S1x256x128, .f32⟩
  | 14 => ⟨S256x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S1x128x128, .f32⟩
  | 22 => ⟨S128x128, .f32⟩
  | 23 => ⟨S1x128, .f32⟩
  | 24 => ⟨S128, .f32⟩
  | 25 => ⟨S50000x128, .f32⟩
  | 26 => ⟨S_, .f32⟩
  | 27 => ⟨S400000, .f32⟩
  | 28 => ⟨S_, .f32⟩
  | 29 => ⟨S50000, .f32⟩
  | 30 => ⟨S400000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000, .f32⟩
  | 54 => ⟨S400000, .f32⟩
  | 55 => ⟨S_, .i32⟩
  | 56 => ⟨S400000, .i32⟩
  | 57 => ⟨S400000, .i1⟩
  | 58 => ⟨S_, .i32⟩
  | 59 => ⟨S400000, .i32⟩
  | 60 => ⟨S400000, .i32⟩
  | 61 => ⟨S400000, .i32⟩
  | 62 => ⟨S400000x1, .i32⟩
  | 63 => ⟨S400000x128, .f32⟩
  | 64 => ⟨S400000x1, .f32⟩
  | 65 => ⟨S400000x128, .f32⟩
  | 66 => ⟨S400000x128, .f32⟩
  | 67 => ⟨S_, .f32⟩
  | 68 => ⟨S50000x128, .f32⟩
  | 69 => ⟨S400000x1, .i32⟩
  | 70 => ⟨S50000x128, .f32⟩
  | 71 => ⟨S_, .f32⟩
  | 72 => ⟨S50000, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000, .f32⟩
  | 84 => ⟨S50000x1, .f32⟩
  | 85 => ⟨S_, .f32⟩
  | 86 => ⟨S50000x1, .f32⟩
  | 87 => ⟨S50000x1, .f32⟩
  | 88 => ⟨S50000x128, .f32⟩
  | 89 => ⟨S50000x128, .f32⟩
  | 90 => ⟨S50000x128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S_, .f32⟩
  | 98 => ⟨S50000x1, .f32⟩
  | 99 => ⟨S50000x1, .f32⟩
  | 100 => ⟨S50000x1, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S1x128x128, .f32⟩
  | 113 => ⟨S128x128, .f32⟩
  | 114 => ⟨S1x128, .f32⟩
  | 115 => ⟨S128, .f32⟩
  | 116 => ⟨S50000x128, .f32⟩
  | 117 => ⟨S_, .f32⟩
  | 118 => ⟨S600000, .f32⟩
  | 119 => ⟨S_, .f32⟩
  | 120 => ⟨S50000, .f32⟩
  | 121 => ⟨S600000x1, .i32⟩
  | 122 => ⟨S50000, .f32⟩
  | 123 => ⟨S_, .f32⟩
  | 124 => ⟨S50000, .f32⟩
  | 125 => ⟨S50000, .f32⟩
  | 126 => ⟨S50000, .f32⟩
  | 127 => ⟨S_, .i32⟩
  | _ => ⟨S50000x128, .f32⟩

abbrev hbmTy0_4 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000, .f32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S600000, .f32⟩
  | 17 => ⟨S600000, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S600000x1, .f32⟩
  | 28 => ⟨S600000x128, .f32⟩
  | 29 => ⟨S600000x128, .f32⟩
  | 30 => ⟨S_, .f32⟩
  | 31 => ⟨S50000x128, .f32⟩
  | 32 => ⟨S600000x1, .i32⟩
  | 33 => ⟨S50000x128, .f32⟩
  | 34 => ⟨S_, .f32⟩
  | 35 => ⟨S50000, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000, .f32⟩
  | 47 => ⟨S50000x1, .f32⟩
  | 48 => ⟨S_, .f32⟩
  | 49 => ⟨S50000x1, .f32⟩
  | 50 => ⟨S50000x1, .f32⟩
  | 51 => ⟨S50000x128, .f32⟩
  | 52 => ⟨S50000x128, .f32⟩
  | 53 => ⟨S50000x128, .f32⟩
  | 54 => ⟨S_, .f32⟩
  | 55 => ⟨S50000, .f32⟩
  | 56 => ⟨S50000x1, .f32⟩
  | 57 => ⟨S_, .f32⟩
  | 58 => ⟨S50000x1, .f32⟩
  | 59 => ⟨S50000x1, .f32⟩
  | 60 => ⟨S_, .f32⟩
  | 61 => ⟨S50000x1, .f32⟩
  | 62 => ⟨S50000x1, .f32⟩
  | 63 => ⟨S50000x1, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S50000x128, .f32⟩
  | 77 => ⟨S50000x256, .f32⟩
  | 78 => ⟨S1x256x128, .f32⟩
  | 79 => ⟨S256x128, .f32⟩
  | 80 => ⟨S50000x128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S50000x64, .f32⟩
  | 87 => ⟨S1x64, .f32⟩
  | 88 => ⟨S50000x64, .f32⟩
  | 89 => ⟨S50000x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_call0_cst : Ref sig .tc := ⟨.hbm, 109, rfl⟩
abbrev main_call0_v0 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_14 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_17 : Ref sig .tc := ⟨.hbm, 127, rfl⟩
abbrev main_v93 : Ref sig .tc := ⟨.hbm, 128, rfl⟩
abbrev main_v94 : Ref sig .tc := ⟨.hbm, 129, rfl⟩
abbrev main_c_18 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_19 : Ref sig .tc := ⟨.hbm, 136, rfl⟩
abbrev main_v100 : Ref sig .tc := ⟨.hbm, 137, rfl⟩
abbrev main_v101 : Ref sig .tc := ⟨.hbm, 138, rfl⟩
abbrev main_c_20 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_21 : Ref sig .tc := ⟨.hbm, 146, rfl⟩
abbrev main_v108 : Ref sig .tc := ⟨.hbm, 147, rfl⟩
abbrev main_v109 : Ref sig .tc := ⟨.hbm, 148, rfl⟩
abbrev main_c_22 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_23 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_24 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_25 : Ref sig .tc := ⟨.hbm, 173, rfl⟩
abbrev main_v131 : Ref sig .tc := ⟨.hbm, 174, rfl⟩
abbrev main_v132 : Ref sig .tc := ⟨.hbm, 175, rfl⟩
abbrev main_cst_26 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_27 : Ref sig .tc := ⟨.hbm, 182, rfl⟩
abbrev main_v138 : Ref sig .tc := ⟨.hbm, 183, rfl⟩
abbrev main_v139 : Ref sig .tc := ⟨.hbm, 184, rfl⟩
abbrev main_cst_28 : Ref sig .tc := ⟨.hbm, 185, rfl⟩
abbrev main_v140 : Ref sig .tc := ⟨.hbm, 186, rfl⟩
abbrev main_v141 : Ref sig .tc := ⟨.hbm, 187, rfl⟩
abbrev main_cst_29 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_call1_cst : Ref sig .tc := ⟨.hbm, 200, rfl⟩
abbrev main_call1_v0 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_cst_30 : Ref sig .tc := ⟨.hbm, 217, rfl⟩
abbrev main_v168 : Ref sig .tc := ⟨.hbm, 218, rfl⟩
abbrev main_cst_31 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_cst_32 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_c_33 : Ref sig .tc := ⟨.hbm, 227, rfl⟩
abbrev main_v175 : Ref sig .tc := ⟨.hbm, 228, rfl⟩
abbrev main_v176 : Ref sig .tc := ⟨.hbm, 229, rfl⟩
abbrev main_c_34 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_c_35 : Ref sig .tc := ⟨.hbm, 236, rfl⟩
abbrev main_v182 : Ref sig .tc := ⟨.hbm, 237, rfl⟩
abbrev main_v183 : Ref sig .tc := ⟨.hbm, 238, rfl⟩
abbrev main_c_36 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_c_37 : Ref sig .tc := ⟨.hbm, 246, rfl⟩
abbrev main_v190 : Ref sig .tc := ⟨.hbm, 247, rfl⟩
abbrev main_v191 : Ref sig .tc := ⟨.hbm, 248, rfl⟩
abbrev main_c_38 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_cst_39 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_cst_40 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_cst_41 : Ref sig .tc := ⟨.hbm, 273, rfl⟩
abbrev main_v213 : Ref sig .tc := ⟨.hbm, 274, rfl⟩
abbrev main_v214 : Ref sig .tc := ⟨.hbm, 275, rfl⟩
abbrev main_cst_42 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_cst_43 : Ref sig .tc := ⟨.hbm, 282, rfl⟩
abbrev main_v220 : Ref sig .tc := ⟨.hbm, 283, rfl⟩
abbrev main_v221 : Ref sig .tc := ⟨.hbm, 284, rfl⟩
abbrev main_cst_44 : Ref sig .tc := ⟨.hbm, 285, rfl⟩
abbrev main_v222 : Ref sig .tc := ⟨.hbm, 286, rfl⟩
abbrev main_v223 : Ref sig .tc := ⟨.hbm, 287, rfl⟩
abbrev main_cst_45 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_call2_cst : Ref sig .tc := ⟨.hbm, 300, rfl⟩
abbrev main_call2_v0 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_cst_46 : Ref sig .tc := ⟨.hbm, 308, rfl⟩
abbrev main_v241 : Ref sig .tc := ⟨.hbm, 309, rfl⟩
abbrev main_cst_47 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_cst_48 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_c_49 : Ref sig .tc := ⟨.hbm, 318, rfl⟩
abbrev main_v248 : Ref sig .tc := ⟨.hbm, 319, rfl⟩
abbrev main_v249 : Ref sig .tc := ⟨.hbm, 320, rfl⟩
abbrev main_c_50 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_c_51 : Ref sig .tc := ⟨.hbm, 327, rfl⟩
abbrev main_v255 : Ref sig .tc := ⟨.hbm, 328, rfl⟩
abbrev main_v256 : Ref sig .tc := ⟨.hbm, 329, rfl⟩
abbrev main_c_52 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_c_53 : Ref sig .tc := ⟨.hbm, 337, rfl⟩
abbrev main_v263 : Ref sig .tc := ⟨.hbm, 338, rfl⟩
abbrev main_v264 : Ref sig .tc := ⟨.hbm, 339, rfl⟩
abbrev main_c_54 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_cst_55 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_cst_56 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_v285 : Ref sig .tc := ⟨.hbm, 363, rfl⟩
abbrev main_cst_57 : Ref sig .tc := ⟨.hbm, 364, rfl⟩
abbrev main_v286 : Ref sig .tc := ⟨.hbm, 365, rfl⟩
abbrev main_v287 : Ref sig .tc := ⟨.hbm, 366, rfl⟩
abbrev main_cst_58 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_cst_59 : Ref sig .tc := ⟨.hbm, 373, rfl⟩
abbrev main_v293 : Ref sig .tc := ⟨.hbm, 374, rfl⟩
abbrev main_v294 : Ref sig .tc := ⟨.hbm, 375, rfl⟩
abbrev main_cst_60 : Ref sig .tc := ⟨.hbm, 376, rfl⟩
abbrev main_v295 : Ref sig .tc := ⟨.hbm, 377, rfl⟩
abbrev main_v296 : Ref sig .tc := ⟨.hbm, 378, rfl⟩
abbrev main_cst_61 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_v300 : Ref sig .tc := ⟨.hbm, 383, rfl⟩
abbrev main_v301 : Ref sig .tc := ⟨.hbm, 384, rfl⟩
abbrev main_v302 : Ref sig .tc := ⟨.hbm, 385, rfl⟩
abbrev main_v303 : Ref sig .tc := ⟨.hbm, 386, rfl⟩
abbrev main_v304 : Ref sig .tc := ⟨.hbm, 387, rfl⟩
abbrev main_v305 : Ref sig .tc := ⟨.hbm, 388, rfl⟩
abbrev main_v306 : Ref sig .tc := ⟨.hbm, 389, rfl⟩
abbrev main_v307 : Ref sig .tc := ⟨.hbm, 390, rfl⟩
abbrev main_call3_cst : Ref sig .tc := ⟨.hbm, 391, rfl⟩
abbrev main_call3_v0 : Ref sig .tc := ⟨.hbm, 392, rfl⟩
abbrev main_v308 : Ref sig .tc := ⟨.hbm, 393, rfl⟩
abbrev main_v309 : Ref sig .tc := ⟨.hbm, 394, rfl⟩
abbrev main_v310 : Ref sig .tc := ⟨.hbm, 395, rfl⟩
abbrev main_v311 : Ref sig .tc := ⟨.hbm, 396, rfl⟩
abbrev main_v312 : Ref sig .tc := ⟨.hbm, 397, rfl⟩
abbrev main_v313 : Ref sig .tc := ⟨.hbm, 398, rfl⟩
abbrev main_v314 : Ref sig .tc := ⟨.hbm, 399, rfl⟩
abbrev main_v315 : Ref sig .tc := ⟨.hbm, 400, rfl⟩
abbrev main_v316 : Ref sig .tc := ⟨.hbm, 401, rfl⟩
abbrev main_v317 : Ref sig .tc := ⟨.hbm, 402, rfl⟩
abbrev main_v318 : Ref sig .tc := ⟨.hbm, 403, rfl⟩
abbrev main_v319 : Ref sig .tc := ⟨.hbm, 404, rfl⟩
abbrev main_v320 : Ref sig .tc := ⟨.hbm, 405, rfl⟩
abbrev main_v321 : Ref sig .tc := ⟨.hbm, 406, rfl⟩
abbrev main_v322 : Ref sig .tc := ⟨.hbm, 407, rfl⟩
abbrev main_v323 : Ref sig .tc := ⟨.hbm, 408, rfl⟩
abbrev main_v324 : Ref sig .tc := ⟨.hbm, 409, rfl⟩
abbrev main_cst_62 : Ref sig .tc := ⟨.hbm, 410, rfl⟩
abbrev main_v325 : Ref sig .tc := ⟨.hbm, 411, rfl⟩
abbrev main_cst_63 : Ref sig .tc := ⟨.hbm, 412, rfl⟩
abbrev main_v326 : Ref sig .tc := ⟨.hbm, 413, rfl⟩
abbrev main_v327 : Ref sig .tc := ⟨.hbm, 414, rfl⟩
abbrev main_v328 : Ref sig .tc := ⟨.hbm, 415, rfl⟩
abbrev main_cst_64 : Ref sig .tc := ⟨.hbm, 416, rfl⟩
abbrev main_v329 : Ref sig .tc := ⟨.hbm, 417, rfl⟩
abbrev main_v330 : Ref sig .tc := ⟨.hbm, 418, rfl⟩
abbrev main_v331 : Ref sig .tc := ⟨.hbm, 419, rfl⟩
abbrev main_c_65 : Ref sig .tc := ⟨.hbm, 420, rfl⟩
abbrev main_v332 : Ref sig .tc := ⟨.hbm, 421, rfl⟩
abbrev main_v333 : Ref sig .tc := ⟨.hbm, 422, rfl⟩
abbrev main_c_66 : Ref sig .tc := ⟨.hbm, 423, rfl⟩
abbrev main_v334 : Ref sig .tc := ⟨.hbm, 424, rfl⟩
abbrev main_v335 : Ref sig .tc := ⟨.hbm, 425, rfl⟩
abbrev main_v336 : Ref sig .tc := ⟨.hbm, 426, rfl⟩
abbrev main_v337 : Ref sig .tc := ⟨.hbm, 427, rfl⟩
abbrev main_v338 : Ref sig .tc := ⟨.hbm, 428, rfl⟩
abbrev main_c_67 : Ref sig .tc := ⟨.hbm, 429, rfl⟩
abbrev main_v339 : Ref sig .tc := ⟨.hbm, 430, rfl⟩
abbrev main_v340 : Ref sig .tc := ⟨.hbm, 431, rfl⟩
abbrev main_c_68 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_v345 : Ref sig .tc := ⟨.hbm, 437, rfl⟩
abbrev main_v346 : Ref sig .tc := ⟨.hbm, 438, rfl⟩
abbrev main_c_69 : Ref sig .tc := ⟨.hbm, 439, rfl⟩
abbrev main_v347 : Ref sig .tc := ⟨.hbm, 440, rfl⟩
abbrev main_v348 : Ref sig .tc := ⟨.hbm, 441, rfl⟩
abbrev main_c_70 : Ref sig .tc := ⟨.hbm, 442, rfl⟩
abbrev main_v349 : Ref sig .tc := ⟨.hbm, 443, rfl⟩
abbrev main_v350 : Ref sig .tc := ⟨.hbm, 444, rfl⟩
abbrev main_v351 : Ref sig .tc := ⟨.hbm, 445, rfl⟩
abbrev main_v352 : Ref sig .tc := ⟨.hbm, 446, rfl⟩
abbrev main_v353 : Ref sig .tc := ⟨.hbm, 447, rfl⟩
abbrev main_v354 : Ref sig .tc := ⟨.hbm, 448, rfl⟩
abbrev main_v355 : Ref sig .tc := ⟨.hbm, 449, rfl⟩
abbrev main_v356 : Ref sig .tc := ⟨.hbm, 450, rfl⟩
abbrev main_cst_71 : Ref sig .tc := ⟨.hbm, 451, rfl⟩
abbrev main_v357 : Ref sig .tc := ⟨.hbm, 452, rfl⟩
abbrev main_v358 : Ref sig .tc := ⟨.hbm, 453, rfl⟩
abbrev main_v359 : Ref sig .tc := ⟨.hbm, 454, rfl⟩
abbrev main_cst_72 : Ref sig .tc := ⟨.hbm, 455, rfl⟩
abbrev main_v360 : Ref sig .tc := ⟨.hbm, 456, rfl⟩
abbrev main_v361 : Ref sig .tc := ⟨.hbm, 457, rfl⟩
abbrev main_v362 : Ref sig .tc := ⟨.hbm, 458, rfl⟩
abbrev main_v363 : Ref sig .tc := ⟨.hbm, 459, rfl⟩
abbrev main_v364 : Ref sig .tc := ⟨.hbm, 460, rfl⟩
abbrev main_v365 : Ref sig .tc := ⟨.hbm, 461, rfl⟩
abbrev main_v366 : Ref sig .tc := ⟨.hbm, 462, rfl⟩
abbrev main_v367 : Ref sig .tc := ⟨.hbm, 463, rfl⟩
abbrev main_v368 : Ref sig .tc := ⟨.hbm, 464, rfl⟩
abbrev main_v369 : Ref sig .tc := ⟨.hbm, 465, rfl⟩
abbrev main_cst_73 : Ref sig .tc := ⟨.hbm, 466, rfl⟩
abbrev main_v370 : Ref sig .tc := ⟨.hbm, 467, rfl⟩
abbrev main_v371 : Ref sig .tc := ⟨.hbm, 468, rfl⟩
abbrev main_cst_74 : Ref sig .tc := ⟨.hbm, 469, rfl⟩
abbrev main_v372 : Ref sig .tc := ⟨.hbm, 470, rfl⟩
abbrev main_v373 : Ref sig .tc := ⟨.hbm, 471, rfl⟩
abbrev main_v374 : Ref sig .tc := ⟨.hbm, 472, rfl⟩
abbrev main_v375 : Ref sig .tc := ⟨.hbm, 473, rfl⟩
abbrev main_v376 : Ref sig .tc := ⟨.hbm, 474, rfl⟩
abbrev main_cst_75 : Ref sig .tc := ⟨.hbm, 475, rfl⟩
abbrev main_v377 : Ref sig .tc := ⟨.hbm, 476, rfl⟩
abbrev main_v378 : Ref sig .tc := ⟨.hbm, 477, rfl⟩
abbrev main_cst_76 : Ref sig .tc := ⟨.hbm, 478, rfl⟩
abbrev main_v379 : Ref sig .tc := ⟨.hbm, 479, rfl⟩
abbrev main_v380 : Ref sig .tc := ⟨.hbm, 480, rfl⟩
abbrev main_cst_77 : Ref sig .tc := ⟨.hbm, 481, rfl⟩
abbrev main_v381 : Ref sig .tc := ⟨.hbm, 482, rfl⟩
abbrev main_v382 : Ref sig .tc := ⟨.hbm, 483, rfl⟩
abbrev main_v383 : Ref sig .tc := ⟨.hbm, 484, rfl⟩
abbrev main_v384 : Ref sig .tc := ⟨.hbm, 485, rfl⟩
abbrev main_v385 : Ref sig .tc := ⟨.hbm, 486, rfl⟩
abbrev main_v386 : Ref sig .tc := ⟨.hbm, 487, rfl⟩
abbrev main_v387 : Ref sig .tc := ⟨.hbm, 488, rfl⟩
abbrev main_v388 : Ref sig .tc := ⟨.hbm, 489, rfl⟩
abbrev main_v389 : Ref sig .tc := ⟨.hbm, 490, rfl⟩
abbrev main_v390 : Ref sig .tc := ⟨.hbm, 491, rfl⟩
abbrev main_v391 : Ref sig .tc := ⟨.hbm, 492, rfl⟩
abbrev main_call4_cst : Ref sig .tc := ⟨.hbm, 493, rfl⟩
abbrev main_call4_v0 : Ref sig .tc := ⟨.hbm, 494, rfl⟩
abbrev main_v392 : Ref sig .tc := ⟨.hbm, 495, rfl⟩
abbrev main_v393 : Ref sig .tc := ⟨.hbm, 496, rfl⟩
abbrev main_v394 : Ref sig .tc := ⟨.hbm, 497, rfl⟩
abbrev main_v395 : Ref sig .tc := ⟨.hbm, 498, rfl⟩
abbrev main_v396 : Ref sig .tc := ⟨.hbm, 499, rfl⟩
abbrev main_v397 : Ref sig .tc := ⟨.hbm, 500, rfl⟩
abbrev main_cst_78 : Ref sig .tc := ⟨.hbm, 501, rfl⟩
abbrev main_v398 : Ref sig .tc := ⟨.hbm, 502, rfl⟩
abbrev main_cst_79 : Ref sig .tc := ⟨.hbm, 503, rfl⟩
abbrev main_v399 : Ref sig .tc := ⟨.hbm, 504, rfl⟩
abbrev main_v400 : Ref sig .tc := ⟨.hbm, 505, rfl⟩
abbrev main_v401 : Ref sig .tc := ⟨.hbm, 506, rfl⟩
abbrev main_cst_80 : Ref sig .tc := ⟨.hbm, 507, rfl⟩
abbrev main_v402 : Ref sig .tc := ⟨.hbm, 508, rfl⟩
abbrev main_v403 : Ref sig .tc := ⟨.hbm, 509, rfl⟩
abbrev main_v404 : Ref sig .tc := ⟨.hbm, 510, rfl⟩
abbrev main_c_81 : Ref sig .tc := ⟨.hbm, 511, rfl⟩
abbrev main_v405 : Ref sig .tc := ⟨.hbm, 512, rfl⟩
abbrev main_v406 : Ref sig .tc := ⟨.hbm, 513, rfl⟩
abbrev main_c_82 : Ref sig .tc := ⟨.hbm, 514, rfl⟩
abbrev main_v407 : Ref sig .tc := ⟨.hbm, 515, rfl⟩
abbrev main_v408 : Ref sig .tc := ⟨.hbm, 516, rfl⟩
abbrev main_v409 : Ref sig .tc := ⟨.hbm, 517, rfl⟩
abbrev main_v410 : Ref sig .tc := ⟨.hbm, 518, rfl⟩
abbrev main_v411 : Ref sig .tc := ⟨.hbm, 519, rfl⟩
abbrev main_c_83 : Ref sig .tc := ⟨.hbm, 520, rfl⟩
abbrev main_v412 : Ref sig .tc := ⟨.hbm, 521, rfl⟩
abbrev main_v413 : Ref sig .tc := ⟨.hbm, 522, rfl⟩
abbrev main_c_84 : Ref sig .tc := ⟨.hbm, 523, rfl⟩
abbrev main_v414 : Ref sig .tc := ⟨.hbm, 524, rfl⟩
abbrev main_v415 : Ref sig .tc := ⟨.hbm, 525, rfl⟩
abbrev main_v416 : Ref sig .tc := ⟨.hbm, 526, rfl⟩
abbrev main_v417 : Ref sig .tc := ⟨.hbm, 527, rfl⟩
abbrev main_v418 : Ref sig .tc := ⟨.hbm, 528, rfl⟩
abbrev main_v419 : Ref sig .tc := ⟨.hbm, 529, rfl⟩
abbrev main_c_85 : Ref sig .tc := ⟨.hbm, 530, rfl⟩
abbrev main_v420 : Ref sig .tc := ⟨.hbm, 531, rfl⟩
abbrev main_v421 : Ref sig .tc := ⟨.hbm, 532, rfl⟩
abbrev main_c_86 : Ref sig .tc := ⟨.hbm, 533, rfl⟩
abbrev main_v422 : Ref sig .tc := ⟨.hbm, 534, rfl⟩
abbrev main_v423 : Ref sig .tc := ⟨.hbm, 535, rfl⟩
abbrev main_v424 : Ref sig .tc := ⟨.hbm, 536, rfl⟩
abbrev main_v425 : Ref sig .tc := ⟨.hbm, 537, rfl⟩
abbrev main_v426 : Ref sig .tc := ⟨.hbm, 538, rfl⟩
abbrev main_v427 : Ref sig .tc := ⟨.hbm, 539, rfl⟩
abbrev main_v428 : Ref sig .tc := ⟨.hbm, 540, rfl⟩
abbrev main_v429 : Ref sig .tc := ⟨.hbm, 541, rfl⟩
abbrev main_cst_87 : Ref sig .tc := ⟨.hbm, 542, rfl⟩
abbrev main_v430 : Ref sig .tc := ⟨.hbm, 543, rfl⟩
abbrev main_v431 : Ref sig .tc := ⟨.hbm, 544, rfl⟩
abbrev main_v432 : Ref sig .tc := ⟨.hbm, 545, rfl⟩
abbrev main_cst_88 : Ref sig .tc := ⟨.hbm, 546, rfl⟩
abbrev main_v433 : Ref sig .tc := ⟨.hbm, 547, rfl⟩
abbrev main_v434 : Ref sig .tc := ⟨.hbm, 548, rfl⟩
abbrev main_v435 : Ref sig .tc := ⟨.hbm, 549, rfl⟩
abbrev main_v436 : Ref sig .tc := ⟨.hbm, 550, rfl⟩
abbrev main_v437 : Ref sig .tc := ⟨.hbm, 551, rfl⟩
abbrev main_v438 : Ref sig .tc := ⟨.hbm, 552, rfl⟩
abbrev main_v439 : Ref sig .tc := ⟨.hbm, 553, rfl⟩
abbrev main_v440 : Ref sig .tc := ⟨.hbm, 554, rfl⟩
abbrev main_v441 : Ref sig .tc := ⟨.hbm, 555, rfl⟩
abbrev main_v442 : Ref sig .tc := ⟨.hbm, 556, rfl⟩
abbrev main_cst_89 : Ref sig .tc := ⟨.hbm, 557, rfl⟩
abbrev main_v443 : Ref sig .tc := ⟨.hbm, 558, rfl⟩
abbrev main_v444 : Ref sig .tc := ⟨.hbm, 559, rfl⟩
abbrev main_cst_90 : Ref sig .tc := ⟨.hbm, 560, rfl⟩
abbrev main_v445 : Ref sig .tc := ⟨.hbm, 561, rfl⟩
abbrev main_v446 : Ref sig .tc := ⟨.hbm, 562, rfl⟩
abbrev main_v447 : Ref sig .tc := ⟨.hbm, 563, rfl⟩
abbrev main_v448 : Ref sig .tc := ⟨.hbm, 564, rfl⟩
abbrev main_v449 : Ref sig .tc := ⟨.hbm, 565, rfl⟩
abbrev main_cst_91 : Ref sig .tc := ⟨.hbm, 566, rfl⟩
abbrev main_v450 : Ref sig .tc := ⟨.hbm, 567, rfl⟩
abbrev main_v451 : Ref sig .tc := ⟨.hbm, 568, rfl⟩
abbrev main_cst_92 : Ref sig .tc := ⟨.hbm, 569, rfl⟩
abbrev main_v452 : Ref sig .tc := ⟨.hbm, 570, rfl⟩
abbrev main_v453 : Ref sig .tc := ⟨.hbm, 571, rfl⟩
abbrev main_cst_93 : Ref sig .tc := ⟨.hbm, 572, rfl⟩
abbrev main_v454 : Ref sig .tc := ⟨.hbm, 573, rfl⟩
abbrev main_v455 : Ref sig .tc := ⟨.hbm, 574, rfl⟩
abbrev main_v456 : Ref sig .tc := ⟨.hbm, 575, rfl⟩
abbrev main_v457 : Ref sig .tc := ⟨.hbm, 576, rfl⟩
abbrev main_v458 : Ref sig .tc := ⟨.hbm, 577, rfl⟩
abbrev main_v459 : Ref sig .tc := ⟨.hbm, 578, rfl⟩
abbrev main_v460 : Ref sig .tc := ⟨.hbm, 579, rfl⟩
abbrev main_v461 : Ref sig .tc := ⟨.hbm, 580, rfl⟩
abbrev main_v462 : Ref sig .tc := ⟨.hbm, 581, rfl⟩
abbrev main_v463 : Ref sig .tc := ⟨.hbm, 582, rfl⟩
abbrev main_v464 : Ref sig .tc := ⟨.hbm, 583, rfl⟩
abbrev main_call5_cst : Ref sig .tc := ⟨.hbm, 584, rfl⟩
abbrev main_call5_v0 : Ref sig .tc := ⟨.hbm, 585, rfl⟩
abbrev main_v465 : Ref sig .tc := ⟨.hbm, 586, rfl⟩
abbrev main_v466 : Ref sig .tc := ⟨.hbm, 587, rfl⟩
abbrev main_v467 : Ref sig .tc := ⟨.hbm, 588, rfl⟩
abbrev main_v468 : Ref sig .tc := ⟨.hbm, 589, rfl⟩
abbrev main_v469 : Ref sig .tc := ⟨.hbm, 590, rfl⟩
abbrev main_v470 : Ref sig .tc := ⟨.hbm, 591, rfl⟩
abbrev main_v471 : Ref sig .tc := ⟨.hbm, 592, rfl⟩
abbrev main_v472 : Ref sig .tc := ⟨.hbm, 593, rfl⟩
abbrev main_v473 : Ref sig .tc := ⟨.hbm, 594, rfl⟩
abbrev main_v474 : Ref sig .tc := ⟨.hbm, 595, rfl⟩
abbrev main_v475 : Ref sig .tc := ⟨.hbm, 596, rfl⟩
abbrev main_v476 : Ref sig .tc := ⟨.hbm, 597, rfl⟩
abbrev main_v477 : Ref sig .tc := ⟨.hbm, 598, rfl⟩
abbrev main_v478 : Ref sig .tc := ⟨.hbm, 599, rfl⟩
abbrev main_v479 : Ref sig .tc := ⟨.hbm, 600, rfl⟩
abbrev main_v480 : Ref sig .tc := ⟨.hbm, 601, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S2x400000_S1x400000_0_0 : S2x400000.Slices ![0, 0] S1x400000
  shapeCasts_S1x400000_S400000 : S1x400000.ShapeCasts S400000
  slices_S2x400000_S1x400000_1_0 : S2x400000.Slices ![1, 0] S1x400000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  concatenates_S50000x128_S50000x128_S50000x256_d1 : Shape.Concatenates [S50000x128, S50000x128] S50000x256 1
  slices_S3x256x128_S1x256x128_0_0_0 : S3x256x128.Slices ![0, 0, 0] S1x256x128
  shapeCasts_S1x256x128_S256x128 : S1x256x128.ShapeCasts S256x128
  slices_S3x128x128_S1x128x128_1_0_0 : S3x128x128.Slices ![1, 0, 0] S1x128x128
  slices_S3x128_S1x128_1_0 : S3x128.Slices ![1, 0] S1x128
  slices_S3x256x128_S1x256x128_1_0_0 : S3x256x128.Slices ![1, 0, 0] S1x256x128
  slices_S3x128x128_S1x128x128_2_0_0 : S3x128x128.Slices ![2, 0, 0] S1x128x128
  slices_S3x128_S1x128_2_0 : S3x128.Slices ![2, 0] S1x128
  slices_S3x256x128_S1x256x128_2_0_0 : S3x256x128.Slices ![2, 0, 0] S1x256x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics of the two programs, index by index, over literal shapes and with no program in sight.

  A node feature array is 50000 rows of 128 numbers. One layer of the network takes such an array `x` and
    * projects it by a 128 × 128 matrix (`mm`: entry (r, c) is the sum over k of x[r, k] · w[k, c]),
    * aggregates the projected rows over the graph's edges (host operations, the same on both sides),
    * adds a bias row, normalises every row to mean 0 and variance 1 (plus ε), scales and shifts it by two rows and
      clamps at zero (`ln`); from the second layer on the layer's input is added back (`lnr`),
    * and multiplies the two branches' results by the upper and the lower half of a 256 × 128 matrix, adds the two
      products and a bias row (`cl`).
  The last step is a 128 × 64 projection plus a bias row (`fl`).
-/
import Idealize.ShloMosaic.PureOps.Ideal
import Idealize.ShloMosaic.Lib.ValueIdx

noncomputable section

namespace Cert.Spec

open Idealize.ShloMosaic

abbrev SN : Shape := ⟨2, ![50000, 128]⟩
abbrev SO : Shape := ⟨2, ![50000, 64]⟩
abbrev SW : Shape := ⟨2, ![128, 128]⟩
abbrev SW2 : Shape := ⟨2, ![256, 128]⟩
abbrev SF : Shape := ⟨2, ![128, 64]⟩

/-- Row `r`, column `k` of a two-axis array. -/
abbrev at2 {a b : Nat} (r : Nat) (hr : r < a) (k : Nat) (hk : k < b) : (⟨2, ![a, b]⟩ : Shape).Idx := fun d => match d with
  | ⟨0, _⟩ => ⟨r, hr⟩
  | ⟨1, _⟩ => ⟨k, hk⟩

/-- The projection: entry (r, c) of x · w. -/
def mm (x : SN.Idx → EReal) (w : SW.Idx → EReal) : SN.Idx → EReal := fun i =>
  ∑ k : Fin 128, x (at2 (i 0).val (i 0).isLt k.val k.isLt) * w (at2 k.val k.isLt (i 1).val (i 1).isLt)

/-- The last projection plus its bias row: entry (r, c) of x · w + b. -/
def fl (x : SN.Idx → EReal) (w : SF.Idx → EReal) (b : Fin 64 → EReal) : SO.Idx → EReal := fun i =>
  (∑ k : Fin 128, x (at2 (i 0).val (i 0).isLt k.val k.isLt) * w (at2 k.val k.isLt (i 1).val (i 1).isLt))
    + b ⟨(i 1).val, (i 1).isLt⟩

/-- The two branches combined: entry (r, c) of xg · (rows 0–127 of w) + xl · (rows 128–255 of w) + b. -/
def cl (xg xl : SN.Idx → EReal) (w : SW2.Idx → EReal) (b : Fin 128 → EReal) : SN.Idx → EReal := fun i =>
  ((∑ k : Fin 128, xg (at2 (i 0).val (i 0).isLt k.val k.isLt) * w (at2 k.val (by have := k.isLt; omega) (i 1).val (i 1).isLt))
    + ∑ k : Fin 128, xl (at2 (i 0).val (i 0).isLt k.val k.isLt) * w (at2 (128 + k.val) (by have := k.isLt; omega) (i 1).val (i 1).isLt))
    + b ⟨(i 1).val, (i 1).isLt⟩

/-- The same with the two halves of the matrix given as two 128 × 128 arrays. -/
def cl2 (xg xl : SN.Idx → EReal) (wg wl : SW.Idx → EReal) (b : Fin 128 → EReal) : SN.Idx → EReal := fun i =>
  ((∑ k : Fin 128, xg (at2 (i 0).val (i 0).isLt k.val k.isLt) * wg (at2 k.val k.isLt (i 1).val (i 1).isLt))
    + ∑ k : Fin 128, xl (at2 (i 0).val (i 0).isLt k.val k.isLt) * wl (at2 k.val k.isLt (i 1).val (i 1).isLt))
    + b ⟨(i 1).val, (i 1).isLt⟩

/-- 128 and ε as the float words both programs carry. -/
def c128 : EReal := Ideal.ofBits .f32 0x43000000#32
def ceps : EReal := Ideal.ofBits .f32 0x3727C5AC#32
def czero : EReal := Ideal.ofBits .f32 0x00000000#32

/-- A row's mean. -/
def mean (t : Fin 128 → EReal) : EReal := Ideal.div (∑ k : Fin 128, t k) c128

/-- One row normalised, scaled, shifted and clamped at zero, at column q. -/
def lnRow (t g beta : Fin 128 → EReal) (q : Fin 128) : EReal :=
  max ((t q - mean t) * Ideal.rsqrt (mean (fun k => (t k - mean t) * (t k - mean t)) + ceps) * g q + beta q) czero

/-- The normalisation step of a layer: row r of `agg` plus the bias row, normalised. -/
def ln (agg : SN.Idx → EReal) (b g beta : Fin 128 → EReal) : SN.Idx → EReal := fun i =>
  lnRow (fun k => agg (at2 (i 0).val (i 0).isLt k.val k.isLt) + b k) g beta ⟨(i 1).val, (i 1).isLt⟩

/-- The same with the layer's input added back. -/
def lnr (agg : SN.Idx → EReal) (b g beta : Fin 128 → EReal) (x : SN.Idx → EReal) : SN.Idx → EReal := fun i =>
  ln agg b g beta i + x i

end Cert.Spec

end
-- ==== Proof.KLib.lean ====
/-
  Vector operations of the kernels' bodies read at an index of a 5000-row block, at the ideal instance: the block
  product into a zero accumulator is the sum over the contracted coordinate; a lane sum is the sum over the row; a
  row broadcast reads the row at the column; a column broadcast reads the column at the row.
-/
import proofs.«164762_j10505490006519_1_alg».proof.Proof.Gen.KernelIdeal
import proofs.«164762_j10505490006519_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KLib

open Cert.KernelIdeal Cert.KernelIdeal.Gen Cert.Spec
open Idealize.ShloMosaic Idealize.ShloMosaic.TcCoe

theorem matmul_blk_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem matmul_blk_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem matmul_blk_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem matmul_blk_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000-row block times a matrix into a zero accumulator, at (r, q): the sum over k of x[r, k] · w[k, q]. -/
theorem matmul_blk {φ₁ φ₂ : FTy} (x0 : FVec Ideal S5000x128 φ₁) (x1 : FVec Ideal S128x128 φ₂) (j : S5000x128.Idx) :
    matmul dot_S5000x128_S128x128_S5000x128_1_0_0_1_n_n none x0 x1 (constant S5000x128 .f32 0x00000000#32) j
      = ∑ k : Fin 128, x0 (at2 (j 0).val (j 0).isLt k.val k.isLt) * x1 (at2 k.val k.isLt (j 1).val (j 1).isLt) := by
  show FloatOps.matmul dot_S5000x128_S128x128_S5000x128_1_0_0_1_n_n none x0 x1 (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = at2 (j 0).val (j 0).isLt k.val k.isLt := funext fun a => Fin.ext (by
    match a with
    | ⟨0, _⟩ => exact matmul_blk_l0 _ _
    | ⟨1, _⟩ => exact (matmul_blk_l1 _ _).trans hk)
  have er : dot_S5000x128_S128x128_S5000x128_1_0_0_1_n_n.rhsIdx j ((ValueIdx.contrEquiv1 dot_S5000x128_S128x128_S5000x128_1_0_0_1_n_n 128 rfl rfl).symm k) = at2 k.val k.isLt (j 1).val (j 1).isLt := funext fun a => Fin.ext (by
    match a with
    | ⟨0, _⟩ => exact (matmul_blk_r0 _ _).trans hk
    | ⟨1, _⟩ => exact matmul_blk_r1 _ _)
  rw [el, er]
  rfl

theorem matmul_blk64_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem matmul_blk64_l1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem matmul_blk64_r0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem matmul_blk64_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A 5000-row block times a matrix into a zero accumulator, at (r, q): the sum over k of x[r, k] · w[k, q]. -/
theorem matmul_blk64 {φ₁ φ₂ : FTy} (x0 : FVec Ideal S5000x128 φ₁) (x1 : FVec Ideal S128x64 φ₂) (j : S5000x64.Idx) :
    matmul dot_S5000x128_S128x64_S5000x64_1_0_0_1_n_n none x0 x1 (constant S5000x64 .f32 0x00000000#32) j
      = ∑ k : Fin 128, x0 (at2 (j 0).val (j 0).isLt k.val k.isLt) * x1 (at2 k.val k.isLt (j 1).val (j 1).isLt) := by
  show FloatOps.matmul dot_S5000x128_S128x64_S5000x64_1_0_0_1_n_n none x0 x1 (constant S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = at2 (j 0).val (j 0).isLt k.val k.isLt := funext fun a => Fin.ext (by
    match a with
    | ⟨0, _⟩ => exact matmul_blk64_l0 _ _
    | ⟨1, _⟩ => exact (matmul_blk64_l1 _ _).trans hk)
  have er : dot_S5000x128_S128x64_S5000x64_1_0_0_1_n_n.rhsIdx j ((ValueIdx.contrEquiv1 dot_S5000x128_S128x64_S5000x64_1_0_0_1_n_n 128 rfl rfl).symm k) = at2 k.val k.isLt (j 1).val (j 1).isLt := funext fun a => Fin.ext (by
    match a with
    | ⟨0, _⟩ => exact (matmul_blk64_r0 _ _).trans hk
    | ⟨1, _⟩ => exact matmul_blk64_r1 _ _)
  rw [el, er]
  rfl

/-- A 1 × 128 row broadcast down the 5000 rows reads the row at the column. -/
theorem bcast_row {α : Type} (b : S1x128.Idx → α) (j : S5000x128.Idx) :
    broadcastTo S5000x128 b broadcasts_S1x128_S5000x128 j = b (at2 0 (by decide) (j 1).val (j 1).isLt) :=
  broadcastTo_apply b broadcasts_S1x128_S5000x128 j _ (fun a => by
    match a with
    | ⟨0, _⟩ => rfl
    | ⟨1, _⟩ => rfl)

/-- A 1 × 64 row broadcast down the 5000 rows reads the row at the column. -/
theorem bcast_row64 {α : Type} (b : S1x64.Idx → α) (j : S5000x64.Idx) :
    broadcastTo S5000x64 b broadcasts_S1x64_S5000x64 j = b (at2 0 (by decide) (j 1).val (j 1).isLt) :=
  broadcastTo_apply b broadcasts_S1x64_S5000x64 j _ (fun a => by
    match a with
    | ⟨0, _⟩ => rfl
    | ⟨1, _⟩ => rfl)

/-- A 5000 × 1 column broadcast across the 128 columns reads the column at the row. -/
theorem bcast_col {α : Type} (v : S5000x1.Idx → α) (j : S5000x128.Idx) :
    broadcastTo S5000x128 v broadcasts_S5000x1_S5000x128 j = v (at2 (j 0).val (j 0).isLt 0 (by decide)) :=
  broadcastTo_apply v broadcasts_S5000x1_S5000x128 j _ (fun a => by
    match a with
    | ⟨0, _⟩ => rfl
    | ⟨1, _⟩ => rfl)

/-- A 5000-vector recast as a 5000 × 1 column reads the vector at the row. -/
theorem cast_col {α : Type} (u : S5000.Idx → α) (j : S5000x1.Idx) :
    shapeCast S5000x1 u shapeCasts_S5000_S5000x1 j = u (ValueIdx.ix1 ⟨(j 0).val, (j 0).isLt⟩) :=
  shapeCast_apply u shapeCasts_S5000_S5000x1 j _ (by
    have h1 : (j 1).val < 1 := (j 1).isLt
    rw [Shape.rowMajor_val_one, Shape.rowMajor_val_two]
    show (j 0).val = (j 0).val * 1 + (j 1).val
    omega)

/-- The lane sum of a 5000 × 128 block at row r: the sum of the row. -/
theorem rowsum (v : FVec Ideal S5000x128 .f32) (hφ : FTy.f32 = FTy.f32 ∨ FTy.f32 = FTy.bf16) (hacc : (0x00000000#32 : BitVec 32) = 0x00000000#32) (r : S5000.Idx) :
    multiReduction .add [1] S5000 v 0x00000000#32 reduces_S5000x128_S5000 hφ hacc r
      = ∑ k : Fin 128, v (at2 (r 0).val (r 0).isLt k.val k.isLt) := by
  refine (Ideal.multiReduction_add_single v 0x00000000#32 reduces_S5000x128_S5000 hφ hacc r).trans ?_
  refine Finset.sum_congr rfl fun k _ => congrArg v ?_
  funext a
  match a with
  | ⟨0, _⟩ => rfl
  | ⟨1, _⟩ => rfl

/-- The lane sum as a function of the row. -/
theorem rowsum_fun (v : FVec Ideal S5000x128 .f32) (hφ : FTy.f32 = FTy.f32 ∨ FTy.f32 = FTy.bf16) (hacc : (0x00000000#32 : BitVec 32) = 0x00000000#32) :
    multiReduction .add [1] S5000 v 0x00000000#32 reduces_S5000x128_S5000 hφ hacc
      = fun r => ∑ k : Fin 128, v (at2 (r 0).val (r 0).isLt k.val k.isLt) :=
  funext (rowsum v hφ hacc)

/-- Every index of a two-axis array is the pair of its coordinates. -/
theorem eq_at2 {a b : Nat} (j : (⟨2, ![a, b]⟩ : Shape).Idx) : j = at2 (j 0).val (j 0).isLt (j 1).val (j 1).isLt := by
  funext d; match d with | ⟨0, _⟩ => rfl | ⟨1, _⟩ => rfl

/-- The reciprocal square root of a vector at an index. -/
theorem rsqrt_apply {s : Shape} {φ : FTy} (x : FVec Ideal s φ) (i : s.Idx) : rsqrt x i = Ideal.rsqrt (x i) := rfl

end Cert.KernelIdeal.KLib

end
-- ==== Proof.KPay.lean ====
/-
  What each launch's body stores, at an index of its 5000-row block, at the ideal instance: the sixteen payloads are five
  kinds of arithmetic — a block product, a block product plus a bias row, two block products added plus a bias row, a row
  normalisation, and a row normalisation plus the layer's input.
-/
import proofs.«164762_j10505490006519_1_alg».proof.Proof.Gen.KernelIdeal.Skeleton
import proofs.«164762_j10505490006519_1_alg».proof.Proof.KLib

set_option maxRecDepth 16384

noncomputable section

namespace Cert.KernelIdeal.KLib

open Cert.KernelIdeal Cert.KernelIdeal.Gen Cert.Spec
open Idealize.ShloMosaic Idealize.ShloMosaic.TcCoe

/-- The payload of launch 0 at row r, column q of the block: the sum over k of x[r, k] · w[k, q]. -/
theorem pay0 (x0 : Vec Ideal S5000x128 .f32) (x1 : Vec Ideal S128x128 .f32) (r : Nat) (hr : r < 5000) (q : Nat) (hq : q < 128) :
    k0_pay1 (F := Ideal) x0 x1 (at2 r hr q hq)
      = ∑ k : Fin 128, x0 (at2 r hr k.val k.isLt) * x1 (at2 k.val k.isLt q hq) := by
  unfold k0_pay1
  try dsimp only
  simp only [Ideal.truncf_def, shapeCast_self]
  exact matmul_blk _ _ (at2 r hr q hq)

/-- The payload of launch 1 at row r, column q of the block: the sum over k of x[r, k] · w[k, q]. -/
theorem pay1 (x0 : Vec Ideal S5000x128 .f32) (x1 : Vec Ideal S128x128 .f32) (r : Nat) (hr : r < 5000) (q : Nat) (hq : q < 128) :
    k1_pay1 (F := Ideal) x0 x1 (at2 r hr q hq)
      = ∑ k : Fin 128, x0 (at2 r hr k.val k.isLt) * x1 (at2 k.val k.isLt q hq) := by
  unfold k1_pay1
  try dsimp only
  simp only [Ideal.truncf_def, shapeCast_self]
  exact matmul_blk _ _ (at2 r hr q hq)

/-- The payload of launch 5 at row r, column q of the block: the sum over k of x[r, k] · w[k, q]. -/
theorem pay5 (x0 : Vec Ideal S5000x128 .f32) (x1 : Vec Ideal S128x128 .f32) (r : Nat) (hr : r < 5000) (q : Nat) (hq : q < 128) :
    k5_pay1 (F := Ideal) x0 x1 (at2 r hr q hq)
      = ∑ k : Fin 128, x0 (at2 r hr k.val k.isLt) * x1 (at2 k.val k.isLt q hq) := by
  unfold k5_pay1
  try dsimp only
  simp only [Ideal.truncf_def, shapeCast_self]
  exact matmul_blk _ _ (at2 r hr q hq)

/-- The payload of launch 6 at row r, column q of the block: the sum over k of x[r, k] · w[k, q]. -/
theorem pay6 (x0 : Vec Ideal S5000x128 .f32) (x1 : Vec Ideal S128x128 .f32) (r : Nat) (hr : r < 5000) (q : Nat) (hq : q < 128) :
    k6_pay1 (F := Ideal) x0 x1 (at2 r hr q hq)
      = ∑ k : Fin 128, x0 (at2 r hr k.val k.isLt) * x1 (at2 k.val k.isLt q hq) := by
  unfold k6_pay1
  try dsimp only
  simp only [Ideal.truncf_def, shapeCast_self]
  exact matmul_blk _ _ (at2 r hr q hq)

/-- The payload of launch 10 at row r, column q of the block: the sum over k of x[r, k] · w[k, q]. -/
theorem pay10 (x0 : Vec Ideal S5000x128 .f32) (x1 : Vec Ideal S128x128 .f32) (r : Nat) (hr : r < 5000) (q : Nat) (hq : q < 128) :
    k10_pay1 (F := Ideal) x0 x1 (at2 r hr q hq)
      = ∑ k : Fin 128, x0 (at2 r hr k.val k.isLt) * x1 (at2 k.val k.isLt q hq) := by
  unfold k10_pay1
  try dsimp only
  simp only [Ideal.truncf_def, shapeCast_self]
  exact matmul_blk _ _ (at2 r hr q hq)

/-- The payload of launch 11 at row r, column q of the block: the sum over k of x[r, k] · w[k, q]. -/
theorem pay11 (x0 : Vec Ideal S5000x128 .f32) (x1 : Vec Ideal S128x128 .f32) (r : Nat) (hr : r < 5000) (q : Nat) (hq : q < 128) :
    k11_pay1 (F := Ideal) x0 x1 (at2 r hr q hq)
      = ∑ k : Fin 128, x0 (at2 r hr k.val k.isLt) * x1 (at2 k.val k.isLt q hq) := by
  unfold k11_pay1
  try dsimp only
  simp only [Ideal.truncf_def, shapeCast_self]
  exact matmul_blk _ _ (at2 r hr q hq)

/-- The payload of launch 2 at row r, column q of the block: row r plus the bias row, normalised, scaled, shifted and
    clamped at zero. -/
theorem pay2 (v0 : Vec Ideal S5000x128 .f32) (v2 v22 v26 : Vec Ideal S1x128 .f32) (r : Nat) (hr : r < 5000) (q : Nat) (hq : q < 128) :
    k2_pay1 (F := Ideal) v0 v2 v22 v26 (at2 r hr q hq)
      = lnRow (fun k => v0 (at2 r hr k.val k.isLt) + v2 (at2 0 (by decide) k.val k.isLt))
          (fun k => v22 (at2 0 (by decide) k.val k.isLt)) (fun k => v26 (at2 0 (by decide) k.val k.isLt)) ⟨q, hq⟩ := by
  unfold k2_pay1
  try dsimp only
  simp only [shapeCast_self]
  repeat rw [rowsum_fun]
  simp only [ValueIdx.maximumf_apply, ValueIdx.addf_apply, ValueIdx.mulf_apply, ValueIdx.subf_apply, ValueIdx.divf_apply, ValueIdx.broadcast_apply,
    bcast_row, bcast_col, cast_col, rsqrt_apply]
  rfl

/-- The payload of launch 3 at row r, column q of the block: row r plus the bias row, normalised, scaled, shifted and
    clamped at zero. -/
theorem pay3 (v0 : Vec Ideal S5000x128 .f32) (v2 v22 v26 : Vec Ideal S1x128 .f32) (r : Nat) (hr : r < 5000) (q : Nat) (hq : q < 128) :
    k3_pay1 (F := Ideal) v0 v2 v22 v26 (at2 r hr q hq)
      = lnRow (fun k => v0 (at2 r hr k.val k.isLt) + v2 (at2 0 (by decide) k.val k.isLt))
          (fun k => v22 (at2 0 (by decide) k.val k.isLt)) (fun k => v26 (at2 0 (by decide) k.val k.isLt)) ⟨q, hq⟩ := by
  unfold k3_pay1
  try dsimp only
  simp only [shapeCast_self]
  repeat rw [rowsum_fun]
  simp only [ValueIdx.maximumf_apply, ValueIdx.addf_apply, ValueIdx.mulf_apply, ValueIdx.subf_apply, ValueIdx.divf_apply, ValueIdx.broadcast_apply,
    bcast_row, bcast_col, cast_col, rsqrt_apply]
  rfl

/-- The payload of launch 7 at row r, column q of the block: row r plus the bias row, normalised, scaled, shifted and
    clamped at zero, plus the layer's input at (r, q). -/
theorem pay7 (v0 : Vec Ideal S5000x128 .f32) (v2 v22 v26 : Vec Ideal S1x128 .f32) (v32 : Vec Ideal S5000x128 .f32) (r : Nat) (hr : r < 5000) (q : Nat) (hq : q < 128) :
    k7_pay1 (F := Ideal) v0 v2 v22 v26 v32 (at2 r hr q hq)
      = lnRow (fun k => v0 (at2 r hr k.val k.isLt) + v2 (at2 0 (by decide) k.val k.isLt))
          (fun k => v22 (at2 0 (by decide) k.val k.isLt)) (fun k => v26 (at2 0 (by decide) k.val k.isLt)) ⟨q, hq⟩ + v32 (at2 r hr q hq) := by
  unfold k7_pay1
  try dsimp only
  simp only [shapeCast_self]
  repeat rw [rowsum_fun]
  simp only [ValueIdx.maximumf_apply, ValueIdx.addf_apply, ValueIdx.mulf_apply, ValueIdx.subf_apply, ValueIdx.divf_apply, ValueIdx.broadcast_apply,
    bcast_row, bcast_col, cast_col, rsqrt_apply]
  rfl

/-- The payload of launch 8 at row r, column q of the block: row r plus the bias row, normalised, scaled, shifted and
    clamped at zero, plus the layer's input at (r, q). -/
theorem pay8 (v0 : Vec Ideal S5000x128 .f32) (v2 v22 v26 : Vec Ideal S1x128 .f32) (v32 : Vec Ideal S5000x128 .f32) (r : Nat) (hr : r < 5000) (q : Nat) (hq : q < 128) :
    k8_pay1 (F := Ideal) v0 v2 v22 v26 v32 (at2 r hr q hq)
      = lnRow (fun k => v0 (at2 r hr k.val k.isLt) + v2 (at2 0 (by decide) k.val k.isLt))
          (fun k => v22 (at2 0 (by decide) k.val k.isLt)) (fun k => v26 (at2 0 (by decide) k.val k.isLt)) ⟨q, hq⟩ + v32 (at2 r hr q hq) := by
  unfold k8_pay1
  try dsimp only
  simp only [shapeCast_self]
  repeat rw [rowsum_fun]
  simp only [ValueIdx.maximumf_apply, ValueIdx.addf_apply, ValueIdx.mulf_apply, ValueIdx.subf_apply, ValueIdx.divf_apply, ValueIdx.broadcast_apply,
    bcast_row, bcast_col, cast_col, rsqrt_apply]
  rfl

/-- The payload of launch 12 at row r, column q of the block: row r plus the bias row, normalised, scaled, shifted and
    clamped at zero, plus the layer's input at (r, q). -/
theorem pay12 (v0 : Vec Ideal S5000x128 .f32) (v2 v22 v26 : Vec Ideal S1x128 .f32) (v32 : Vec Ideal S5000x128 .f32) (r : Nat) (hr : r < 5000) (q : Nat) (hq : q < 128) :
    k12_pay1 (F := Ideal) v0 v2 v22 v26 v32 (at2 r hr q hq)
      = lnRow (fun k => v0 (at2 r hr k.val k.isLt) + v2 (at2 0 (by decide) k.val k.isLt))
          (fun k => v22 (at2 0 (by decide) k.val k.isLt)) (fun k => v26 (at2 0 (by decide) k.val k.isLt)) ⟨q, hq⟩ + v32 (at2 r hr q hq) := by
  unfold k12_pay1
  try dsimp only
  simp only [shapeCast_self]
  repeat rw [rowsum_fun]
  simp only [ValueIdx.maximumf_apply, ValueIdx.addf_apply, ValueIdx.mulf_apply, ValueIdx.subf_apply, ValueIdx.divf_apply, ValueIdx.broadcast_apply,
    bcast_row, bcast_col, cast_col, rsqrt_apply]
  rfl

/-- The payload of launch 13 at row r, column q of the block: row r plus the bias row, normalised, scaled, shifted and
    clamped at zero, plus the layer's input at (r, q). -/
theorem pay13 (v0 : Vec Ideal S5000x128 .f32) (v2 v22 v26 : Vec Ideal S1x128 .f32) (v32 : Vec Ideal S5000x128 .f32) (r : Nat) (hr : r < 5000) (q : Nat) (hq : q < 128) :
    k13_pay1 (F := Ideal) v0 v2 v22 v26 v32 (at2 r hr q hq)
      = lnRow (fun k => v0 (at2 r hr k.val k.isLt) + v2 (at2 0 (by decide) k.val k.isLt))
          (fun k => v22 (at2 0 (by decide) k.val k.isLt)) (fun k => v26 (at2 0 (by decide) k.val k.isLt)) ⟨q, hq⟩ + v32 (at2 r hr q hq) := by
  unfold k13_pay1
  try dsimp only
  simp only [shapeCast_self]
  repeat rw [rowsum_fun]
  simp only [ValueIdx.maximumf_apply, ValueIdx.addf_apply, ValueIdx.mulf_apply, ValueIdx.subf_apply, ValueIdx.divf_apply, ValueIdx.broadcast_apply,
    bcast_row, bcast_col, cast_col, rsqrt_apply]
  rfl

/-- The payload of launch 4 at (r, q): xg[r, ·] · wg[·, q] + xl[r, ·] · wl[·, q] + b[q]. -/
theorem pay4 (v0 v3 : Vec Ideal S5000x128 .f32) (v6 v9 : Vec Ideal S128x128 .f32) (v15 : Vec Ideal S1x128 .f32) (r : Nat) (hr : r < 5000) (q : Nat) (hq : q < 128) :
    k4_pay1 (F := Ideal) v0 v3 v6 v9 v15 (at2 r hr q hq)
      = ((∑ k : Fin 128, v0 (at2 r hr k.val k.isLt) * v6 (at2 k.val k.isLt q hq))
          + ∑ k : Fin 128, v3 (at2 r hr k.val k.isLt) * v9 (at2 k.val k.isLt q hq))
        + v15 (at2 0 (by decide) q hq) := by
  unfold k4_pay1
  try dsimp only
  simp only [Ideal.truncf_def, shapeCast_self]
  simp only [ValueIdx.addf_apply, bcast_row, matmul_blk]
  rfl

/-- The payload of launch 9 at (r, q): xg[r, ·] · wg[·, q] + xl[r, ·] · wl[·, q] + b[q]. -/
theorem pay9 (v0 v3 : Vec Ideal S5000x128 .f32) (v6 v9 : Vec Ideal S128x128 .f32) (v15 : Vec Ideal S1x128 .f32) (r : Nat) (hr : r < 5000) (q : Nat) (hq : q < 128) :
    k9_pay1 (F := Ideal) v0 v3 v6 v9 v15 (at2 r hr q hq)
      = ((∑ k : Fin 128, v0 (at2 r hr k.val k.isLt) * v6 (at2 k.val k.isLt q hq))
          + ∑ k : Fin 128, v3 (at2 r hr k.val k.isLt) * v9 (at2 k.val k.isLt q hq))
        + v15 (at2 0 (by decide) q hq) := by
  unfold k9_pay1
  try dsimp only
  simp only [Ideal.truncf_def, shapeCast_self]
  simp only [ValueIdx.addf_apply, bcast_row, matmul_blk]
  rfl

/-- The payload of launch 14 at (r, q): xg[r, ·] · wg[·, q] + xl[r, ·] · wl[·, q] + b[q]. -/
theorem pay14 (v0 v3 : Vec Ideal S5000x128 .f32) (v6 v9 : Vec Ideal S128x128 .f32) (v15 : Vec Ideal S1x128 .f32) (r : Nat) (hr : r < 5000) (q : Nat) (hq : q < 128) :
    k14_pay1 (F := Ideal) v0 v3 v6 v9 v15 (at2 r hr q hq)
      = ((∑ k : Fin 128, v0 (at2 r hr k.val k.isLt) * v6 (at2 k.val k.isLt q hq))
          + ∑ k : Fin 128, v3 (at2 r hr k.val k.isLt) * v9 (at2 k.val k.isLt q hq))
        + v15 (at2 0 (by decide) q hq) := by
  unfold k14_pay1
  try dsimp only
  simp only [Ideal.truncf_def, shapeCast_self]
  simp only [ValueIdx.addf_apply, bcast_row, matmul_blk]
  rfl

/-- The payload of the last launch at (r, q): x[r, ·] · w[·, q] + b[q]. -/
theorem pay15 (v0 : Vec Ideal S5000x128 .f32) (v3 : Vec Ideal S128x64 .f32) (v6 : Vec Ideal S1x64 .f32) (r : Nat) (hr : r < 5000) (q : Nat) (hq : q < 64) :
    k15_pay1 (F := Ideal) v0 v3 v6 (at2 r hr q hq)
      = (∑ k : Fin 128, v0 (at2 r hr k.val k.isLt) * v3 (at2 k.val k.isLt q hq))
        + v6 (at2 0 (by decide) q hq) := by
  unfold k15_pay1
  try dsimp only
  simp only [Ideal.truncf_def, shapeCast_self]
  simp only [ValueIdx.addf_apply, bcast_row64, matmul_blk64]
  rfl

end Cert.KernelIdeal.KLib

end
-- ==== Proof.KReg0.lean ====
/-
  Launch 0: a block of 5000 rows times a 128 × 128 matrix, ten blocks down the rows. At the ideal instance the narrowing
  of both operands is the identity and the block product into a zero accumulator is the plain sum over the contracted
  coordinate, so block t of the result is rows 5000·t … 5000·t + 4999 of x · w; the ten blocks tile the 50000 rows and the
  array ends as the whole product.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg0

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the whole-array function. -/
theorem flushed (c : Dev nD) (t : Fin cfg0.N) :
    (dat0 V c).flushed 2 t = ((cfg0.win 2).blk t).view.read (Elt Ideal) (mm (V c main_arg0) (V c main_v59)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  have rd0 : ∀ (r : Nat) (hr : r < 5000) (k : Nat) (hk : k < 128), ((cfg0.win 0).blk t).view.emb (at2 r hr k hk)
      = at2 (win0_2.index t (0 : Fin 2) * 5000 + r) (by omega) k hk := by
    intro r hr k hk; funext a; apply Fin.ext
    match a with
    | ⟨0, _⟩ => show win0_0.index t (0 : Fin 2) * 5000 + 1 * r = win0_2.index t (0 : Fin 2) * 5000 + r; omega
    | ⟨1, _⟩ => show win0_0.index t (1 : Fin 2) * 128 + 1 * k = k; omega
  have rd1 : ∀ (r : Nat) (hr : r < 128) (k : Nat) (hk : k < 128), ((cfg0.win 1).blk t).view.emb (at2 r hr k hk) = at2 r hr k hk := by
    intro r hr k hk; funext a; apply Fin.ext
    match a with
    | ⟨0, _⟩ => show win0_1.index t (0 : Fin 2) * 128 + 1 * r = r; omega
    | ⟨1, _⟩ => show win0_1.index t (1 : Fin 2) * 128 + 1 * k = k; omega
  have rd2 : ∀ (r : Nat) (hr : r < 5000) (k : Nat) (hk : k < 128), ((cfg0.win 2).blk t).view.emb (at2 r hr k hk)
      = at2 (win0_2.index t (0 : Fin 2) * 5000 + r) (by omega) k hk := by
    intro r hr k hk; funext a; apply Fin.ext
    match a with
    | ⟨0, _⟩ => show win0_2.index t (0 : Fin 2) * 5000 + 1 * r = win0_2.index t (0 : Fin 2) * 5000 + r; omega
    | ⟨1, _⟩ => show win0_2.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k0_pay1 (F := Ideal) (fun z => V c main_arg0 (((cfg0.win 0).blk t).view.emb z)) (fun z => V c main_v59 (((cfg0.win 1).blk t).view.emb z)) (at2 r hr q hq)
    = (mm (V c main_arg0) (V c main_v59)) (((cfg0.win 2).blk t).view.emb (at2 r hr q hq))
  rw [pay0, rd2]
  simp only [rd0, rd1]
  rfl

/-- An index of the array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v60).slice (win0_2.rect t)).set ↔ _
  rw [View.set_slice_whole, Rect.mem_set_unit]
  exact Iff.rfl

/-- Row r lies in the block of point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the launch, as one function of the input arrays as the launch finds them. -/
theorem final (c : Dev nD) : (dat0 V c).arrAt 2 cfg0.N = mm (V c main_arg0) (V c main_v59) :=
  (dat0 V c).arrAt_eq_of_cover 2 _ (fun t _ => flushed V c t) cover

end Cert.KernelIdeal.KReg0

end
-- ==== Proof.KReg1.lean ====
/-
  Launch 1: a block of 5000 rows times a 128 × 128 matrix, ten blocks down the rows. At the ideal instance the narrowing
  of both operands is the identity and the block product into a zero accumulator is the plain sum over the contracted
  coordinate, so block t of the result is rows 5000·t … 5000·t + 4999 of x · w; the ten blocks tile the 50000 rows and the
  array ends as the whole product.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg1

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point t writes back is block t of the whole-array function. -/
theorem flushed (c : Dev nD) (t : Fin cfg1.N) :
    (dat1 V c).flushed 2 t = ((cfg1.win 2).blk t).view.read (Elt Ideal) (mm (V c main_arg0) (V c main_v62)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts t
  have rd0 : ∀ (r : Nat) (hr : r < 5000) (k : Nat) (hk : k < 128), ((cfg1.win 0).blk t).view.emb (at2 r hr k hk)
      = at2 (win1_2.index t (0 : Fin 2) * 5000 + r) (by omega) k hk := by
    intro r hr k hk; funext a; apply Fin.ext
    match a with
    | ⟨0, _⟩ => show win1_0.index t (0 : Fin 2) * 5000 + 1 * r = win1_2.index t (0 : Fin 2) * 5000 + r; omega
    | ⟨1, _⟩ => show win1_0.index t (1 : Fin 2) * 128 + 1 * k = k; omega
  have rd1 : ∀ (r : Nat) (hr : r < 128) (k : Nat) (hk : k < 128), ((cfg1.win 1).blk t).view.emb (at2 r hr k hk) = at2 r hr k hk := by
    intro r hr k hk; funext a; apply Fin.ext
    match a with
    | ⟨0, _⟩ => show win1_1.index t (0 : Fin 2) * 128 + 1 * r = r; omega
    | ⟨1, _⟩ => show win1_1.index t (1 : Fin 2) * 128 + 1 * k = k; omega
  have rd2 : ∀ (r : Nat) (hr : r < 5000) (k : Nat) (hk : k < 128), ((cfg1.win 2).blk t).view.emb (at2 r hr k hk)
      = at2 (win1_2.index t (0 : Fin 2) * 5000 + r) (by omega) k hk := by
    intro r hr k hk; funext a; apply Fin.ext
    match a with
    | ⟨0, _⟩ => show win1_2.index t (0 : Fin 2) * 5000 + 1 * r = win1_2.index t (0 : Fin 2) * 5000 + r; omega
    | ⟨1, _⟩ => show win1_2.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k1_pay1 (F := Ideal) (fun z => V c main_arg0 (((cfg1.win 0).blk t).view.emb z)) (fun z => V c main_v62 (((cfg1.win 1).blk t).view.emb z)) (at2 r hr q hq)
    = (mm (V c main_arg0) (V c main_v62)) (((cfg1.win 2).blk t).view.emb (at2 r hr q hq))
  rw [pay1, rd2]
  simp only [rd0, rd1]
  rfl

/-- An index of the array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v63).slice (win1_2.rect t)).set ↔ _
  rw [View.set_slice_whole, Rect.mem_set_unit]
  exact Iff.rfl

/-- Row r lies in the block of point r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the launch, as one function of the input arrays as the launch finds them. -/
theorem final (c : Dev nD) : (dat1 V c).arrAt 2 cfg1.N = mm (V c main_arg0) (V c main_v62) :=
  (dat1 V c).arrAt_eq_of_cover 2 _ (fun t _ => flushed V c t) cover

end Cert.KernelIdeal.KReg1

end
-- ==== Proof.KReg2.lean ====
/-
  Launch 2: every row of a 5000-row block, plus the bias row, is normalised to mean 0 and variance 1 (plus ε), scaled
  and shifted by two rows and clamped at zero. A row's result depends on that row only, so block t of the result is rows
  5000·t … 5000·t + 4999 of the whole-array function, and the ten blocks tile the array.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg2

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg2.N,
    win2_0.index t (0 : Fin 2) = win2_4.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (1 : Fin 2) = 0
    ∧ win2_4.index t (0 : Fin 2) ≤ 9 :=
  (by decide +kernel : ∀ t : Fin grid2.N, _)

/-- Every one of the ten row blocks is some point's. -/
theorem idx_onto : ∀ q0 : Fin 10, ∃ t : Fin cfg2.N, win2_4.index t = ![q0.val, 0] :=
  (by decide +kernel : ∀ q0 : Fin 10, ∃ t : Fin grid2.N, win2_4.index t = ![q0.val, 0])

/-- What point t writes back is block t of the whole-array function. -/
theorem flushed (c : Dev nD) (t : Fin cfg2.N) :
    (dat2 V c).flushed 4 t = ((cfg2.win 4).blk t).view.read (Elt Ideal) (ln (V c main_v80) (fun k => V c main_v100 (at2 0 (by decide) k.val k.isLt)) (fun k => V c main_v101 (at2 0 (by decide) k.val k.isLt)) (fun k => V c main_v102 (at2 0 (by decide) k.val k.isLt))) := by
  show (cfg2.win 4).cut (grid2.coords t) ((dat2 V c).after 4 t) = _
  rw [after2_4]
  unfold out2_4
  rw [View.canon_unit_zero hz]
  simp only [View.ld_unit_zero (S := S5000x128) hz, View.ld_unit_zero (S := S1x128) hz]
  obtain ⟨e0, e1, e2, e3, e4, e5, e6, e7, e8, e9⟩ := idx_facts t
  have rd0 : ∀ (r : Nat) (hr : r < 5000) (k : Nat) (hk : k < 128), ((cfg2.win 0).blk t).view.emb (at2 r hr k hk)
      = at2 (win2_4.index t (0 : Fin 2) * 5000 + r) (by omega) k hk := by
    intro r hr k hk; funext a; apply Fin.ext
    match a with
    | ⟨0, _⟩ => show win2_0.index t (0 : Fin 2) * 5000 + 1 * r = win2_4.index t (0 : Fin 2) * 5000 + r; omega
    | ⟨1, _⟩ => show win2_0.index t (1 : Fin 2) * 128 + 1 * k = k; omega
  have rd1 : ∀ (r : Nat) (hr : r < 1) (k : Nat) (hk : k < 128), ((cfg2.win 1).blk t).view.emb (at2 r hr k hk) = at2 r hr k hk := by
    intro r hr k hk; funext a; apply Fin.ext
    match a with
    | ⟨0, _⟩ => show win2_1.index t (0 : Fin 2) * 1 + 1 * r = r; omega
    | ⟨1, _⟩ => show win2_1.index t (1 : Fin 2) * 128 + 1 * k = k; omega
  have rd2 : ∀ (r : Nat) (hr : r < 1) (k : Nat) (hk : k < 128), ((cfg2.win 2).blk t).view.emb (at2 r hr k hk) = at2 r hr k hk := by
    intro r hr k hk; funext a; apply Fin.ext
    match a with
    | ⟨0, _⟩ => show win2_2.index t (0 : Fin 2) * 1 + 1 * r = r; omega
    | ⟨1, _⟩ => show win2_2.index t (1 : Fin 2) * 128 + 1 * k = k; omega
  have rd3 : ∀ (r : Nat) (hr : r < 1) (k : Nat) (hk : k < 128), ((cfg2.win 3).blk t).view.emb (at2 r hr k hk) = at2 r hr k hk := by
    intro r hr k hk; funext a; apply Fin.ext
    match a with
    | ⟨0, _⟩ => show win2_3.index t (0 : Fin 2) * 1 + 1 * r = r; omega
    | ⟨1, _⟩ => show win2_3.index t (1 : Fin 2) * 128 + 1 * k = k; omega
  have rd4 : ∀ (r : Nat) (hr : r < 5000) (k : Nat) (hk : k < 128), ((cfg2.win 4).blk t).view.emb (at2 r hr k hk)
      = at2 (win2_4.index t (0 : Fin 2) * 5000 + r) (by omega) k hk := by
    intro r hr k hk; funext a; apply Fin.ext
    match a with
    | ⟨0, _⟩ => show win2_4.index t (0 : Fin 2) * 5000 + 1 * r = win2_4.index t (0 : Fin 2) * 5000 + r; omega
    | ⟨1, _⟩ => show win2_4.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k2_pay1 (F := Ideal) (fun z => V c main_v80 (((cfg2.win 0).blk t).view.emb z)) (fun z => V c main_v100 (((cfg2.win 1).blk t).view.emb z)) (fun z => V c main_v101 (((cfg2.win 2).blk t).view.emb z)) (fun z => V c main_v102 (((cfg2.win 3).blk t).view.emb z)) (at2 r hr q hq)
    = (ln (V c main_v80) (fun k => V c main_v100 (at2 0 (by decide) k.val k.isLt)) (fun k => V c main_v101 (at2 0 (by decide) k.val k.isLt)) (fun k => V c main_v102 (at2 0 (by decide) k.val k.isLt))) (((cfg2.win 4).blk t).view.emb (at2 r hr q hq))
  rw [pay2, rd4]
  simp only [rd0, rd1, rd2, rd3]
  rfl

/-- An index of the array is in point t's block iff each coordinate is in the block's range on its axis. -/
theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v103).slice (win2_4.rect t)).set ↔ _
  rw [View.set_slice_whole, Rect.mem_set_unit]
  exact Iff.rfl

/-- Row r lies in the block of point r / 5000. -/
theorem cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The result array after the launch, as one function of the input arrays as the launch finds them. -/
theorem final (c : Dev nD) : (dat2 V c).arrAt 4 cfg2.N = ln (V c main_v80) (fun k => V c main_v100 (at2 0 (by decide) k.val k.isLt)) (fun k => V c main_v101 (at2 0 (by decide) k.val k.isLt)) (fun k => V c main_v102 (at2 0 (by decide) k.val k.isLt)) :=
  (dat2 V c).arrAt_eq_of_cover 4 _ (fun t _ => flushed V c t) cover

end Cert.KernelIdeal.KReg2

end
-- ==== Proof.KReg3.lean ====
/-
  Launch 3: every row of a 5000-row block, plus the bias row, is normalised to mean 0 and variance 1 (plus ε), scaled
  and shifted by two rows and clamped at zero. A row's result depends on that row only, so block t of the result is rows
  5000·t … 5000·t + 4999 of the whole-array function, and the ten blocks tile the array.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg3

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg3.N,
    win3_0.index t (0 : Fin 2) = win3_4.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) ≤ 9 :=
  (by decide +kernel : ∀ t : Fin grid3.N, _)

/-- Every one of the ten row blocks is some point's. -/
theorem idx_onto : ∀ q0 : Fin 10, ∃ t : Fin cfg3.N, win3_4.index t = ![q0.val, 0] :=
  (by decide +kernel : ∀ q0 : Fin 10, ∃ t : Fin grid3.N, win3_4.index t = ![q0.val, 0])

/-- What point t writes back is block t of the whole-array function. -/
theorem flushed (c : Dev nD) (t : Fin cfg3.N) :
    (dat3 V c).flushed 4 t = ((cfg3.win 4).blk t).view.read (Elt Ideal) (ln (V c main_v97) (fun k => V c main_v106 (at2 0 (by decide) k.val k.isLt)) (fun k => V c main_v107 (at2 0 (by decide) k.val k.isLt)) (fun k => V c main_v108 (at2 0 (by decide) k.val k.isLt))) := by
  show (cfg3.win 4).cut (grid3.coords t) ((dat3 V c).after 4 t) = _
  rw [after3_4]
  unfold out3_4
  rw [View.canon_unit_zero hz]
  simp only [View.ld_unit_zero (S := S5000x128) hz, View.ld_unit_zero (S := S1x128) hz]
  obtain ⟨e0, e1, e2, e3, e4, e5, e6, e7, e8, e9⟩ := idx_facts t
  have rd0 : ∀ (r : Nat) (hr : r < 5000) (k : Nat) (hk : k < 128), ((cfg3.win 0).blk t).view.emb (at2 r hr k hk)
      = at2 (win3_4.index t (0 : Fin 2) * 5000 + r) (by omega) k hk := by
    intro r hr k hk; funext a; apply Fin.ext
    match a with
    | ⟨0, _⟩ => show win3_0.index t (0 : Fin 2) * 5000 + 1 * r = win3_4.index t (0 : Fin 2) * 5000 + r; omega
    | ⟨1, _⟩ => show win3_0.index t (1 : Fin 2) * 128 + 1 * k = k; omega
  have rd1 : ∀ (r : Nat) (hr : r < 1) (k : Nat) (hk : k < 128), ((cfg3.win 1).blk t).view.emb (at2 r hr k hk) = at2 r hr k hk := by
    intro r hr k hk; funext a; apply Fin.ext
    match a with
    | ⟨0, _⟩ => show win3_1.index t (0 : Fin 2) * 1 + 1 * r = r; omega
    | ⟨1, _⟩ => show win3_1.index t (1 : Fin 2) * 128 + 1 * k = k; omega
  have rd2 : ∀ (r : Nat) (hr : r < 1) (k : Nat) (hk : k < 128), ((cfg3.win 2).blk t).view.emb (at2 r hr k hk) = at2 r hr k hk := by
    intro r hr k hk; funext a; apply Fin.ext
    match a with
    | ⟨0, _⟩ => show win3_2.index t (0 : Fin 2) * 1 + 1 * r = r; omega
    | ⟨1, _⟩ => show win3_2.index t (1 : Fin 2) * 128 + 1 * k = k; omega
  have rd3 : ∀ (r : Nat) (hr : r < 1) (k : Nat) (hk : k < 128), ((cfg3.win 3).blk t).view.emb (at2 r hr k hk) = at2 r hr k hk := by
    intro r hr k hk; funext a; apply Fin.ext
    match a with
    | ⟨0, _⟩ => show win3_3.index t (0 : Fin 2) * 1 + 1 * r = r; omega
    | ⟨1, _⟩ => show win3_3.index t (1 : Fin 2) * 128 + 1 * k = k; omega
  have rd4 : ∀ (r : Nat) (hr : r < 5000) (k : Nat) (hk : k < 128), ((cfg3.win 4).blk t).view.emb (at2 r hr k hk)
      = at2 (win3_4.index t (0 : Fin 2) * 5000 + r) (by omega) k hk := by
    intro r hr k hk; funext a; apply Fin.ext
    match a with
    | ⟨0, _⟩ => show win3_4.index t (0 : Fin 2) * 5000 + 1 * r = win3_4.index t (0 : Fin 2) * 5000 + r; omega
    | ⟨1, _⟩ => show win3_4.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k3_pay1 (F := Ideal) (fun z => V c main_v97 (((cfg3.win 0).blk t).view.emb z)) (fun z => V c main_v106 (((cfg3.win 1).blk t).view.emb z)) (fun z => V c main_v107 (((cfg3.win 2).blk t).view.emb z)) (fun z => V c main_v108 (((cfg3.win 3).blk t).view.emb z)) (at2 r hr q hq)
    = (ln (V c main_v97) (fun k => V c main_v106 (at2 0 (by decide) k.val k.isLt)) (fun k => V c main_v107 (at2 0 (by decide) k.val k.isLt)) (fun k => V c main_v108 (at2 0 (by decide) k.val k.isLt))) (((cfg3.win 4).blk t).view.emb (at2 r hr q hq))
  rw [pay3, rd4]
  simp only [rd0, rd1, rd2, rd3]
  rfl

/-- An index of the array is in point t's block iff each coordinate is in the block's range on its axis. -/
theorem mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v109).slice (win3_4.rect t)).set ↔ _
  rw [View.set_slice_whole, Rect.mem_set_unit]
  exact Iff.rfl

/-- Row r lies in the block of point r / 5000. -/
theorem cover (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The result array after the launch, as one function of the input arrays as the launch finds them. -/
theorem final (c : Dev nD) : (dat3 V c).arrAt 4 cfg3.N = ln (V c main_v97) (fun k => V c main_v106 (at2 0 (by decide) k.val k.isLt)) (fun k => V c main_v107 (at2 0 (by decide) k.val k.isLt)) (fun k => V c main_v108 (at2 0 (by decide) k.val k.isLt)) :=
  (dat3 V c).arrAt_eq_of_cover 4 _ (fun t _ => flushed V c t) cover

end Cert.KernelIdeal.KReg3

end
-- ==== Proof.KReg4.lean ====
/-
  Launch 4: two blocks of 5000 rows, each times its own 128 × 128 matrix, the two products added and a bias row added.
  Block t of the result is rows 5000·t … 5000·t + 4999 of the whole-array function, and the ten blocks tile the array.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg4

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg4.N,
    win4_0.index t (0 : Fin 2) = win4_5.index t (0 : Fin 2)
    ∧ win4_0.index t (1 : Fin 2) = 0
    ∧ win4_1.index t (0 : Fin 2) = win4_5.index t (0 : Fin 2)
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (1 : Fin 2) = 0
    ∧ win4_5.index t (0 : Fin 2) ≤ 9 :=
  (by decide +kernel : ∀ t : Fin grid4.N, _)

/-- Every one of the ten row blocks is some point's. -/
theorem idx_onto : ∀ q0 : Fin 10, ∃ t : Fin cfg4.N, win4_5.index t = ![q0.val, 0] :=
  (by decide +kernel : ∀ q0 : Fin 10, ∃ t : Fin grid4.N, win4_5.index t = ![q0.val, 0])

/-- What point t writes back is block t of the whole-array function. -/
theorem flushed (c : Dev nD) (t : Fin cfg4.N) :
    (dat4 V c).flushed 5 t = ((cfg4.win 5).blk t).view.read (Elt Ideal) (cl2 (V c main_v109) (V c main_v103) (V c main_v112) (V c main_v115) (fun k => V c main_v118 (at2 0 (by decide) k.val k.isLt))) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts t
  have rd0 : ∀ (r : Nat) (hr : r < 5000) (k : Nat) (hk : k < 128), ((cfg4.win 0).blk t).view.emb (at2 r hr k hk)
      = at2 (win4_5.index t (0 : Fin 2) * 5000 + r) (by omega) k hk := by
    intro r hr k hk; funext a; apply Fin.ext
    match a with
    | ⟨0, _⟩ => show win4_0.index t (0 : Fin 2) * 5000 + 1 * r = win4_5.index t (0 : Fin 2) * 5000 + r; omega
    | ⟨1, _⟩ => show win4_0.index t (1 : Fin 2) * 128 + 1 * k = k; omega
  have rd1 : ∀ (r : Nat) (hr : r < 5000) (k : Nat) (hk : k < 128), ((cfg4.win 1).blk t).view.emb (at2 r hr k hk)
      = at2 (win4_5.index t (0 : Fin 2) * 5000 + r) (by omega) k hk := by
    intro r hr k hk; funext a; apply Fin.ext
    match a with
    | ⟨0, _⟩ => show win4_1.index t (0 : Fin 2) * 5000 + 1 * r = win4_5.index t (0 : Fin 2) * 5000 + r; omega
    | ⟨1, _⟩ => show win4_1.index t (1 : Fin 2) * 128 + 1 * k = k; omega
  have rd2 : ∀ (r : Nat) (hr : r < 128) (k : Nat) (hk : k < 128), ((cfg4.win 2).blk t).view.emb (at2 r hr k hk) = at2 r hr k hk := by
    intro r hr k hk; funext a; apply Fin.ext
    match a with
    | ⟨0, _⟩ => show win4_2.index t (0 : Fin 2) * 128 + 1 * r = r; omega
    | ⟨1, _⟩ => show win4_2.index t (1 : Fin 2) * 128 + 1 * k = k; omega
  have rd3 : ∀ (r : Nat) (hr : r < 128) (k : Nat) (hk : k < 128), ((cfg4.win 3).blk t).view.emb (at2 r hr k hk) = at2 r hr k hk := by
    intro r hr k hk; funext a; apply Fin.ext
    match a with
    | ⟨0, _⟩ => show win4_3.index t (0 : Fin 2) * 128 + 1 * r = r; omega
    | ⟨1, _⟩ => show win4_3.index t (1 : Fin 2) * 128 + 1 * k = k; omega
  have rd4 : ∀ (r : Nat) (hr : r < 1) (k : Nat) (hk : k < 128), ((cfg4.win 4).blk t).view.emb (at2 r hr k hk) = at2 r hr k hk := by
    intro r hr k hk; funext a; apply Fin.ext
    match a with
    | ⟨0, _⟩ => show win4_4.index t (0 : Fin 2) * 1 + 1 * r = r; omega
    | ⟨1, _⟩ => show win4_4.index t (1 : Fin 2) * 128 + 1 * k = k; omega
  have rd5 : ∀ (r : Nat) (hr : r < 5000) (k : Nat) (hk : k < 128), ((cfg4.win 5).blk t).view.emb (at2 r hr k hk)
      = at2 (win4_5.index t (0 : Fin 2) * 5000 + r) (by omega) k hk := by
    intro r hr k hk; funext a; apply Fin.ext
    match a with
    | ⟨0, _⟩ => show win4_5.index t (0 : Fin 2) * 5000 + 1 * r = win4_5.index t (0 : Fin 2) * 5000 + r; omega
    | ⟨1, _⟩ => show win4_5.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k4_pay1 (F := Ideal) (fun z => V c main_v109 (((cfg4.win 0).blk t).view.emb z)) (fun z => V c main_v103 (((cfg4.win 1).blk t).view.emb z)) (fun z => V c main_v112 (((cfg4.win 2).blk t).view.emb z)) (fun z => V c main_v115 (((cfg4.win 3).blk t).view.emb z)) (fun z => V c main_v118 (((cfg4.win 4).blk t).view.emb z)) (at2 r hr q hq)
    = (cl2 (V c main_v109) (V c main_v103) (V c main_v112) (V c main_v115) (fun k => V c main_v118 (at2 0 (by decide) k.val k.isLt))) (((cfg4.win 5).blk t).view.emb (at2 r hr q hq))
  rw [pay4, rd5]
  simp only [rd0, rd1, rd2, rd3, rd4]
  rfl

/-- An index of the array is in point t's block iff each coordinate is in the block's range on its axis. -/
theorem mem_blk (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v119).slice (win4_5.rect t)).set ↔ _
  rw [View.set_slice_whole, Rect.mem_set_unit]
  exact Iff.rfl

/-- Row r lies in the block of point r / 5000. -/
theorem cover (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := idx_onto ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- The result array after the launch, as one function of the input arrays as the launch finds them. -/
theorem final (c : Dev nD) : (dat4 V c).arrAt 5 cfg4.N = cl2 (V c main_v109) (V c main_v103) (V c main_v112) (V c main_v115) (fun k => V c main_v118 (at2 0 (by decide) k.val k.isLt)) :=
  (dat4 V c).arrAt_eq_of_cover 5 _ (fun t _ => flushed V c t) cover

end Cert.KernelIdeal.KReg4

end
-- ==== Proof.KReg5.lean ====
/-
  Launch 5: a block of 5000 rows times a 128 × 128 matrix, ten blocks down the rows. At the ideal instance the narrowing
  of both operands is the identity and the block product into a zero accumulator is the plain sum over the contracted
  coordinate, so block t of the result is rows 5000·t … 5000·t + 4999 of x · w; the ten blocks tile the 50000 rows and the
  array ends as the whole product.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg5

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg5.N,
    win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) ≤ 9 :=
  (by decide +kernel : ∀ t : Fin grid5.N, _)

/-- Every one of the ten row blocks is some point's. -/
theorem idx_onto : ∀ q0 : Fin 10, ∃ t : Fin cfg5.N, win5_2.index t = ![q0.val, 0] :=
  (by decide +kernel : ∀ q0 : Fin 10, ∃ t : Fin grid5.N, win5_2.index t = ![q0.val, 0])

/-- What point t writes back is block t of the whole-array function. -/
theorem flushed (c : Dev nD) (t : Fin cfg5.N) :
    (dat5 V c).flushed 2 t = ((cfg5.win 2).blk t).view.read (Elt Ideal) (mm (V c main_v119) (V c main_v121)) := by
  show (cfg5.win 2).cut (grid5.coords t) ((dat5 V c).after 2 t) = _
  rw [after5_2]
  unfold out5_2
  rw [View.canon_unit_zero hz]
  simp only [View.ld_unit_zero (S := S5000x128) hz, View.ld_unit_zero (S := S128x128) hz]
  obtain ⟨e0, e1, e2, e3, e4, e5⟩ := idx_facts t
  have rd0 : ∀ (r : Nat) (hr : r < 5000) (k : Nat) (hk : k < 128), ((cfg5.win 0).blk t).view.emb (at2 r hr k hk)
      = at2 (win5_2.index t (0 : Fin 2) * 5000 + r) (by omega) k hk := by
    intro r hr k hk; funext a; apply Fin.ext
    match a with
    | ⟨0, _⟩ => show win5_0.index t (0 : Fin 2) * 5000 + 1 * r = win5_2.index t (0 : Fin 2) * 5000 + r; omega
    | ⟨1, _⟩ => show win5_0.index t (1 : Fin 2) * 128 + 1 * k = k; omega
  have rd1 : ∀ (r : Nat) (hr : r < 128) (k : Nat) (hk : k < 128), ((cfg5.win 1).blk t).view.emb (at2 r hr k hk) = at2 r hr k hk := by
    intro r hr k hk; funext a; apply Fin.ext
    match a with
    | ⟨0, _⟩ => show win5_1.index t (0 : Fin 2) * 128 + 1 * r = r; omega
    | ⟨1, _⟩ => show win5_1.index t (1 : Fin 2) * 128 + 1 * k = k; omega
  have rd2 : ∀ (r : Nat) (hr : r < 5000) (k : Nat) (hk : k < 128), ((cfg5.win 2).blk t).view.emb (at2 r hr k hk)
      = at2 (win5_2.index t (0 : Fin 2) * 5000 + r) (by omega) k hk := by
    intro r hr k hk; funext a; apply Fin.ext
    match a with
    | ⟨0, _⟩ => show win5_2.index t (0 : Fin 2) * 5000 + 1 * r = win5_2.index t (0 : Fin 2) * 5000 + r; omega
    | ⟨1, _⟩ => show win5_2.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k5_pay1 (F := Ideal) (fun z => V c main_v119 (((cfg5.win 0).blk t).view.emb z)) (fun z => V c main_v121 (((cfg5.win 1).blk t).view.emb z)) (at2 r hr q hq)
    = (mm (V c main_v119) (V c main_v121)) (((cfg5.win 2).blk t).view.emb (at2 r hr q hq))
  rw [pay5, rd2]
  simp only [rd0, rd1]
  rfl

/-- An index of the array is in point t's block iff each coordinate is in the block's range on its axis. -/
theorem mem_blk (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v122).slice (win5_2.rect t)).set ↔ _
  rw [View.set_slice_whole, Rect.mem_set_unit]
  exact Iff.rfl

/-- Row r lies in the block of point r / 5000. -/
theorem cover (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := idx_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The result array after the launch, as one function of the input arrays as the launch finds them. -/
theorem final (c : Dev nD) : (dat5 V c).arrAt 2 cfg5.N = mm (V c main_v119) (V c main_v121) :=
  (dat5 V c).arrAt_eq_of_cover 2 _ (fun t _ => flushed V c t) cover

end Cert.KernelIdeal.KReg5

end
-- ==== Proof.KReg6.lean ====
/-
  Launch 6: a block of 5000 rows times a 128 × 128 matrix, ten blocks down the rows. At the ideal instance the narrowing
  of both operands is the identity and the block product into a zero accumulator is the plain sum over the contracted
  coordinate, so block t of the result is rows 5000·t … 5000·t + 4999 of x · w; the ten blocks tile the 50000 rows and the
  array ends as the whole product.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg6

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg6.N,
    win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 9 :=
  (by decide +kernel : ∀ t : Fin grid6.N, _)

/-- Every one of the ten row blocks is some point's. -/
theorem idx_onto : ∀ q0 : Fin 10, ∃ t : Fin cfg6.N, win6_2.index t = ![q0.val, 0] :=
  (by decide +kernel : ∀ q0 : Fin 10, ∃ t : Fin grid6.N, win6_2.index t = ![q0.val, 0])

/-- What point t writes back is block t of the whole-array function. -/
theorem flushed (c : Dev nD) (t : Fin cfg6.N) :
    (dat6 V c).flushed 2 t = ((cfg6.win 2).blk t).view.read (Elt Ideal) (mm (V c main_v119) (V c main_v124)) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x128) hz]
  obtain ⟨e0, e1, e2, e3, e4, e5⟩ := idx_facts t
  have rd0 : ∀ (r : Nat) (hr : r < 5000) (k : Nat) (hk : k < 128), ((cfg6.win 0).blk t).view.emb (at2 r hr k hk)
      = at2 (win6_2.index t (0 : Fin 2) * 5000 + r) (by omega) k hk := by
    intro r hr k hk; funext a; apply Fin.ext
    match a with
    | ⟨0, _⟩ => show win6_0.index t (0 : Fin 2) * 5000 + 1 * r = win6_2.index t (0 : Fin 2) * 5000 + r; omega
    | ⟨1, _⟩ => show win6_0.index t (1 : Fin 2) * 128 + 1 * k = k; omega
  have rd1 : ∀ (r : Nat) (hr : r < 128) (k : Nat) (hk : k < 128), ((cfg6.win 1).blk t).view.emb (at2 r hr k hk) = at2 r hr k hk := by
    intro r hr k hk; funext a; apply Fin.ext
    match a with
    | ⟨0, _⟩ => show win6_1.index t (0 : Fin 2) * 128 + 1 * r = r; omega
    | ⟨1, _⟩ => show win6_1.index t (1 : Fin 2) * 128 + 1 * k = k; omega
  have rd2 : ∀ (r : Nat) (hr : r < 5000) (k : Nat) (hk : k < 128), ((cfg6.win 2).blk t).view.emb (at2 r hr k hk)
      = at2 (win6_2.index t (0 : Fin 2) * 5000 + r) (by omega) k hk := by
    intro r hr k hk; funext a; apply Fin.ext
    match a with
    | ⟨0, _⟩ => show win6_2.index t (0 : Fin 2) * 5000 + 1 * r = win6_2.index t (0 : Fin 2) * 5000 + r; omega
    | ⟨1, _⟩ => show win6_2.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k6_pay1 (F := Ideal) (fun z => V c main_v119 (((cfg6.win 0).blk t).view.emb z)) (fun z => V c main_v124 (((cfg6.win 1).blk t).view.emb z)) (at2 r hr q hq)
    = (mm (V c main_v119) (V c main_v124)) (((cfg6.win 2).blk t).view.emb (at2 r hr q hq))
  rw [pay6, rd2]
  simp only [rd0, rd1]
  rfl

/-- An index of the array is in point t's block iff each coordinate is in the block's range on its axis. -/
theorem mem_blk (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v125).slice (win6_2.rect t)).set ↔ _
  rw [View.set_slice_whole, Rect.mem_set_unit]
  exact Iff.rfl

/-- Row r lies in the block of point r / 5000. -/
theorem cover (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := idx_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The result array after the launch, as one function of the input arrays as the launch finds them. -/
theorem final (c : Dev nD) : (dat6 V c).arrAt 2 cfg6.N = mm (V c main_v119) (V c main_v124) :=
  (dat6 V c).arrAt_eq_of_cover 2 _ (fun t _ => flushed V c t) cover

end Cert.KernelIdeal.KReg6

end
-- ==== Proof.KReg7.lean ====
/-
  Launch 7: every row of a 5000-row block, plus the bias row, is normalised to mean 0 and variance 1 (plus ε), scaled
  and shifted by two rows, clamped at zero, and the layer's input is added back. A row's result depends on that row only,
  so block t of the result is rows 5000·t … 5000·t + 4999 of the whole-array function, and the ten blocks tile the array.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg7

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg7.N,
    win7_0.index t (0 : Fin 2) = win7_5.index t (0 : Fin 2)
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = win7_5.index t (0 : Fin 2)
    ∧ win7_4.index t (1 : Fin 2) = 0
    ∧ win7_5.index t (1 : Fin 2) = 0
    ∧ win7_5.index t (0 : Fin 2) ≤ 9 :=
  (by decide +kernel : ∀ t : Fin grid7.N, _)

/-- Every one of the ten row blocks is some point's. -/
theorem idx_onto : ∀ q0 : Fin 10, ∃ t : Fin cfg7.N, win7_5.index t = ![q0.val, 0] :=
  (by decide +kernel : ∀ q0 : Fin 10, ∃ t : Fin grid7.N, win7_5.index t = ![q0.val, 0])

/-- What point t writes back is block t of the whole-array function. -/
theorem flushed (c : Dev nD) (t : Fin cfg7.N) :
    (dat7 V c).flushed 5 t = ((cfg7.win 5).blk t).view.read (Elt Ideal) (lnr (V c main_v142) (fun k => V c main_v162 (at2 0 (by decide) k.val k.isLt)) (fun k => V c main_v163 (at2 0 (by decide) k.val k.isLt)) (fun k => V c main_v164 (at2 0 (by decide) k.val k.isLt)) (V c main_v119)) := by
  show (cfg7.win 5).cut (grid7.coords t) ((dat7 V c).after 5 t) = _
  rw [after7_5]
  unfold out7_5
  rw [View.canon_unit_zero hz]
  simp only [View.ld_unit_zero (S := S5000x128) hz, View.ld_unit_zero (S := S1x128) hz]
  obtain ⟨e0, e1, e2, e3, e4, e5, e6, e7, e8, e9, e10, e11⟩ := idx_facts t
  have rd0 : ∀ (r : Nat) (hr : r < 5000) (k : Nat) (hk : k < 128), ((cfg7.win 0).blk t).view.emb (at2 r hr k hk)
      = at2 (win7_5.index t (0 : Fin 2) * 5000 + r) (by omega) k hk := by
    intro r hr k hk; funext a; apply Fin.ext
    match a with
    | ⟨0, _⟩ => show win7_0.index t (0 : Fin 2) * 5000 + 1 * r = win7_5.index t (0 : Fin 2) * 5000 + r; omega
    | ⟨1, _⟩ => show win7_0.index t (1 : Fin 2) * 128 + 1 * k = k; omega
  have rd1 : ∀ (r : Nat) (hr : r < 1) (k : Nat) (hk : k < 128), ((cfg7.win 1).blk t).view.emb (at2 r hr k hk) = at2 r hr k hk := by
    intro r hr k hk; funext a; apply Fin.ext
    match a with
    | ⟨0, _⟩ => show win7_1.index t (0 : Fin 2) * 1 + 1 * r = r; omega
    | ⟨1, _⟩ => show win7_1.index t (1 : Fin 2) * 128 + 1 * k = k; omega
  have rd2 : ∀ (r : Nat) (hr : r < 1) (k : Nat) (hk : k < 128), ((cfg7.win 2).blk t).view.emb (at2 r hr k hk) = at2 r hr k hk := by
    intro r hr k hk; funext a; apply Fin.ext
    match a with
    | ⟨0, _⟩ => show win7_2.index t (0 : Fin 2) * 1 + 1 * r = r; omega
    | ⟨1, _⟩ => show win7_2.index t (1 : Fin 2) * 128 + 1 * k = k; omega
  have rd3 : ∀ (r : Nat) (hr : r < 1) (k : Nat) (hk : k < 128), ((cfg7.win 3).blk t).view.emb (at2 r hr k hk) = at2 r hr k hk := by
    intro r hr k hk; funext a; apply Fin.ext
    match a with
    | ⟨0, _⟩ => show win7_3.index t (0 : Fin 2) * 1 + 1 * r = r; omega
    | ⟨1, _⟩ => show win7_3.index t (1 : Fin 2) * 128 + 1 * k = k; omega
  have rd4 : ∀ (r : Nat) (hr : r < 5000) (k : Nat) (hk : k < 128), ((cfg7.win 4).blk t).view.emb (at2 r hr k hk)
      = at2 (win7_5.index t (0 : Fin 2) * 5000 + r) (by omega) k hk := by
    intro r hr k hk; funext a; apply Fin.ext
    match a with
    | ⟨0, _⟩ => show win7_4.index t (0 : Fin 2) * 5000 + 1 * r = win7_5.index t (0 : Fin 2) * 5000 + r; omega
    | ⟨1, _⟩ => show win7_4.index t (1 : Fin 2) * 128 + 1 * k = k; omega
  have rd5 : ∀ (r : Nat) (hr : r < 5000) (k : Nat) (hk : k < 128), ((cfg7.win 5).blk t).view.emb (at2 r hr k hk)
      = at2 (win7_5.index t (0 : Fin 2) * 5000 + r) (by omega) k hk := by
    intro r hr k hk; funext a; apply Fin.ext
    match a with
    | ⟨0, _⟩ => show win7_5.index t (0 : Fin 2) * 5000 + 1 * r = win7_5.index t (0 : Fin 2) * 5000 + r; omega
    | ⟨1, _⟩ => show win7_5.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k7_pay1 (F := Ideal) (fun z => V c main_v142 (((cfg7.win 0).blk t).view.emb z)) (fun z => V c main_v162 (((cfg7.win 1).blk t).view.emb z)) (fun z => V c main_v163 (((cfg7.win 2).blk t).view.emb z)) (fun z => V c main_v164 (((cfg7.win 3).blk t).view.emb z)) (fun z => V c main_v119 (((cfg7.win 4).blk t).view.emb z)) (at2 r hr q hq)
    = (lnr (V c main_v142) (fun k => V c main_v162 (at2 0 (by decide) k.val k.isLt)) (fun k => V c main_v163 (at2 0 (by decide) k.val k.isLt)) (fun k => V c main_v164 (at2 0 (by decide) k.val k.isLt)) (V c main_v119)) (((cfg7.win 5).blk t).view.emb (at2 r hr q hq))
  rw [pay7, rd5]
  simp only [rd0, rd1, rd2, rd3, rd4]
  rfl

/-- An index of the array is in point t's block iff each coordinate is in the block's range on its axis. -/
theorem mem_blk (t : Fin cfg7.N) (i : S50000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole main_v165).slice (win7_5.rect t)).set ↔ _
  rw [View.set_slice_whole, Rect.mem_set_unit]
  exact Iff.rfl

/-- Row r lies in the block of point r / 5000. -/
theorem cover (i : S50000x128.Idx) : ∃ t : Fin cfg7.N, (cfg7.win 5).flush t = true ∧ i ∈ ((cfg7.win 5).blk t).view.set := by
  have hi0 : (i 0).val < 50000 := (i 0).isLt
  have hi1 : (i 1).val < 128 := (i 1).isLt
  obtain ⟨t, ht⟩ := idx_onto ⟨(i 0).val / 5000, by omega⟩
  have q0 : win7_5.index t (0 : Fin 2) = (i 0).val / 5000 := congrFun ht 0
  have q1 : win7_5.index t (1 : Fin 2) = 0 := congrFun ht 1
  refine ⟨t, flush7_5 t, ?_⟩
  rw [mem_blk]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 128 ≤ (i 1).val ∧ (i 1).val < win7_5.index t (1 : Fin 2) * 128 + 128; omega

/-- The result array after the launch, as one function of the input arrays as the launch finds them. -/
theorem final (c : Dev nD) : (dat7 V c).arrAt 5 cfg7.N = lnr (V c main_v142) (fun k => V c main_v162 (at2 0 (by decide) k.val k.isLt)) (fun k => V c main_v163 (at2 0 (by decide) k.val k.isLt)) (fun k => V c main_v164 (at2 0 (by decide) k.val k.isLt)) (V c main_v119) :=
  (dat7 V c).arrAt_eq_of_cover 5 _ (fun t _ => flushed V c t) cover

end Cert.KernelIdeal.KReg7

end
-- ==== Proof.KReg8.lean ====
/-
  Launch 8: every row of a 5000-row block, plus the bias row, is normalised to mean 0 and variance 1 (plus ε), scaled
  and shifted by two rows, clamped at zero, and the layer's input is added back. A row's result depends on that row only,
  so block t of the result is rows 5000·t … 5000·t + 4999 of the whole-array function, and the ten blocks tile the array.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg8

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg8.N,
    win8_0.index t (0 : Fin 2) = win8_5.index t (0 : Fin 2)
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = win8_5.index t (0 : Fin 2)
    ∧ win8_4.index t (1 : Fin 2) = 0
    ∧ win8_5.index t (1 : Fin 2) = 0
    ∧ win8_5.index t (0 : Fin 2) ≤ 9 :=
  (by decide +kernel : ∀ t : Fin grid8.N, _)

/-- Every one of the ten row blocks is some point's. -/
theorem idx_onto : ∀ q0 : Fin 10, ∃ t : Fin cfg8.N, win8_5.index t = ![q0.val, 0] :=
  (by decide +kernel : ∀ q0 : Fin 10, ∃ t : Fin grid8.N, win8_5.index t = ![q0.val, 0])

/-- What point t writes back is block t of the whole-array function. -/
theorem flushed (c : Dev nD) (t : Fin cfg8.N) :
    (dat8 V c).flushed 5 t = ((cfg8.win 5).blk t).view.read (Elt Ideal) (lnr (V c main_v159) (fun k => V c main_v168 (at2 0 (by decide) k.val k.isLt)) (fun k => V c main_v169 (at2 0 (by decide) k.val k.isLt)) (fun k => V c main_v170 (at2 0 (by decide) k.val k.isLt)) (V c main_v119)) := by
  show (cfg8.win 5).cut (grid8.coords t) ((dat8 V c).after 5 t) = _
  rw [after8_5]
  unfold out8_5
  rw [View.canon_unit_zero hz]
  simp only [View.ld_unit_zero (S := S5000x128) hz, View.ld_unit_zero (S := S1x128) hz]
  obtain ⟨e0, e1, e2, e3, e4, e5, e6, e7, e8, e9, e10, e11⟩ := idx_facts t
  have rd0 : ∀ (r : Nat) (hr : r < 5000) (k : Nat) (hk : k < 128), ((cfg8.win 0).blk t).view.emb (at2 r hr k hk)
      = at2 (win8_5.index t (0 : Fin 2) * 5000 + r) (by omega) k hk := by
    intro r hr k hk; funext a; apply Fin.ext
    match a with
    | ⟨0, _⟩ => show win8_0.index t (0 : Fin 2) * 5000 + 1 * r = win8_5.index t (0 : Fin 2) * 5000 + r; omega
    | ⟨1, _⟩ => show win8_0.index t (1 : Fin 2) * 128 + 1 * k = k; omega
  have rd1 : ∀ (r : Nat) (hr : r < 1) (k : Nat) (hk : k < 128), ((cfg8.win 1).blk t).view.emb (at2 r hr k hk) = at2 r hr k hk := by
    intro r hr k hk; funext a; apply Fin.ext
    match a with
    | ⟨0, _⟩ => show win8_1.index t (0 : Fin 2) * 1 + 1 * r = r; omega
    | ⟨1, _⟩ => show win8_1.index t (1 : Fin 2) * 128 + 1 * k = k; omega
  have rd2 : ∀ (r : Nat) (hr : r < 1) (k : Nat) (hk : k < 128), ((cfg8.win 2).blk t).view.emb (at2 r hr k hk) = at2 r hr k hk := by
    intro r hr k hk; funext a; apply Fin.ext
    match a with
    | ⟨0, _⟩ => show win8_2.index t (0 : Fin 2) * 1 + 1 * r = r; omega
    | ⟨1, _⟩ => show win8_2.index t (1 : Fin 2) * 128 + 1 * k = k; omega
  have rd3 : ∀ (r : Nat) (hr : r < 1) (k : Nat) (hk : k < 128), ((cfg8.win 3).blk t).view.emb (at2 r hr k hk) = at2 r hr k hk := by
    intro r hr k hk; funext a; apply Fin.ext
    match a with
    | ⟨0, _⟩ => show win8_3.index t (0 : Fin 2) * 1 + 1 * r = r; omega
    | ⟨1, _⟩ => show win8_3.index t (1 : Fin 2) * 128 + 1 * k = k; omega
  have rd4 : ∀ (r : Nat) (hr : r < 5000) (k : Nat) (hk : k < 128), ((cfg8.win 4).blk t).view.emb (at2 r hr k hk)
      = at2 (win8_5.index t (0 : Fin 2) * 5000 + r) (by omega) k hk := by
    intro r hr k hk; funext a; apply Fin.ext
    match a with
    | ⟨0, _⟩ => show win8_4.index t (0 : Fin 2) * 5000 + 1 * r = win8_5.index t (0 : Fin 2) * 5000 + r; omega
    | ⟨1, _⟩ => show win8_4.index t (1 : Fin 2) * 128 + 1 * k = k; omega
  have rd5 : ∀ (r : Nat) (hr : r < 5000) (k : Nat) (hk : k < 128), ((cfg8.win 5).blk t).view.emb (at2 r hr k hk)
      = at2 (win8_5.index t (0 : Fin 2) * 5000 + r) (by omega) k hk := by
    intro r hr k hk; funext a; apply Fin.ext
    match a with
    | ⟨0, _⟩ => show win8_5.index t (0 : Fin 2) * 5000 + 1 * r = win8_5.index t (0 : Fin 2) * 5000 + r; omega
    | ⟨1, _⟩ => show win8_5.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k8_pay1 (F := Ideal) (fun z => V c main_v159 (((cfg8.win 0).blk t).view.emb z)) (fun z => V c main_v168 (((cfg8.win 1).blk t).view.emb z)) (fun z => V c main_v169 (((cfg8.win 2).blk t).view.emb z)) (fun z => V c main_v170 (((cfg8.win 3).blk t).view.emb z)) (fun z => V c main_v119 (((cfg8.win 4).blk t).view.emb z)) (at2 r hr q hq)
    = (lnr (V c main_v159) (fun k => V c main_v168 (at2 0 (by decide) k.val k.isLt)) (fun k => V c main_v169 (at2 0 (by decide) k.val k.isLt)) (fun k => V c main_v170 (at2 0 (by decide) k.val k.isLt)) (V c main_v119)) (((cfg8.win 5).blk t).view.emb (at2 r hr q hq))
  rw [pay8, rd5]
  simp only [rd0, rd1, rd2, rd3, rd4]
  rfl

/-- An index of the array is in point t's block iff each coordinate is in the block's range on its axis. -/
theorem mem_blk (t : Fin cfg8.N) (i : S50000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole main_v171).slice (win8_5.rect t)).set ↔ _
  rw [View.set_slice_whole, Rect.mem_set_unit]
  exact Iff.rfl

/-- Row r lies in the block of point r / 5000. -/
theorem cover (i : S50000x128.Idx) : ∃ t : Fin cfg8.N, (cfg8.win 5).flush t = true ∧ i ∈ ((cfg8.win 5).blk t).view.set := by
  have hi0 : (i 0).val < 50000 := (i 0).isLt
  have hi1 : (i 1).val < 128 := (i 1).isLt
  obtain ⟨t, ht⟩ := idx_onto ⟨(i 0).val / 5000, by omega⟩
  have q0 : win8_5.index t (0 : Fin 2) = (i 0).val / 5000 := congrFun ht 0
  have q1 : win8_5.index t (1 : Fin 2) = 0 := congrFun ht 1
  refine ⟨t, flush8_5 t, ?_⟩
  rw [mem_blk]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 128 ≤ (i 1).val ∧ (i 1).val < win8_5.index t (1 : Fin 2) * 128 + 128; omega

/-- The result array after the launch, as one function of the input arrays as the launch finds them. -/
theorem final (c : Dev nD) : (dat8 V c).arrAt 5 cfg8.N = lnr (V c main_v159) (fun k => V c main_v168 (at2 0 (by decide) k.val k.isLt)) (fun k => V c main_v169 (at2 0 (by decide) k.val k.isLt)) (fun k => V c main_v170 (at2 0 (by decide) k.val k.isLt)) (V c main_v119) :=
  (dat8 V c).arrAt_eq_of_cover 5 _ (fun t _ => flushed V c t) cover

end Cert.KernelIdeal.KReg8

end
-- ==== Proof.KReg9.lean ====
/-
  Launch 9: two blocks of 5000 rows, each times its own 128 × 128 matrix, the two products added and a bias row added.
  Block t of the result is rows 5000·t … 5000·t + 4999 of the whole-array function, and the ten blocks tile the array.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg9

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg9.N,
    win9_0.index t (0 : Fin 2) = win9_5.index t (0 : Fin 2)
    ∧ win9_0.index t (1 : Fin 2) = 0
    ∧ win9_1.index t (0 : Fin 2) = win9_5.index t (0 : Fin 2)
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (1 : Fin 2) = 0
    ∧ win9_5.index t (0 : Fin 2) ≤ 9 :=
  (by decide +kernel : ∀ t : Fin grid9.N, _)

/-- Every one of the ten row blocks is some point's. -/
theorem idx_onto : ∀ q0 : Fin 10, ∃ t : Fin cfg9.N, win9_5.index t = ![q0.val, 0] :=
  (by decide +kernel : ∀ q0 : Fin 10, ∃ t : Fin grid9.N, win9_5.index t = ![q0.val, 0])

/-- What point t writes back is block t of the whole-array function. -/
theorem flushed (c : Dev nD) (t : Fin cfg9.N) :
    (dat9 V c).flushed 5 t = ((cfg9.win 5).blk t).view.read (Elt Ideal) (cl2 (V c main_v171) (V c main_v165) (V c main_v174) (V c main_v177) (fun k => V c main_v180 (at2 0 (by decide) k.val k.isLt))) := by
  show (cfg9.win 5).cut (grid9.coords t) ((dat9 V c).after 5 t) = _
  rw [after9_5]
  unfold out9_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts t
  have rd0 : ∀ (r : Nat) (hr : r < 5000) (k : Nat) (hk : k < 128), ((cfg9.win 0).blk t).view.emb (at2 r hr k hk)
      = at2 (win9_5.index t (0 : Fin 2) * 5000 + r) (by omega) k hk := by
    intro r hr k hk; funext a; apply Fin.ext
    match a with
    | ⟨0, _⟩ => show win9_0.index t (0 : Fin 2) * 5000 + 1 * r = win9_5.index t (0 : Fin 2) * 5000 + r; omega
    | ⟨1, _⟩ => show win9_0.index t (1 : Fin 2) * 128 + 1 * k = k; omega
  have rd1 : ∀ (r : Nat) (hr : r < 5000) (k : Nat) (hk : k < 128), ((cfg9.win 1).blk t).view.emb (at2 r hr k hk)
      = at2 (win9_5.index t (0 : Fin 2) * 5000 + r) (by omega) k hk := by
    intro r hr k hk; funext a; apply Fin.ext
    match a with
    | ⟨0, _⟩ => show win9_1.index t (0 : Fin 2) * 5000 + 1 * r = win9_5.index t (0 : Fin 2) * 5000 + r; omega
    | ⟨1, _⟩ => show win9_1.index t (1 : Fin 2) * 128 + 1 * k = k; omega
  have rd2 : ∀ (r : Nat) (hr : r < 128) (k : Nat) (hk : k < 128), ((cfg9.win 2).blk t).view.emb (at2 r hr k hk) = at2 r hr k hk := by
    intro r hr k hk; funext a; apply Fin.ext
    match a with
    | ⟨0, _⟩ => show win9_2.index t (0 : Fin 2) * 128 + 1 * r = r; omega
    | ⟨1, _⟩ => show win9_2.index t (1 : Fin 2) * 128 + 1 * k = k; omega
  have rd3 : ∀ (r : Nat) (hr : r < 128) (k : Nat) (hk : k < 128), ((cfg9.win 3).blk t).view.emb (at2 r hr k hk) = at2 r hr k hk := by
    intro r hr k hk; funext a; apply Fin.ext
    match a with
    | ⟨0, _⟩ => show win9_3.index t (0 : Fin 2) * 128 + 1 * r = r; omega
    | ⟨1, _⟩ => show win9_3.index t (1 : Fin 2) * 128 + 1 * k = k; omega
  have rd4 : ∀ (r : Nat) (hr : r < 1) (k : Nat) (hk : k < 128), ((cfg9.win 4).blk t).view.emb (at2 r hr k hk) = at2 r hr k hk := by
    intro r hr k hk; funext a; apply Fin.ext
    match a with
    | ⟨0, _⟩ => show win9_4.index t (0 : Fin 2) * 1 + 1 * r = r; omega
    | ⟨1, _⟩ => show win9_4.index t (1 : Fin 2) * 128 + 1 * k = k; omega
  have rd5 : ∀ (r : Nat) (hr : r < 5000) (k : Nat) (hk : k < 128), ((cfg9.win 5).blk t).view.emb (at2 r hr k hk)
      = at2 (win9_5.index t (0 : Fin 2) * 5000 + r) (by omega) k hk := by
    intro r hr k hk; funext a; apply Fin.ext
    match a with
    | ⟨0, _⟩ => show win9_5.index t (0 : Fin 2) * 5000 + 1 * r = win9_5.index t (0 : Fin 2) * 5000 + r; omega
    | ⟨1, _⟩ => show win9_5.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k9_pay1 (F := Ideal) (fun z => V c main_v171 (((cfg9.win 0).blk t).view.emb z)) (fun z => V c main_v165 (((cfg9.win 1).blk t).view.emb z)) (fun z => V c main_v174 (((cfg9.win 2).blk t).view.emb z)) (fun z => V c main_v177 (((cfg9.win 3).blk t).view.emb z)) (fun z => V c main_v180 (((cfg9.win 4).blk t).view.emb z)) (at2 r hr q hq)
    = (cl2 (V c main_v171) (V c main_v165) (V c main_v174) (V c main_v177) (fun k => V c main_v180 (at2 0 (by decide) k.val k.isLt))) (((cfg9.win 5).blk t).view.emb (at2 r hr q hq))
  rw [pay9, rd5]
  simp only [rd0, rd1, rd2, rd3, rd4]
  rfl

/-- An index of the array is in point t's block iff each coordinate is in the block's range on its axis. -/
theorem mem_blk (t : Fin cfg9.N) (i : S50000x128.Idx) :
    i ∈ ((cfg9.win 5).blk t).view.set ↔ ∀ a : Fin 2, win9_5.index t a * S5000x128.size a ≤ (i a).val ∧ (i a).val < win9_5.index t a * S5000x128.size a + S5000x128.size a := by
  show i ∈ ((View.whole main_v181).slice (win9_5.rect t)).set ↔ _
  rw [View.set_slice_whole, Rect.mem_set_unit]
  exact Iff.rfl

/-- Row r lies in the block of point r / 5000. -/
theorem cover (i : S50000x128.Idx) : ∃ t : Fin cfg9.N, (cfg9.win 5).flush t = true ∧ i ∈ ((cfg9.win 5).blk t).view.set := by
  have hi0 : (i 0).val < 50000 := (i 0).isLt
  have hi1 : (i 1).val < 128 := (i 1).isLt
  obtain ⟨t, ht⟩ := idx_onto ⟨(i 0).val / 5000, by omega⟩
  have q0 : win9_5.index t (0 : Fin 2) = (i 0).val / 5000 := congrFun ht 0
  have q1 : win9_5.index t (1 : Fin 2) = 0 := congrFun ht 1
  refine ⟨t, flush9_5 t, ?_⟩
  rw [mem_blk]
  intro a
  match a with
  | ⟨0, _⟩ => show win9_5.index t (0 : Fin 2) * 5000 ≤ (i 0).val ∧ (i 0).val < win9_5.index t (0 : Fin 2) * 5000 + 5000; omega
  | ⟨1, _⟩ => show win9_5.index t (1 : Fin 2) * 128 ≤ (i 1).val ∧ (i 1).val < win9_5.index t (1 : Fin 2) * 128 + 128; omega

/-- The result array after the launch, as one function of the input arrays as the launch finds them. -/
theorem final (c : Dev nD) : (dat9 V c).arrAt 5 cfg9.N = cl2 (V c main_v171) (V c main_v165) (V c main_v174) (V c main_v177) (fun k => V c main_v180 (at2 0 (by decide) k.val k.isLt)) :=
  (dat9 V c).arrAt_eq_of_cover 5 _ (fun t _ => flushed V c t) cover

end Cert.KernelIdeal.KReg9

end
-- ==== Proof.KReg10.lean ====
/-
  Launch 10: a block of 5000 rows times a 128 × 128 matrix, ten blocks down the rows. At the ideal instance the narrowing
  of both operands is the identity and the block product into a zero accumulator is the plain sum over the contracted
  coordinate, so block t of the result is rows 5000·t … 5000·t + 4999 of x · w; the ten blocks tile the 50000 rows and the
  array ends as the whole product.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg10

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg10.N,
    win10_0.index t (0 : Fin 2) = win10_2.index t (0 : Fin 2)
    ∧ win10_0.index t (1 : Fin 2) = 0
    ∧ win10_1.index t (0 : Fin 2) = 0
    ∧ win10_1.index t (1 : Fin 2) = 0
    ∧ win10_2.index t (1 : Fin 2) = 0
    ∧ win10_2.index t (0 : Fin 2) ≤ 9 :=
  (by decide +kernel : ∀ t : Fin grid10.N, _)

/-- Every one of the ten row blocks is some point's. -/
theorem idx_onto : ∀ q0 : Fin 10, ∃ t : Fin cfg10.N, win10_2.index t = ![q0.val, 0] :=
  (by decide +kernel : ∀ q0 : Fin 10, ∃ t : Fin grid10.N, win10_2.index t = ![q0.val, 0])

/-- What point t writes back is block t of the whole-array function. -/
theorem flushed (c : Dev nD) (t : Fin cfg10.N) :
    (dat10 V c).flushed 2 t = ((cfg10.win 2).blk t).view.read (Elt Ideal) (mm (V c main_v181) (V c main_v183)) := by
  show (cfg10.win 2).cut (grid10.coords t) ((dat10 V c).after 2 t) = _
  rw [after10_2]
  unfold out10_2
  rw [View.canon_unit_zero hz]
  simp only [View.ld_unit_zero (S := S5000x128) hz, View.ld_unit_zero (S := S128x128) hz]
  obtain ⟨e0, e1, e2, e3, e4, e5⟩ := idx_facts t
  have rd0 : ∀ (r : Nat) (hr : r < 5000) (k : Nat) (hk : k < 128), ((cfg10.win 0).blk t).view.emb (at2 r hr k hk)
      = at2 (win10_2.index t (0 : Fin 2) * 5000 + r) (by omega) k hk := by
    intro r hr k hk; funext a; apply Fin.ext
    match a with
    | ⟨0, _⟩ => show win10_0.index t (0 : Fin 2) * 5000 + 1 * r = win10_2.index t (0 : Fin 2) * 5000 + r; omega
    | ⟨1, _⟩ => show win10_0.index t (1 : Fin 2) * 128 + 1 * k = k; omega
  have rd1 : ∀ (r : Nat) (hr : r < 128) (k : Nat) (hk : k < 128), ((cfg10.win 1).blk t).view.emb (at2 r hr k hk) = at2 r hr k hk := by
    intro r hr k hk; funext a; apply Fin.ext
    match a with
    | ⟨0, _⟩ => show win10_1.index t (0 : Fin 2) * 128 + 1 * r = r; omega
    | ⟨1, _⟩ => show win10_1.index t (1 : Fin 2) * 128 + 1 * k = k; omega
  have rd2 : ∀ (r : Nat) (hr : r < 5000) (k : Nat) (hk : k < 128), ((cfg10.win 2).blk t).view.emb (at2 r hr k hk)
      = at2 (win10_2.index t (0 : Fin 2) * 5000 + r) (by omega) k hk := by
    intro r hr k hk; funext a; apply Fin.ext
    match a with
    | ⟨0, _⟩ => show win10_2.index t (0 : Fin 2) * 5000 + 1 * r = win10_2.index t (0 : Fin 2) * 5000 + r; omega
    | ⟨1, _⟩ => show win10_2.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k10_pay1 (F := Ideal) (fun z => V c main_v181 (((cfg10.win 0).blk t).view.emb z)) (fun z => V c main_v183 (((cfg10.win 1).blk t).view.emb z)) (at2 r hr q hq)
    = (mm (V c main_v181) (V c main_v183)) (((cfg10.win 2).blk t).view.emb (at2 r hr q hq))
  rw [pay10, rd2]
  simp only [rd0, rd1]
  rfl

/-- An index of the array is in point t's block iff each coordinate is in the block's range on its axis. -/
theorem mem_blk (t : Fin cfg10.N) (i : S50000x128.Idx) :
    i ∈ ((cfg10.win 2).blk t).view.set ↔ ∀ a : Fin 2, win10_2.index t a * S5000x128.size a ≤ (i a).val ∧ (i a).val < win10_2.index t a * S5000x128.size a + S5000x128.size a := by
  show i ∈ ((View.whole main_v184).slice (win10_2.rect t)).set ↔ _
  rw [View.set_slice_whole, Rect.mem_set_unit]
  exact Iff.rfl

/-- Row r lies in the block of point r / 5000. -/
theorem cover (i : S50000x128.Idx) : ∃ t : Fin cfg10.N, (cfg10.win 2).flush t = true ∧ i ∈ ((cfg10.win 2).blk t).view.set := by
  have hi0 : (i 0).val < 50000 := (i 0).isLt
  have hi1 : (i 1).val < 128 := (i 1).isLt
  obtain ⟨t, ht⟩ := idx_onto ⟨(i 0).val / 5000, by omega⟩
  have q0 : win10_2.index t (0 : Fin 2) = (i 0).val / 5000 := congrFun ht 0
  have q1 : win10_2.index t (1 : Fin 2) = 0 := congrFun ht 1
  refine ⟨t, flush10_2 t, ?_⟩
  rw [mem_blk]
  intro a
  match a with
  | ⟨0, _⟩ => show win10_2.index t (0 : Fin 2) * 5000 ≤ (i 0).val ∧ (i 0).val < win10_2.index t (0 : Fin 2) * 5000 + 5000; omega
  | ⟨1, _⟩ => show win10_2.index t (1 : Fin 2) * 128 ≤ (i 1).val ∧ (i 1).val < win10_2.index t (1 : Fin 2) * 128 + 128; omega

/-- The result array after the launch, as one function of the input arrays as the launch finds them. -/
theorem final (c : Dev nD) : (dat10 V c).arrAt 2 cfg10.N = mm (V c main_v181) (V c main_v183) :=
  (dat10 V c).arrAt_eq_of_cover 2 _ (fun t _ => flushed V c t) cover

end Cert.KernelIdeal.KReg10

end
-- ==== Proof.KReg11.lean ====
/-
  Launch 11: a block of 5000 rows times a 128 × 128 matrix, ten blocks down the rows. At the ideal instance the narrowing
  of both operands is the identity and the block product into a zero accumulator is the plain sum over the contracted
  coordinate, so block t of the result is rows 5000·t … 5000·t + 4999 of x · w; the ten blocks tile the 50000 rows and the
  array ends as the whole product.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg11

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg11.N,
    win11_0.index t (0 : Fin 2) = win11_2.index t (0 : Fin 2)
    ∧ win11_0.index t (1 : Fin 2) = 0
    ∧ win11_1.index t (0 : Fin 2) = 0
    ∧ win11_1.index t (1 : Fin 2) = 0
    ∧ win11_2.index t (1 : Fin 2) = 0
    ∧ win11_2.index t (0 : Fin 2) ≤ 9 :=
  (by decide +kernel : ∀ t : Fin grid11.N, _)

/-- Every one of the ten row blocks is some point's. -/
theorem idx_onto : ∀ q0 : Fin 10, ∃ t : Fin cfg11.N, win11_2.index t = ![q0.val, 0] :=
  (by decide +kernel : ∀ q0 : Fin 10, ∃ t : Fin grid11.N, win11_2.index t = ![q0.val, 0])

/-- What point t writes back is block t of the whole-array function. -/
theorem flushed (c : Dev nD) (t : Fin cfg11.N) :
    (dat11 V c).flushed 2 t = ((cfg11.win 2).blk t).view.read (Elt Ideal) (mm (V c main_v181) (V c main_v186)) := by
  show (cfg11.win 2).cut (grid11.coords t) ((dat11 V c).after 2 t) = _
  rw [after11_2]
  unfold out11_2
  rw [View.canon_unit_zero hz]
  simp only [View.ld_unit_zero (S := S5000x128) hz, View.ld_unit_zero (S := S128x128) hz]
  obtain ⟨e0, e1, e2, e3, e4, e5⟩ := idx_facts t
  have rd0 : ∀ (r : Nat) (hr : r < 5000) (k : Nat) (hk : k < 128), ((cfg11.win 0).blk t).view.emb (at2 r hr k hk)
      = at2 (win11_2.index t (0 : Fin 2) * 5000 + r) (by omega) k hk := by
    intro r hr k hk; funext a; apply Fin.ext
    match a with
    | ⟨0, _⟩ => show win11_0.index t (0 : Fin 2) * 5000 + 1 * r = win11_2.index t (0 : Fin 2) * 5000 + r; omega
    | ⟨1, _⟩ => show win11_0.index t (1 : Fin 2) * 128 + 1 * k = k; omega
  have rd1 : ∀ (r : Nat) (hr : r < 128) (k : Nat) (hk : k < 128), ((cfg11.win 1).blk t).view.emb (at2 r hr k hk) = at2 r hr k hk := by
    intro r hr k hk; funext a; apply Fin.ext
    match a with
    | ⟨0, _⟩ => show win11_1.index t (0 : Fin 2) * 128 + 1 * r = r; omega
    | ⟨1, _⟩ => show win11_1.index t (1 : Fin 2) * 128 + 1 * k = k; omega
  have rd2 : ∀ (r : Nat) (hr : r < 5000) (k : Nat) (hk : k < 128), ((cfg11.win 2).blk t).view.emb (at2 r hr k hk)
      = at2 (win11_2.index t (0 : Fin 2) * 5000 + r) (by omega) k hk := by
    intro r hr k hk; funext a; apply Fin.ext
    match a with
    | ⟨0, _⟩ => show win11_2.index t (0 : Fin 2) * 5000 + 1 * r = win11_2.index t (0 : Fin 2) * 5000 + r; omega
    | ⟨1, _⟩ => show win11_2.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k11_pay1 (F := Ideal) (fun z => V c main_v181 (((cfg11.win 0).blk t).view.emb z)) (fun z => V c main_v186 (((cfg11.win 1).blk t).view.emb z)) (at2 r hr q hq)
    = (mm (V c main_v181) (V c main_v186)) (((cfg11.win 2).blk t).view.emb (at2 r hr q hq))
  rw [pay11, rd2]
  simp only [rd0, rd1]
  rfl

/-- An index of the array is in point t's block iff each coordinate is in the block's range on its axis. -/
theorem mem_blk (t : Fin cfg11.N) (i : S50000x128.Idx) :
    i ∈ ((cfg11.win 2).blk t).view.set ↔ ∀ a : Fin 2, win11_2.index t a * S5000x128.size a ≤ (i a).val ∧ (i a).val < win11_2.index t a * S5000x128.size a + S5000x128.size a := by
  show i ∈ ((View.whole main_v187).slice (win11_2.rect t)).set ↔ _
  rw [View.set_slice_whole, Rect.mem_set_unit]
  exact Iff.rfl

/-- Row r lies in the block of point r / 5000. -/
theorem cover (i : S50000x128.Idx) : ∃ t : Fin cfg11.N, (cfg11.win 2).flush t = true ∧ i ∈ ((cfg11.win 2).blk t).view.set := by
  have hi0 : (i 0).val < 50000 := (i 0).isLt
  have hi1 : (i 1).val < 128 := (i 1).isLt
  obtain ⟨t, ht⟩ := idx_onto ⟨(i 0).val / 5000, by omega⟩
  have q0 : win11_2.index t (0 : Fin 2) = (i 0).val / 5000 := congrFun ht 0
  have q1 : win11_2.index t (1 : Fin 2) = 0 := congrFun ht 1
  refine ⟨t, flush11_2 t, ?_⟩
  rw [mem_blk]
  intro a
  match a with
  | ⟨0, _⟩ => show win11_2.index t (0 : Fin 2) * 5000 ≤ (i 0).val ∧ (i 0).val < win11_2.index t (0 : Fin 2) * 5000 + 5000; omega
  | ⟨1, _⟩ => show win11_2.index t (1 : Fin 2) * 128 ≤ (i 1).val ∧ (i 1).val < win11_2.index t (1 : Fin 2) * 128 + 128; omega

/-- The result array after the launch, as one function of the input arrays as the launch finds them. -/
theorem final (c : Dev nD) : (dat11 V c).arrAt 2 cfg11.N = mm (V c main_v181) (V c main_v186) :=
  (dat11 V c).arrAt_eq_of_cover 2 _ (fun t _ => flushed V c t) cover

end Cert.KernelIdeal.KReg11

end
-- ==== Proof.KReg12.lean ====
/-
  Launch 12: every row of a 5000-row block, plus the bias row, is normalised to mean 0 and variance 1 (plus ε), scaled
  and shifted by two rows, clamped at zero, and the layer's input is added back. A row's result depends on that row only,
  so block t of the result is rows 5000·t … 5000·t + 4999 of the whole-array function, and the ten blocks tile the array.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg12

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg12.N,
    win12_0.index t (0 : Fin 2) = win12_5.index t (0 : Fin 2)
    ∧ win12_0.index t (1 : Fin 2) = 0
    ∧ win12_1.index t (0 : Fin 2) = 0
    ∧ win12_1.index t (1 : Fin 2) = 0
    ∧ win12_2.index t (0 : Fin 2) = 0
    ∧ win12_2.index t (1 : Fin 2) = 0
    ∧ win12_3.index t (0 : Fin 2) = 0
    ∧ win12_3.index t (1 : Fin 2) = 0
    ∧ win12_4.index t (0 : Fin 2) = win12_5.index t (0 : Fin 2)
    ∧ win12_4.index t (1 : Fin 2) = 0
    ∧ win12_5.index t (1 : Fin 2) = 0
    ∧ win12_5.index t (0 : Fin 2) ≤ 9 :=
  (by decide +kernel : ∀ t : Fin grid12.N, _)

/-- Every one of the ten row blocks is some point's. -/
theorem idx_onto : ∀ q0 : Fin 10, ∃ t : Fin cfg12.N, win12_5.index t = ![q0.val, 0] :=
  (by decide +kernel : ∀ q0 : Fin 10, ∃ t : Fin grid12.N, win12_5.index t = ![q0.val, 0])

/-- What point t writes back is block t of the whole-array function. -/
theorem flushed (c : Dev nD) (t : Fin cfg12.N) :
    (dat12 V c).flushed 5 t = ((cfg12.win 5).blk t).view.read (Elt Ideal) (lnr (V c main_v204) (fun k => V c main_v224 (at2 0 (by decide) k.val k.isLt)) (fun k => V c main_v225 (at2 0 (by decide) k.val k.isLt)) (fun k => V c main_v226 (at2 0 (by decide) k.val k.isLt)) (V c main_v181)) := by
  show (cfg12.win 5).cut (grid12.coords t) ((dat12 V c).after 5 t) = _
  rw [after12_5]
  unfold out12_5
  rw [View.canon_unit_zero hz]
  simp only [View.ld_unit_zero (S := S5000x128) hz, View.ld_unit_zero (S := S1x128) hz]
  obtain ⟨e0, e1, e2, e3, e4, e5, e6, e7, e8, e9, e10, e11⟩ := idx_facts t
  have rd0 : ∀ (r : Nat) (hr : r < 5000) (k : Nat) (hk : k < 128), ((cfg12.win 0).blk t).view.emb (at2 r hr k hk)
      = at2 (win12_5.index t (0 : Fin 2) * 5000 + r) (by omega) k hk := by
    intro r hr k hk; funext a; apply Fin.ext
    match a with
    | ⟨0, _⟩ => show win12_0.index t (0 : Fin 2) * 5000 + 1 * r = win12_5.index t (0 : Fin 2) * 5000 + r; omega
    | ⟨1, _⟩ => show win12_0.index t (1 : Fin 2) * 128 + 1 * k = k; omega
  have rd1 : ∀ (r : Nat) (hr : r < 1) (k : Nat) (hk : k < 128), ((cfg12.win 1).blk t).view.emb (at2 r hr k hk) = at2 r hr k hk := by
    intro r hr k hk; funext a; apply Fin.ext
    match a with
    | ⟨0, _⟩ => show win12_1.index t (0 : Fin 2) * 1 + 1 * r = r; omega
    | ⟨1, _⟩ => show win12_1.index t (1 : Fin 2) * 128 + 1 * k = k; omega
  have rd2 : ∀ (r : Nat) (hr : r < 1) (k : Nat) (hk : k < 128), ((cfg12.win 2).blk t).view.emb (at2 r hr k hk) = at2 r hr k hk := by
    intro r hr k hk; funext a; apply Fin.ext
    match a with
    | ⟨0, _⟩ => show win12_2.index t (0 : Fin 2) * 1 + 1 * r = r; omega
    | ⟨1, _⟩ => show win12_2.index t (1 : Fin 2) * 128 + 1 * k = k; omega
  have rd3 : ∀ (r : Nat) (hr : r < 1) (k : Nat) (hk : k < 128), ((cfg12.win 3).blk t).view.emb (at2 r hr k hk) = at2 r hr k hk := by
    intro r hr k hk; funext a; apply Fin.ext
    match a with
    | ⟨0, _⟩ => show win12_3.index t (0 : Fin 2) * 1 + 1 * r = r; omega
    | ⟨1, _⟩ => show win12_3.index t (1 : Fin 2) * 128 + 1 * k = k; omega
  have rd4 : ∀ (r : Nat) (hr : r < 5000) (k : Nat) (hk : k < 128), ((cfg12.win 4).blk t).view.emb (at2 r hr k hk)
      = at2 (win12_5.index t (0 : Fin 2) * 5000 + r) (by omega) k hk := by
    intro r hr k hk; funext a; apply Fin.ext
    match a with
    | ⟨0, _⟩ => show win12_4.index t (0 : Fin 2) * 5000 + 1 * r = win12_5.index t (0 : Fin 2) * 5000 + r; omega
    | ⟨1, _⟩ => show win12_4.index t (1 : Fin 2) * 128 + 1 * k = k; omega
  have rd5 : ∀ (r : Nat) (hr : r < 5000) (k : Nat) (hk : k < 128), ((cfg12.win 5).blk t).view.emb (at2 r hr k hk)
      = at2 (win12_5.index t (0 : Fin 2) * 5000 + r) (by omega) k hk := by
    intro r hr k hk; funext a; apply Fin.ext
    match a with
    | ⟨0, _⟩ => show win12_5.index t (0 : Fin 2) * 5000 + 1 * r = win12_5.index t (0 : Fin 2) * 5000 + r; omega
    | ⟨1, _⟩ => show win12_5.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k12_pay1 (F := Ideal) (fun z => V c main_v204 (((cfg12.win 0).blk t).view.emb z)) (fun z => V c main_v224 (((cfg12.win 1).blk t).view.emb z)) (fun z => V c main_v225 (((cfg12.win 2).blk t).view.emb z)) (fun z => V c main_v226 (((cfg12.win 3).blk t).view.emb z)) (fun z => V c main_v181 (((cfg12.win 4).blk t).view.emb z)) (at2 r hr q hq)
    = (lnr (V c main_v204) (fun k => V c main_v224 (at2 0 (by decide) k.val k.isLt)) (fun k => V c main_v225 (at2 0 (by decide) k.val k.isLt)) (fun k => V c main_v226 (at2 0 (by decide) k.val k.isLt)) (V c main_v181)) (((cfg12.win 5).blk t).view.emb (at2 r hr q hq))
  rw [pay12, rd5]
  simp only [rd0, rd1, rd2, rd3, rd4]
  rfl

/-- An index of the array is in point t's block iff each coordinate is in the block's range on its axis. -/
theorem mem_blk (t : Fin cfg12.N) (i : S50000x128.Idx) :
    i ∈ ((cfg12.win 5).blk t).view.set ↔ ∀ a : Fin 2, win12_5.index t a * S5000x128.size a ≤ (i a).val ∧ (i a).val < win12_5.index t a * S5000x128.size a + S5000x128.size a := by
  show i ∈ ((View.whole main_v227).slice (win12_5.rect t)).set ↔ _
  rw [View.set_slice_whole, Rect.mem_set_unit]
  exact Iff.rfl

/-- Row r lies in the block of point r / 5000. -/
theorem cover (i : S50000x128.Idx) : ∃ t : Fin cfg12.N, (cfg12.win 5).flush t = true ∧ i ∈ ((cfg12.win 5).blk t).view.set := by
  have hi0 : (i 0).val < 50000 := (i 0).isLt
  have hi1 : (i 1).val < 128 := (i 1).isLt
  obtain ⟨t, ht⟩ := idx_onto ⟨(i 0).val / 5000, by omega⟩
  have q0 : win12_5.index t (0 : Fin 2) = (i 0).val / 5000 := congrFun ht 0
  have q1 : win12_5.index t (1 : Fin 2) = 0 := congrFun ht 1
  refine ⟨t, flush12_5 t, ?_⟩
  rw [mem_blk]
  intro a
  match a with
  | ⟨0, _⟩ => show win12_5.index t (0 : Fin 2) * 5000 ≤ (i 0).val ∧ (i 0).val < win12_5.index t (0 : Fin 2) * 5000 + 5000; omega
  | ⟨1, _⟩ => show win12_5.index t (1 : Fin 2) * 128 ≤ (i 1).val ∧ (i 1).val < win12_5.index t (1 : Fin 2) * 128 + 128; omega

/-- The result array after the launch, as one function of the input arrays as the launch finds them. -/
theorem final (c : Dev nD) : (dat12 V c).arrAt 5 cfg12.N = lnr (V c main_v204) (fun k => V c main_v224 (at2 0 (by decide) k.val k.isLt)) (fun k => V c main_v225 (at2 0 (by decide) k.val k.isLt)) (fun k => V c main_v226 (at2 0 (by decide) k.val k.isLt)) (V c main_v181) :=
  (dat12 V c).arrAt_eq_of_cover 5 _ (fun t _ => flushed V c t) cover

end Cert.KernelIdeal.KReg12

end
-- ==== Proof.KReg13.lean ====
/-
  Launch 13: every row of a 5000-row block, plus the bias row, is normalised to mean 0 and variance 1 (plus ε), scaled
  and shifted by two rows, clamped at zero, and the layer's input is added back. A row's result depends on that row only,
  so block t of the result is rows 5000·t … 5000·t + 4999 of the whole-array function, and the ten blocks tile the array.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg13

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg13.N,
    win13_0.index t (0 : Fin 2) = win13_5.index t (0 : Fin 2)
    ∧ win13_0.index t (1 : Fin 2) = 0
    ∧ win13_1.index t (0 : Fin 2) = 0
    ∧ win13_1.index t (1 : Fin 2) = 0
    ∧ win13_2.index t (0 : Fin 2) = 0
    ∧ win13_2.index t (1 : Fin 2) = 0
    ∧ win13_3.index t (0 : Fin 2) = 0
    ∧ win13_3.index t (1 : Fin 2) = 0
    ∧ win13_4.index t (0 : Fin 2) = win13_5.index t (0 : Fin 2)
    ∧ win13_4.index t (1 : Fin 2) = 0
    ∧ win13_5.index t (1 : Fin 2) = 0
    ∧ win13_5.index t (0 : Fin 2) ≤ 9 :=
  (by decide +kernel : ∀ t : Fin grid13.N, _)

/-- Every one of the ten row blocks is some point's. -/
theorem idx_onto : ∀ q0 : Fin 10, ∃ t : Fin cfg13.N, win13_5.index t = ![q0.val, 0] :=
  (by decide +kernel : ∀ q0 : Fin 10, ∃ t : Fin grid13.N, win13_5.index t = ![q0.val, 0])

/-- What point t writes back is block t of the whole-array function. -/
theorem flushed (c : Dev nD) (t : Fin cfg13.N) :
    (dat13 V c).flushed 5 t = ((cfg13.win 5).blk t).view.read (Elt Ideal) (lnr (V c main_v221) (fun k => V c main_v230 (at2 0 (by decide) k.val k.isLt)) (fun k => V c main_v231 (at2 0 (by decide) k.val k.isLt)) (fun k => V c main_v232 (at2 0 (by decide) k.val k.isLt)) (V c main_v181)) := by
  show (cfg13.win 5).cut (grid13.coords t) ((dat13 V c).after 5 t) = _
  rw [after13_5]
  unfold out13_5
  rw [View.canon_unit_zero hz]
  simp only [View.ld_unit_zero (S := S5000x128) hz, View.ld_unit_zero (S := S1x128) hz]
  obtain ⟨e0, e1, e2, e3, e4, e5, e6, e7, e8, e9, e10, e11⟩ := idx_facts t
  have rd0 : ∀ (r : Nat) (hr : r < 5000) (k : Nat) (hk : k < 128), ((cfg13.win 0).blk t).view.emb (at2 r hr k hk)
      = at2 (win13_5.index t (0 : Fin 2) * 5000 + r) (by omega) k hk := by
    intro r hr k hk; funext a; apply Fin.ext
    match a with
    | ⟨0, _⟩ => show win13_0.index t (0 : Fin 2) * 5000 + 1 * r = win13_5.index t (0 : Fin 2) * 5000 + r; omega
    | ⟨1, _⟩ => show win13_0.index t (1 : Fin 2) * 128 + 1 * k = k; omega
  have rd1 : ∀ (r : Nat) (hr : r < 1) (k : Nat) (hk : k < 128), ((cfg13.win 1).blk t).view.emb (at2 r hr k hk) = at2 r hr k hk := by
    intro r hr k hk; funext a; apply Fin.ext
    match a with
    | ⟨0, _⟩ => show win13_1.index t (0 : Fin 2) * 1 + 1 * r = r; omega
    | ⟨1, _⟩ => show win13_1.index t (1 : Fin 2) * 128 + 1 * k = k; omega
  have rd2 : ∀ (r : Nat) (hr : r < 1) (k : Nat) (hk : k < 128), ((cfg13.win 2).blk t).view.emb (at2 r hr k hk) = at2 r hr k hk := by
    intro r hr k hk; funext a; apply Fin.ext
    match a with
    | ⟨0, _⟩ => show win13_2.index t (0 : Fin 2) * 1 + 1 * r = r; omega
    | ⟨1, _⟩ => show win13_2.index t (1 : Fin 2) * 128 + 1 * k = k; omega
  have rd3 : ∀ (r : Nat) (hr : r < 1) (k : Nat) (hk : k < 128), ((cfg13.win 3).blk t).view.emb (at2 r hr k hk) = at2 r hr k hk := by
    intro r hr k hk; funext a; apply Fin.ext
    match a with
    | ⟨0, _⟩ => show win13_3.index t (0 : Fin 2) * 1 + 1 * r = r; omega
    | ⟨1, _⟩ => show win13_3.index t (1 : Fin 2) * 128 + 1 * k = k; omega
  have rd4 : ∀ (r : Nat) (hr : r < 5000) (k : Nat) (hk : k < 128), ((cfg13.win 4).blk t).view.emb (at2 r hr k hk)
      = at2 (win13_5.index t (0 : Fin 2) * 5000 + r) (by omega) k hk := by
    intro r hr k hk; funext a; apply Fin.ext
    match a with
    | ⟨0, _⟩ => show win13_4.index t (0 : Fin 2) * 5000 + 1 * r = win13_5.index t (0 : Fin 2) * 5000 + r; omega
    | ⟨1, _⟩ => show win13_4.index t (1 : Fin 2) * 128 + 1 * k = k; omega
  have rd5 : ∀ (r : Nat) (hr : r < 5000) (k : Nat) (hk : k < 128), ((cfg13.win 5).blk t).view.emb (at2 r hr k hk)
      = at2 (win13_5.index t (0 : Fin 2) * 5000 + r) (by omega) k hk := by
    intro r hr k hk; funext a; apply Fin.ext
    match a with
    | ⟨0, _⟩ => show win13_5.index t (0 : Fin 2) * 5000 + 1 * r = win13_5.index t (0 : Fin 2) * 5000 + r; omega
    | ⟨1, _⟩ => show win13_5.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k13_pay1 (F := Ideal) (fun z => V c main_v221 (((cfg13.win 0).blk t).view.emb z)) (fun z => V c main_v230 (((cfg13.win 1).blk t).view.emb z)) (fun z => V c main_v231 (((cfg13.win 2).blk t).view.emb z)) (fun z => V c main_v232 (((cfg13.win 3).blk t).view.emb z)) (fun z => V c main_v181 (((cfg13.win 4).blk t).view.emb z)) (at2 r hr q hq)
    = (lnr (V c main_v221) (fun k => V c main_v230 (at2 0 (by decide) k.val k.isLt)) (fun k => V c main_v231 (at2 0 (by decide) k.val k.isLt)) (fun k => V c main_v232 (at2 0 (by decide) k.val k.isLt)) (V c main_v181)) (((cfg13.win 5).blk t).view.emb (at2 r hr q hq))
  rw [pay13, rd5]
  simp only [rd0, rd1, rd2, rd3, rd4]
  rfl

/-- An index of the array is in point t's block iff each coordinate is in the block's range on its axis. -/
theorem mem_blk (t : Fin cfg13.N) (i : S50000x128.Idx) :
    i ∈ ((cfg13.win 5).blk t).view.set ↔ ∀ a : Fin 2, win13_5.index t a * S5000x128.size a ≤ (i a).val ∧ (i a).val < win13_5.index t a * S5000x128.size a + S5000x128.size a := by
  show i ∈ ((View.whole main_v233).slice (win13_5.rect t)).set ↔ _
  rw [View.set_slice_whole, Rect.mem_set_unit]
  exact Iff.rfl

/-- Row r lies in the block of point r / 5000. -/
theorem cover (i : S50000x128.Idx) : ∃ t : Fin cfg13.N, (cfg13.win 5).flush t = true ∧ i ∈ ((cfg13.win 5).blk t).view.set := by
  have hi0 : (i 0).val < 50000 := (i 0).isLt
  have hi1 : (i 1).val < 128 := (i 1).isLt
  obtain ⟨t, ht⟩ := idx_onto ⟨(i 0).val / 5000, by omega⟩
  have q0 : win13_5.index t (0 : Fin 2) = (i 0).val / 5000 := congrFun ht 0
  have q1 : win13_5.index t (1 : Fin 2) = 0 := congrFun ht 1
  refine ⟨t, flush13_5 t, ?_⟩
  rw [mem_blk]
  intro a
  match a with
  | ⟨0, _⟩ => show win13_5.index t (0 : Fin 2) * 5000 ≤ (i 0).val ∧ (i 0).val < win13_5.index t (0 : Fin 2) * 5000 + 5000; omega
  | ⟨1, _⟩ => show win13_5.index t (1 : Fin 2) * 128 ≤ (i 1).val ∧ (i 1).val < win13_5.index t (1 : Fin 2) * 128 + 128; omega

/-- The result array after the launch, as one function of the input arrays as the launch finds them. -/
theorem final (c : Dev nD) : (dat13 V c).arrAt 5 cfg13.N = lnr (V c main_v221) (fun k => V c main_v230 (at2 0 (by decide) k.val k.isLt)) (fun k => V c main_v231 (at2 0 (by decide) k.val k.isLt)) (fun k => V c main_v232 (at2 0 (by decide) k.val k.isLt)) (V c main_v181) :=
  (dat13 V c).arrAt_eq_of_cover 5 _ (fun t _ => flushed V c t) cover

end Cert.KernelIdeal.KReg13

end
-- ==== Proof.KReg14.lean ====
/-
  Launch 14: two blocks of 5000 rows, each times its own 128 × 128 matrix, the two products added and a bias row added.
  Block t of the result is rows 5000·t … 5000·t + 4999 of the whole-array function, and the ten blocks tile the array.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg14

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg14.N,
    win14_0.index t (0 : Fin 2) = win14_5.index t (0 : Fin 2)
    ∧ win14_0.index t (1 : Fin 2) = 0
    ∧ win14_1.index t (0 : Fin 2) = win14_5.index t (0 : Fin 2)
    ∧ win14_1.index t (1 : Fin 2) = 0
    ∧ win14_2.index t (0 : Fin 2) = 0
    ∧ win14_2.index t (1 : Fin 2) = 0
    ∧ win14_3.index t (0 : Fin 2) = 0
    ∧ win14_3.index t (1 : Fin 2) = 0
    ∧ win14_4.index t (0 : Fin 2) = 0
    ∧ win14_4.index t (1 : Fin 2) = 0
    ∧ win14_5.index t (1 : Fin 2) = 0
    ∧ win14_5.index t (0 : Fin 2) ≤ 9 :=
  (by decide +kernel : ∀ t : Fin grid14.N, _)

/-- Every one of the ten row blocks is some point's. -/
theorem idx_onto : ∀ q0 : Fin 10, ∃ t : Fin cfg14.N, win14_5.index t = ![q0.val, 0] :=
  (by decide +kernel : ∀ q0 : Fin 10, ∃ t : Fin grid14.N, win14_5.index t = ![q0.val, 0])

/-- What point t writes back is block t of the whole-array function. -/
theorem flushed (c : Dev nD) (t : Fin cfg14.N) :
    (dat14 V c).flushed 5 t = ((cfg14.win 5).blk t).view.read (Elt Ideal) (cl2 (V c main_v233) (V c main_v227) (V c main_v236) (V c main_v239) (fun k => V c main_v242 (at2 0 (by decide) k.val k.isLt))) := by
  show (cfg14.win 5).cut (grid14.coords t) ((dat14 V c).after 5 t) = _
  rw [after14_5]
  unfold out14_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts t
  have rd0 : ∀ (r : Nat) (hr : r < 5000) (k : Nat) (hk : k < 128), ((cfg14.win 0).blk t).view.emb (at2 r hr k hk)
      = at2 (win14_5.index t (0 : Fin 2) * 5000 + r) (by omega) k hk := by
    intro r hr k hk; funext a; apply Fin.ext
    match a with
    | ⟨0, _⟩ => show win14_0.index t (0 : Fin 2) * 5000 + 1 * r = win14_5.index t (0 : Fin 2) * 5000 + r; omega
    | ⟨1, _⟩ => show win14_0.index t (1 : Fin 2) * 128 + 1 * k = k; omega
  have rd1 : ∀ (r : Nat) (hr : r < 5000) (k : Nat) (hk : k < 128), ((cfg14.win 1).blk t).view.emb (at2 r hr k hk)
      = at2 (win14_5.index t (0 : Fin 2) * 5000 + r) (by omega) k hk := by
    intro r hr k hk; funext a; apply Fin.ext
    match a with
    | ⟨0, _⟩ => show win14_1.index t (0 : Fin 2) * 5000 + 1 * r = win14_5.index t (0 : Fin 2) * 5000 + r; omega
    | ⟨1, _⟩ => show win14_1.index t (1 : Fin 2) * 128 + 1 * k = k; omega
  have rd2 : ∀ (r : Nat) (hr : r < 128) (k : Nat) (hk : k < 128), ((cfg14.win 2).blk t).view.emb (at2 r hr k hk) = at2 r hr k hk := by
    intro r hr k hk; funext a; apply Fin.ext
    match a with
    | ⟨0, _⟩ => show win14_2.index t (0 : Fin 2) * 128 + 1 * r = r; omega
    | ⟨1, _⟩ => show win14_2.index t (1 : Fin 2) * 128 + 1 * k = k; omega
  have rd3 : ∀ (r : Nat) (hr : r < 128) (k : Nat) (hk : k < 128), ((cfg14.win 3).blk t).view.emb (at2 r hr k hk) = at2 r hr k hk := by
    intro r hr k hk; funext a; apply Fin.ext
    match a with
    | ⟨0, _⟩ => show win14_3.index t (0 : Fin 2) * 128 + 1 * r = r; omega
    | ⟨1, _⟩ => show win14_3.index t (1 : Fin 2) * 128 + 1 * k = k; omega
  have rd4 : ∀ (r : Nat) (hr : r < 1) (k : Nat) (hk : k < 128), ((cfg14.win 4).blk t).view.emb (at2 r hr k hk) = at2 r hr k hk := by
    intro r hr k hk; funext a; apply Fin.ext
    match a with
    | ⟨0, _⟩ => show win14_4.index t (0 : Fin 2) * 1 + 1 * r = r; omega
    | ⟨1, _⟩ => show win14_4.index t (1 : Fin 2) * 128 + 1 * k = k; omega
  have rd5 : ∀ (r : Nat) (hr : r < 5000) (k : Nat) (hk : k < 128), ((cfg14.win 5).blk t).view.emb (at2 r hr k hk)
      = at2 (win14_5.index t (0 : Fin 2) * 5000 + r) (by omega) k hk := by
    intro r hr k hk; funext a; apply Fin.ext
    match a with
    | ⟨0, _⟩ => show win14_5.index t (0 : Fin 2) * 5000 + 1 * r = win14_5.index t (0 : Fin 2) * 5000 + r; omega
    | ⟨1, _⟩ => show win14_5.index t (1 : Fin 2) * 128 + 1 * k = k; omega
  funext j
  obtain ⟨r, hr, q, hq, rfl⟩ : ∃ (r : Nat) (hr : r < 5000) (q : Nat) (hq : q < 128), j = at2 r hr q hq :=
    ⟨(j 0).val, (j 0).isLt, (j 1).val, (j 1).isLt, eq_at2 j⟩
  show k14_pay1 (F := Ideal) (fun z => V c main_v233 (((cfg14.win 0).blk t).view.emb z)) (fun z => V c main_v227 (((cfg14.win 1).blk t).view.emb z)) (fun z => V c main_v236 (((cfg14.win 2).blk t).view.emb z)) (fun z => V c main_v239 (((cfg14.win 3).blk t).view.emb z)) (fun z => V c main_v242 (((cfg14.win 4).blk t).view.emb z)) (at2 r hr q hq)
    = (cl2 (V c main_v233) (V c main_v227) (V c main_v236) (V c main_v239) (fun k => V c main_v242 (at2 0 (by decide) k.val k.isLt))) (((cfg14.win 5).blk t).view.emb (at2 r hr q hq))
  rw [pay14, rd5]
  simp only [rd0, rd1, rd2, rd3, rd4]
  rfl

/-- An index of the array is in point t's block iff each coordinate is in the block's range on its axis. -/
theorem mem_blk (t : Fin cfg14.N) (i : S50000x128.Idx) :
    i ∈ ((cfg14.win 5).blk t).view.set ↔ ∀ a : Fin 2, win14_5.index t a * S5000x128.size a ≤ (i a).val ∧ (i a).val < win14_5.index t a * S5000x128.size a + S5000x128.size a := by
  show i ∈ ((View.whole main_v243).slice (win14_5.rect t)).set ↔ _
  rw [View.set_slice_whole, Rect.mem_set_unit]
  exact Iff.rfl

/-- Row r lies in the block of point r / 5000. -/
theorem cover (i : S50000x128.Idx) : ∃ t : Fin cfg14.N, (cfg14.win 5).flush t = true ∧ i ∈ ((cfg14.win 5).blk t).view.set := by
  have hi0 : (i 0).val < 50000 := (i 0).isLt
  have hi1 : (i 1).val < 128 := (i 1).isLt
  obtain ⟨t, ht⟩ := idx_onto ⟨(i 0).val / 5000, by omega⟩
  have q0 : win14_5.index t (0 : Fin 2) = (i 0).val / 5000 := congrFun ht 0
  have q1 : win14_5.index t (1 : Fin 2) = 0 := congrFun ht 1
  refine ⟨t, flush14_5 t, ?_⟩
  rw [mem_blk]
  intro a
  match a with
  | ⟨0, _⟩ => show win14_5.index t (0 : Fin 2) * 5000 ≤ (i 0).val ∧ (i 0).val < win14_5.index t (0 : Fin 2) * 5000 + 5000; omega
  | ⟨1, _⟩ => show win14_5.index t (1 : Fin 2) * 128 ≤ (i 1).val ∧ (i 1).val < win14_5.index t (1 : Fin 2) * 128 + 128; omega

/-- The result array after the launch, as one function of the input arrays as the launch finds them. -/
theorem final (c : Dev nD) : (dat14 V c).arrAt 5 cfg14.N = cl2 (V c main_v233) (V c main_v227) (V c main_v236) (V c main_v239) (fun k => V c main_v242 (at2 0 (by decide) k.val k.isLt)) :=
  (dat14 V c).arrAt_eq_of_cover 5 _ (fun t _ => flushed V c t) cover

end Cert.KernelIdeal.KReg14

end
-- ==== Proof.KReg15.lean ====
/-
  The last launch: a block of 5000 rows times the 128 × 64 matrix plus a bias row. Block t of the result is rows
  5000·t … 5000·t + 4999 of the whole-array function, and the ten blocks tile the array.
-/
import proofs.«164762_j10505490006519_1_alg».proof.Proof.Gen.KernelIdeal.Frame
import proofs.«164762_j10505490006519_1_alg».proof.Proof.KPay

set_option maxRecDepth 16384
set_option maxHeartbeats 2000000

noncomputable section

namespace Cert.KernelIdeal.KReg15

open Cert.KernelIdeal Cert.KernelIdeal.Gen Cert.KernelIdeal.KLib Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: a row block moves with the point, everything else stays. -/
theorem idx_facts : ∀ t : Fin cfg15.N,
    win15_0.index t (0 : Fin 2) = win15_3.index t (0 : Fin 2)
    ∧ win15_0.index t (1 : Fin 2) = 0
    ∧ win15_1.index t (0 : Fin 2) = 0
    ∧ win15_1.index t (1 : Fin 2) = 0
    ∧ win15_2.index t (0 : Fin 2) = 0
    ∧ win15_2.index t (1 : Fin 2) = 0
    ∧ win15_3.index t (1 : Fin 2) = 0
    ∧ win15_3.index t (0 : Fin 2) ≤ 9 :=
  (by decide +kernel : ∀ t : Fin grid15.N, _)

/-- Every one of the ten row blocks is some point's. -/
theorem idx_onto : ∀ q0 : Fin 10, ∃ t : Fin cfg15.N, win15_3.index t = ![q0.val, 0] :=
  (by decide +kernel : ∀ q0 : Fin 10, ∃ t : Fin grid15.N, win15_3.index t = ![q0.val, 0])

/-- What point t writes back is block t of the whole-array function. -/
theorem flushed (c : Dev nD) (t : Fin cfg15.N) :
    (dat15 V c).flushed 3 t = ((cfg15.win 3).blk t).view.read (Elt Ideal) (fl (V c main_v243) (V c main_arg9) (fun k => V c main_v244 (at2 0 (by decide) k.val k.isLt))) := by
  show (cfg15.win 3).cut (grid15.coords t) ((dat15 V c).after 3 t) = _
  rw [after15_3]
  unfold out15_3
  rw [View.canon_unit_zero hz]
  simp only [View.ld_unit_zero (S := S5000x128) hz, View.ld_unit_zero (S := S128x64) hz, View.ld_unit_zero (S := S1x64) hz]
  obtain ⟨e0, e1, e2, e3, e4, e5, e6, e7⟩ := idx_facts t
  have rd0 : ∀ (r : Nat) (hr : r < 5000) (k : Nat) (hk : k < 128), ((cfg15.win 0).blk t).view.emb (at2 r hr k hk)
      = at2 (win15_3.index t (0 : Fin 2) * 5000 + r) (by omega) k hk := by
    intro r hr k hk; funext a; apply Fin.ext
    match a with
    | ⟨0, _⟩ => show win15_0.index t (0 : Fin 2) * 5000 + 1 * r = win15_3.index t (0 : Fin 2) * 5000 + r; omega
    | ⟨1, _⟩ => show win15_0.index t (1 : Fin 2) * 128 + 1 * k = k; omega
  have rd1 : ∀ (r : Nat) (hr : r < 128) (k : Nat) (hk : k < 64), ((cfg15.win 1).blk t).view.emb (at2 r hr k hk) = at2 r hr k hk := by
    intro r hr k hk; funext a; apply Fin.ext
    match a with
    | ⟨0, _⟩ => show win15_1.index t (0 : Fin 2) * 128 + 1 * r = r; omega
    | ⟨1, _⟩ => show win15_1.index t (1 : Fin 2) * 64 + 1 * k = k; omega
  have rd2 : ∀ (r : Nat) (hr : r < 1) (k : Nat) (hk : k < 64), ((cfg15.win 2).blk t).view.emb (at2 r hr k hk) = at2 r hr k hk := by
    intro r hr k hk; funext a; apply Fin.ext
    match a with
    | ⟨0, _⟩ => show win15_2.index t (0 : Fin 2) * 1 + 1 * r = r; omega
    | ⟨1, _⟩ => show win15_2.index t (1 : Fin 2) * 64 + 1 * k = k; omega
  have rd3 : ∀ (r : Nat) (hr : r < 5000) (k : Nat) (hk : k < 64), ((cfg15.win 3).blk t).view.emb (at2 r hr k hk)
      = at2 (win15_3.index t (0 : Fin 2) * 5000 + r) (by omega) k hk := by
    intro r hr k hk; funext a; apply Fin.ext
    match a with
    | ⟨0, _⟩ => show win15_3.index t (0 : Fin 2) * 5000 + 1 * r = win15_3.index t (0 : Fin 2) * 5000 + r; omega
    | ⟨1, _⟩ => show win15_3.index t (1 : Fin 2) * 64 + 1 * k = k; omega
  funext j
  obtain ⟨r, hr, q, hq, rfl⟩ : ∃ (r : Nat) (hr : r < 5000) (q : Nat) (hq : q < 64), j = at2 r hr q hq :=
    ⟨(j 0).val, (j 0).isLt, (j 1).val, (j 1).isLt, eq_at2 j⟩
  show k15_pay1 (F := Ideal) (fun z => V c main_v243 (((cfg15.win 0).blk t).view.emb z)) (fun z => V c main_arg9 (((cfg15.win 1).blk t).view.emb z)) (fun z => V c main_v244 (((cfg15.win 2).blk t).view.emb z)) (at2 r hr q hq)
    = (fl (V c main_v243) (V c main_arg9) (fun k => V c main_v244 (at2 0 (by decide) k.val k.isLt))) (((cfg15.win 3).blk t).view.emb (at2 r hr q hq))
  rw [pay15, rd3]
  simp only [rd0, rd1, rd2]
  rfl

/-- An index of the array is in point t's block iff each coordinate is in the block's range on its axis. -/
theorem mem_blk (t : Fin cfg15.N) (i : S50000x64.Idx) :
    i ∈ ((cfg15.win 3).blk t).view.set ↔ ∀ a : Fin 2, win15_3.index t a * S5000x64.size a ≤ (i a).val ∧ (i a).val < win15_3.index t a * S5000x64.size a + S5000x64.size a := by
  show i ∈ ((View.whole main_v245).slice (win15_3.rect t)).set ↔ _
  rw [View.set_slice_whole, Rect.mem_set_unit]
  exact Iff.rfl

/-- Row r lies in the block of point r / 5000. -/
theorem cover (i : S50000x64.Idx) : ∃ t : Fin cfg15.N, (cfg15.win 3).flush t = true ∧ i ∈ ((cfg15.win 3).blk t).view.set := by
  have hi0 : (i 0).val < 50000 := (i 0).isLt
  have hi1 : (i 1).val < 64 := (i 1).isLt
  obtain ⟨t, ht⟩ := idx_onto ⟨(i 0).val / 5000, by omega⟩
  have q0 : win15_3.index t (0 : Fin 2) = (i 0).val / 5000 := congrFun ht 0
  have q1 : win15_3.index t (1 : Fin 2) = 0 := congrFun ht 1
  refine ⟨t, flush15_3 t, ?_⟩
  rw [mem_blk]
  intro a
  match a with
  | ⟨0, _⟩ => show win15_3.index t (0 : Fin 2) * 5000 ≤ (i 0).val ∧ (i 0).val < win15_3.index t (0 : Fin 2) * 5000 + 5000; omega
  | ⟨1, _⟩ => show win15_3.index t (1 : Fin 2) * 64 ≤ (i 1).val ∧ (i 1).val < win15_3.index t (1 : Fin 2) * 64 + 64; omega

/-- The result array after the launch, as one function of the input arrays as the launch finds them. -/
theorem final (c : Dev nD) : (dat15 V c).arrAt 3 cfg15.N = fl (V c main_v243) (V c main_arg9) (fun k => V c main_v244 (at2 0 (by decide) k.val k.isLt)) :=
  (dat15 V c).arrAt_eq_of_cover 3 _ (fun t _ => flushed V c t) cover

end Cert.KernelIdeal.KReg15

end
-- ==== Proof.KChain.lean ====
/-
  The host side of the kernel program as functions of arrays: the graph's edge lists and edge weights (computed once), the
  aggregation of projected node rows over the edges (the same for each of the three layers), and the slices of the weight
  arrays each launch is given. Each is the composition of the host operations the program applies, in the program's own
  words; nothing here is opened by the proof — both programs apply the same compositions.
-/
import proofs.«164762_j10505490006519_1_alg».proof.KernelIdeal

noncomputable section

namespace Cert.KernelIdeal.KChain

open Cert.KernelIdeal Idealize.ShloMosaic Idealize.ShloMosaic.TcCoe
open Cert.KernelIdeal.Facts₀ Cert.KernelIdeal.Facts

variable {F : FTy → Type} [FloatOps F] [Cert.KernelIdeal.Facts]

/-- The source node of each of the 600000 edges of the second graph: row 0 of the edge array. -/
def srcG (x11 : (⟨S2x600000, .i32⟩ : BufTy).Contents (Elt F)) : (⟨S600000, .i32⟩ : BufTy).Contents (Elt F) :=
  (shapeCast _ (((extractStridedSlice S1x600000 ![0, 0] · slices_S2x600000_S1x600000_0_0) : (⟨S2x600000, .i32⟩ : BufTy).Contents (Elt F) → (⟨S1x600000, .i32⟩ : BufTy).Contents (Elt F)) x11) shapeCasts_S1x600000_S600000)

/-- The target node of each edge of the second graph: row 1 of the edge array. -/
def dstG (x11 : (⟨S2x600000, .i32⟩ : BufTy).Contents (Elt F)) : (⟨S600000, .i32⟩ : BufTy).Contents (Elt F) :=
  (shapeCast _ (((extractStridedSlice S1x600000 ![1, 0] · slices_S2x600000_S1x600000_1_0) : (⟨S2x600000, .i32⟩ : BufTy).Contents (Elt F) → (⟨S1x600000, .i32⟩ : BufTy).Contents (Elt F)) x11) shapeCasts_S1x600000_S600000)

/-- The source node of each of the 400000 edges of the first graph. -/
def srcL (x12 : (⟨S2x400000, .i32⟩ : BufTy).Contents (Elt F)) : (⟨S400000, .i32⟩ : BufTy).Contents (Elt F) :=
  (shapeCast _ (((extractStridedSlice S1x400000 ![0, 0] · slices_S2x400000_S1x400000_0_0) : (⟨S2x400000, .i32⟩ : BufTy).Contents (Elt F) → (⟨S1x400000, .i32⟩ : BufTy).Contents (Elt F)) x12) shapeCasts_S1x400000_S400000)

/-- The target node of each edge of the first graph. -/
def dstL (x12 : (⟨S2x400000, .i32⟩ : BufTy).Contents (Elt F)) : (⟨S400000, .i32⟩ : BufTy).Contents (Elt F) :=
  (shapeCast _ (((extractStridedSlice S1x400000 ![1, 0] · slices_S2x400000_S1x400000_1_0) : (⟨S2x400000, .i32⟩ : BufTy).Contents (Elt F) → (⟨S1x400000, .i32⟩ : BufTy).Contents (Elt F)) x12) shapeCasts_S1x400000_S400000)

/-- One over the square root of (a node's number of incoming edges + 2), first graph. -/
def dinvL (dst : (⟨S400000, .i32⟩ : BufTy).Contents (Elt F)) : (⟨S50000, .f32⟩ : BufTy).Contents (Elt F) :=
  ((Host.rsqrt : (⟨S50000, .f32⟩ : BufTy).Contents (Elt F) → (⟨S50000, .f32⟩ : BufTy).Contents (Elt F)) ((addf : (⟨S50000, .f32⟩ : BufTy).Contents (Elt F) → (⟨S50000, .f32⟩ : BufTy).Contents (Elt F) → (⟨S50000, .f32⟩ : BufTy).Contents (Elt F)) (((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S400000x1 ![0] bcast_S400000_S400000x1_0 : (⟨S400000, .i32⟩ : BufTy).Contents (Elt F) → (⟨S400000x1, .i32⟩ : BufTy).Contents (Elt F)) dst) ((broadcastInDim S400000 ![] bcast_S_S400000 : (⟨S_, .f32⟩ : BufTy).Contents (Elt F) → (⟨S400000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x40000000#32))))

/-- One over the square root of (a node's number of incoming edges + 2), second graph. -/
def dinvG (dst : (⟨S600000, .i32⟩ : BufTy).Contents (Elt F)) : (⟨S50000, .f32⟩ : BufTy).Contents (Elt F) :=
  ((Host.rsqrt : (⟨S50000, .f32⟩ : BufTy).Contents (Elt F) → (⟨S50000, .f32⟩ : BufTy).Contents (Elt F)) ((addf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) dst) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x40000000#32))))

/-- An edge's weight: the product of the two end nodes' factors, first graph. -/
def coefL (src dst : (⟨S400000, .i32⟩ : BufTy).Contents (Elt F)) (dinv : (⟨S50000, .f32⟩ : BufTy).Contents (Elt F)) : (⟨S400000, .f32⟩ : BufTy).Contents (Elt F) :=
  ((mulf : (⟨S400000, .f32⟩ : BufTy).Contents (Elt F) → (⟨S400000, .f32⟩ : BufTy).Contents (Elt F) → (⟨S400000, .f32⟩ : BufTy).Contents (Elt F)) (((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)) dinv ((broadcastInDim S400000x1 ![0] bcast_S400000_S400000x1_0 : (⟨S400000, .i32⟩ : BufTy).Contents (Elt F) → (⟨S400000x1, .i32⟩ : BufTy).Contents (Elt F)) ((select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) ((cmpi .slt : (⟨S400000, .i32⟩ : BufTy).Contents (Elt F) → (⟨S400000, .i32⟩ : BufTy).Contents (Elt F) → (⟨S400000, .i1⟩ : BufTy).Contents (Elt F)) src ((broadcastInDim S400000 ![] bcast_S_S400000 : (⟨S_, .i32⟩ : BufTy).Contents (Elt F) → (⟨S400000, .i32⟩ : BufTy).Contents (Elt F)) (constantI S_ 32 0#32))) ((addi : (⟨S400000, .i32⟩ : BufTy).Contents (Elt F) → (⟨S400000, .i32⟩ : BufTy).Contents (Elt F) → (⟨S400000, .i32⟩ : BufTy).Contents (Elt F)) src ((broadcastInDim S400000 ![] bcast_S_S400000 : (⟨S_, .i32⟩ : BufTy).Contents (Elt F) → (⟨S400000, .i32⟩ : BufTy).Contents (Elt F)) (constantI S_ 32 50000#32))) src))) (((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)) dinv ((broadcastInDim S400000x1 ![0] bcast_S400000_S400000x1_0 : (⟨S400000, .i32⟩ : BufTy).Contents (Elt F) → (⟨S400000x1, .i32⟩ : BufTy).Contents (Elt F)) ((select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) ((cmpi .slt : (⟨S400000, .i32⟩ : BufTy).Contents (Elt F) → (⟨S400000, .i32⟩ : BufTy).Contents (Elt F) → (⟨S400000, .i1⟩ : BufTy).Contents (Elt F)) dst ((broadcastInDim S400000 ![] bcast_S_S400000 : (⟨S_, .i32⟩ : BufTy).Contents (Elt F) → (⟨S400000, .i32⟩ : BufTy).Contents (Elt F)) (constantI S_ 32 0#32))) ((addi : (⟨S400000, .i32⟩ : BufTy).Contents (Elt F) → (⟨S400000, .i32⟩ : BufTy).Contents (Elt F) → (⟨S400000, .i32⟩ : BufTy).Contents (Elt F)) dst ((broadcastInDim S400000 ![] bcast_S_S400000 : (⟨S_, .i32⟩ : BufTy).Contents (Elt F) → (⟨S400000, .i32⟩ : BufTy).Contents (Elt F)) (constantI S_ 32 50000#32))) dst))))

/-- An edge's weight, second graph. -/
def coefG (src dst : (⟨S600000, .i32⟩ : BufTy).Contents (Elt F)) (dinv : (⟨S50000, .f32⟩ : BufTy).Contents (Elt F)) : (⟨S600000, .f32⟩ : BufTy).Contents (Elt F) :=
  ((mulf : (⟨S600000, .f32⟩ : BufTy).Contents (Elt F) → (⟨S600000, .f32⟩ : BufTy).Contents (Elt F) → (⟨S600000, .f32⟩ : BufTy).Contents (Elt F)) (((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)) dinv ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) src ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) src ((broadcastInDim S600000 ![] bcast_S_S600000 : (⟨S_, .i32⟩ : BufTy).Contents (Elt F) → (⟨S600000, .i32⟩ : BufTy).Contents (Elt F)) (constantI S_ 32 50000#32))) src))) (((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)) dinv ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) dst ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) dst ((broadcastInDim S600000 ![] bcast_S_S600000 : (⟨S_, .i32⟩ : BufTy).Contents (Elt F) → (⟨S600000, .i32⟩ : BufTy).Contents (Elt F)) (constantI S_ 32 50000#32))) dst))))

/-- A node's own weight: twice the square of its factor. -/
def selfW (dinv : (⟨S50000, .f32⟩ : BufTy).Contents (Elt F)) : (⟨S50000, .f32⟩ : BufTy).Contents (Elt F) :=
  ((mulf : (⟨S50000, .f32⟩ : BufTy).Contents (Elt F) → (⟨S50000, .f32⟩ : BufTy).Contents (Elt F) → (⟨S50000, .f32⟩ : BufTy).Contents (Elt F)) ((mulf : (⟨S50000, .f32⟩ : BufTy).Contents (Elt F) → (⟨S50000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x40000000#32)) dinv) dinv)

/-- The aggregation over the first graph's edges: every edge adds its weight times its source node's row to its target node's row, and every node adds its own weight times its own row. -/
def aggL (h : (⟨S50000x128, .f32⟩ : BufTy).Contents (Elt F)) (src dst : (⟨S400000, .i32⟩ : BufTy).Contents (Elt F)) (coef : (⟨S400000, .f32⟩ : BufTy).Contents (Elt F)) (self : (⟨S50000, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) (((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S400000x1 ![0] bcast_S400000_S400000x1_0 : (⟨S400000, .i32⟩ : BufTy).Contents (Elt F) → (⟨S400000x1, .i32⟩ : BufTy).Contents (Elt F)) dst) ((mulf : (⟨S400000x128, .f32⟩ : BufTy).Contents (Elt F) → (⟨S400000x128, .f32⟩ : BufTy).Contents (Elt F) → (⟨S400000x128, .f32⟩ : BufTy).Contents (Elt F)) (((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) h ((broadcastInDim S400000x1 ![0] bcast_S400000_S400000x1_0 : (⟨S400000, .i32⟩ : BufTy).Contents (Elt F) → (⟨S400000x1, .i32⟩ : BufTy).Contents (Elt F)) ((select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) ((cmpi .slt : (⟨S400000, .i32⟩ : BufTy).Contents (Elt F) → (⟨S400000, .i32⟩ : BufTy).Contents (Elt F) → (⟨S400000, .i1⟩ : BufTy).Contents (Elt F)) src ((broadcastInDim S400000 ![] bcast_S_S400000 : (⟨S_, .i32⟩ : BufTy).Contents (Elt F) → (⟨S400000, .i32⟩ : BufTy).Contents (Elt F)) (constantI S_ 32 0#32))) ((addi : (⟨S400000, .i32⟩ : BufTy).Contents (Elt F) → (⟨S400000, .i32⟩ : BufTy).Contents (Elt F) → (⟨S400000, .i32⟩ : BufTy).Contents (Elt F)) src ((broadcastInDim S400000 ![] bcast_S_S400000 : (⟨S_, .i32⟩ : BufTy).Contents (Elt F) → (⟨S400000, .i32⟩ : BufTy).Contents (Elt F)) (constantI S_ 32 50000#32))) src))) ((broadcastInDim S400000x128 ![0, 1] bcast_S400000x1_S400000x128_0_1 : (⟨S400000x1, .f32⟩ : BufTy).Contents (Elt F) → (⟨S400000x128, .f32⟩ : BufTy).Contents (Elt F)) ((broadcastInDim S400000x1 ![0] bcast_S400000_S400000x1_0 : (⟨S400000, .f32⟩ : BufTy).Contents (Elt F) → (⟨S400000x1, .f32⟩ : BufTy).Contents (Elt F)) coef)))) ((mulf : (⟨S50000x128, .f32⟩ : BufTy).Contents (Elt F) → (⟨S50000x128, .f32⟩ : BufTy).Contents (Elt F) → (⟨S50000x128, .f32⟩ : BufTy).Contents (Elt F)) h ((broadcastInDim S50000x128 ![0, 1] bcast_S50000x1_S50000x128_0_1 : (⟨S50000x1, .f32⟩ : BufTy).Contents (Elt F) → (⟨S50000x128, .f32⟩ : BufTy).Contents (Elt F)) ((broadcastInDim S50000x1 ![0] bcast_S50000_S50000x1_0 : (⟨S50000, .f32⟩ : BufTy).Contents (Elt F) → (⟨S50000x1, .f32⟩ : BufTy).Contents (Elt F)) self))))

/-- The aggregation over the second graph's edges. -/
def aggG (h : (⟨S50000x128, .f32⟩ : BufTy).Contents (Elt F)) (src dst : (⟨S600000, .i32⟩ : BufTy).Contents (Elt F)) (coef : (⟨S600000, .f32⟩ : BufTy).Contents (Elt F)) (self : (⟨S50000, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) dst) ((mulf : (⟨S600000x128, .f32⟩ : BufTy).Contents (Elt F) → (⟨S600000x128, .f32⟩ : BufTy).Contents (Elt F) → (⟨S600000x128, .f32⟩ : BufTy).Contents (Elt F)) (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) h ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) src ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) src ((broadcastInDim S600000 ![] bcast_S_S600000 : (⟨S_, .i32⟩ : BufTy).Contents (Elt F) → (⟨S600000, .i32⟩ : BufTy).Contents (Elt F)) (constantI S_ 32 50000#32))) src))) ((broadcastInDim S600000x128 ![0, 1] bcast_S600000x1_S600000x128_0_1 : (⟨S600000x1, .f32⟩ : BufTy).Contents (Elt F) → (⟨S600000x128, .f32⟩ : BufTy).Contents (Elt F)) ((broadcastInDim S600000x1 ![0] bcast_S600000_S600000x1_0 : (⟨S600000, .f32⟩ : BufTy).Contents (Elt F) → (⟨S600000x1, .f32⟩ : BufTy).Contents (Elt F)) coef)))) ((mulf : (⟨S50000x128, .f32⟩ : BufTy).Contents (Elt F) → (⟨S50000x128, .f32⟩ : BufTy).Contents (Elt F) → (⟨S50000x128, .f32⟩ : BufTy).Contents (Elt F)) h ((broadcastInDim S50000x128 ![0, 1] bcast_S50000x1_S50000x128_0_1 : (⟨S50000x1, .f32⟩ : BufTy).Contents (Elt F) → (⟨S50000x128, .f32⟩ : BufTy).Contents (Elt F)) ((broadcastInDim S50000x1 ![0] bcast_S50000_S50000x1_0 : (⟨S50000, .f32⟩ : BufTy).Contents (Elt F) → (⟨S50000x1, .f32⟩ : BufTy).Contents (Elt F)) self))))

/-- Layer 0's 128 × 128 matrix of the first branch. -/
def wl0 (x1 : (⟨S3x128x128, .f32⟩ : BufTy).Contents (Elt F)) : (⟨S128x128, .f32⟩ : BufTy).Contents (Elt F) :=
  (shapeCast _ (((extractStridedSlice S1x128x128 ![0, 0, 0] · slices_S3x128x128_S1x128x128_0_0_0) : (⟨S3x128x128, .f32⟩ : BufTy).Contents (Elt F) → (⟨S1x128x128, .f32⟩ : BufTy).Contents (Elt F)) x1) shapeCasts_S1x128x128_S128x128)

/-- Layer 0's 128 × 128 matrix of the second branch. -/
def wg0 (x3 : (⟨S3x128x128, .f32⟩ : BufTy).Contents (Elt F)) : (⟨S128x128, .f32⟩ : BufTy).Contents (Elt F) :=
  (shapeCast _ (((extractStridedSlice S1x128x128 ![0, 0, 0] · slices_S3x128x128_S1x128x128_0_0_0) : (⟨S3x128x128, .f32⟩ : BufTy).Contents (Elt F) → (⟨S1x128x128, .f32⟩ : BufTy).Contents (Elt F)) x3) shapeCasts_S1x128x128_S128x128)

/-- Layer 0's bias row of the first branch, as a 1 × 128 array. -/
def bL0 (x2 : (⟨S3x128, .f32⟩ : BufTy).Contents (Elt F)) : (⟨S1x128, .f32⟩ : BufTy).Contents (Elt F) :=
  (shapeCast _ (shapeCast _ (((extractStridedSlice S1x128 ![0, 0] · slices_S3x128_S1x128_0_0) : (⟨S3x128, .f32⟩ : BufTy).Contents (Elt F) → (⟨S1x128, .f32⟩ : BufTy).Contents (Elt F)) x2) shapeCasts_S1x128_S128) shapeCasts_S128_S1x128)

/-- Layer 0's bias row of the second branch, as a 1 × 128 array. -/
def bG0 (x4 : (⟨S3x128, .f32⟩ : BufTy).Contents (Elt F)) : (⟨S1x128, .f32⟩ : BufTy).Contents (Elt F) :=
  (shapeCast _ (shapeCast _ (((extractStridedSlice S1x128 ![0, 0] · slices_S3x128_S1x128_0_0) : (⟨S3x128, .f32⟩ : BufTy).Contents (Elt F) → (⟨S1x128, .f32⟩ : BufTy).Contents (Elt F)) x4) shapeCasts_S1x128_S128) shapeCasts_S128_S1x128)

/-- Rows 0–127 of layer 0's 256 × 128 matrix. -/
def wgh0 (x5 : (⟨S3x256x128, .f32⟩ : BufTy).Contents (Elt F)) : (⟨S128x128, .f32⟩ : BufTy).Contents (Elt F) :=
  (((extractStridedSlice S128x128 ![0, 0] · slices_S256x128_S128x128_0_0) : (⟨S256x128, .f32⟩ : BufTy).Contents (Elt F) → (⟨S128x128, .f32⟩ : BufTy).Contents (Elt F)) (shapeCast _ (((extractStridedSlice S1x256x128 ![0, 0, 0] · slices_S3x256x128_S1x256x128_0_0_0) : (⟨S3x256x128, .f32⟩ : BufTy).Contents (Elt F) → (⟨S1x256x128, .f32⟩ : BufTy).Contents (Elt F)) x5) shapeCasts_S1x256x128_S256x128))

/-- Rows 128–255 of layer 0's 256 × 128 matrix. -/
def wlh0 (x5 : (⟨S3x256x128, .f32⟩ : BufTy).Contents (Elt F)) : (⟨S128x128, .f32⟩ : BufTy).Contents (Elt F) :=
  (((extractStridedSlice S128x128 ![128, 0] · slices_S256x128_S128x128_128_0) : (⟨S256x128, .f32⟩ : BufTy).Contents (Elt F) → (⟨S128x128, .f32⟩ : BufTy).Contents (Elt F)) (shapeCast _ (((extractStridedSlice S1x256x128 ![0, 0, 0] · slices_S3x256x128_S1x256x128_0_0_0) : (⟨S3x256x128, .f32⟩ : BufTy).Contents (Elt F) → (⟨S1x256x128, .f32⟩ : BufTy).Contents (Elt F)) x5) shapeCasts_S1x256x128_S256x128))

/-- Layer 0's bias row of the combining step, as a 1 × 128 array. -/
def lb0 (x6 : (⟨S3x128, .f32⟩ : BufTy).Contents (Elt F)) : (⟨S1x128, .f32⟩ : BufTy).Contents (Elt F) :=
  (shapeCast _ (shapeCast _ (((extractStridedSlice S1x128 ![0, 0] · slices_S3x128_S1x128_0_0) : (⟨S3x128, .f32⟩ : BufTy).Contents (Elt F) → (⟨S1x128, .f32⟩ : BufTy).Contents (Elt F)) x6) shapeCasts_S1x128_S128) shapeCasts_S128_S1x128)

/-- Layer 1's 128 × 128 matrix of the first branch. -/
def wl1 (x1 : (⟨S3x128x128, .f32⟩ : BufTy).Contents (Elt F)) : (⟨S128x128, .f32⟩ : BufTy).Contents (Elt F) :=
  (shapeCast _ (((extractStridedSlice S1x128x128 ![1, 0, 0] · slices_S3x128x128_S1x128x128_1_0_0) : (⟨S3x128x128, .f32⟩ : BufTy).Contents (Elt F) → (⟨S1x128x128, .f32⟩ : BufTy).Contents (Elt F)) x1) shapeCasts_S1x128x128_S128x128)

/-- Layer 1's 128 × 128 matrix of the second branch. -/
def wg1 (x3 : (⟨S3x128x128, .f32⟩ : BufTy).Contents (Elt F)) : (⟨S128x128, .f32⟩ : BufTy).Contents (Elt F) :=
  (shapeCast _ (((extractStridedSlice S1x128x128 ![1, 0, 0] · slices_S3x128x128_S1x128x128_1_0_0) : (⟨S3x128x128, .f32⟩ : BufTy).Contents (Elt F) → (⟨S1x128x128, .f32⟩ : BufTy).Contents (Elt F)) x3) shapeCasts_S1x128x128_S128x128)

/-- Layer 1's bias row of the first branch, as a 1 × 128 array. -/
def bL1 (x2 : (⟨S3x128, .f32⟩ : BufTy).Contents (Elt F)) : (⟨S1x128, .f32⟩ : BufTy).Contents (Elt F) :=
  (shapeCast _ (shapeCast _ (((extractStridedSlice S1x128 ![1, 0] · slices_S3x128_S1x128_1_0) : (⟨S3x128, .f32⟩ : BufTy).Contents (Elt F) → (⟨S1x128, .f32⟩ : BufTy).Contents (Elt F)) x2) shapeCasts_S1x128_S128) shapeCasts_S128_S1x128)

/-- Layer 1's bias row of the second branch, as a 1 × 128 array. -/
def bG1 (x4 : (⟨S3x128, .f32⟩ : BufTy).Contents (Elt F)) : (⟨S1x128, .f32⟩ : BufTy).Contents (Elt F) :=
  (shapeCast _ (shapeCast _ (((extractStridedSlice S1x128 ![1, 0] · slices_S3x128_S1x128_1_0) : (⟨S3x128, .f32⟩ : BufTy).Contents (Elt F) → (⟨S1x128, .f32⟩ : BufTy).Contents (Elt F)) x4) shapeCasts_S1x128_S128) shapeCasts_S128_S1x128)

/-- Rows 0–127 of layer 1's 256 × 128 matrix. -/
def wgh1 (x5 : (⟨S3x256x128, .f32⟩ : BufTy).Contents (Elt F)) : (⟨S128x128, .f32⟩ : BufTy).Contents (Elt F) :=
  (((extractStridedSlice S128x128 ![0, 0] · slices_S256x128_S128x128_0_0) : (⟨S256x128, .f32⟩ : BufTy).Contents (Elt F) → (⟨S128x128, .f32⟩ : BufTy).Contents (Elt F)) (shapeCast _ (((extractStridedSlice S1x256x128 ![1, 0, 0] · slices_S3x256x128_S1x256x128_1_0_0) : (⟨S3x256x128, .f32⟩ : BufTy).Contents (Elt F) → (⟨S1x256x128, .f32⟩ : BufTy).Contents (Elt F)) x5) shapeCasts_S1x256x128_S256x128))

/-- Rows 128–255 of layer 1's 256 × 128 matrix. -/
def wlh1 (x5 : (⟨S3x256x128, .f32⟩ : BufTy).Contents (Elt F)) : (⟨S128x128, .f32⟩ : BufTy).Contents (Elt F) :=
  (((extractStridedSlice S128x128 ![128, 0] · slices_S256x128_S128x128_128_0) : (⟨S256x128, .f32⟩ : BufTy).Contents (Elt F) → (⟨S128x128, .f32⟩ : BufTy).Contents (Elt F)) (shapeCast _ (((extractStridedSlice S1x256x128 ![1, 0, 0] · slices_S3x256x128_S1x256x128_1_0_0) : (⟨S3x256x128, .f32⟩ : BufTy).Contents (Elt F) → (⟨S1x256x128, .f32⟩ : BufTy).Contents (Elt F)) x5) shapeCasts_S1x256x128_S256x128))

/-- Layer 1's bias row of the combining step, as a 1 × 128 array. -/
def lb1 (x6 : (⟨S3x128, .f32⟩ : BufTy).Contents (Elt F)) : (⟨S1x128, .f32⟩ : BufTy).Contents (Elt F) :=
  (shapeCast _ (shapeCast _ (((extractStridedSlice S1x128 ![1, 0] · slices_S3x128_S1x128_1_0) : (⟨S3x128, .f32⟩ : BufTy).Contents (Elt F) → (⟨S1x128, .f32⟩ : BufTy).Contents (Elt F)) x6) shapeCasts_S1x128_S128) shapeCasts_S128_S1x128)

/-- Layer 2's 128 × 128 matrix of the first branch. -/
def wl2 (x1 : (⟨S3x128x128, .f32⟩ : BufTy).Contents (Elt F)) : (⟨S128x128, .f32⟩ : BufTy).Contents (Elt F) :=
  (shapeCast _ (((extractStridedSlice S1x128x128 ![2, 0, 0] · slices_S3x128x128_S1x128x128_2_0_0) : (⟨S3x128x128, .f32⟩ : BufTy).Contents (Elt F) → (⟨S1x128x128, .f32⟩ : BufTy).Contents (Elt F)) x1) shapeCasts_S1x128x128_S128x128)

/-- Layer 2's 128 × 128 matrix of the second branch. -/
def wg2 (x3 : (⟨S3x128x128, .f32⟩ : BufTy).Contents (Elt F)) : (⟨S128x128, .f32⟩ : BufTy).Contents (Elt F) :=
  (shapeCast _ (((extractStridedSlice S1x128x128 ![2, 0, 0] · slices_S3x128x128_S1x128x128_2_0_0) : (⟨S3x128x128, .f32⟩ : BufTy).Contents (Elt F) → (⟨S1x128x128, .f32⟩ : BufTy).Contents (Elt F)) x3) shapeCasts_S1x128x128_S128x128)

/-- Layer 2's bias row of the first branch, as a 1 × 128 array. -/
def bL2 (x2 : (⟨S3x128, .f32⟩ : BufTy).Contents (Elt F)) : (⟨S1x128, .f32⟩ : BufTy).Contents (Elt F) :=
  (shapeCast _ (shapeCast _ (((extractStridedSlice S1x128 ![2, 0] · slices_S3x128_S1x128_2_0) : (⟨S3x128, .f32⟩ : BufTy).Contents (Elt F) → (⟨S1x128, .f32⟩ : BufTy).Contents (Elt F)) x2) shapeCasts_S1x128_S128) shapeCasts_S128_S1x128)

/-- Layer 2's bias row of the second branch, as a 1 × 128 array. -/
def bG2 (x4 : (⟨S3x128, .f32⟩ : BufTy).Contents (Elt F)) : (⟨S1x128, .f32⟩ : BufTy).Contents (Elt F) :=
  (shapeCast _ (shapeCast _ (((extractStridedSlice S1x128 ![2, 0] · slices_S3x128_S1x128_2_0) : (⟨S3x128, .f32⟩ : BufTy).Contents (Elt F) → (⟨S1x128, .f32⟩ : BufTy).Contents (Elt F)) x4) shapeCasts_S1x128_S128) shapeCasts_S128_S1x128)

/-- Rows 0–127 of layer 2's 256 × 128 matrix. -/
def wgh2 (x5 : (⟨S3x256x128, .f32⟩ : BufTy).Contents (Elt F)) : (⟨S128x128, .f32⟩ : BufTy).Contents (Elt F) :=
  (((extractStridedSlice S128x128 ![0, 0] · slices_S256x128_S128x128_0_0) : (⟨S256x128, .f32⟩ : BufTy).Contents (Elt F) → (⟨S128x128, .f32⟩ : BufTy).Contents (Elt F)) (shapeCast _ (((extractStridedSlice S1x256x128 ![2, 0, 0] · slices_S3x256x128_S1x256x128_2_0_0) : (⟨S3x256x128, .f32⟩ : BufTy).Contents (Elt F) → (⟨S1x256x128, .f32⟩ : BufTy).Contents (Elt F)) x5) shapeCasts_S1x256x128_S256x128))

/-- Rows 128–255 of layer 2's 256 × 128 matrix. -/
def wlh2 (x5 : (⟨S3x256x128, .f32⟩ : BufTy).Contents (Elt F)) : (⟨S128x128, .f32⟩ : BufTy).Contents (Elt F) :=
  (((extractStridedSlice S128x128 ![128, 0] · slices_S256x128_S128x128_128_0) : (⟨S256x128, .f32⟩ : BufTy).Contents (Elt F) → (⟨S128x128, .f32⟩ : BufTy).Contents (Elt F)) (shapeCast _ (((extractStridedSlice S1x256x128 ![2, 0, 0] · slices_S3x256x128_S1x256x128_2_0_0) : (⟨S3x256x128, .f32⟩ : BufTy).Contents (Elt F) → (⟨S1x256x128, .f32⟩ : BufTy).Contents (Elt F)) x5) shapeCasts_S1x256x128_S256x128))

/-- Layer 2's bias row of the combining step, as a 1 × 128 array. -/
def lb2 (x6 : (⟨S3x128, .f32⟩ : BufTy).Contents (Elt F)) : (⟨S1x128, .f32⟩ : BufTy).Contents (Elt F) :=
  (shapeCast _ (shapeCast _ (((extractStridedSlice S1x128 ![2, 0] · slices_S3x128_S1x128_2_0) : (⟨S3x128, .f32⟩ : BufTy).Contents (Elt F) → (⟨S1x128, .f32⟩ : BufTy).Contents (Elt F)) x6) shapeCasts_S1x128_S128) shapeCasts_S128_S1x128)

/-- A 128-vector as a 1 × 128 array. -/
def row128 (x : (⟨S128, .f32⟩ : BufTy).Contents (Elt F)) : (⟨S1x128, .f32⟩ : BufTy).Contents (Elt F) :=
  (shapeCast _ x shapeCasts_S128_S1x128)

/-- The last bias vector as a 1 × 64 array. -/
def fb (x10 : (⟨S64, .f32⟩ : BufTy).Contents (Elt F)) : (⟨S1x64, .f32⟩ : BufTy).Contents (Elt F) :=
  (shapeCast _ x10 shapeCasts_S64_S1x64)

end Cert.KernelIdeal.KChain

end
-- ==== Proof.KHost.lean ====
/-
  The host operations between the launches, read as functions: what each stretch of host operations leaves in the buffers
  the next launches read (the edge lists and weights, the aggregated rows, the slices of the weight arrays), as the named
  compositions of Proof/KChain.lean applied to the buffers the stretch starts from; and that a stretch leaves every buffer
  it does not write as it found it.
-/
import proofs.«164762_j10505490006519_1_alg».proof.Proof.Gen.KernelIdeal.Launch
import proofs.«164762_j10505490006519_1_alg».proof.Proof.KChain
import Idealize.ShloMosaic.Lib.StableHlo.Run

set_option maxRecDepth 16384
set_option maxHeartbeats 4000000

noncomputable section

namespace Cert.KernelIdeal.KHost

open Cert.KernelIdeal Cert.KernelIdeal.Gen Cert.KernelIdeal.KChain
open Idealize.ShloMosaic Idealize.ShloMosaic.TcCoe Idealize.ShloMosaic.StableHlo Idealize.SL.Sem

variable {F : FTy → Type} [FloatOps F] (V : Valuation τ sig (Elt F))

/-- The buffers stretch 0 writes. -/
abbrev wr0 : List (Ref sig .tc) := [main_v0, main_v1, main_v2, main_v3, main_v4, main_v5, main_v6, main_v7, main_cst, main_v8, main_cst_0, main_v9, main_v10, main_v11, main_cst_1, main_v12, main_v13, main_v14, main_cst_2, main_v15, main_cst_3, main_v16, main_v17, main_v18, main_cst_4, main_v19, main_v20, main_v21, main_c, main_v22, main_v23, main_c_5, main_v24, main_v25, main_v26, main_v27, main_v28, main_c_6, main_v29, main_v30, main_c_7, main_v31, main_v32, main_v33, main_v34, main_v35, main_v36, main_c_8, main_v37, main_v38, main_c_9, main_v39, main_v40, main_v41, main_v42, main_v43, main_c_10, main_v44, main_v45, main_c_11, main_v46, main_v47, main_v48, main_v49, main_v50, main_v51, main_cst_12, main_v52, main_v53, main_v54, main_cst_13, main_v55, main_v56, main_v57, main_v58, main_v59]

/-- Stretch 0 leaves a buffer it does not write as it found it. -/
theorem skip0 (b : Ref sig .tc) (hb : b ∉ wr0) : after (hostOps0 (F := F)) V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 1 writes. -/
abbrev wr1 : List (Ref sig .tc) := [main_v61, main_v62]

/-- Stretch 1 leaves a buffer it does not write as it found it. -/
theorem skip1 (b : Ref sig .tc) (hb : b ∉ wr1) : after (hostOps1 (F := F)) V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 2 writes. -/
abbrev wr2 : List (Ref sig .tc) := [main_c_14, main_v64, main_v65, main_c_15, main_v66, main_v67, main_v68, main_v69, main_v70, main_v71, main_v72, main_v73, main_cst_16, main_v74, main_v75, main_v76, main_v77, main_v78, main_v79, main_v80, main_c_17, main_v81, main_v82, main_c_18, main_v83, main_v84, main_v85, main_v86, main_v87, main_v88, main_v89, main_v90, main_cst_19, main_v91, main_v92, main_v93, main_v94, main_v95, main_v96, main_v97, main_v98, main_v99, main_v100, main_v101, main_v102]

/-- Stretch 2 leaves a buffer it does not write as it found it. -/
theorem skip2 (b : Ref sig .tc) (hb : b ∉ wr2) : after (hostOps2 (F := F)) V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 3 writes. -/
abbrev wr3 : List (Ref sig .tc) := [main_v104, main_v105, main_v106, main_v107, main_v108]

/-- Stretch 3 leaves a buffer it does not write as it found it. -/
theorem skip3 (b : Ref sig .tc) (hb : b ∉ wr3) : after (hostOps3 (F := F)) V (Proc.devRef .tc b) = V (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 4 writes. -/
abbrev wr4 : List (Ref sig .tc) := [main_v110, main_v111, main_v112, main_v113, main_v114, main_v115, main_v116, main_v117, main_v118]

/-- Stretch 4 leaves a buffer it does not write as it found it. -/
theorem skip4 (b : Ref sig .tc) (hb : b ∉ wr4) : after (hostOps4 (F := F)) V (Proc.devRef .tc b) = V (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 5 writes. -/
abbrev wr5 : List (Ref sig .tc) := [main_v120, main_v121]

/-- Stretch 5 leaves a buffer it does not write as it found it. -/
theorem skip5 (b : Ref sig .tc) (hb : b ∉ wr5) : after (hostOps5 (F := F)) V (Proc.devRef .tc b) = V (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 6 writes. -/
abbrev wr6 : List (Ref sig .tc) := [main_v123, main_v124]

/-- Stretch 6 leaves a buffer it does not write as it found it. -/
theorem skip6 (b : Ref sig .tc) (hb : b ∉ wr6) : after (hostOps6 (F := F)) V (Proc.devRef .tc b) = V (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 7 writes. -/
abbrev wr7 : List (Ref sig .tc) := [main_c_20, main_v126, main_v127, main_c_21, main_v128, main_v129, main_v130, main_v131, main_v132, main_v133, main_v134, main_v135, main_cst_22, main_v136, main_v137, main_v138, main_v139, main_v140, main_v141, main_v142, main_c_23, main_v143, main_v144, main_c_24, main_v145, main_v146, main_v147, main_v148, main_v149, main_v150, main_v151, main_v152, main_cst_25, main_v153, main_v154, main_v155, main_v156, main_v157, main_v158, main_v159, main_v160, main_v161, main_v162, main_v163, main_v164]

/-- Stretch 7 leaves a buffer it does not write as it found it. -/
theorem skip7 (b : Ref sig .tc) (hb : b ∉ wr7) : after (hostOps7 (F := F)) V (Proc.devRef .tc b) = V (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 8 writes. -/
abbrev wr8 : List (Ref sig .tc) := [main_v166, main_v167, main_v168, main_v169, main_v170]

/-- Stretch 8 leaves a buffer it does not write as it found it. -/
theorem skip8 (b : Ref sig .tc) (hb : b ∉ wr8) : after (hostOps8 (F := F)) V (Proc.devRef .tc b) = V (Proc.devRef .tc b) :=
  StableHlo.after_of_forall_not_mem (b := Proc.devRef .tc b) _ _ (List.forall_iff_forall_mem.mp (by
    simp only [hostOps8, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 9 writes. -/
abbrev wr9 : List (Ref sig .tc) := [main_v172, main_v173, main_v174, main_v175, main_v176, main_v177, main_v178, main_v179, main_v180]

/-- Stretch 9 leaves a buffer it does not write as it found it. -/
theorem skip9 (b : Ref sig .tc) (hb : b ∉ wr9) : after (hostOps9 (F := F)) V (Proc.devRef .tc b) = V (Proc.devRef .tc b) :=
  StableHlo.after_of_forall_not_mem (b := Proc.devRef .tc b) _ _ (List.forall_iff_forall_mem.mp (by
    simp only [hostOps9, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 10 writes. -/
abbrev wr10 : List (Ref sig .tc) := [main_v182, main_v183]

/-- Stretch 10 leaves a buffer it does not write as it found it. -/
theorem skip10 (b : Ref sig .tc) (hb : b ∉ wr10) : after (hostOps10 (F := F)) V (Proc.devRef .tc b) = V (Proc.devRef .tc b) :=
  StableHlo.after_of_forall_not_mem (b := Proc.devRef .tc b) _ _ (List.forall_iff_forall_mem.mp (by
    simp only [hostOps10, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 11 writes. -/
abbrev wr11 : List (Ref sig .tc) := [main_v185, main_v186]

/-- Stretch 11 leaves a buffer it does not write as it found it. -/
theorem skip11 (b : Ref sig .tc) (hb : b ∉ wr11) : after (hostOps11 (F := F)) V (Proc.devRef .tc b) = V (Proc.devRef .tc b) :=
  StableHlo.after_of_forall_not_mem (b := Proc.devRef .tc b) _ _ (List.forall_iff_forall_mem.mp (by
    simp only [hostOps11, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 12 writes. -/
abbrev wr12 : List (Ref sig .tc) := [main_c_26, main_v188, main_v189, main_c_27, main_v190, main_v191, main_v192, main_v193, main_v194, main_v195, main_v196, main_v197, main_cst_28, main_v198, main_v199, main_v200, main_v201, main_v202, main_v203, main_v204, main_c_29, main_v205, main_v206, main_c_30, main_v207, main_v208, main_v209, main_v210, main_v211, main_v212, main_v213, main_v214, main_cst_31, main_v215, main_v216, main_v217, main_v218, main_v219, main_v220, main_v221, main_v222, main_v223, main_v224, main_v225, main_v226]

/-- Stretch 12 leaves a buffer it does not write as it found it. -/
theorem skip12 (b : Ref sig .tc) (hb : b ∉ wr12) : after (hostOps12 (F := F)) V (Proc.devRef .tc b) = V (Proc.devRef .tc b) :=
  StableHlo.after_of_forall_not_mem (b := Proc.devRef .tc b) _ _ (List.forall_iff_forall_mem.mp (by
    simp only [hostOps12, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 13 writes. -/
abbrev wr13 : List (Ref sig .tc) := [main_v228, main_v229, main_v230, main_v231, main_v232]

/-- Stretch 13 leaves a buffer it does not write as it found it. -/
theorem skip13 (b : Ref sig .tc) (hb : b ∉ wr13) : after (hostOps13 (F := F)) V (Proc.devRef .tc b) = V (Proc.devRef .tc b) :=
  StableHlo.after_of_forall_not_mem (b := Proc.devRef .tc b) _ _ (List.forall_iff_forall_mem.mp (by
    simp only [hostOps13, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 14 writes. -/
abbrev wr14 : List (Ref sig .tc) := [main_v234, main_v235, main_v236, main_v237, main_v238, main_v239, main_v240, main_v241, main_v242]

/-- Stretch 14 leaves a buffer it does not write as it found it. -/
theorem skip14 (b : Ref sig .tc) (hb : b ∉ wr14) : after (hostOps14 (F := F)) V (Proc.devRef .tc b) = V (Proc.devRef .tc b) :=
  StableHlo.after_of_forall_not_mem (b := Proc.devRef .tc b) _ _ (List.forall_iff_forall_mem.mp (by
    simp only [hostOps14, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

/-- The buffers stretch 15 writes. -/
abbrev wr15 : List (Ref sig .tc) := [main_v244]

/-- Stretch 15 leaves a buffer it does not write as it found it. -/
theorem skip15 (b : Ref sig .tc) (hb : b ∉ wr15) : after (hostOps15 (F := F)) V (Proc.devRef .tc b) = V (Proc.devRef .tc b) :=
  StableHlo.after_of_forall_not_mem (b := Proc.devRef .tc b) _ _ (List.forall_iff_forall_mem.mp (by
    simp only [hostOps15, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => hb (by rw [e]; decide))))

theorem H0_v1 : after (hostOps0 (F := F)) V (Proc.devRef .tc main_v1) = srcG (V (Proc.devRef .tc main_arg11)) := by
  after_results_simp <;> rfl

theorem H0_v3 : after (hostOps0 (F := F)) V (Proc.devRef .tc main_v3) = dstG (V (Proc.devRef .tc main_arg11)) := by
  after_results_simp <;> rfl

theorem H0_v5 : after (hostOps0 (F := F)) V (Proc.devRef .tc main_v5) = srcL (V (Proc.devRef .tc main_arg12)) := by
  after_results_simp <;> rfl

theorem H0_v7 : after (hostOps0 (F := F)) V (Proc.devRef .tc main_v7) = dstL (V (Proc.devRef .tc main_arg12)) := by
  after_results_simp <;> rfl

theorem H0_v36 : after (hostOps0 (F := F)) V (Proc.devRef .tc main_v36) = coefL (srcL (V (Proc.devRef .tc main_arg12))) (dstL (V (Proc.devRef .tc main_arg12))) (dinvL (dstL (V (Proc.devRef .tc main_arg12)))) := by
  after_results_simp <;> rfl

theorem H0_v51 : after (hostOps0 (F := F)) V (Proc.devRef .tc main_v51) = coefG (srcG (V (Proc.devRef .tc main_arg11))) (dstG (V (Proc.devRef .tc main_arg11))) (dinvG (dstG (V (Proc.devRef .tc main_arg11)))) := by
  after_results_simp <;> rfl

theorem H0_v54 : after (hostOps0 (F := F)) V (Proc.devRef .tc main_v54) = selfW (dinvL (dstL (V (Proc.devRef .tc main_arg12)))) := by
  after_results_simp <;> rfl

theorem H0_v57 : after (hostOps0 (F := F)) V (Proc.devRef .tc main_v57) = selfW (dinvG (dstG (V (Proc.devRef .tc main_arg11)))) := by
  after_results_simp <;> rfl

theorem H0_v59 : after (hostOps0 (F := F)) V (Proc.devRef .tc main_v59) = wl0 (V (Proc.devRef .tc main_arg1)) := by
  after_results_simp <;> rfl

theorem H1_v62 : after (hostOps1 (F := F)) V (Proc.devRef .tc main_v62) = wg0 (V (Proc.devRef .tc main_arg3)) := by
  after_results_simp <;> rfl

theorem H2_v80 : after (hostOps2 (F := F)) V (Proc.devRef .tc main_v80) = aggL (V (Proc.devRef .tc main_v60)) (V (Proc.devRef .tc main_v5)) (V (Proc.devRef .tc main_v7)) (V (Proc.devRef .tc main_v36)) (V (Proc.devRef .tc main_v54)) := by
  after_results_simp <;> rfl

theorem H2_v97 : after (hostOps2 (F := F)) V (Proc.devRef .tc main_v97) = aggG (V (Proc.devRef .tc main_v63)) (V (Proc.devRef .tc main_v1)) (V (Proc.devRef .tc main_v3)) (V (Proc.devRef .tc main_v51)) (V (Proc.devRef .tc main_v57)) := by
  after_results_simp <;> rfl

theorem H2_v100 : after (hostOps2 (F := F)) V (Proc.devRef .tc main_v100) = bL0 (V (Proc.devRef .tc main_arg2)) := by
  after_results_simp <;> rfl

theorem H2_v101 : after (hostOps2 (F := F)) V (Proc.devRef .tc main_v101) = row128 (V (Proc.devRef .tc main_arg7)) := by
  after_results_simp <;> rfl

theorem H2_v102 : after (hostOps2 (F := F)) V (Proc.devRef .tc main_v102) = row128 (V (Proc.devRef .tc main_arg8)) := by
  after_results_simp <;> rfl

theorem H3_v106 : after (hostOps3 (F := F)) V (Proc.devRef .tc main_v106) = bG0 (V (Proc.devRef .tc main_arg4)) := by
  after_results_simp <;> rfl

theorem H3_v107 : after (hostOps3 (F := F)) V (Proc.devRef .tc main_v107) = row128 (V (Proc.devRef .tc main_arg7)) := by
  after_results_simp <;> rfl

theorem H3_v108 : after (hostOps3 (F := F)) V (Proc.devRef .tc main_v108) = row128 (V (Proc.devRef .tc main_arg8)) := by
  after_results_simp <;> rfl

theorem H4_v112 : after (hostOps4 (F := F)) V (Proc.devRef .tc main_v112) = wgh0 (V (Proc.devRef .tc main_arg5)) := by
  after_results_simp <;> rfl

theorem H4_v115 : after (hostOps4 (F := F)) V (Proc.devRef .tc main_v115) = wlh0 (V (Proc.devRef .tc main_arg5)) := by
  after_results_simp <;> rfl

theorem H4_v118 : after (hostOps4 (F := F)) V (Proc.devRef .tc main_v118) = lb0 (V (Proc.devRef .tc main_arg6)) := by
  after_results_simp <;> rfl

theorem H5_v121 : after (hostOps5 (F := F)) V (Proc.devRef .tc main_v121) = wl1 (V (Proc.devRef .tc main_arg1)) := by
  after_results_simp <;> rfl

theorem H6_v124 : after (hostOps6 (F := F)) V (Proc.devRef .tc main_v124) = wg1 (V (Proc.devRef .tc main_arg3)) := by
  after_results_simp <;> rfl

theorem H7_v142 : after (hostOps7 (F := F)) V (Proc.devRef .tc main_v142) = aggL (V (Proc.devRef .tc main_v122)) (V (Proc.devRef .tc main_v5)) (V (Proc.devRef .tc main_v7)) (V (Proc.devRef .tc main_v36)) (V (Proc.devRef .tc main_v54)) := by
  after_results_simp <;> rfl

theorem H7_v159 : after (hostOps7 (F := F)) V (Proc.devRef .tc main_v159) = aggG (V (Proc.devRef .tc main_v125)) (V (Proc.devRef .tc main_v1)) (V (Proc.devRef .tc main_v3)) (V (Proc.devRef .tc main_v51)) (V (Proc.devRef .tc main_v57)) := by
  after_results_simp <;> rfl

theorem H7_v162 : after (hostOps7 (F := F)) V (Proc.devRef .tc main_v162) = bL1 (V (Proc.devRef .tc main_arg2)) := by
  after_results_simp <;> rfl

theorem H7_v163 : after (hostOps7 (F := F)) V (Proc.devRef .tc main_v163) = row128 (V (Proc.devRef .tc main_arg7)) := by
  after_results_simp <;> rfl

theorem H7_v164 : after (hostOps7 (F := F)) V (Proc.devRef .tc main_v164) = row128 (V (Proc.devRef .tc main_arg8)) := by
  after_results_simp <;> rfl

theorem H8_v168 : after (hostOps8 (F := F)) V (Proc.devRef .tc main_v168) = bG1 (V (Proc.devRef .tc main_arg4)) := by
  after_results_simp <;> rfl

theorem H8_v169 : after (hostOps8 (F := F)) V (Proc.devRef .tc main_v169) = row128 (V (Proc.devRef .tc main_arg7)) := by
  after_results_simp <;> rfl

theorem H8_v170 : after (hostOps8 (F := F)) V (Proc.devRef .tc main_v170) = row128 (V (Proc.devRef .tc main_arg8)) := by
  after_results_simp <;> rfl

theorem H9_v174 : after (hostOps9 (F := F)) V (Proc.devRef .tc main_v174) = wgh1 (V (Proc.devRef .tc main_arg5)) := by
  after_results_simp <;> rfl

theorem H9_v177 : after (hostOps9 (F := F)) V (Proc.devRef .tc main_v177) = wlh1 (V (Proc.devRef .tc main_arg5)) := by
  after_results_simp <;> rfl

theorem H9_v180 : after (hostOps9 (F := F)) V (Proc.devRef .tc main_v180) = lb1 (V (Proc.devRef .tc main_arg6)) := by
  after_results_simp <;> rfl

theorem H10_v183 : after (hostOps10 (F := F)) V (Proc.devRef .tc main_v183) = wl2 (V (Proc.devRef .tc main_arg1)) := by
  after_results_simp <;> rfl

theorem H11_v186 : after (hostOps11 (F := F)) V (Proc.devRef .tc main_v186) = wg2 (V (Proc.devRef .tc main_arg3)) := by
  after_results_simp <;> rfl

theorem H12_v204 : after (hostOps12 (F := F)) V (Proc.devRef .tc main_v204) = aggL (V (Proc.devRef .tc main_v184)) (V (Proc.devRef .tc main_v5)) (V (Proc.devRef .tc main_v7)) (V (Proc.devRef .tc main_v36)) (V (Proc.devRef .tc main_v54)) := by
  after_results_simp <;> rfl

theorem H12_v221 : after (hostOps12 (F := F)) V (Proc.devRef .tc main_v221) = aggG (V (Proc.devRef .tc main_v187)) (V (Proc.devRef .tc main_v1)) (V (Proc.devRef .tc main_v3)) (V (Proc.devRef .tc main_v51)) (V (Proc.devRef .tc main_v57)) := by
  after_results_simp <;> rfl

theorem H12_v224 : after (hostOps12 (F := F)) V (Proc.devRef .tc main_v224) = bL2 (V (Proc.devRef .tc main_arg2)) := by
  after_results_simp <;> rfl

theorem H12_v225 : after (hostOps12 (F := F)) V (Proc.devRef .tc main_v225) = row128 (V (Proc.devRef .tc main_arg7)) := by
  after_results_simp <;> rfl

theorem H12_v226 : after (hostOps12 (F := F)) V (Proc.devRef .tc main_v226) = row128 (V (Proc.devRef .tc main_arg8)) := by
  after_results_simp <;> rfl

theorem H13_v230 : after (hostOps13 (F := F)) V (Proc.devRef .tc main_v230) = bG2 (V (Proc.devRef .tc main_arg4)) := by
  after_results_simp <;> rfl

theorem H13_v231 : after (hostOps13 (F := F)) V (Proc.devRef .tc main_v231) = row128 (V (Proc.devRef .tc main_arg7)) := by
  after_results_simp <;> rfl

theorem H13_v232 : after (hostOps13 (F := F)) V (Proc.devRef .tc main_v232) = row128 (V (Proc.devRef .tc main_arg8)) := by
  after_results_simp <;> rfl

theorem H14_v236 : after (hostOps14 (F := F)) V (Proc.devRef .tc main_v236) = wgh2 (V (Proc.devRef .tc main_arg5)) := by
  after_results_simp <;> rfl

theorem H14_v239 : after (hostOps14 (F := F)) V (Proc.devRef .tc main_v239) = wlh2 (V (Proc.devRef .tc main_arg5)) := by
  after_results_simp <;> rfl

theorem H14_v242 : after (hostOps14 (F := F)) V (Proc.devRef .tc main_v242) = lb2 (V (Proc.devRef .tc main_arg6)) := by
  after_results_simp <;> rfl

theorem H15_v244 : after (hostOps15 (F := F)) V (Proc.devRef .tc main_v244) = fb (V (Proc.devRef .tc main_arg10)) := by
  after_results_simp <;> rfl

/-! ## The stretches under names

Each stretch is given a name, and the facts above are restated for the named stretch at any buffer. -/

/-- Stretch 0, named. -/
def hops0 : List (HloOp τ sig (Elt F)) := hostOps0
/-- Stretch 1, named. -/
def hops1 : List (HloOp τ sig (Elt F)) := hostOps1
/-- Stretch 2, named. -/
def hops2 : List (HloOp τ sig (Elt F)) := hostOps2
/-- Stretch 3, named. -/
def hops3 : List (HloOp τ sig (Elt F)) := hostOps3
/-- Stretch 4, named. -/
def hops4 : List (HloOp τ sig (Elt F)) := hostOps4
/-- Stretch 5, named. -/
def hops5 : List (HloOp τ sig (Elt F)) := hostOps5
/-- Stretch 6, named. -/
def hops6 : List (HloOp τ sig (Elt F)) := hostOps6
/-- Stretch 7, named. -/
def hops7 : List (HloOp τ sig (Elt F)) := hostOps7
/-- Stretch 8, named. -/
def hops8 : List (HloOp τ sig (Elt F)) := hostOps8
/-- Stretch 9, named. -/
def hops9 : List (HloOp τ sig (Elt F)) := hostOps9
/-- Stretch 10, named. -/
def hops10 : List (HloOp τ sig (Elt F)) := hostOps10
/-- Stretch 11, named. -/
def hops11 : List (HloOp τ sig (Elt F)) := hostOps11
/-- Stretch 12, named. -/
def hops12 : List (HloOp τ sig (Elt F)) := hostOps12
/-- Stretch 13, named. -/
def hops13 : List (HloOp τ sig (Elt F)) := hostOps13
/-- Stretch 14, named. -/
def hops14 : List (HloOp τ sig (Elt F)) := hostOps14
/-- Stretch 15, named. -/
def hops15 : List (HloOp τ sig (Elt F)) := hostOps15

theorem skip0' (b : Ref sig .tc) (hb : b ∉ wr0) : after (hops0 (F := F)) V (no_index (Proc.devRef .tc b)) = V (Proc.devRef .tc b) := skip0 V b hb
theorem skip1' (b : Ref sig .tc) (hb : b ∉ wr1) : after (hops1 (F := F)) V (no_index (Proc.devRef .tc b)) = V (Proc.devRef .tc b) := skip1 V b hb
theorem skip2' (b : Ref sig .tc) (hb : b ∉ wr2) : after (hops2 (F := F)) V (no_index (Proc.devRef .tc b)) = V (Proc.devRef .tc b) := skip2 V b hb
theorem skip3' (b : Ref sig .tc) (hb : b ∉ wr3) : after (hops3 (F := F)) V (no_index (Proc.devRef .tc b)) = V (Proc.devRef .tc b) := skip3 V b hb
theorem skip4' (b : Ref sig .tc) (hb : b ∉ wr4) : after (hops4 (F := F)) V (no_index (Proc.devRef .tc b)) = V (Proc.devRef .tc b) := skip4 V b hb
theorem skip5' (b : Ref sig .tc) (hb : b ∉ wr5) : after (hops5 (F := F)) V (no_index (Proc.devRef .tc b)) = V (Proc.devRef .tc b) := skip5 V b hb
theorem skip6' (b : Ref sig .tc) (hb : b ∉ wr6) : after (hops6 (F := F)) V (no_index (Proc.devRef .tc b)) = V (Proc.devRef .tc b) := skip6 V b hb
theorem skip7' (b : Ref sig .tc) (hb : b ∉ wr7) : after (hops7 (F := F)) V (no_index (Proc.devRef .tc b)) = V (Proc.devRef .tc b) := skip7 V b hb
theorem skip8' (b : Ref sig .tc) (hb : b ∉ wr8) : after (hops8 (F := F)) V (no_index (Proc.devRef .tc b)) = V (Proc.devRef .tc b) := skip8 V b hb
theorem skip9' (b : Ref sig .tc) (hb : b ∉ wr9) : after (hops9 (F := F)) V (no_index (Proc.devRef .tc b)) = V (Proc.devRef .tc b) := skip9 V b hb
theorem skip10' (b : Ref sig .tc) (hb : b ∉ wr10) : after (hops10 (F := F)) V (no_index (Proc.devRef .tc b)) = V (Proc.devRef .tc b) := skip10 V b hb
theorem skip11' (b : Ref sig .tc) (hb : b ∉ wr11) : after (hops11 (F := F)) V (no_index (Proc.devRef .tc b)) = V (Proc.devRef .tc b) := skip11 V b hb
theorem skip12' (b : Ref sig .tc) (hb : b ∉ wr12) : after (hops12 (F := F)) V (no_index (Proc.devRef .tc b)) = V (Proc.devRef .tc b) := skip12 V b hb
theorem skip13' (b : Ref sig .tc) (hb : b ∉ wr13) : after (hops13 (F := F)) V (no_index (Proc.devRef .tc b)) = V (Proc.devRef .tc b) := skip13 V b hb
theorem skip14' (b : Ref sig .tc) (hb : b ∉ wr14) : after (hops14 (F := F)) V (no_index (Proc.devRef .tc b)) = V (Proc.devRef .tc b) := skip14 V b hb
theorem skip15' (b : Ref sig .tc) (hb : b ∉ wr15) : after (hops15 (F := F)) V (no_index (Proc.devRef .tc b)) = V (Proc.devRef .tc b) := skip15 V b hb
theorem H0_v1' : after (hops0 (F := F)) V (no_index (Proc.devRef .tc main_v1)) = srcG (V (Proc.devRef .tc main_arg11)) := H0_v1 V
theorem H0_v3' : after (hops0 (F := F)) V (no_index (Proc.devRef .tc main_v3)) = dstG (V (Proc.devRef .tc main_arg11)) := H0_v3 V
theorem H0_v5' : after (hops0 (F := F)) V (no_index (Proc.devRef .tc main_v5)) = srcL (V (Proc.devRef .tc main_arg12)) := H0_v5 V
theorem H0_v7' : after (hops0 (F := F)) V (no_index (Proc.devRef .tc main_v7)) = dstL (V (Proc.devRef .tc main_arg12)) := H0_v7 V
theorem H0_v36' : after (hops0 (F := F)) V (no_index (Proc.devRef .tc main_v36)) = coefL (srcL (V (Proc.devRef .tc main_arg12))) (dstL (V (Proc.devRef .tc main_arg12))) (dinvL (dstL (V (Proc.devRef .tc main_arg12)))) := H0_v36 V
theorem H0_v51' : after (hops0 (F := F)) V (no_index (Proc.devRef .tc main_v51)) = coefG (srcG (V (Proc.devRef .tc main_arg11))) (dstG (V (Proc.devRef .tc main_arg11))) (dinvG (dstG (V (Proc.devRef .tc main_arg11)))) := H0_v51 V
theorem H0_v54' : after (hops0 (F := F)) V (no_index (Proc.devRef .tc main_v54)) = selfW (dinvL (dstL (V (Proc.devRef .tc main_arg12)))) := H0_v54 V
theorem H0_v57' : after (hops0 (F := F)) V (no_index (Proc.devRef .tc main_v57)) = selfW (dinvG (dstG (V (Proc.devRef .tc main_arg11)))) := H0_v57 V
theorem H0_v59' : after (hops0 (F := F)) V (no_index (Proc.devRef .tc main_v59)) = wl0 (V (Proc.devRef .tc main_arg1)) := H0_v59 V
theorem H1_v62' : after (hops1 (F := F)) V (no_index (Proc.devRef .tc main_v62)) = wg0 (V (Proc.devRef .tc main_arg3)) := H1_v62 V
theorem H2_v80' : after (hops2 (F := F)) V (no_index (Proc.devRef .tc main_v80)) = aggL (V (Proc.devRef .tc main_v60)) (V (Proc.devRef .tc main_v5)) (V (Proc.devRef .tc main_v7)) (V (Proc.devRef .tc main_v36)) (V (Proc.devRef .tc main_v54)) := H2_v80 V
theorem H2_v97' : after (hops2 (F := F)) V (no_index (Proc.devRef .tc main_v97)) = aggG (V (Proc.devRef .tc main_v63)) (V (Proc.devRef .tc main_v1)) (V (Proc.devRef .tc main_v3)) (V (Proc.devRef .tc main_v51)) (V (Proc.devRef .tc main_v57)) := H2_v97 V
theorem H2_v100' : after (hops2 (F := F)) V (no_index (Proc.devRef .tc main_v100)) = bL0 (V (Proc.devRef .tc main_arg2)) := H2_v100 V
theorem H2_v101' : after (hops2 (F := F)) V (no_index (Proc.devRef .tc main_v101)) = row128 (V (Proc.devRef .tc main_arg7)) := H2_v101 V
theorem H2_v102' : after (hops2 (F := F)) V (no_index (Proc.devRef .tc main_v102)) = row128 (V (Proc.devRef .tc main_arg8)) := H2_v102 V
theorem H3_v106' : after (hops3 (F := F)) V (no_index (Proc.devRef .tc main_v106)) = bG0 (V (Proc.devRef .tc main_arg4)) := H3_v106 V
theorem H3_v107' : after (hops3 (F := F)) V (no_index (Proc.devRef .tc main_v107)) = row128 (V (Proc.devRef .tc main_arg7)) := H3_v107 V
theorem H3_v108' : after (hops3 (F := F)) V (no_index (Proc.devRef .tc main_v108)) = row128 (V (Proc.devRef .tc main_arg8)) := H3_v108 V
theorem H4_v112' : after (hops4 (F := F)) V (no_index (Proc.devRef .tc main_v112)) = wgh0 (V (Proc.devRef .tc main_arg5)) := H4_v112 V
theorem H4_v115' : after (hops4 (F := F)) V (no_index (Proc.devRef .tc main_v115)) = wlh0 (V (Proc.devRef .tc main_arg5)) := H4_v115 V
theorem H4_v118' : after (hops4 (F := F)) V (no_index (Proc.devRef .tc main_v118)) = lb0 (V (Proc.devRef .tc main_arg6)) := H4_v118 V
theorem H5_v121' : after (hops5 (F := F)) V (no_index (Proc.devRef .tc main_v121)) = wl1 (V (Proc.devRef .tc main_arg1)) := H5_v121 V
theorem H6_v124' : after (hops6 (F := F)) V (no_index (Proc.devRef .tc main_v124)) = wg1 (V (Proc.devRef .tc main_arg3)) := H6_v124 V
theorem H7_v142' : after (hops7 (F := F)) V (no_index (Proc.devRef .tc main_v142)) = aggL (V (Proc.devRef .tc main_v122)) (V (Proc.devRef .tc main_v5)) (V (Proc.devRef .tc main_v7)) (V (Proc.devRef .tc main_v36)) (V (Proc.devRef .tc main_v54)) := H7_v142 V
theorem H7_v159' : after (hops7 (F := F)) V (no_index (Proc.devRef .tc main_v159)) = aggG (V (Proc.devRef .tc main_v125)) (V (Proc.devRef .tc main_v1)) (V (Proc.devRef .tc main_v3)) (V (Proc.devRef .tc main_v51)) (V (Proc.devRef .tc main_v57)) := H7_v159 V
theorem H7_v162' : after (hops7 (F := F)) V (no_index (Proc.devRef .tc main_v162)) = bL1 (V (Proc.devRef .tc main_arg2)) := H7_v162 V
theorem H7_v163' : after (hops7 (F := F)) V (no_index (Proc.devRef .tc main_v163)) = row128 (V (Proc.devRef .tc main_arg7)) := H7_v163 V
theorem H7_v164' : after (hops7 (F := F)) V (no_index (Proc.devRef .tc main_v164)) = row128 (V (Proc.devRef .tc main_arg8)) := H7_v164 V
theorem H8_v168' : after (hops8 (F := F)) V (no_index (Proc.devRef .tc main_v168)) = bG1 (V (Proc.devRef .tc main_arg4)) := H8_v168 V
theorem H8_v169' : after (hops8 (F := F)) V (no_index (Proc.devRef .tc main_v169)) = row128 (V (Proc.devRef .tc main_arg7)) := H8_v169 V
theorem H8_v170' : after (hops8 (F := F)) V (no_index (Proc.devRef .tc main_v170)) = row128 (V (Proc.devRef .tc main_arg8)) := H8_v170 V
theorem H9_v174' : after (hops9 (F := F)) V (no_index (Proc.devRef .tc main_v174)) = wgh1 (V (Proc.devRef .tc main_arg5)) := H9_v174 V
theorem H9_v177' : after (hops9 (F := F)) V (no_index (Proc.devRef .tc main_v177)) = wlh1 (V (Proc.devRef .tc main_arg5)) := H9_v177 V
theorem H9_v180' : after (hops9 (F := F)) V (no_index (Proc.devRef .tc main_v180)) = lb1 (V (Proc.devRef .tc main_arg6)) := H9_v180 V
theorem H10_v183' : after (hops10 (F := F)) V (no_index (Proc.devRef .tc main_v183)) = wl2 (V (Proc.devRef .tc main_arg1)) := H10_v183 V
theorem H11_v186' : after (hops11 (F := F)) V (no_index (Proc.devRef .tc main_v186)) = wg2 (V (Proc.devRef .tc main_arg3)) := H11_v186 V
theorem H12_v204' : after (hops12 (F := F)) V (no_index (Proc.devRef .tc main_v204)) = aggL (V (Proc.devRef .tc main_v184)) (V (Proc.devRef .tc main_v5)) (V (Proc.devRef .tc main_v7)) (V (Proc.devRef .tc main_v36)) (V (Proc.devRef .tc main_v54)) := H12_v204 V
theorem H12_v221' : after (hops12 (F := F)) V (no_index (Proc.devRef .tc main_v221)) = aggG (V (Proc.devRef .tc main_v187)) (V (Proc.devRef .tc main_v1)) (V (Proc.devRef .tc main_v3)) (V (Proc.devRef .tc main_v51)) (V (Proc.devRef .tc main_v57)) := H12_v221 V
theorem H12_v224' : after (hops12 (F := F)) V (no_index (Proc.devRef .tc main_v224)) = bL2 (V (Proc.devRef .tc main_arg2)) := H12_v224 V
theorem H12_v225' : after (hops12 (F := F)) V (no_index (Proc.devRef .tc main_v225)) = row128 (V (Proc.devRef .tc main_arg7)) := H12_v225 V
theorem H12_v226' : after (hops12 (F := F)) V (no_index (Proc.devRef .tc main_v226)) = row128 (V (Proc.devRef .tc main_arg8)) := H12_v226 V
theorem H13_v230' : after (hops13 (F := F)) V (no_index (Proc.devRef .tc main_v230)) = bG2 (V (Proc.devRef .tc main_arg4)) := H13_v230 V
theorem H13_v231' : after (hops13 (F := F)) V (no_index (Proc.devRef .tc main_v231)) = row128 (V (Proc.devRef .tc main_arg7)) := H13_v231 V
theorem H13_v232' : after (hops13 (F := F)) V (no_index (Proc.devRef .tc main_v232)) = row128 (V (Proc.devRef .tc main_arg8)) := H13_v232 V
theorem H14_v236' : after (hops14 (F := F)) V (no_index (Proc.devRef .tc main_v236)) = wgh2 (V (Proc.devRef .tc main_arg5)) := H14_v236 V
theorem H14_v239' : after (hops14 (F := F)) V (no_index (Proc.devRef .tc main_v239)) = wlh2 (V (Proc.devRef .tc main_arg5)) := H14_v239 V
theorem H14_v242' : after (hops14 (F := F)) V (no_index (Proc.devRef .tc main_v242)) = lb2 (V (Proc.devRef .tc main_arg6)) := H14_v242 V
theorem H15_v244' : after (hops15 (F := F)) V (no_index (Proc.devRef .tc main_v244)) = fb (V (Proc.devRef .tc main_arg10)) := H15_v244 V

end Cert.KernelIdeal.KHost

end
-- ==== Proof.KNet.lean ====
/-
  The network's layers as functions of arrays: a layer projects its input by the two branches' matrices, aggregates each
  projection over its graph's edges, adds the branch's bias row, normalises every row and clamps it at zero (from the
  second layer on adding the layer's input back), and combines the two branches by the two halves of the layer's
  256 × 128 matrix plus a bias row. The edge lists, edge weights and the aggregation are the host compositions of
  Proof/KChain.lean; the arithmetic per entry is Proof/Spec.lean's.
-/
import proofs.«164762_j10505490006519_1_alg».proof.Proof.KChain
import proofs.«164762_j10505490006519_1_alg».proof.Proof.Spec

noncomputable section

namespace Cert.KernelIdeal.KNet

open Cert.KernelIdeal Cert.KernelIdeal.KChain Cert.Spec
open Idealize.ShloMosaic Idealize.ShloMosaic.TcCoe
open Cert.KernelIdeal.Facts₀ Cert.KernelIdeal.Facts

variable [Cert.KernelIdeal.Facts]

/-- A 1 × n array read as its one row. -/
abbrev rowf {n : Nat} (r : (⟨2, ![1, n]⟩ : Shape).Idx → EReal) : Fin n → EReal := fun k => r (at2 0 (by decide) k.val k.isLt)

abbrev Arr := (⟨S50000x128, .f32⟩ : BufTy).Contents (Elt Ideal)
abbrev Mat := (⟨S128x128, .f32⟩ : BufTy).Contents (Elt Ideal)
abbrev Row := (⟨S1x128, .f32⟩ : BufTy).Contents (Elt Ideal)

/-- The first layer: both branches project, aggregate over their graph, add their bias, normalise and clamp; the two
    results are combined by the two halves of the layer's 256 × 128 matrix plus a bias row. -/
def layer0 (x : Arr) (wl wg wgh wlh : Mat) (bl bg g be lb : Row)
    (eL : (⟨S2x400000, .i32⟩ : BufTy).Contents (Elt Ideal)) (eG : (⟨S2x600000, .i32⟩ : BufTy).Contents (Elt Ideal)) : Arr :=
  cl2 (ln (aggG (mm x wg) (srcG eG) (dstG eG) (coefG (srcG eG) (dstG eG) (dinvG (dstG eG))) (selfW (dinvG (dstG eG)))) (rowf bg) (rowf g) (rowf be))
      (ln (aggL (mm x wl) (srcL eL) (dstL eL) (coefL (srcL eL) (dstL eL) (dinvL (dstL eL))) (selfW (dinvL (dstL eL)))) (rowf bl) (rowf g) (rowf be))
      wgh wlh (rowf lb)

/-- A later layer: the same with the layer's input added back to each branch before they are combined. -/
def layerR (x : Arr) (wl wg wgh wlh : Mat) (bl bg g be lb : Row)
    (eL : (⟨S2x400000, .i32⟩ : BufTy).Contents (Elt Ideal)) (eG : (⟨S2x600000, .i32⟩ : BufTy).Contents (Elt Ideal)) : Arr :=
  cl2 (lnr (aggG (mm x wg) (srcG eG) (dstG eG) (coefG (srcG eG) (dstG eG) (dinvG (dstG eG))) (selfW (dinvG (dstG eG)))) (rowf bg) (rowf g) (rowf be) x)
      (lnr (aggL (mm x wl) (srcL eL) (dstL eL) (coefL (srcL eL) (dstL eL) (dinvL (dstL eL))) (selfW (dinvL (dstL eL)))) (rowf bl) (rowf g) (rowf be) x)
      wgh wlh (rowf lb)

end Cert.KernelIdeal.KNet

end
-- ==== Proof.KStage.lean ====
/-
  The kernel program's values, boundary by boundary. Between its sixteen launches the program runs stretches of host
  operations; after launch k the launch's output array holds the whole-array function of the launch's inputs
  (Proof/KReg*.lean), every input array is as it was, and every other buffer is untouched. Reading the chain backwards
  from a layer's output to the layer's input gives the layer as one function of its input array and the argument arrays.
-/
import proofs.«164762_j10505490006519_1_alg».proof.Proof.Gen.KernelIdeal.Frame
import proofs.«164762_j10505490006519_1_alg».proof.Proof.KReg0
import proofs.«164762_j10505490006519_1_alg».proof.Proof.KReg1
import proofs.«164762_j10505490006519_1_alg».proof.Proof.KReg2
import proofs.«164762_j10505490006519_1_alg».proof.Proof.KReg3
import proofs.«164762_j10505490006519_1_alg».proof.Proof.KReg4
import proofs.«164762_j10505490006519_1_alg».proof.Proof.KReg5
import proofs.«164762_j10505490006519_1_alg».proof.Proof.KReg6
import proofs.«164762_j10505490006519_1_alg».proof.Proof.KReg7
import proofs.«164762_j10505490006519_1_alg».proof.Proof.KReg8
import proofs.«164762_j10505490006519_1_alg».proof.Proof.KReg9
import proofs.«164762_j10505490006519_1_alg».proof.Proof.KReg10
import proofs.«164762_j10505490006519_1_alg».proof.Proof.KReg11
import proofs.«164762_j10505490006519_1_alg».proof.Proof.KReg12
import proofs.«164762_j10505490006519_1_alg».proof.Proof.KReg13
import proofs.«164762_j10505490006519_1_alg».proof.Proof.KReg14
import proofs.«164762_j10505490006519_1_alg».proof.Proof.KReg15
import proofs.«164762_j10505490006519_1_alg».proof.Proof.KHost
import proofs.«164762_j10505490006519_1_alg».proof.Proof.KNet

set_option maxRecDepth 65536
set_option maxHeartbeats 4000000

noncomputable section

namespace Cert.KernelIdeal.KStage

open Cert.KernelIdeal Cert.KernelIdeal.Gen Cert.KernelIdeal.KChain Cert.KernelIdeal.KHost Cert.KernelIdeal.KNet Cert.Spec
open Idealize.ShloMosaic Idealize.ShloMosaic.TcCoe Idealize.ShloMosaic.StableHlo Idealize.SL.Sem

variable (m : (ℓ : Loc nD τ sig) → Buf (Elt Ideal) ℓ) (ρ : Dev nD → PrngReg)

/-- After launch 0 its output array is the launch's function of its inputs as the preceding stretch leaves them. -/
theorem R0 (c : Dev nD) : W2 m ρ c (no_index (Proc.devRef .tc main_v60)) = mm ((after hops0 (W0 m ρ c) (Proc.devRef .tc main_arg0))) ((after hops0 (W0 m ρ c) (Proc.devRef .tc main_v59))) := by
  have h := W2_arr m ρ c 2
  rw [KReg0.final] at h
  exact h
theorem P0_0 (c : Dev nD) : W2 m ρ c (no_index (Proc.devRef .tc main_arg0)) = after hops0 (W0 m ρ c) (Proc.devRef .tc main_arg0) :=
  (W2_arr m ρ c 0).trans (((dat0 (V1 m ρ) c).arrAt_in 0 rfl _).trans (A_eq0 (V1 m ρ) c 0))
theorem P0_1 (c : Dev nD) : W2 m ρ c (no_index (Proc.devRef .tc main_v59)) = after hops0 (W0 m ρ c) (Proc.devRef .tc main_v59) :=
  (W2_arr m ρ c 1).trans (((dat0 (V1 m ρ) c).arrAt_in 1 rfl _).trans (A_eq0 (V1 m ρ) c 1))
theorem N0 (c : Dev nD) (b : Ref sig .tc) (hb : ∀ w, Pipeline.arrRef spec0 w ≠ b) :
    W2 m ρ c (no_index (Proc.devRef .tc b)) = after hops0 (W0 m ρ c) (Proc.devRef .tc b) := W2_of_ne m ρ c b hb

/-- After launch 1 its output array is the launch's function of its inputs as the preceding stretch leaves them. -/
theorem R1 (c : Dev nD) : W4 m ρ c (no_index (Proc.devRef .tc main_v63)) = mm ((after hops1 (W2 m ρ c) (Proc.devRef .tc main_arg0))) ((after hops1 (W2 m ρ c) (Proc.devRef .tc main_v62))) := by
  have h := W4_arr m ρ c 2
  rw [KReg1.final] at h
  exact h
theorem P1_0 (c : Dev nD) : W4 m ρ c (no_index (Proc.devRef .tc main_arg0)) = after hops1 (W2 m ρ c) (Proc.devRef .tc main_arg0) :=
  (W4_arr m ρ c 0).trans (((dat1 (V3 m ρ) c).arrAt_in 0 rfl _).trans (A_eq1 (V3 m ρ) c 0))
theorem P1_1 (c : Dev nD) : W4 m ρ c (no_index (Proc.devRef .tc main_v62)) = after hops1 (W2 m ρ c) (Proc.devRef .tc main_v62) :=
  (W4_arr m ρ c 1).trans (((dat1 (V3 m ρ) c).arrAt_in 1 rfl _).trans (A_eq1 (V3 m ρ) c 1))
theorem N1 (c : Dev nD) (b : Ref sig .tc) (hb : ∀ w, Pipeline.arrRef spec1 w ≠ b) :
    W4 m ρ c (no_index (Proc.devRef .tc b)) = after hops1 (W2 m ρ c) (Proc.devRef .tc b) := W4_of_ne m ρ c b hb

/-- After launch 2 its output array is the launch's function of its inputs as the preceding stretch leaves them. -/
theorem R2 (c : Dev nD) : W6 m ρ c (no_index (Proc.devRef .tc main_v103)) = ln ((after hops2 (W4 m ρ c) (Proc.devRef .tc main_v80))) (rowf (after hops2 (W4 m ρ c) (Proc.devRef .tc main_v100))) (rowf (after hops2 (W4 m ρ c) (Proc.devRef .tc main_v101))) (rowf (after hops2 (W4 m ρ c) (Proc.devRef .tc main_v102))) := by
  have h := W6_arr m ρ c 4
  rw [KReg2.final] at h
  exact h
theorem P2_0 (c : Dev nD) : W6 m ρ c (no_index (Proc.devRef .tc main_v80)) = after hops2 (W4 m ρ c) (Proc.devRef .tc main_v80) :=
  (W6_arr m ρ c 0).trans (((dat2 (V5 m ρ) c).arrAt_in 0 rfl _).trans (A_eq2 (V5 m ρ) c 0))
theorem P2_1 (c : Dev nD) : W6 m ρ c (no_index (Proc.devRef .tc main_v100)) = after hops2 (W4 m ρ c) (Proc.devRef .tc main_v100) :=
  (W6_arr m ρ c 1).trans (((dat2 (V5 m ρ) c).arrAt_in 1 rfl _).trans (A_eq2 (V5 m ρ) c 1))
theorem P2_2 (c : Dev nD) : W6 m ρ c (no_index (Proc.devRef .tc main_v101)) = after hops2 (W4 m ρ c) (Proc.devRef .tc main_v101) :=
  (W6_arr m ρ c 2).trans (((dat2 (V5 m ρ) c).arrAt_in 2 rfl _).trans (A_eq2 (V5 m ρ) c 2))
theorem P2_3 (c : Dev nD) : W6 m ρ c (no_index (Proc.devRef .tc main_v102)) = after hops2 (W4 m ρ c) (Proc.devRef .tc main_v102) :=
  (W6_arr m ρ c 3).trans (((dat2 (V5 m ρ) c).arrAt_in 3 rfl _).trans (A_eq2 (V5 m ρ) c 3))
theorem N2 (c : Dev nD) (b : Ref sig .tc) (hb : ∀ w, Pipeline.arrRef spec2 w ≠ b) :
    W6 m ρ c (no_index (Proc.devRef .tc b)) = after hops2 (W4 m ρ c) (Proc.devRef .tc b) := W6_of_ne m ρ c b hb

/-- After launch 3 its output array is the launch's function of its inputs as the preceding stretch leaves them. -/
theorem R3 (c : Dev nD) : W8 m ρ c (no_index (Proc.devRef .tc main_v109)) = ln ((after hops3 (W6 m ρ c) (Proc.devRef .tc main_v97))) (rowf (after hops3 (W6 m ρ c) (Proc.devRef .tc main_v106))) (rowf (after hops3 (W6 m ρ c) (Proc.devRef .tc main_v107))) (rowf (after hops3 (W6 m ρ c) (Proc.devRef .tc main_v108))) := by
  have h := W8_arr m ρ c 4
  rw [KReg3.final] at h
  exact h
theorem P3_0 (c : Dev nD) : W8 m ρ c (no_index (Proc.devRef .tc main_v97)) = after hops3 (W6 m ρ c) (Proc.devRef .tc main_v97) :=
  (W8_arr m ρ c 0).trans (((dat3 (V7 m ρ) c).arrAt_in 0 rfl _).trans (A_eq3 (V7 m ρ) c 0))
theorem P3_1 (c : Dev nD) : W8 m ρ c (no_index (Proc.devRef .tc main_v106)) = after hops3 (W6 m ρ c) (Proc.devRef .tc main_v106) :=
  (W8_arr m ρ c 1).trans (((dat3 (V7 m ρ) c).arrAt_in 1 rfl _).trans (A_eq3 (V7 m ρ) c 1))
theorem P3_2 (c : Dev nD) : W8 m ρ c (no_index (Proc.devRef .tc main_v107)) = after hops3 (W6 m ρ c) (Proc.devRef .tc main_v107) :=
  (W8_arr m ρ c 2).trans (((dat3 (V7 m ρ) c).arrAt_in 2 rfl _).trans (A_eq3 (V7 m ρ) c 2))
theorem P3_3 (c : Dev nD) : W8 m ρ c (no_index (Proc.devRef .tc main_v108)) = after hops3 (W6 m ρ c) (Proc.devRef .tc main_v108) :=
  (W8_arr m ρ c 3).trans (((dat3 (V7 m ρ) c).arrAt_in 3 rfl _).trans (A_eq3 (V7 m ρ) c 3))
theorem N3 (c : Dev nD) (b : Ref sig .tc) (hb : ∀ w, Pipeline.arrRef spec3 w ≠ b) :
    W8 m ρ c (no_index (Proc.devRef .tc b)) = after hops3 (W6 m ρ c) (Proc.devRef .tc b) := W8_of_ne m ρ c b hb

/-- After launch 4 its output array is the launch's function of its inputs as the preceding stretch leaves them. -/
theorem R4 (c : Dev nD) : W10 m ρ c (no_index (Proc.devRef .tc main_v119)) = cl2 ((after hops4 (W8 m ρ c) (Proc.devRef .tc main_v109))) ((after hops4 (W8 m ρ c) (Proc.devRef .tc main_v103))) ((after hops4 (W8 m ρ c) (Proc.devRef .tc main_v112))) ((after hops4 (W8 m ρ c) (Proc.devRef .tc main_v115))) (rowf (after hops4 (W8 m ρ c) (Proc.devRef .tc main_v118))) := by
  have h := W10_arr m ρ c 5
  rw [KReg4.final] at h
  exact h
theorem P4_0 (c : Dev nD) : W10 m ρ c (no_index (Proc.devRef .tc main_v109)) = after hops4 (W8 m ρ c) (Proc.devRef .tc main_v109) :=
  (W10_arr m ρ c 0).trans (((dat4 (V9 m ρ) c).arrAt_in 0 rfl _).trans (A_eq4 (V9 m ρ) c 0))
theorem P4_1 (c : Dev nD) : W10 m ρ c (no_index (Proc.devRef .tc main_v103)) = after hops4 (W8 m ρ c) (Proc.devRef .tc main_v103) :=
  (W10_arr m ρ c 1).trans (((dat4 (V9 m ρ) c).arrAt_in 1 rfl _).trans (A_eq4 (V9 m ρ) c 1))
theorem P4_2 (c : Dev nD) : W10 m ρ c (no_index (Proc.devRef .tc main_v112)) = after hops4 (W8 m ρ c) (Proc.devRef .tc main_v112) :=
  (W10_arr m ρ c 2).trans (((dat4 (V9 m ρ) c).arrAt_in 2 rfl _).trans (A_eq4 (V9 m ρ) c 2))
theorem P4_3 (c : Dev nD) : W10 m ρ c (no_index (Proc.devRef .tc main_v115)) = after hops4 (W8 m ρ c) (Proc.devRef .tc main_v115) :=
  (W10_arr m ρ c 3).trans (((dat4 (V9 m ρ) c).arrAt_in 3 rfl _).trans (A_eq4 (V9 m ρ) c 3))
theorem P4_4 (c : Dev nD) : W10 m ρ c (no_index (Proc.devRef .tc main_v118)) = after hops4 (W8 m ρ c) (Proc.devRef .tc main_v118) :=
  (W10_arr m ρ c 4).trans (((dat4 (V9 m ρ) c).arrAt_in 4 rfl _).trans (A_eq4 (V9 m ρ) c 4))
theorem N4 (c : Dev nD) (b : Ref sig .tc) (hb : ∀ w, Pipeline.arrRef spec4 w ≠ b) :
    W10 m ρ c (no_index (Proc.devRef .tc b)) = after hops4 (W8 m ρ c) (Proc.devRef .tc b) := W10_of_ne m ρ c b hb

/-- After launch 5 its output array is the launch's function of its inputs as the preceding stretch leaves them. -/
theorem R5 (c : Dev nD) : W12 m ρ c (no_index (Proc.devRef .tc main_v122)) = mm ((after hops5 (W10 m ρ c) (Proc.devRef .tc main_v119))) ((after hops5 (W10 m ρ c) (Proc.devRef .tc main_v121))) := by
  have h := W12_arr m ρ c 2
  rw [KReg5.final] at h
  exact h
theorem P5_0 (c : Dev nD) : W12 m ρ c (no_index (Proc.devRef .tc main_v119)) = after hops5 (W10 m ρ c) (Proc.devRef .tc main_v119) :=
  (W12_arr m ρ c 0).trans (((dat5 (V11 m ρ) c).arrAt_in 0 rfl _).trans (A_eq5 (V11 m ρ) c 0))
theorem P5_1 (c : Dev nD) : W12 m ρ c (no_index (Proc.devRef .tc main_v121)) = after hops5 (W10 m ρ c) (Proc.devRef .tc main_v121) :=
  (W12_arr m ρ c 1).trans (((dat5 (V11 m ρ) c).arrAt_in 1 rfl _).trans (A_eq5 (V11 m ρ) c 1))
theorem N5 (c : Dev nD) (b : Ref sig .tc) (hb : ∀ w, Pipeline.arrRef spec5 w ≠ b) :
    W12 m ρ c (no_index (Proc.devRef .tc b)) = after hops5 (W10 m ρ c) (Proc.devRef .tc b) := W12_of_ne m ρ c b hb

/-- After launch 6 its output array is the launch's function of its inputs as the preceding stretch leaves them. -/
theorem R6 (c : Dev nD) : W14 m ρ c (no_index (Proc.devRef .tc main_v125)) = mm ((after hops6 (W12 m ρ c) (Proc.devRef .tc main_v119))) ((after hops6 (W12 m ρ c) (Proc.devRef .tc main_v124))) := by
  have h := W14_arr m ρ c 2
  rw [KReg6.final] at h
  exact h
theorem P6_0 (c : Dev nD) : W14 m ρ c (no_index (Proc.devRef .tc main_v119)) = after hops6 (W12 m ρ c) (Proc.devRef .tc main_v119) :=
  (W14_arr m ρ c 0).trans (((dat6 (V13 m ρ) c).arrAt_in 0 rfl _).trans (A_eq6 (V13 m ρ) c 0))
theorem P6_1 (c : Dev nD) : W14 m ρ c (no_index (Proc.devRef .tc main_v124)) = after hops6 (W12 m ρ c) (Proc.devRef .tc main_v124) :=
  (W14_arr m ρ c 1).trans (((dat6 (V13 m ρ) c).arrAt_in 1 rfl _).trans (A_eq6 (V13 m ρ) c 1))
theorem N6 (c : Dev nD) (b : Ref sig .tc) (hb : ∀ w, Pipeline.arrRef spec6 w ≠ b) :
    W14 m ρ c (no_index (Proc.devRef .tc b)) = after hops6 (W12 m ρ c) (Proc.devRef .tc b) := W14_of_ne m ρ c b hb

/-- After launch 7 its output array is the launch's function of its inputs as the preceding stretch leaves them. -/
theorem R7 (c : Dev nD) : W16 m ρ c (no_index (Proc.devRef .tc main_v165)) = lnr ((after hops7 (W14 m ρ c) (Proc.devRef .tc main_v142))) (rowf (after hops7 (W14 m ρ c) (Proc.devRef .tc main_v162))) (rowf (after hops7 (W14 m ρ c) (Proc.devRef .tc main_v163))) (rowf (after hops7 (W14 m ρ c) (Proc.devRef .tc main_v164))) ((after hops7 (W14 m ρ c) (Proc.devRef .tc main_v119))) := by
  have h := W16_arr m ρ c 5
  rw [KReg7.final] at h
  exact h
theorem P7_0 (c : Dev nD) : W16 m ρ c (no_index (Proc.devRef .tc main_v142)) = after hops7 (W14 m ρ c) (Proc.devRef .tc main_v142) :=
  (W16_arr m ρ c 0).trans (((dat7 (V15 m ρ) c).arrAt_in 0 rfl _).trans (A_eq7 (V15 m ρ) c 0))
theorem P7_1 (c : Dev nD) : W16 m ρ c (no_index (Proc.devRef .tc main_v162)) = after hops7 (W14 m ρ c) (Proc.devRef .tc main_v162) :=
  (W16_arr m ρ c 1).trans (((dat7 (V15 m ρ) c).arrAt_in 1 rfl _).trans (A_eq7 (V15 m ρ) c 1))
theorem P7_2 (c : Dev nD) : W16 m ρ c (no_index (Proc.devRef .tc main_v163)) = after hops7 (W14 m ρ c) (Proc.devRef .tc main_v163) :=
  (W16_arr m ρ c 2).trans (((dat7 (V15 m ρ) c).arrAt_in 2 rfl _).trans (A_eq7 (V15 m ρ) c 2))
theorem P7_3 (c : Dev nD) : W16 m ρ c (no_index (Proc.devRef .tc main_v164)) = after hops7 (W14 m ρ c) (Proc.devRef .tc main_v164) :=
  (W16_arr m ρ c 3).trans (((dat7 (V15 m ρ) c).arrAt_in 3 rfl _).trans (A_eq7 (V15 m ρ) c 3))
theorem P7_4 (c : Dev nD) : W16 m ρ c (no_index (Proc.devRef .tc main_v119)) = after hops7 (W14 m ρ c) (Proc.devRef .tc main_v119) :=
  (W16_arr m ρ c 4).trans (((dat7 (V15 m ρ) c).arrAt_in 4 rfl _).trans (A_eq7 (V15 m ρ) c 4))
theorem N7 (c : Dev nD) (b : Ref sig .tc) (hb : ∀ w, Pipeline.arrRef spec7 w ≠ b) :
    W16 m ρ c (no_index (Proc.devRef .tc b)) = after hops7 (W14 m ρ c) (Proc.devRef .tc b) := W16_of_ne m ρ c b hb

/-- After launch 8 its output array is the launch's function of its inputs as the preceding stretch leaves them. -/
theorem R8 (c : Dev nD) : W18 m ρ c (no_index (Proc.devRef .tc main_v171)) = lnr ((after hops8 (W16 m ρ c) (Proc.devRef .tc main_v159))) (rowf (after hops8 (W16 m ρ c) (Proc.devRef .tc main_v168))) (rowf (after hops8 (W16 m ρ c) (Proc.devRef .tc main_v169))) (rowf (after hops8 (W16 m ρ c) (Proc.devRef .tc main_v170))) ((after hops8 (W16 m ρ c) (Proc.devRef .tc main_v119))) := by
  have h := W18_arr m ρ c 5
  rw [KReg8.final] at h
  exact h
theorem P8_0 (c : Dev nD) : W18 m ρ c (no_index (Proc.devRef .tc main_v159)) = after hops8 (W16 m ρ c) (Proc.devRef .tc main_v159) :=
  (W18_arr m ρ c 0).trans (((dat8 (V17 m ρ) c).arrAt_in 0 rfl _).trans (A_eq8 (V17 m ρ) c 0))
theorem P8_1 (c : Dev nD) : W18 m ρ c (no_index (Proc.devRef .tc main_v168)) = after hops8 (W16 m ρ c) (Proc.devRef .tc main_v168) :=
  (W18_arr m ρ c 1).trans (((dat8 (V17 m ρ) c).arrAt_in 1 rfl _).trans (A_eq8 (V17 m ρ) c 1))
theorem P8_2 (c : Dev nD) : W18 m ρ c (no_index (Proc.devRef .tc main_v169)) = after hops8 (W16 m ρ c) (Proc.devRef .tc main_v169) :=
  (W18_arr m ρ c 2).trans (((dat8 (V17 m ρ) c).arrAt_in 2 rfl _).trans (A_eq8 (V17 m ρ) c 2))
theorem P8_3 (c : Dev nD) : W18 m ρ c (no_index (Proc.devRef .tc main_v170)) = after hops8 (W16 m ρ c) (Proc.devRef .tc main_v170) :=
  (W18_arr m ρ c 3).trans (((dat8 (V17 m ρ) c).arrAt_in 3 rfl _).trans (A_eq8 (V17 m ρ) c 3))
theorem P8_4 (c : Dev nD) : W18 m ρ c (no_index (Proc.devRef .tc main_v119)) = after hops8 (W16 m ρ c) (Proc.devRef .tc main_v119) :=
  (W18_arr m ρ c 4).trans (((dat8 (V17 m ρ) c).arrAt_in 4 rfl _).trans (A_eq8 (V17 m ρ) c 4))
theorem N8 (c : Dev nD) (b : Ref sig .tc) (hb : ∀ w, Pipeline.arrRef spec8 w ≠ b) :
    W18 m ρ c (no_index (Proc.devRef .tc b)) = after hops8 (W16 m ρ c) (Proc.devRef .tc b) := W18_of_ne m ρ c b hb

/-- After launch 9 its output array is the launch's function of its inputs as the preceding stretch leaves them. -/
theorem R9 (c : Dev nD) : W20 m ρ c (no_index (Proc.devRef .tc main_v181)) = cl2 ((after hops9 (W18 m ρ c) (Proc.devRef .tc main_v171))) ((after hops9 (W18 m ρ c) (Proc.devRef .tc main_v165))) ((after hops9 (W18 m ρ c) (Proc.devRef .tc main_v174))) ((after hops9 (W18 m ρ c) (Proc.devRef .tc main_v177))) (rowf (after hops9 (W18 m ρ c) (Proc.devRef .tc main_v180))) := by
  have h := W20_arr m ρ c 5
  rw [KReg9.final] at h
  exact h
theorem P9_0 (c : Dev nD) : W20 m ρ c (no_index (Proc.devRef .tc main_v171)) = after hops9 (W18 m ρ c) (Proc.devRef .tc main_v171) :=
  (W20_arr m ρ c 0).trans (((dat9 (V19 m ρ) c).arrAt_in 0 rfl _).trans (A_eq9 (V19 m ρ) c 0))
theorem P9_1 (c : Dev nD) : W20 m ρ c (no_index (Proc.devRef .tc main_v165)) = after hops9 (W18 m ρ c) (Proc.devRef .tc main_v165) :=
  (W20_arr m ρ c 1).trans (((dat9 (V19 m ρ) c).arrAt_in 1 rfl _).trans (A_eq9 (V19 m ρ) c 1))
theorem P9_2 (c : Dev nD) : W20 m ρ c (no_index (Proc.devRef .tc main_v174)) = after hops9 (W18 m ρ c) (Proc.devRef .tc main_v174) :=
  (W20_arr m ρ c 2).trans (((dat9 (V19 m ρ) c).arrAt_in 2 rfl _).trans (A_eq9 (V19 m ρ) c 2))
theorem P9_3 (c : Dev nD) : W20 m ρ c (no_index (Proc.devRef .tc main_v177)) = after hops9 (W18 m ρ c) (Proc.devRef .tc main_v177) :=
  (W20_arr m ρ c 3).trans (((dat9 (V19 m ρ) c).arrAt_in 3 rfl _).trans (A_eq9 (V19 m ρ) c 3))
theorem P9_4 (c : Dev nD) : W20 m ρ c (no_index (Proc.devRef .tc main_v180)) = after hops9 (W18 m ρ c) (Proc.devRef .tc main_v180) :=
  (W20_arr m ρ c 4).trans (((dat9 (V19 m ρ) c).arrAt_in 4 rfl _).trans (A_eq9 (V19 m ρ) c 4))
theorem N9 (c : Dev nD) (b : Ref sig .tc) (hb : ∀ w, Pipeline.arrRef spec9 w ≠ b) :
    W20 m ρ c (no_index (Proc.devRef .tc b)) = after hops9 (W18 m ρ c) (Proc.devRef .tc b) := W20_of_ne m ρ c b hb

/-- After launch 10 its output array is the launch's function of its inputs as the preceding stretch leaves them. -/
theorem R10 (c : Dev nD) : W22 m ρ c (no_index (Proc.devRef .tc main_v184)) = mm ((after hops10 (W20 m ρ c) (Proc.devRef .tc main_v181))) ((after hops10 (W20 m ρ c) (Proc.devRef .tc main_v183))) := by
  have h := W22_arr m ρ c 2
  rw [KReg10.final] at h
  exact h
theorem P10_0 (c : Dev nD) : W22 m ρ c (no_index (Proc.devRef .tc main_v181)) = after hops10 (W20 m ρ c) (Proc.devRef .tc main_v181) :=
  (W22_arr m ρ c 0).trans (((dat10 (V21 m ρ) c).arrAt_in 0 rfl _).trans (A_eq10 (V21 m ρ) c 0))
theorem P10_1 (c : Dev nD) : W22 m ρ c (no_index (Proc.devRef .tc main_v183)) = after hops10 (W20 m ρ c) (Proc.devRef .tc main_v183) :=
  (W22_arr m ρ c 1).trans (((dat10 (V21 m ρ) c).arrAt_in 1 rfl _).trans (A_eq10 (V21 m ρ) c 1))
theorem N10 (c : Dev nD) (b : Ref sig .tc) (hb : ∀ w, Pipeline.arrRef spec10 w ≠ b) :
    W22 m ρ c (no_index (Proc.devRef .tc b)) = after hops10 (W20 m ρ c) (Proc.devRef .tc b) := W22_of_ne m ρ c b hb

/-- After launch 11 its output array is the launch's function of its inputs as the preceding stretch leaves them. -/
theorem R11 (c : Dev nD) : W24 m ρ c (no_index (Proc.devRef .tc main_v187)) = mm ((after hops11 (W22 m ρ c) (Proc.devRef .tc main_v181))) ((after hops11 (W22 m ρ c) (Proc.devRef .tc main_v186))) := by
  have h := W24_arr m ρ c 2
  rw [KReg11.final] at h
  exact h
theorem P11_0 (c : Dev nD) : W24 m ρ c (no_index (Proc.devRef .tc main_v181)) = after hops11 (W22 m ρ c) (Proc.devRef .tc main_v181) :=
  (W24_arr m ρ c 0).trans (((dat11 (V23 m ρ) c).arrAt_in 0 rfl _).trans (A_eq11 (V23 m ρ) c 0))
theorem P11_1 (c : Dev nD) : W24 m ρ c (no_index (Proc.devRef .tc main_v186)) = after hops11 (W22 m ρ c) (Proc.devRef .tc main_v186) :=
  (W24_arr m ρ c 1).trans (((dat11 (V23 m ρ) c).arrAt_in 1 rfl _).trans (A_eq11 (V23 m ρ) c 1))
theorem N11 (c : Dev nD) (b : Ref sig .tc) (hb : ∀ w, Pipeline.arrRef spec11 w ≠ b) :
    W24 m ρ c (no_index (Proc.devRef .tc b)) = after hops11 (W22 m ρ c) (Proc.devRef .tc b) := W24_of_ne m ρ c b hb

/-- After launch 12 its output array is the launch's function of its inputs as the preceding stretch leaves them. -/
theorem R12 (c : Dev nD) : W26 m ρ c (no_index (Proc.devRef .tc main_v227)) = lnr ((after hops12 (W24 m ρ c) (Proc.devRef .tc main_v204))) (rowf (after hops12 (W24 m ρ c) (Proc.devRef .tc main_v224))) (rowf (after hops12 (W24 m ρ c) (Proc.devRef .tc main_v225))) (rowf (after hops12 (W24 m ρ c) (Proc.devRef .tc main_v226))) ((after hops12 (W24 m ρ c) (Proc.devRef .tc main_v181))) := by
  have h := W26_arr m ρ c 5
  rw [KReg12.final] at h
  exact h
theorem P12_0 (c : Dev nD) : W26 m ρ c (no_index (Proc.devRef .tc main_v204)) = after hops12 (W24 m ρ c) (Proc.devRef .tc main_v204) :=
  (W26_arr m ρ c 0).trans (((dat12 (V25 m ρ) c).arrAt_in 0 rfl _).trans (A_eq12 (V25 m ρ) c 0))
theorem P12_1 (c : Dev nD) : W26 m ρ c (no_index (Proc.devRef .tc main_v224)) = after hops12 (W24 m ρ c) (Proc.devRef .tc main_v224) :=
  (W26_arr m ρ c 1).trans (((dat12 (V25 m ρ) c).arrAt_in 1 rfl _).trans (A_eq12 (V25 m ρ) c 1))
theorem P12_2 (c : Dev nD) : W26 m ρ c (no_index (Proc.devRef .tc main_v225)) = after hops12 (W24 m ρ c) (Proc.devRef .tc main_v225) :=
  (W26_arr m ρ c 2).trans (((dat12 (V25 m ρ) c).arrAt_in 2 rfl _).trans (A_eq12 (V25 m ρ) c 2))
theorem P12_3 (c : Dev nD) : W26 m ρ c (no_index (Proc.devRef .tc main_v226)) = after hops12 (W24 m ρ c) (Proc.devRef .tc main_v226) :=
  (W26_arr m ρ c 3).trans (((dat12 (V25 m ρ) c).arrAt_in 3 rfl _).trans (A_eq12 (V25 m ρ) c 3))
theorem P12_4 (c : Dev nD) : W26 m ρ c (no_index (Proc.devRef .tc main_v181)) = after hops12 (W24 m ρ c) (Proc.devRef .tc main_v181) :=
  (W26_arr m ρ c 4).trans (((dat12 (V25 m ρ) c).arrAt_in 4 rfl _).trans (A_eq12 (V25 m ρ) c 4))
theorem N12 (c : Dev nD) (b : Ref sig .tc) (hb : ∀ w, Pipeline.arrRef spec12 w ≠ b) :
    W26 m ρ c (no_index (Proc.devRef .tc b)) = after hops12 (W24 m ρ c) (Proc.devRef .tc b) := W26_of_ne m ρ c b hb

/-- After launch 13 its output array is the launch's function of its inputs as the preceding stretch leaves them. -/
theorem R13 (c : Dev nD) : W28 m ρ c (no_index (Proc.devRef .tc main_v233)) = lnr ((after hops13 (W26 m ρ c) (Proc.devRef .tc main_v221))) (rowf (after hops13 (W26 m ρ c) (Proc.devRef .tc main_v230))) (rowf (after hops13 (W26 m ρ c) (Proc.devRef .tc main_v231))) (rowf (after hops13 (W26 m ρ c) (Proc.devRef .tc main_v232))) ((after hops13 (W26 m ρ c) (Proc.devRef .tc main_v181))) := by
  have h := W28_arr m ρ c 5
  rw [KReg13.final] at h
  exact h
theorem P13_0 (c : Dev nD) : W28 m ρ c (no_index (Proc.devRef .tc main_v221)) = after hops13 (W26 m ρ c) (Proc.devRef .tc main_v221) :=
  (W28_arr m ρ c 0).trans (((dat13 (V27 m ρ) c).arrAt_in 0 rfl _).trans (A_eq13 (V27 m ρ) c 0))
theorem P13_1 (c : Dev nD) : W28 m ρ c (no_index (Proc.devRef .tc main_v230)) = after hops13 (W26 m ρ c) (Proc.devRef .tc main_v230) :=
  (W28_arr m ρ c 1).trans (((dat13 (V27 m ρ) c).arrAt_in 1 rfl _).trans (A_eq13 (V27 m ρ) c 1))
theorem P13_2 (c : Dev nD) : W28 m ρ c (no_index (Proc.devRef .tc main_v231)) = after hops13 (W26 m ρ c) (Proc.devRef .tc main_v231) :=
  (W28_arr m ρ c 2).trans (((dat13 (V27 m ρ) c).arrAt_in 2 rfl _).trans (A_eq13 (V27 m ρ) c 2))
theorem P13_3 (c : Dev nD) : W28 m ρ c (no_index (Proc.devRef .tc main_v232)) = after hops13 (W26 m ρ c) (Proc.devRef .tc main_v232) :=
  (W28_arr m ρ c 3).trans (((dat13 (V27 m ρ) c).arrAt_in 3 rfl _).trans (A_eq13 (V27 m ρ) c 3))
theorem P13_4 (c : Dev nD) : W28 m ρ c (no_index (Proc.devRef .tc main_v181)) = after hops13 (W26 m ρ c) (Proc.devRef .tc main_v181) :=
  (W28_arr m ρ c 4).trans (((dat13 (V27 m ρ) c).arrAt_in 4 rfl _).trans (A_eq13 (V27 m ρ) c 4))
theorem N13 (c : Dev nD) (b : Ref sig .tc) (hb : ∀ w, Pipeline.arrRef spec13 w ≠ b) :
    W28 m ρ c (no_index (Proc.devRef .tc b)) = after hops13 (W26 m ρ c) (Proc.devRef .tc b) := W28_of_ne m ρ c b hb

/-- After launch 14 its output array is the launch's function of its inputs as the preceding stretch leaves them. -/
theorem R14 (c : Dev nD) : W30 m ρ c (no_index (Proc.devRef .tc main_v243)) = cl2 ((after hops14 (W28 m ρ c) (Proc.devRef .tc main_v233))) ((after hops14 (W28 m ρ c) (Proc.devRef .tc main_v227))) ((after hops14 (W28 m ρ c) (Proc.devRef .tc main_v236))) ((after hops14 (W28 m ρ c) (Proc.devRef .tc main_v239))) (rowf (after hops14 (W28 m ρ c) (Proc.devRef .tc main_v242))) := by
  have h := W30_arr m ρ c 5
  rw [KReg14.final] at h
  exact h
theorem P14_0 (c : Dev nD) : W30 m ρ c (no_index (Proc.devRef .tc main_v233)) = after hops14 (W28 m ρ c) (Proc.devRef .tc main_v233) :=
  (W30_arr m ρ c 0).trans (((dat14 (V29 m ρ) c).arrAt_in 0 rfl _).trans (A_eq14 (V29 m ρ) c 0))
theorem P14_1 (c : Dev nD) : W30 m ρ c (no_index (Proc.devRef .tc main_v227)) = after hops14 (W28 m ρ c) (Proc.devRef .tc main_v227) :=
  (W30_arr m ρ c 1).trans (((dat14 (V29 m ρ) c).arrAt_in 1 rfl _).trans (A_eq14 (V29 m ρ) c 1))
theorem P14_2 (c : Dev nD) : W30 m ρ c (no_index (Proc.devRef .tc main_v236)) = after hops14 (W28 m ρ c) (Proc.devRef .tc main_v236) :=
  (W30_arr m ρ c 2).trans (((dat14 (V29 m ρ) c).arrAt_in 2 rfl _).trans (A_eq14 (V29 m ρ) c 2))
theorem P14_3 (c : Dev nD) : W30 m ρ c (no_index (Proc.devRef .tc main_v239)) = after hops14 (W28 m ρ c) (Proc.devRef .tc main_v239) :=
  (W30_arr m ρ c 3).trans (((dat14 (V29 m ρ) c).arrAt_in 3 rfl _).trans (A_eq14 (V29 m ρ) c 3))
theorem P14_4 (c : Dev nD) : W30 m ρ c (no_index (Proc.devRef .tc main_v242)) = after hops14 (W28 m ρ c) (Proc.devRef .tc main_v242) :=
  (W30_arr m ρ c 4).trans (((dat14 (V29 m ρ) c).arrAt_in 4 rfl _).trans (A_eq14 (V29 m ρ) c 4))
theorem N14 (c : Dev nD) (b : Ref sig .tc) (hb : ∀ w, Pipeline.arrRef spec14 w ≠ b) :
    W30 m ρ c (no_index (Proc.devRef .tc b)) = after hops14 (W28 m ρ c) (Proc.devRef .tc b) := W30_of_ne m ρ c b hb

/-- After launch 15 its output array is the launch's function of its inputs as the preceding stretch leaves them. -/
theorem R15 (c : Dev nD) : W32 m ρ c (no_index (Proc.devRef .tc main_v245)) = fl ((after hops15 (W30 m ρ c) (Proc.devRef .tc main_v243))) ((after hops15 (W30 m ρ c) (Proc.devRef .tc main_arg9))) (rowf (after hops15 (W30 m ρ c) (Proc.devRef .tc main_v244))) := by
  have h := W32_arr m ρ c 3
  rw [KReg15.final] at h
  exact h
theorem P15_0 (c : Dev nD) : W32 m ρ c (no_index (Proc.devRef .tc main_v243)) = after hops15 (W30 m ρ c) (Proc.devRef .tc main_v243) :=
  (W32_arr m ρ c 0).trans (((dat15 (V31 m ρ) c).arrAt_in 0 rfl _).trans (A_eq15 (V31 m ρ) c 0))
theorem P15_1 (c : Dev nD) : W32 m ρ c (no_index (Proc.devRef .tc main_arg9)) = after hops15 (W30 m ρ c) (Proc.devRef .tc main_arg9) :=
  (W32_arr m ρ c 1).trans (((dat15 (V31 m ρ) c).arrAt_in 1 rfl _).trans (A_eq15 (V31 m ρ) c 1))
theorem P15_2 (c : Dev nD) : W32 m ρ c (no_index (Proc.devRef .tc main_v244)) = after hops15 (W30 m ρ c) (Proc.devRef .tc main_v244) :=
  (W32_arr m ρ c 2).trans (((dat15 (V31 m ρ) c).arrAt_in 2 rfl _).trans (A_eq15 (V31 m ρ) c 2))
theorem N15 (c : Dev nD) (b : Ref sig .tc) (hb : ∀ w, Pipeline.arrRef spec15 w ≠ b) :
    W32 m ρ c (no_index (Proc.devRef .tc b)) = after hops15 (W30 m ρ c) (Proc.devRef .tc b) := W32_of_ne m ρ c b hb

/-! ## The chain, layer by layer -/

/-- After the fifth launch the first layer's output array holds the first layer's function of the argument arrays. -/
theorem E0 (c : Dev nD) : W10 m ρ c (Proc.devRef .tc main_v119) = layer0 (W0 m ρ c (Proc.devRef .tc main_arg0)) (wl0 (W0 m ρ c (Proc.devRef .tc main_arg1))) (wg0 (W0 m ρ c (Proc.devRef .tc main_arg3))) (wgh0 (W0 m ρ c (Proc.devRef .tc main_arg5))) (wlh0 (W0 m ρ c (Proc.devRef .tc main_arg5))) (bL0 (W0 m ρ c (Proc.devRef .tc main_arg2))) (bG0 (W0 m ρ c (Proc.devRef .tc main_arg4))) (row128 (W0 m ρ c (Proc.devRef .tc main_arg7))) (row128 (W0 m ρ c (Proc.devRef .tc main_arg8))) (lb0 (W0 m ρ c (Proc.devRef .tc main_arg6))) (W0 m ρ c (Proc.devRef .tc main_arg12)) (W0 m ρ c (Proc.devRef .tc main_arg11)) := by
  simp (disch := decide) only [R0 m ρ, R1 m ρ, R2 m ρ, R3 m ρ, R4 m ρ, P0_0 m ρ, P0_1 m ρ, P1_0 m ρ, P1_1 m ρ, P2_0 m ρ, P2_1 m ρ, P2_2 m ρ, P2_3 m ρ, P3_0 m ρ, P3_1 m ρ, P3_2 m ρ, P3_3 m ρ, P4_0 m ρ, P4_1 m ρ, P4_2 m ρ, P4_3 m ρ, P4_4 m ρ, P5_0 m ρ, P5_1 m ρ, P6_0 m ρ, P6_1 m ρ, P7_0 m ρ, P7_1 m ρ, P7_2 m ρ, P7_3 m ρ, P7_4 m ρ, P8_0 m ρ, P8_1 m ρ, P8_2 m ρ, P8_3 m ρ, P8_4 m ρ, P9_0 m ρ, P9_1 m ρ, P9_2 m ρ, P9_3 m ρ, P9_4 m ρ, P10_0 m ρ, P10_1 m ρ, P11_0 m ρ, P11_1 m ρ, P12_0 m ρ, P12_1 m ρ, P12_2 m ρ, P12_3 m ρ, P12_4 m ρ, P13_0 m ρ, P13_1 m ρ, P13_2 m ρ, P13_3 m ρ, P13_4 m ρ, P14_0 m ρ, P14_1 m ρ, P14_2 m ρ, P14_3 m ρ, P14_4 m ρ, P15_0 m ρ, P15_1 m ρ, P15_2 m ρ, N0 m ρ, N1 m ρ, N2 m ρ, N3 m ρ, N4 m ρ, N5 m ρ, N6 m ρ, N7 m ρ, N8 m ρ, N9 m ρ, N10 m ρ, N11 m ρ, N12 m ρ, N13 m ρ, N14 m ρ, N15 m ρ, skip0', skip1', skip2', skip3', skip4', skip5', skip6', skip7', skip8', skip9', skip10', skip11', skip12', skip13', skip14', skip15', H0_v1', H0_v3', H0_v5', H0_v7', H0_v36', H0_v51', H0_v54', H0_v57', H0_v59', H1_v62', H2_v80', H2_v97', H2_v100', H2_v101', H2_v102', H3_v106', H3_v107', H3_v108', H4_v112', H4_v115', H4_v118', H5_v121', H6_v124', H7_v142', H7_v159', H7_v162', H7_v163', H7_v164', H8_v168', H8_v169', H8_v170', H9_v174', H9_v177', H9_v180', H10_v183', H11_v186', H12_v204', H12_v221', H12_v224', H12_v225', H12_v226', H13_v230', H13_v231', H13_v232', H14_v236', H14_v239', H14_v242', H15_v244']
  rfl

/-- After the tenth launch the second layer's output array holds the layer's function of the first layer's output. -/
theorem E1 (c : Dev nD) : W20 m ρ c (Proc.devRef .tc main_v181) = layerR (W10 m ρ c (Proc.devRef .tc main_v119)) (wl1 (W0 m ρ c (Proc.devRef .tc main_arg1))) (wg1 (W0 m ρ c (Proc.devRef .tc main_arg3))) (wgh1 (W0 m ρ c (Proc.devRef .tc main_arg5))) (wlh1 (W0 m ρ c (Proc.devRef .tc main_arg5))) (bL1 (W0 m ρ c (Proc.devRef .tc main_arg2))) (bG1 (W0 m ρ c (Proc.devRef .tc main_arg4))) (row128 (W0 m ρ c (Proc.devRef .tc main_arg7))) (row128 (W0 m ρ c (Proc.devRef .tc main_arg8))) (lb1 (W0 m ρ c (Proc.devRef .tc main_arg6))) (W0 m ρ c (Proc.devRef .tc main_arg12)) (W0 m ρ c (Proc.devRef .tc main_arg11)) := by
  simp (disch := decide) only [R5 m ρ, R6 m ρ, R7 m ρ, R8 m ρ, R9 m ρ, P0_0 m ρ, P0_1 m ρ, P1_0 m ρ, P1_1 m ρ, P2_0 m ρ, P2_1 m ρ, P2_2 m ρ, P2_3 m ρ, P3_0 m ρ, P3_1 m ρ, P3_2 m ρ, P3_3 m ρ, P4_0 m ρ, P4_1 m ρ, P4_2 m ρ, P4_3 m ρ, P4_4 m ρ, P5_0 m ρ, P5_1 m ρ, P6_0 m ρ, P6_1 m ρ, P7_0 m ρ, P7_1 m ρ, P7_2 m ρ, P7_3 m ρ, P7_4 m ρ, P8_0 m ρ, P8_1 m ρ, P8_2 m ρ, P8_3 m ρ, P8_4 m ρ, P9_0 m ρ, P9_1 m ρ, P9_2 m ρ, P9_3 m ρ, P9_4 m ρ, P10_0 m ρ, P10_1 m ρ, P11_0 m ρ, P11_1 m ρ, P12_0 m ρ, P12_1 m ρ, P12_2 m ρ, P12_3 m ρ, P12_4 m ρ, P13_0 m ρ, P13_1 m ρ, P13_2 m ρ, P13_3 m ρ, P13_4 m ρ, P14_0 m ρ, P14_1 m ρ, P14_2 m ρ, P14_3 m ρ, P14_4 m ρ, P15_0 m ρ, P15_1 m ρ, P15_2 m ρ, N0 m ρ, N1 m ρ, N2 m ρ, N3 m ρ, N4 m ρ, N5 m ρ, N6 m ρ, N7 m ρ, N8 m ρ, N9 m ρ, N10 m ρ, N11 m ρ, N12 m ρ, N13 m ρ, N14 m ρ, N15 m ρ, skip0', skip1', skip2', skip3', skip4', skip5', skip6', skip7', skip8', skip9', skip10', skip11', skip12', skip13', skip14', skip15', H0_v1', H0_v3', H0_v5', H0_v7', H0_v36', H0_v51', H0_v54', H0_v57', H0_v59', H1_v62', H2_v80', H2_v97', H2_v100', H2_v101', H2_v102', H3_v106', H3_v107', H3_v108', H4_v112', H4_v115', H4_v118', H5_v121', H6_v124', H7_v142', H7_v159', H7_v162', H7_v163', H7_v164', H8_v168', H8_v169', H8_v170', H9_v174', H9_v177', H9_v180', H10_v183', H11_v186', H12_v204', H12_v221', H12_v224', H12_v225', H12_v226', H13_v230', H13_v231', H13_v232', H14_v236', H14_v239', H14_v242', H15_v244']
  rfl

/-- After the fifteenth launch the third layer's output array holds the layer's function of the second layer's output. -/
theorem E2 (c : Dev nD) : W30 m ρ c (Proc.devRef .tc main_v243) = layerR (W20 m ρ c (Proc.devRef .tc main_v181)) (wl2 (W0 m ρ c (Proc.devRef .tc main_arg1))) (wg2 (W0 m ρ c (Proc.devRef .tc main_arg3))) (wgh2 (W0 m ρ c (Proc.devRef .tc main_arg5))) (wlh2 (W0 m ρ c (Proc.devRef .tc main_arg5))) (bL2 (W0 m ρ c (Proc.devRef .tc main_arg2))) (bG2 (W0 m ρ c (Proc.devRef .tc main_arg4))) (row128 (W0 m ρ c (Proc.devRef .tc main_arg7))) (row128 (W0 m ρ c (Proc.devRef .tc main_arg8))) (lb2 (W0 m ρ c (Proc.devRef .tc main_arg6))) (W0 m ρ c (Proc.devRef .tc main_arg12)) (W0 m ρ c (Proc.devRef .tc main_arg11)) := by
  simp (disch := decide) only [R10 m ρ, R11 m ρ, R12 m ρ, R13 m ρ, R14 m ρ, P0_0 m ρ, P0_1 m ρ, P1_0 m ρ, P1_1 m ρ, P2_0 m ρ, P2_1 m ρ, P2_2 m ρ, P2_3 m ρ, P3_0 m ρ, P3_1 m ρ, P3_2 m ρ, P3_3 m ρ, P4_0 m ρ, P4_1 m ρ, P4_2 m ρ, P4_3 m ρ, P4_4 m ρ, P5_0 m ρ, P5_1 m ρ, P6_0 m ρ, P6_1 m ρ, P7_0 m ρ, P7_1 m ρ, P7_2 m ρ, P7_3 m ρ, P7_4 m ρ, P8_0 m ρ, P8_1 m ρ, P8_2 m ρ, P8_3 m ρ, P8_4 m ρ, P9_0 m ρ, P9_1 m ρ, P9_2 m ρ, P9_3 m ρ, P9_4 m ρ, P10_0 m ρ, P10_1 m ρ, P11_0 m ρ, P11_1 m ρ, P12_0 m ρ, P12_1 m ρ, P12_2 m ρ, P12_3 m ρ, P12_4 m ρ, P13_0 m ρ, P13_1 m ρ, P13_2 m ρ, P13_3 m ρ, P13_4 m ρ, P14_0 m ρ, P14_1 m ρ, P14_2 m ρ, P14_3 m ρ, P14_4 m ρ, P15_0 m ρ, P15_1 m ρ, P15_2 m ρ, N0 m ρ, N1 m ρ, N2 m ρ, N3 m ρ, N4 m ρ, N5 m ρ, N6 m ρ, N7 m ρ, N8 m ρ, N9 m ρ, N10 m ρ, N11 m ρ, N12 m ρ, N13 m ρ, N14 m ρ, N15 m ρ, skip0', skip1', skip2', skip3', skip4', skip5', skip6', skip7', skip8', skip9', skip10', skip11', skip12', skip13', skip14', skip15', H0_v1', H0_v3', H0_v5', H0_v7', H0_v36', H0_v51', H0_v54', H0_v57', H0_v59', H1_v62', H2_v80', H2_v97', H2_v100', H2_v101', H2_v102', H3_v106', H3_v107', H3_v108', H4_v112', H4_v115', H4_v118', H5_v121', H6_v124', H7_v142', H7_v159', H7_v162', H7_v163', H7_v164', H8_v168', H8_v169', H8_v170', H9_v174', H9_v177', H9_v180', H10_v183', H11_v186', H12_v204', H12_v221', H12_v224', H12_v225', H12_v226', H13_v230', H13_v231', H13_v232', H14_v236', H14_v239', H14_v242', H15_v244']
  rfl

/-- The last launch leaves the third layer's output as it was … -/
theorem E3x (c : Dev nD) : W32 m ρ c (Proc.devRef .tc main_v243) = W30 m ρ c (Proc.devRef .tc main_v243) := by
  simp (disch := decide) only [P15_0 m ρ, skip15']

/-- … and writes its projection plus the bias row into the first result. -/
theorem E3 (c : Dev nD) : W32 m ρ c (Proc.devRef .tc main_v245) = fl (W30 m ρ c (Proc.devRef .tc main_v243)) (W0 m ρ c (Proc.devRef .tc main_arg9)) (rowf (fb (W0 m ρ c (Proc.devRef .tc main_arg10)))) := by
  simp (disch := decide) only [R15 m ρ, P0_0 m ρ, P0_1 m ρ, P1_0 m ρ, P1_1 m ρ, P2_0 m ρ, P2_1 m ρ, P2_2 m ρ, P2_3 m ρ, P3_0 m ρ, P3_1 m ρ, P3_2 m ρ, P3_3 m ρ, P4_0 m ρ, P4_1 m ρ, P4_2 m ρ, P4_3 m ρ, P4_4 m ρ, P5_0 m ρ, P5_1 m ρ, P6_0 m ρ, P6_1 m ρ, P7_0 m ρ, P7_1 m ρ, P7_2 m ρ, P7_3 m ρ, P7_4 m ρ, P8_0 m ρ, P8_1 m ρ, P8_2 m ρ, P8_3 m ρ, P8_4 m ρ, P9_0 m ρ, P9_1 m ρ, P9_2 m ρ, P9_3 m ρ, P9_4 m ρ, P10_0 m ρ, P10_1 m ρ, P11_0 m ρ, P11_1 m ρ, P12_0 m ρ, P12_1 m ρ, P12_2 m ρ, P12_3 m ρ, P12_4 m ρ, P13_0 m ρ, P13_1 m ρ, P13_2 m ρ, P13_3 m ρ, P13_4 m ρ, P14_0 m ρ, P14_1 m ρ, P14_2 m ρ, P14_3 m ρ, P14_4 m ρ, P15_0 m ρ, P15_1 m ρ, P15_2 m ρ, N0 m ρ, N1 m ρ, N2 m ρ, N3 m ρ, N4 m ρ, N5 m ρ, N6 m ρ, N7 m ρ, N8 m ρ, N9 m ρ, N10 m ρ, N11 m ρ, N12 m ρ, N13 m ρ, N14 m ρ, N15 m ρ, skip0', skip1', skip2', skip3', skip4', skip5', skip6', skip7', skip8', skip9', skip10', skip11', skip12', skip13', skip14', skip15', H15_v244']

end Cert.KernelIdeal.KStage

end
-- ==== Proof.RefL0.lean ====
/-
  Layer 0 of the reference program, read index by index.

  The two projections are the sums over k of x[r, k] · w[k, c]. Each branch then adds its bias row to the aggregated
  array, takes every row's mean (the row's sum divided by 128) and variance (the mean of the squared centred row),
  multiplies the centred row by the reciprocal square root of the variance plus ε, scales and shifts it by two rows
  and clamps at zero. The layer's output multiplies the two branches, joined side by side, by a 256 × 128 matrix:
  the sum over the 256 joined columns is the sum over the first branch's 128 columns against the matrix's rows
  0–127 plus the sum over the second branch's against rows 128–255; a bias row is added.
-/
import proofs.«164762_j10505490006519_1_alg».proof.Proof.RRead
import proofs.«164762_j10505490006519_1_alg».proof.Proof.Spec

noncomputable section

namespace Cert.ReferenceIdeal.RefL0

open Cert.ReferenceIdeal Cert.ReferenceIdeal.Gen Cert.ReferenceIdeal.RRead Idealize.ShloMosaic Idealize.ShloMosaic.StableHlo Cert.Spec

variable (x0 : (⟨S50000x128, .f32⟩ : BufTy).Contents (Elt Ideal))
  (x1 : (⟨S3x128x128, .f32⟩ : BufTy).Contents (Elt Ideal))
  (x2 : (⟨S3x128, .f32⟩ : BufTy).Contents (Elt Ideal))
  (x3 : (⟨S3x128x128, .f32⟩ : BufTy).Contents (Elt Ideal))
  (x4 : (⟨S3x128, .f32⟩ : BufTy).Contents (Elt Ideal))
  (x5 : (⟨S3x256x128, .f32⟩ : BufTy).Contents (Elt Ideal))
  (x6 : (⟨S3x128, .f32⟩ : BufTy).Contents (Elt Ideal))
  (x7 : (⟨S128, .f32⟩ : BufTy).Contents (Elt Ideal))
  (x8 : (⟨S128, .f32⟩ : BufTy).Contents (Elt Ideal))
  (x9 : (⟨S128x64, .f32⟩ : BufTy).Contents (Elt Ideal))
  (x10 : (⟨S64, .f32⟩ : BufTy).Contents (Elt Ideal))
  (x11 : (⟨S2x600000, .i32⟩ : BufTy).Contents (Elt Ideal))
  (x12 : (⟨S2x400000, .i32⟩ : BufTy).Contents (Elt Ideal))

/-- Two index functions are equal when they agree on every axis. -/
local macro "idx_eq" : tactic =>
  `(tactic| first
    | rfl
    | (funext a; match a with | ⟨0, _⟩ => rfl | ⟨1, _⟩ => rfl)
    | (funext a; match a with | ⟨0, _⟩ => rfl))

/-- A sum started from the zero word and divided by the 128 word is the mean. -/
theorem mean_of_sum (f t : Fin 128 → EReal) (h : ∀ k, f k = t k) :
    Ideal.div (Ideal.ofBits .f32 0x00000000#32 + ∑ k : Fin 128, f k) (Ideal.ofBits .f32 0x43000000#32) = mean t := by
  rw [Ideal.ofBits_zero_f32, zero_add, show f = t from funext h]
  rfl

/-- The projection's entry (r, c) is the sum over k of x[r, k] · w[k, c]. -/
theorem projL_eq : val_main_v12 (F := Ideal) x0 x1 = Cert.Spec.mm (x0) (val_main_v9 (F := Ideal) x1) := by
  funext i
  rw [val_main_v12_apply]
  unfold Cert.Spec.mm
  refine Finset.sum_congr rfl fun k _ => ?_
  have e1 : lidx_main_v12 i k = at2 (i 0).val (i 0).isLt k.val k.isLt := by idx_eq
  have e2 : ridx_main_v12 i k = at2 k.val k.isLt (i 1).val (i 1).isLt := by idx_eq
  exact congrArg₂ (fun a b => (x0) a * (val_main_v9 (F := Ideal) x1) b) e1 e2

/-- The projection's entry (r, c) is the sum over k of x[r, k] · w[k, c]. -/
theorem projG_eq : val_main_v85 (F := Ideal) x0 x3 = Cert.Spec.mm (x0) (val_main_v82 (F := Ideal) x3) := by
  funext i
  rw [val_main_v85_apply]
  unfold Cert.Spec.mm
  refine Finset.sum_congr rfl fun k _ => ?_
  have e1 : lidx_main_v85 i k = at2 (i 0).val (i 0).isLt k.val k.isLt := by idx_eq
  have e2 : ridx_main_v85 i k = at2 k.val k.isLt (i 1).val (i 1).isLt := by idx_eq
  exact congrArg₂ (fun a b => (x0) a * (val_main_v82 (F := Ideal) x3) b) e1 e2

/-- Row r of the aggregated array plus the bias row (L branch). -/
abbrev rowL (r : Nat) (hr : r < 50000) : Fin 128 → EReal := fun k =>
  val_main_v54 (F := Ideal) x0 x1 x12 (at2 (a := 50000) (b := 128) r hr k.val k.isLt) + val_main_v11 (F := Ideal) x2 (ValueIdx.ix1 k)

/-- The biased array at row r, column k. -/
theorem biasedL_at (r : Nat) (hr : r < 50000) (k : Nat) (hk : k < 128) :
    val_main_v57 (F := Ideal) x0 x1 x2 x12 (at2 r hr k hk) = rowL x0 x1 x2 x12 r hr ⟨k, hk⟩ := by
  rw [val_main_v57_apply, val_main_v56_apply, val_main_v55_apply, Ideal.addf_def]
  exact congrArg (fun j => _ + val_main_v11 (F := Ideal) x2 j) (by idx_eq)

/-- The row mean: the row's sum divided by 128. -/
theorem meanL_at (r : Nat) (hr : r < 50000) (j : S50000x1.Idx) (hj : (j 0).val = r) :
    val_main_v61 (F := Ideal) x0 x1 x2 x12 j = mean (rowL x0 x1 x2 x12 r hr) := by
  subst hj
  rw [val_main_v61_apply, val_main_v59_apply, val_main_v58_apply, val_main_v60_apply, val_main_cst_10_apply, val_main_cst_9_apply, Ideal.hostDivf_def, Ideal.ofBits_def, Ideal.ofBits_def]
  refine mean_of_sum _ _ fun k => ?_
  have e : idx_main_v58 (idx_main_v59 j) k = at2 (a := 50000) (b := 128) (j 0).val hr k.val k.isLt := by idx_eq
  rw [e, biasedL_at]

/-- The centred row at row r, column k. -/
theorem centredL_at (r : Nat) (hr : r < 50000) (k : Nat) (hk : k < 128) :
    val_main_v63 (F := Ideal) x0 x1 x2 x12 (at2 r hr k hk) = rowL x0 x1 x2 x12 r hr ⟨k, hk⟩ - mean (rowL x0 x1 x2 x12 r hr) := by
  rw [val_main_v63_apply, val_main_v62_apply, meanL_at x0 x1 x2 x12 r hr (idx_main_v62 (at2 r hr k hk)) rfl, biasedL_at, Ideal.subf_def]

/-- The row variance: the mean of the squared centred row. -/
theorem varL_at (r : Nat) (hr : r < 50000) (j : S50000x1.Idx) (hj : (j 0).val = r) :
    val_main_v68 (F := Ideal) x0 x1 x2 x12 j = mean (fun k => (rowL x0 x1 x2 x12 r hr k - mean (rowL x0 x1 x2 x12 r hr)) * (rowL x0 x1 x2 x12 r hr k - mean (rowL x0 x1 x2 x12 r hr))) := by
  subst hj
  rw [val_main_v68_apply, val_main_v66_apply, val_main_v65_apply, val_main_v67_apply, val_main_cst_12_apply, val_main_cst_11_apply, Ideal.hostDivf_def, Ideal.ofBits_def, Ideal.ofBits_def]
  refine mean_of_sum _ _ fun k => ?_
  have e : idx_main_v65 (idx_main_v66 j) k = at2 (a := 50000) (b := 128) (j 0).val hr k.val k.isLt := by idx_eq
  rw [val_main_v64_apply, e, centredL_at, Ideal.mulf_def]

/-- The normalised, scaled, shifted and clamped array at row r, column k. -/
theorem reluL_at (r : Nat) (hr : r < 50000) (k : Nat) (hk : k < 128) :
    val_main_v80 (F := Ideal) x0 x1 x2 x7 x8 x12 (at2 r hr k hk) = lnRow (rowL x0 x1 x2 x12 r hr) (fun q => x7 (ValueIdx.ix1 q)) (fun q => x8 (ValueIdx.ix1 q)) ⟨k, hk⟩ := by
  rw [val_main_v80_apply, val_main_v79_apply, val_main_v76_apply, val_main_v73_apply, val_main_v72_apply, val_main_v71_apply, val_main_v70_apply, varL_at x0 x1 x2 x12 r hr (idx_main_v72 (at2 r hr k hk)) rfl, val_main_v69_apply, val_main_cst_13_apply, centredL_at, val_main_v75_apply, val_main_v74_apply, val_main_v78_apply, val_main_v77_apply, val_main_call0_v0_apply, val_main_call0_cst_apply, Ideal.maximumf_def, Ideal.addf_def, Ideal.addf_def, Ideal.mulf_def, Ideal.mulf_def, Ideal.hostUnary_rsqrt_def, Ideal.ofBits_def, Ideal.ofBits_def]
  unfold lnRow ceps czero
  have eg : idx_main_v74 (idx_main_v75 (at2 r hr k hk)) = ValueIdx.ix1 ⟨k, hk⟩ := by idx_eq
  have eb : idx_main_v77 (idx_main_v78 (at2 r hr k hk)) = ValueIdx.ix1 ⟨k, hk⟩ := by idx_eq
  rw [eg, eb]

/-- The L branch's normalisation step is the specification's. -/
theorem lnL_eq : val_main_v80 (F := Ideal) x0 x1 x2 x7 x8 x12 = Cert.Spec.ln (val_main_v54 (F := Ideal) x0 x1 x12) (fun k => val_main_v11 (F := Ideal) x2 (ValueIdx.ix1 k)) (fun k => x7 (ValueIdx.ix1 k)) (fun k => x8 (ValueIdx.ix1 k)) := by
  funext i
  have hi : i = at2 (a := 50000) (b := 128) (i 0).val (i 0).isLt (i 1).val (i 1).isLt := by idx_eq
  refine (congrArg (val_main_v80 (F := Ideal) x0 x1 x2 x7 x8 x12) hi).trans ((reluL_at x0 x1 x2 x7 x8 x12 _ _ _ _).trans ?_)
  rfl

/-- Row r of the aggregated array plus the bias row (G branch). -/
abbrev rowG (r : Nat) (hr : r < 50000) : Fin 128 → EReal := fun k =>
  val_main_v127 (F := Ideal) x0 x3 x11 (at2 (a := 50000) (b := 128) r hr k.val k.isLt) + val_main_v84 (F := Ideal) x4 (ValueIdx.ix1 k)

/-- The biased array at row r, column k. -/
theorem biasedG_at (r : Nat) (hr : r < 50000) (k : Nat) (hk : k < 128) :
    val_main_v130 (F := Ideal) x0 x3 x4 x11 (at2 r hr k hk) = rowG x0 x3 x4 x11 r hr ⟨k, hk⟩ := by
  rw [val_main_v130_apply, val_main_v129_apply, val_main_v128_apply, Ideal.addf_def]
  exact congrArg (fun j => _ + val_main_v84 (F := Ideal) x4 j) (by idx_eq)

/-- The row mean: the row's sum divided by 128. -/
theorem meanG_at (r : Nat) (hr : r < 50000) (j : S50000x1.Idx) (hj : (j 0).val = r) :
    val_main_v134 (F := Ideal) x0 x3 x4 x11 j = mean (rowG x0 x3 x4 x11 r hr) := by
  subst hj
  rw [val_main_v134_apply, val_main_v132_apply, val_main_v131_apply, val_main_v133_apply, val_main_cst_26_apply, val_main_cst_25_apply, Ideal.hostDivf_def, Ideal.ofBits_def, Ideal.ofBits_def]
  refine mean_of_sum _ _ fun k => ?_
  have e : idx_main_v131 (idx_main_v132 j) k = at2 (a := 50000) (b := 128) (j 0).val hr k.val k.isLt := by idx_eq
  rw [e, biasedG_at]

/-- The centred row at row r, column k. -/
theorem centredG_at (r : Nat) (hr : r < 50000) (k : Nat) (hk : k < 128) :
    val_main_v136 (F := Ideal) x0 x3 x4 x11 (at2 r hr k hk) = rowG x0 x3 x4 x11 r hr ⟨k, hk⟩ - mean (rowG x0 x3 x4 x11 r hr) := by
  rw [val_main_v136_apply, val_main_v135_apply, meanG_at x0 x3 x4 x11 r hr (idx_main_v135 (at2 r hr k hk)) rfl, biasedG_at, Ideal.subf_def]

/-- The row variance: the mean of the squared centred row. -/
theorem varG_at (r : Nat) (hr : r < 50000) (j : S50000x1.Idx) (hj : (j 0).val = r) :
    val_main_v141 (F := Ideal) x0 x3 x4 x11 j = mean (fun k => (rowG x0 x3 x4 x11 r hr k - mean (rowG x0 x3 x4 x11 r hr)) * (rowG x0 x3 x4 x11 r hr k - mean (rowG x0 x3 x4 x11 r hr))) := by
  subst hj
  rw [val_main_v141_apply, val_main_v139_apply, val_main_v138_apply, val_main_v140_apply, val_main_cst_28_apply, val_main_cst_27_apply, Ideal.hostDivf_def, Ideal.ofBits_def, Ideal.ofBits_def]
  refine mean_of_sum _ _ fun k => ?_
  have e : idx_main_v138 (idx_main_v139 j) k = at2 (a := 50000) (b := 128) (j 0).val hr k.val k.isLt := by idx_eq
  rw [val_main_v137_apply, e, centredG_at, Ideal.mulf_def]

/-- The normalised, scaled, shifted and clamped array at row r, column k. -/
theorem reluG_at (r : Nat) (hr : r < 50000) (k : Nat) (hk : k < 128) :
    val_main_v153 (F := Ideal) x0 x3 x4 x7 x8 x11 (at2 r hr k hk) = lnRow (rowG x0 x3 x4 x11 r hr) (fun q => x7 (ValueIdx.ix1 q)) (fun q => x8 (ValueIdx.ix1 q)) ⟨k, hk⟩ := by
  rw [val_main_v153_apply, val_main_v152_apply, val_main_v149_apply, val_main_v146_apply, val_main_v145_apply, val_main_v144_apply, val_main_v143_apply, varG_at x0 x3 x4 x11 r hr (idx_main_v145 (at2 r hr k hk)) rfl, val_main_v142_apply, val_main_cst_29_apply, centredG_at, val_main_v148_apply, val_main_v147_apply, val_main_v151_apply, val_main_v150_apply, val_main_call1_v0_apply, val_main_call1_cst_apply, Ideal.maximumf_def, Ideal.addf_def, Ideal.addf_def, Ideal.mulf_def, Ideal.mulf_def, Ideal.hostUnary_rsqrt_def, Ideal.ofBits_def, Ideal.ofBits_def]
  unfold lnRow ceps czero
  have eg : idx_main_v147 (idx_main_v148 (at2 r hr k hk)) = ValueIdx.ix1 ⟨k, hk⟩ := by idx_eq
  have eb : idx_main_v150 (idx_main_v151 (at2 r hr k hk)) = ValueIdx.ix1 ⟨k, hk⟩ := by idx_eq
  rw [eg, eb]

/-- The G branch's normalisation step is the specification's. -/
theorem lnG_eq : val_main_v153 (F := Ideal) x0 x3 x4 x7 x8 x11 = Cert.Spec.ln (val_main_v127 (F := Ideal) x0 x3 x11) (fun k => val_main_v84 (F := Ideal) x4 (ValueIdx.ix1 k)) (fun k => x7 (ValueIdx.ix1 k)) (fun k => x8 (ValueIdx.ix1 k)) := by
  funext i
  have hi : i = at2 (a := 50000) (b := 128) (i 0).val (i 0).isLt (i 1).val (i 1).isLt := by idx_eq
  refine (congrArg (val_main_v153 (F := Ideal) x0 x3 x4 x7 x8 x11) hi).trans ((reluG_at x0 x3 x4 x7 x8 x11 _ _ _ _).trans ?_)
  rfl

/-- The joined array at a column of its first half is the first branch. -/
theorem cat0_left (r : Nat) (hr : r < 50000) (k : Nat) (hk : k < 128) :
    val_main_v154 (F := Ideal) x0 x1 x2 x3 x4 x7 x8 x11 x12 (at2 (a := 50000) (b := 256) r hr k (by omega)) = val_main_v153 (F := Ideal) x0 x3 x4 x7 x8 x11 (at2 r hr k hk) := by
  unfold val_main_v154
  refine concatenate_pair_apply_left (t := S50000x256) (s₁ := S50000x128) (s₂ := S50000x128) (1 : Fin 2) _ _
    concatenates_S50000x128_S50000x128_S50000x256_d1 (at2 (a := 50000) (b := 256) r hr k (by omega)) rfl
    (at2 (a := 50000) (b := 128) r hr k hk) ?_
  intro b
  match b with
  | ⟨0, _⟩ => rfl
  | ⟨1, _⟩ => rfl

/-- The joined array at a column of its second half is the second branch. -/
theorem cat0_right (r : Nat) (hr : r < 50000) (k : Nat) (hk : k < 128) :
    val_main_v154 (F := Ideal) x0 x1 x2 x3 x4 x7 x8 x11 x12 (at2 (a := 50000) (b := 256) r hr (128 + k) (by omega)) = val_main_v80 (F := Ideal) x0 x1 x2 x7 x8 x12 (at2 r hr k hk) := by
  unfold val_main_v154
  refine concatenate_pair_apply_right (t := S50000x256) (s₁ := S50000x128) (s₂ := S50000x128) (1 : Fin 2) _ _
    concatenates_S50000x128_S50000x128_S50000x256_d1 (at2 (a := 50000) (b := 256) r hr (128 + k) (by omega)) rfl rfl
    (at2 (a := 50000) (b := 128) r hr k hk) ?_ ?_
  · intro b hb
    match b, hb with
    | ⟨0, _⟩, _ => rfl
    | ⟨1, _⟩, hb => exact absurd rfl hb
  · show k + 128 = 128 + k
    omega

/-- The layer's output: the two branches against the two halves of the matrix, plus the bias row. -/
theorem out_eq : val_main_v162 (F := Ideal) x0 x1 x2 x3 x4 x5 x6 x7 x8 x11 x12 = Cert.Spec.cl (val_main_v153 (F := Ideal) x0 x3 x4 x7 x8 x11) (val_main_v80 (F := Ideal) x0 x1 x2 x7 x8 x12) (val_main_v156 (F := Ideal) x5) (fun k => val_main_v159 (F := Ideal) x6 (ValueIdx.ix1 k)) := by
  funext i
  have h0 : (i 0).val < 50000 := (i 0).isLt
  have h1 : (i 1).val < 128 := (i 1).isLt
  rw [val_main_v162_apply, val_main_v157_apply, val_main_v161_apply, val_main_v160_apply, Ideal.addf_def]
  unfold Cert.Spec.cl
  have hs : ∀ f : Fin 256 → EReal, ∑ k : Fin 256, f k = ∑ k : Fin 128, f (Fin.castAdd 128 k) + ∑ k : Fin 128, f (Fin.natAdd 128 k) :=
    fun f => Fin.sum_univ_add (a := 128) (b := 128) f
  rw [hs]
  refine congrArg₂ (· + ·) (congrArg₂ (· + ·) (Finset.sum_congr rfl fun k _ => ?_) (Finset.sum_congr rfl fun k _ => ?_)) ?_
  · have e1 : lidx_main_v157 i (Fin.castAdd 128 k) = at2 (a := 50000) (b := 256) (i 0).val h0 k.val (by have := k.isLt; omega) := by idx_eq
    have e2 : ridx_main_v157 i (Fin.castAdd 128 k) = at2 (a := 256) (b := 128) k.val (by have := k.isLt; omega) (i 1).val h1 := by idx_eq
    exact congrArg₂ (· * ·) ((congrArg (val_main_v154 (F := Ideal) x0 x1 x2 x3 x4 x7 x8 x11 x12) e1).trans (cat0_left x0 x1 x2 x3 x4 x7 x8 x11 x12 (i 0).val h0 k.val k.isLt)) (congrArg (val_main_v156 (F := Ideal) x5) e2)
  · have e1 : lidx_main_v157 i (Fin.natAdd 128 k) = at2 (a := 50000) (b := 256) (i 0).val h0 (128 + k.val) (by have := k.isLt; omega) := by idx_eq
    have e2 : ridx_main_v157 i (Fin.natAdd 128 k) = at2 (a := 256) (b := 128) (128 + k.val) (by have := k.isLt; omega) (i 1).val h1 := by idx_eq
    exact congrArg₂ (· * ·) ((congrArg (val_main_v154 (F := Ideal) x0 x1 x2 x3 x4 x7 x8 x11 x12) e1).trans (cat0_right x0 x1 x2 x3 x4 x7 x8 x11 x12 (i 0).val h0 k.val k.isLt)) (congrArg (val_main_v156 (F := Ideal) x5) e2)
  · exact congrArg (val_main_v159 (F := Ideal) x6) (by idx_eq)

end Cert.ReferenceIdeal.RefL0

end
-- ==== Proof.RefL1.lean ====
/-
  Layer 1 of the reference program, read index by index.

  The layer's input is the previous layer's output. The two projections are the sums over k of x[r, k] · w[k, c]. Each
  branch adds its bias row to the aggregated array, takes every row's mean (the row's sum divided by 128) and variance
  (the mean of the squared centred row), multiplies the centred row by the reciprocal square root of the variance
  plus ε, scales and shifts it by two rows, clamps at zero, and adds the layer's input back. The layer's output
  multiplies the two branches, joined side by side, by a 256 × 128 matrix: the sum over the 256 joined columns is the
  sum over the first branch's 128 columns against the matrix's rows 0–127 plus the sum over the second branch's
  against rows 128–255; a bias row is added.
-/
import proofs.«164762_j10505490006519_1_alg».proof.Proof.RRead
import proofs.«164762_j10505490006519_1_alg».proof.Proof.Spec

noncomputable section

namespace Cert.ReferenceIdeal.RefL1

open Cert.ReferenceIdeal Cert.ReferenceIdeal.Gen Cert.ReferenceIdeal.RRead Idealize.ShloMosaic Idealize.ShloMosaic.StableHlo Cert.Spec

variable (x0 : (⟨S50000x128, .f32⟩ : BufTy).Contents (Elt Ideal))
  (x1 : (⟨S3x128x128, .f32⟩ : BufTy).Contents (Elt Ideal))
  (x2 : (⟨S3x128, .f32⟩ : BufTy).Contents (Elt Ideal))
  (x3 : (⟨S3x128x128, .f32⟩ : BufTy).Contents (Elt Ideal))
  (x4 : (⟨S3x128, .f32⟩ : BufTy).Contents (Elt Ideal))
  (x5 : (⟨S3x256x128, .f32⟩ : BufTy).Contents (Elt Ideal))
  (x6 : (⟨S3x128, .f32⟩ : BufTy).Contents (Elt Ideal))
  (x7 : (⟨S128, .f32⟩ : BufTy).Contents (Elt Ideal))
  (x8 : (⟨S128, .f32⟩ : BufTy).Contents (Elt Ideal))
  (x9 : (⟨S128x64, .f32⟩ : BufTy).Contents (Elt Ideal))
  (x10 : (⟨S64, .f32⟩ : BufTy).Contents (Elt Ideal))
  (x11 : (⟨S2x600000, .i32⟩ : BufTy).Contents (Elt Ideal))
  (x12 : (⟨S2x400000, .i32⟩ : BufTy).Contents (Elt Ideal))

/-- Two index functions are equal when they agree on every axis. -/
local macro "idx_eq" : tactic =>
  `(tactic| first
    | rfl
    | (funext a; match a with | ⟨0, _⟩ => rfl | ⟨1, _⟩ => rfl)
    | (funext a; match a with | ⟨0, _⟩ => rfl))

/-- A sum started from the zero word and divided by the 128 word is the mean. -/
theorem mean_of_sum (f t : Fin 128 → EReal) (h : ∀ k, f k = t k) :
    Ideal.div (Ideal.ofBits .f32 0x00000000#32 + ∑ k : Fin 128, f k) (Ideal.ofBits .f32 0x43000000#32) = mean t := by
  rw [Ideal.ofBits_zero_f32, zero_add, show f = t from funext h]
  rfl

/-- The projection's entry (r, c) is the sum over k of x[r, k] · w[k, c]. -/
theorem projL_eq : val_main_v167 (F := Ideal) x0 x1 x2 x3 x4 x5 x6 x7 x8 x11 x12 = Cert.Spec.mm (val_main_v162 (F := Ideal) x0 x1 x2 x3 x4 x5 x6 x7 x8 x11 x12) (val_main_v164 (F := Ideal) x1) := by
  funext i
  rw [val_main_v167_apply]
  unfold Cert.Spec.mm
  refine Finset.sum_congr rfl fun k _ => ?_
  have e1 : lidx_main_v167 i k = at2 (i 0).val (i 0).isLt k.val k.isLt := by idx_eq
  have e2 : ridx_main_v167 i k = at2 k.val k.isLt (i 1).val (i 1).isLt := by idx_eq
  exact congrArg₂ (fun a b => (val_main_v162 (F := Ideal) x0 x1 x2 x3 x4 x5 x6 x7 x8 x11 x12) a * (val_main_v164 (F := Ideal) x1) b) e1 e2

/-- The projection's entry (r, c) is the sum over k of x[r, k] · w[k, c]. -/
theorem projG_eq : val_main_v240 (F := Ideal) x0 x1 x2 x3 x4 x5 x6 x7 x8 x11 x12 = Cert.Spec.mm (val_main_v162 (F := Ideal) x0 x1 x2 x3 x4 x5 x6 x7 x8 x11 x12) (val_main_v237 (F := Ideal) x3) := by
  funext i
  rw [val_main_v240_apply]
  unfold Cert.Spec.mm
  refine Finset.sum_congr rfl fun k _ => ?_
  have e1 : lidx_main_v240 i k = at2 (i 0).val (i 0).isLt k.val k.isLt := by idx_eq
  have e2 : ridx_main_v240 i k = at2 k.val k.isLt (i 1).val (i 1).isLt := by idx_eq
  exact congrArg₂ (fun a b => (val_main_v162 (F := Ideal) x0 x1 x2 x3 x4 x5 x6 x7 x8 x11 x12) a * (val_main_v237 (F := Ideal) x3) b) e1 e2

/-- Row r of the aggregated array plus the bias row (L branch). -/
abbrev rowL (r : Nat) (hr : r < 50000) : Fin 128 → EReal := fun k =>
  val_main_v209 (F := Ideal) x0 x1 x2 x3 x4 x5 x6 x7 x8 x11 x12 (at2 (a := 50000) (b := 128) r hr k.val k.isLt) + val_main_v166 (F := Ideal) x2 (ValueIdx.ix1 k)

/-- The biased array at row r, column k. -/
theorem biasedL_at (r : Nat) (hr : r < 50000) (k : Nat) (hk : k < 128) :
    val_main_v212 (F := Ideal) x0 x1 x2 x3 x4 x5 x6 x7 x8 x11 x12 (at2 r hr k hk) = rowL x0 x1 x2 x3 x4 x5 x6 x7 x8 x11 x12 r hr ⟨k, hk⟩ := by
  rw [val_main_v212_apply, val_main_v211_apply, val_main_v210_apply, Ideal.addf_def]
  have e : idx_main_v210 (idx_main_v211 (at2 r hr k hk)) = ValueIdx.ix1 ⟨k, hk⟩ := by idx_eq
  rw [e]

/-- The row mean: the row's sum divided by 128. -/
theorem meanL_at (r : Nat) (hr : r < 50000) (j : S50000x1.Idx) (hj : (j 0).val = r) :
    val_main_v216 (F := Ideal) x0 x1 x2 x3 x4 x5 x6 x7 x8 x11 x12 j = mean (rowL x0 x1 x2 x3 x4 x5 x6 x7 x8 x11 x12 r hr) := by
  subst hj
  rw [val_main_v216_apply, val_main_v214_apply, val_main_v213_apply, val_main_v215_apply, val_main_cst_42_apply, val_main_cst_41_apply, Ideal.hostDivf_def, Ideal.ofBits_def, Ideal.ofBits_def]
  refine mean_of_sum _ _ fun k => ?_
  have e : idx_main_v213 (idx_main_v214 j) k = at2 (a := 50000) (b := 128) (j 0).val hr k.val k.isLt := by idx_eq
  rw [e, biasedL_at]

/-- The centred row at row r, column k. -/
theorem centredL_at (r : Nat) (hr : r < 50000) (k : Nat) (hk : k < 128) :
    val_main_v218 (F := Ideal) x0 x1 x2 x3 x4 x5 x6 x7 x8 x11 x12 (at2 r hr k hk) = rowL x0 x1 x2 x3 x4 x5 x6 x7 x8 x11 x12 r hr ⟨k, hk⟩ - mean (rowL x0 x1 x2 x3 x4 x5 x6 x7 x8 x11 x12 r hr) := by
  rw [val_main_v218_apply, val_main_v217_apply, meanL_at x0 x1 x2 x3 x4 x5 x6 x7 x8 x11 x12 r hr (idx_main_v217 (at2 r hr k hk)) rfl, biasedL_at, Ideal.subf_def]

/-- The row variance: the mean of the squared centred row. -/
theorem varL_at (r : Nat) (hr : r < 50000) (j : S50000x1.Idx) (hj : (j 0).val = r) :
    val_main_v223 (F := Ideal) x0 x1 x2 x3 x4 x5 x6 x7 x8 x11 x12 j = mean (fun k => (rowL x0 x1 x2 x3 x4 x5 x6 x7 x8 x11 x12 r hr k - mean (rowL x0 x1 x2 x3 x4 x5 x6 x7 x8 x11 x12 r hr)) * (rowL x0 x1 x2 x3 x4 x5 x6 x7 x8 x11 x12 r hr k - mean (rowL x0 x1 x2 x3 x4 x5 x6 x7 x8 x11 x12 r hr))) := by
  subst hj
  rw [val_main_v223_apply, val_main_v221_apply, val_main_v220_apply, val_main_v222_apply, val_main_cst_44_apply, val_main_cst_43_apply, Ideal.hostDivf_def, Ideal.ofBits_def, Ideal.ofBits_def]
  refine mean_of_sum _ _ fun k => ?_
  have e : idx_main_v220 (idx_main_v221 j) k = at2 (a := 50000) (b := 128) (j 0).val hr k.val k.isLt := by idx_eq
  rw [val_main_v219_apply, e, centredL_at, Ideal.mulf_def]

/-- The normalised, scaled, shifted and clamped array at row r, column k. -/
theorem reluL_at (r : Nat) (hr : r < 50000) (k : Nat) (hk : k < 128) :
    val_main_v235 (F := Ideal) x0 x1 x2 x3 x4 x5 x6 x7 x8 x11 x12 (at2 r hr k hk) = lnRow (rowL x0 x1 x2 x3 x4 x5 x6 x7 x8 x11 x12 r hr) (fun q => x7 (ValueIdx.ix1 q)) (fun q => x8 (ValueIdx.ix1 q)) ⟨k, hk⟩ := by
  rw [val_main_v235_apply, val_main_v234_apply, val_main_v231_apply, val_main_v228_apply, val_main_v227_apply, val_main_v226_apply, val_main_v225_apply, varL_at x0 x1 x2 x3 x4 x5 x6 x7 x8 x11 x12 r hr (idx_main_v227 (at2 r hr k hk)) rfl, val_main_v224_apply, val_main_cst_45_apply, centredL_at, val_main_v230_apply, val_main_v229_apply, val_main_v233_apply, val_main_v232_apply, val_main_call2_v0_apply, val_main_call2_cst_apply, Ideal.maximumf_def, Ideal.addf_def, Ideal.addf_def, Ideal.mulf_def, Ideal.mulf_def, Ideal.hostUnary_rsqrt_def, Ideal.ofBits_def, Ideal.ofBits_def]
  unfold lnRow ceps czero
  have eg : idx_main_v229 (idx_main_v230 (at2 r hr k hk)) = ValueIdx.ix1 ⟨k, hk⟩ := by idx_eq
  have eb : idx_main_v232 (idx_main_v233 (at2 r hr k hk)) = ValueIdx.ix1 ⟨k, hk⟩ := by idx_eq
  rw [eg, eb]

/-- The L branch's normalisation step is the specification's. -/
theorem lnL_eq : val_main_v235 (F := Ideal) x0 x1 x2 x3 x4 x5 x6 x7 x8 x11 x12 = Cert.Spec.ln (val_main_v209 (F := Ideal) x0 x1 x2 x3 x4 x5 x6 x7 x8 x11 x12) (fun k => val_main_v166 (F := Ideal) x2 (ValueIdx.ix1 k)) (fun k => x7 (ValueIdx.ix1 k)) (fun k => x8 (ValueIdx.ix1 k)) := by
  funext i
  have hi : i = at2 (a := 50000) (b := 128) (i 0).val (i 0).isLt (i 1).val (i 1).isLt := by idx_eq
  refine (congrArg (val_main_v235 (F := Ideal) x0 x1 x2 x3 x4 x5 x6 x7 x8 x11 x12) hi).trans ((reluL_at x0 x1 x2 x3 x4 x5 x6 x7 x8 x11 x12 _ _ _ _).trans ?_)
  rfl

/-- The L branch with the layer's input added back. -/
theorem lnrL_eq : val_main_v309 (F := Ideal) x0 x1 x2 x3 x4 x5 x6 x7 x8 x11 x12 = Cert.Spec.lnr (val_main_v209 (F := Ideal) x0 x1 x2 x3 x4 x5 x6 x7 x8 x11 x12) (fun k => val_main_v166 (F := Ideal) x2 (ValueIdx.ix1 k)) (fun k => x7 (ValueIdx.ix1 k)) (fun k => x8 (ValueIdx.ix1 k)) (val_main_v162 (F := Ideal) x0 x1 x2 x3 x4 x5 x6 x7 x8 x11 x12) := by
  funext i
  rw [val_main_v309_apply, Ideal.addf_def, lnL_eq]
  rfl

/-- Row r of the aggregated array plus the bias row (G branch). -/
abbrev rowG (r : Nat) (hr : r < 50000) : Fin 128 → EReal := fun k =>
  val_main_v282 (F := Ideal) x0 x1 x2 x3 x4 x5 x6 x7 x8 x11 x12 (at2 (a := 50000) (b := 128) r hr k.val k.isLt) + val_main_v239 (F := Ideal) x4 (ValueIdx.ix1 k)

/-- The biased array at row r, column k. -/
theorem biasedG_at (r : Nat) (hr : r < 50000) (k : Nat) (hk : k < 128) :
    val_main_v285 (F := Ideal) x0 x1 x2 x3 x4 x5 x6 x7 x8 x11 x12 (at2 r hr k hk) = rowG x0 x1 x2 x3 x4 x5 x6 x7 x8 x11 x12 r hr ⟨k, hk⟩ := by
  rw [val_main_v285_apply, val_main_v284_apply, val_main_v283_apply, Ideal.addf_def]
  have e : idx_main_v283 (idx_main_v284 (at2 r hr k hk)) = ValueIdx.ix1 ⟨k, hk⟩ := by idx_eq
  rw [e]

/-- The row mean: the row's sum divided by 128. -/
theorem meanG_at (r : Nat) (hr : r < 50000) (j : S50000x1.Idx) (hj : (j 0).val = r) :
    val_main_v289 (F := Ideal) x0 x1 x2 x3 x4 x5 x6 x7 x8 x11 x12 j = mean (rowG x0 x1 x2 x3 x4 x5 x6 x7 x8 x11 x12 r hr) := by
  subst hj
  rw [val_main_v289_apply, val_main_v287_apply, val_main_v286_apply, val_main_v288_apply, val_main_cst_58_apply, val_main_cst_57_apply, Ideal.hostDivf_def, Ideal.ofBits_def, Ideal.ofBits_def]
  refine mean_of_sum _ _ fun k => ?_
  have e : idx_main_v286 (idx_main_v287 j) k = at2 (a := 50000) (b := 128) (j 0).val hr k.val k.isLt := by idx_eq
  rw [e, biasedG_at]

/-- The centred row at row r, column k. -/
theorem centredG_at (r : Nat) (hr : r < 50000) (k : Nat) (hk : k < 128) :
    val_main_v291 (F := Ideal) x0 x1 x2 x3 x4 x5 x6 x7 x8 x11 x12 (at2 r hr k hk) = rowG x0 x1 x2 x3 x4 x5 x6 x7 x8 x11 x12 r hr ⟨k, hk⟩ - mean (rowG x0 x1 x2 x3 x4 x5 x6 x7 x8 x11 x12 r hr) := by
  rw [val_main_v291_apply, val_main_v290_apply, meanG_at x0 x1 x2 x3 x4 x5 x6 x7 x8 x11 x12 r hr (idx_main_v290 (at2 r hr k hk)) rfl, biasedG_at, Ideal.subf_def]

/-- The row variance: the mean of the squared centred row. -/
theorem varG_at (r : Nat) (hr : r < 50000) (j : S50000x1.Idx) (hj : (j 0).val = r) :
    val_main_v296 (F := Ideal) x0 x1 x2 x3 x4 x5 x6 x7 x8 x11 x12 j = mean (fun k => (rowG x0 x1 x2 x3 x4 x5 x6 x7 x8 x11 x12 r hr k - mean (rowG x0 x1 x2 x3 x4 x5 x6 x7 x8 x11 x12 r hr)) * (rowG x0 x1 x2 x3 x4 x5 x6 x7 x8 x11 x12 r hr k - mean (rowG x0 x1 x2 x3 x4 x5 x6 x7 x8 x11 x12 r hr))) := by
  subst hj
  rw [val_main_v296_apply, val_main_v294_apply, val_main_v293_apply, val_main_v295_apply, val_main_cst_60_apply, val_main_cst_59_apply, Ideal.hostDivf_def, Ideal.ofBits_def, Ideal.ofBits_def]
  refine mean_of_sum _ _ fun k => ?_
  have e : idx_main_v293 (idx_main_v294 j) k = at2 (a := 50000) (b := 128) (j 0).val hr k.val k.isLt := by idx_eq
  rw [val_main_v292_apply, e, centredG_at, Ideal.mulf_def]

/-- The normalised, scaled, shifted and clamped array at row r, column k. -/
theorem reluG_at (r : Nat) (hr : r < 50000) (k : Nat) (hk : k < 128) :
    val_main_v308 (F := Ideal) x0 x1 x2 x3 x4 x5 x6 x7 x8 x11 x12 (at2 r hr k hk) = lnRow (rowG x0 x1 x2 x3 x4 x5 x6 x7 x8 x11 x12 r hr) (fun q => x7 (ValueIdx.ix1 q)) (fun q => x8 (ValueIdx.ix1 q)) ⟨k, hk⟩ := by
  rw [val_main_v308_apply, val_main_v307_apply, val_main_v304_apply, val_main_v301_apply, val_main_v300_apply, val_main_v299_apply, val_main_v298_apply, varG_at x0 x1 x2 x3 x4 x5 x6 x7 x8 x11 x12 r hr (idx_main_v300 (at2 r hr k hk)) rfl, val_main_v297_apply, val_main_cst_61_apply, centredG_at, val_main_v303_apply, val_main_v302_apply, val_main_v306_apply, val_main_v305_apply, val_main_call3_v0_apply, val_main_call3_cst_apply, Ideal.maximumf_def, Ideal.addf_def, Ideal.addf_def, Ideal.mulf_def, Ideal.mulf_def, Ideal.hostUnary_rsqrt_def, Ideal.ofBits_def, Ideal.ofBits_def]
  unfold lnRow ceps czero
  have eg : idx_main_v302 (idx_main_v303 (at2 r hr k hk)) = ValueIdx.ix1 ⟨k, hk⟩ := by idx_eq
  have eb : idx_main_v305 (idx_main_v306 (at2 r hr k hk)) = ValueIdx.ix1 ⟨k, hk⟩ := by idx_eq
  rw [eg, eb]

/-- The G branch's normalisation step is the specification's. -/
theorem lnG_eq : val_main_v308 (F := Ideal) x0 x1 x2 x3 x4 x5 x6 x7 x8 x11 x12 = Cert.Spec.ln (val_main_v282 (F := Ideal) x0 x1 x2 x3 x4 x5 x6 x7 x8 x11 x12) (fun k => val_main_v239 (F := Ideal) x4 (ValueIdx.ix1 k)) (fun k => x7 (ValueIdx.ix1 k)) (fun k => x8 (ValueIdx.ix1 k)) := by
  funext i
  have hi : i = at2 (a := 50000) (b := 128) (i 0).val (i 0).isLt (i 1).val (i 1).isLt := by idx_eq
  refine (congrArg (val_main_v308 (F := Ideal) x0 x1 x2 x3 x4 x5 x6 x7 x8 x11 x12) hi).trans ((reluG_at x0 x1 x2 x3 x4 x5 x6 x7 x8 x11 x12 _ _ _ _).trans ?_)
  rfl

/-- The G branch with the layer's input added back. -/
theorem lnrG_eq : val_main_v310 (F := Ideal) x0 x1 x2 x3 x4 x5 x6 x7 x8 x11 x12 = Cert.Spec.lnr (val_main_v282 (F := Ideal) x0 x1 x2 x3 x4 x5 x6 x7 x8 x11 x12) (fun k => val_main_v239 (F := Ideal) x4 (ValueIdx.ix1 k)) (fun k => x7 (ValueIdx.ix1 k)) (fun k => x8 (ValueIdx.ix1 k)) (val_main_v162 (F := Ideal) x0 x1 x2 x3 x4 x5 x6 x7 x8 x11 x12) := by
  funext i
  rw [val_main_v310_apply, Ideal.addf_def, lnG_eq]
  rfl

/-- The joined array at a column of its first half is the first branch. -/
theorem cat1_left (r : Nat) (hr : r < 50000) (k : Nat) (hk : k < 128) :
    val_main_v311 (F := Ideal) x0 x1 x2 x3 x4 x5 x6 x7 x8 x11 x12 (at2 (a := 50000) (b := 256) r hr k (by omega)) = val_main_v310 (F := Ideal) x0 x1 x2 x3 x4 x5 x6 x7 x8 x11 x12 (at2 r hr k hk) := by
  unfold val_main_v311
  refine concatenate_pair_apply_left (t := S50000x256) (s₁ := S50000x128) (s₂ := S50000x128) (1 : Fin 2) _ _
    concatenates_S50000x128_S50000x128_S50000x256_d1 (at2 (a := 50000) (b := 256) r hr k (by omega)) rfl
    (at2 (a := 50000) (b := 128) r hr k hk) ?_
  intro b
  match b with
  | ⟨0, _⟩ => rfl
  | ⟨1, _⟩ => rfl

/-- The joined array at a column of its second half is the second branch. -/
theorem cat1_right (r : Nat) (hr : r < 50000) (k : Nat) (hk : k < 128) :
    val_main_v311 (F := Ideal) x0 x1 x2 x3 x4 x5 x6 x7 x8 x11 x12 (at2 (a := 50000) (b := 256) r hr (128 + k) (by omega)) = val_main_v309 (F := Ideal) x0 x1 x2 x3 x4 x5 x6 x7 x8 x11 x12 (at2 r hr k hk) := by
  unfold val_main_v311
  refine concatenate_pair_apply_right (t := S50000x256) (s₁ := S50000x128) (s₂ := S50000x128) (1 : Fin 2) _ _
    concatenates_S50000x128_S50000x128_S50000x256_d1 (at2 (a := 50000) (b := 256) r hr (128 + k) (by omega)) rfl rfl
    (at2 (a := 50000) (b := 128) r hr k hk) ?_ ?_
  · intro b hb
    match b, hb with
    | ⟨0, _⟩, _ => rfl
    | ⟨1, _⟩, hb => exact absurd rfl hb
  · show k + 128 = 128 + k
    omega

/-- The layer's output: the two branches against the two halves of the matrix, plus the bias row. -/
theorem out_eq : val_main_v319 (F := Ideal) x0 x1 x2 x3 x4 x5 x6 x7 x8 x11 x12 = Cert.Spec.cl (val_main_v310 (F := Ideal) x0 x1 x2 x3 x4 x5 x6 x7 x8 x11 x12) (val_main_v309 (F := Ideal) x0 x1 x2 x3 x4 x5 x6 x7 x8 x11 x12) (val_main_v313 (F := Ideal) x5) (fun k => val_main_v316 (F := Ideal) x6 (ValueIdx.ix1 k)) := by
  funext i
  have h0 : (i 0).val < 50000 := (i 0).isLt
  have h1 : (i 1).val < 128 := (i 1).isLt
  rw [val_main_v319_apply, val_main_v314_apply, val_main_v318_apply, val_main_v317_apply, Ideal.addf_def]
  unfold Cert.Spec.cl
  have hs : ∀ f : Fin 256 → EReal, ∑ k : Fin 256, f k = ∑ k : Fin 128, f (Fin.castAdd 128 k) + ∑ k : Fin 128, f (Fin.natAdd 128 k) :=
    fun f => Fin.sum_univ_add (a := 128) (b := 128) f
  rw [hs]
  refine congrArg₂ (· + ·) (congrArg₂ (· + ·) (Finset.sum_congr rfl fun k _ => ?_) (Finset.sum_congr rfl fun k _ => ?_)) ?_
  · have e1 : lidx_main_v314 i (Fin.castAdd 128 k) = at2 (a := 50000) (b := 256) (i 0).val h0 k.val (by have := k.isLt; omega) := by idx_eq
    have e2 : ridx_main_v314 i (Fin.castAdd 128 k) = at2 (a := 256) (b := 128) k.val (by have := k.isLt; omega) (i 1).val h1 := by idx_eq
    exact congrArg₂ (· * ·) ((congrArg (val_main_v311 (F := Ideal) x0 x1 x2 x3 x4 x5 x6 x7 x8 x11 x12) e1).trans (cat1_left x0 x1 x2 x3 x4 x5 x6 x7 x8 x11 x12 (i 0).val h0 k.val k.isLt)) (congrArg (val_main_v313 (F := Ideal) x5) e2)
  · have e1 : lidx_main_v314 i (Fin.natAdd 128 k) = at2 (a := 50000) (b := 256) (i 0).val h0 (128 + k.val) (by have := k.isLt; omega) := by idx_eq
    have e2 : ridx_main_v314 i (Fin.natAdd 128 k) = at2 (a := 256) (b := 128) (128 + k.val) (by have := k.isLt; omega) (i 1).val h1 := by idx_eq
    exact congrArg₂ (· * ·) ((congrArg (val_main_v311 (F := Ideal) x0 x1 x2 x3 x4 x5 x6 x7 x8 x11 x12) e1).trans (cat1_right x0 x1 x2 x3 x4 x5 x6 x7 x8 x11 x12 (i 0).val h0 k.val k.isLt)) (congrArg (val_main_v313 (F := Ideal) x5) e2)
  · exact congrArg (val_main_v316 (F := Ideal) x6) (by idx_eq)

end Cert.ReferenceIdeal.RefL1

end
-- ==== Proof.RefL2.lean ====
/-
  Layer 2 of the reference program, read index by index.

  The layer's input is the previous layer's output. The two projections are the sums over k of x[r, k] · w[k, c]. Each
  branch adds its bias row to the aggregated array, takes every row's mean (the row's sum divided by 128) and variance
  (the mean of the squared centred row), multiplies the centred row by the reciprocal square root of the variance
  plus ε, scales and shifts it by two rows, clamps at zero, and adds the layer's input back. The layer's output
  multiplies the two branches, joined side by side, by a 256 × 128 matrix: the sum over the 256 joined columns is the
  sum over the first branch's 128 columns against the matrix's rows 0–127 plus the sum over the second branch's
  against rows 128–255; a bias row is added.
-/
import proofs.«164762_j10505490006519_1_alg».proof.Proof.RRead
import proofs.«164762_j10505490006519_1_alg».proof.Proof.Spec

noncomputable section

namespace Cert.ReferenceIdeal.RefL2

open Cert.ReferenceIdeal Cert.ReferenceIdeal.Gen Cert.ReferenceIdeal.RRead Idealize.ShloMosaic Idealize.ShloMosaic.StableHlo Cert.Spec

variable (x0 : (⟨S50000x128, .f32⟩ : BufTy).Contents (Elt Ideal))
  (x1 : (⟨S3x128x128, .f32⟩ : BufTy).Contents (Elt Ideal))
  (x2 : (⟨S3x128, .f32⟩ : BufTy).Contents (Elt Ideal))
  (x3 : (⟨S3x128x128, .f32⟩ : BufTy).Contents (Elt Ideal))
  (x4 : (⟨S3x128, .f32⟩ : BufTy).Contents (Elt Ideal))
  (x5 : (⟨S3x256x128, .f32⟩ : BufTy).Contents (Elt Ideal))
  (x6 : (⟨S3x128, .f32⟩ : BufTy).Contents (Elt Ideal))
  (x7 : (⟨S128, .f32⟩ : BufTy).Contents (Elt Ideal))
  (x8 : (⟨S128, .f32⟩ : BufTy).Contents (Elt Ideal))
  (x9 : (⟨S128x64, .f32⟩ : BufTy).Contents (Elt Ideal))
  (x10 : (⟨S64, .f32⟩ : BufTy).Contents (Elt Ideal))
  (x11 : (⟨S2x600000, .i32⟩ : BufTy).Contents (Elt Ideal))
  (x12 : (⟨S2x400000, .i32⟩ : BufTy).Contents (Elt Ideal))

/-- Two index functions are equal when they agree on every axis. -/
local macro "idx_eq" : tactic =>
  `(tactic| first
    | rfl
    | (funext a; match a with | ⟨0, _⟩ => rfl | ⟨1, _⟩ => rfl)
    | (funext a; match a with | ⟨0, _⟩ => rfl))

/-- A sum started from the zero word and divided by the 128 word is the mean. -/
theorem mean_of_sum (f t : Fin 128 → EReal) (h : ∀ k, f k = t k) :
    Ideal.div (Ideal.ofBits .f32 0x00000000#32 + ∑ k : Fin 128, f k) (Ideal.ofBits .f32 0x43000000#32) = mean t := by
  rw [Ideal.ofBits_zero_f32, zero_add, show f = t from funext h]
  rfl

/-- The projection's entry (r, c) is the sum over k of x[r, k] · w[k, c]. -/
theorem projL_eq : val_main_v324 (F := Ideal) x0 x1 x2 x3 x4 x5 x6 x7 x8 x11 x12 = Cert.Spec.mm (val_main_v319 (F := Ideal) x0 x1 x2 x3 x4 x5 x6 x7 x8 x11 x12) (val_main_v321 (F := Ideal) x1) := by
  funext i
  rw [val_main_v324_apply]
  unfold Cert.Spec.mm
  refine Finset.sum_congr rfl fun k _ => ?_
  have e1 : lidx_main_v324 i k = at2 (i 0).val (i 0).isLt k.val k.isLt := by idx_eq
  have e2 : ridx_main_v324 i k = at2 k.val k.isLt (i 1).val (i 1).isLt := by idx_eq
  exact congrArg₂ (fun a b => (val_main_v319 (F := Ideal) x0 x1 x2 x3 x4 x5 x6 x7 x8 x11 x12) a * (val_main_v321 (F := Ideal) x1) b) e1 e2

/-- The projection's entry (r, c) is the sum over k of x[r, k] · w[k, c]. -/
theorem projG_eq : val_main_v397 (F := Ideal) x0 x1 x2 x3 x4 x5 x6 x7 x8 x11 x12 = Cert.Spec.mm (val_main_v319 (F := Ideal) x0 x1 x2 x3 x4 x5 x6 x7 x8 x11 x12) (val_main_v394 (F := Ideal) x3) := by
  funext i
  rw [val_main_v397_apply]
  unfold Cert.Spec.mm
  refine Finset.sum_congr rfl fun k _ => ?_
  have e1 : lidx_main_v397 i k = at2 (i 0).val (i 0).isLt k.val k.isLt := by idx_eq
  have e2 : ridx_main_v397 i k = at2 k.val k.isLt (i 1).val (i 1).isLt := by idx_eq
  exact congrArg₂ (fun a b => (val_main_v319 (F := Ideal) x0 x1 x2 x3 x4 x5 x6 x7 x8 x11 x12) a * (val_main_v394 (F := Ideal) x3) b) e1 e2

/-- Row r of the aggregated array plus the bias row (L branch). -/
abbrev rowL (r : Nat) (hr : r < 50000) : Fin 128 → EReal := fun k =>
  val_main_v366 (F := Ideal) x0 x1 x2 x3 x4 x5 x6 x7 x8 x11 x12 (at2 (a := 50000) (b := 128) r hr k.val k.isLt) + val_main_v323 (F := Ideal) x2 (ValueIdx.ix1 k)

/-- The biased array at row r, column k. -/
theorem biasedL_at (r : Nat) (hr : r < 50000) (k : Nat) (hk : k < 128) :
    val_main_v369 (F := Ideal) x0 x1 x2 x3 x4 x5 x6 x7 x8 x11 x12 (at2 r hr k hk) = rowL x0 x1 x2 x3 x4 x5 x6 x7 x8 x11 x12 r hr ⟨k, hk⟩ := by
  rw [val_main_v369_apply, val_main_v368_apply, val_main_v367_apply, Ideal.addf_def]
  have e : idx_main_v367 (idx_main_v368 (at2 r hr k hk)) = ValueIdx.ix1 ⟨k, hk⟩ := by idx_eq
  rw [e]

/-- The row mean: the row's sum divided by 128. -/
theorem meanL_at (r : Nat) (hr : r < 50000) (j : S50000x1.Idx) (hj : (j 0).val = r) :
    val_main_v373 (F := Ideal) x0 x1 x2 x3 x4 x5 x6 x7 x8 x11 x12 j = mean (rowL x0 x1 x2 x3 x4 x5 x6 x7 x8 x11 x12 r hr) := by
  subst hj
  rw [val_main_v373_apply, val_main_v371_apply, val_main_v370_apply, val_main_v372_apply, val_main_cst_74_apply, val_main_cst_73_apply, Ideal.hostDivf_def, Ideal.ofBits_def, Ideal.ofBits_def]
  refine mean_of_sum _ _ fun k => ?_
  have e : idx_main_v370 (idx_main_v371 j) k = at2 (a := 50000) (b := 128) (j 0).val hr k.val k.isLt := by idx_eq
  rw [e, biasedL_at]

/-- The centred row at row r, column k. -/
theorem centredL_at (r : Nat) (hr : r < 50000) (k : Nat) (hk : k < 128) :
    val_main_v375 (F := Ideal) x0 x1 x2 x3 x4 x5 x6 x7 x8 x11 x12 (at2 r hr k hk) = rowL x0 x1 x2 x3 x4 x5 x6 x7 x8 x11 x12 r hr ⟨k, hk⟩ - mean (rowL x0 x1 x2 x3 x4 x5 x6 x7 x8 x11 x12 r hr) := by
  rw [val_main_v375_apply, val_main_v374_apply, meanL_at x0 x1 x2 x3 x4 x5 x6 x7 x8 x11 x12 r hr (idx_main_v374 (at2 r hr k hk)) rfl, biasedL_at, Ideal.subf_def]

/-- The row variance: the mean of the squared centred row. -/
theorem varL_at (r : Nat) (hr : r < 50000) (j : S50000x1.Idx) (hj : (j 0).val = r) :
    val_main_v380 (F := Ideal) x0 x1 x2 x3 x4 x5 x6 x7 x8 x11 x12 j = mean (fun k => (rowL x0 x1 x2 x3 x4 x5 x6 x7 x8 x11 x12 r hr k - mean (rowL x0 x1 x2 x3 x4 x5 x6 x7 x8 x11 x12 r hr)) * (rowL x0 x1 x2 x3 x4 x5 x6 x7 x8 x11 x12 r hr k - mean (rowL x0 x1 x2 x3 x4 x5 x6 x7 x8 x11 x12 r hr))) := by
  subst hj
  rw [val_main_v380_apply, val_main_v378_apply, val_main_v377_apply, val_main_v379_apply, val_main_cst_76_apply, val_main_cst_75_apply, Ideal.hostDivf_def, Ideal.ofBits_def, Ideal.ofBits_def]
  refine mean_of_sum _ _ fun k => ?_
  have e : idx_main_v377 (idx_main_v378 j) k = at2 (a := 50000) (b := 128) (j 0).val hr k.val k.isLt := by idx_eq
  rw [val_main_v376_apply, e, centredL_at, Ideal.mulf_def]

/-- The normalised, scaled, shifted and clamped array at row r, column k. -/
theorem reluL_at (r : Nat) (hr : r < 50000) (k : Nat) (hk : k < 128) :
    val_main_v392 (F := Ideal) x0 x1 x2 x3 x4 x5 x6 x7 x8 x11 x12 (at2 r hr k hk) = lnRow (rowL x0 x1 x2 x3 x4 x5 x6 x7 x8 x11 x12 r hr) (fun q => x7 (ValueIdx.ix1 q)) (fun q => x8 (ValueIdx.ix1 q)) ⟨k, hk⟩ := by
  rw [val_main_v392_apply, val_main_v391_apply, val_main_v388_apply, val_main_v385_apply, val_main_v384_apply, val_main_v383_apply, val_main_v382_apply, varL_at x0 x1 x2 x3 x4 x5 x6 x7 x8 x11 x12 r hr (idx_main_v384 (at2 r hr k hk)) rfl, val_main_v381_apply, val_main_cst_77_apply, centredL_at, val_main_v387_apply, val_main_v386_apply, val_main_v390_apply, val_main_v389_apply, val_main_call4_v0_apply, val_main_call4_cst_apply, Ideal.maximumf_def, Ideal.addf_def, Ideal.addf_def, Ideal.mulf_def, Ideal.mulf_def, Ideal.hostUnary_rsqrt_def, Ideal.ofBits_def, Ideal.ofBits_def]
  unfold lnRow ceps czero
  have eg : idx_main_v386 (idx_main_v387 (at2 r hr k hk)) = ValueIdx.ix1 ⟨k, hk⟩ := by idx_eq
  have eb : idx_main_v389 (idx_main_v390 (at2 r hr k hk)) = ValueIdx.ix1 ⟨k, hk⟩ := by idx_eq
  rw [eg, eb]

/-- The L branch's normalisation step is the specification's. -/
theorem lnL_eq : val_main_v392 (F := Ideal) x0 x1 x2 x3 x4 x5 x6 x7 x8 x11 x12 = Cert.Spec.ln (val_main_v366 (F := Ideal) x0 x1 x2 x3 x4 x5 x6 x7 x8 x11 x12) (fun k => val_main_v323 (F := Ideal) x2 (ValueIdx.ix1 k)) (fun k => x7 (ValueIdx.ix1 k)) (fun k => x8 (ValueIdx.ix1 k)) := by
  funext i
  have hi : i = at2 (a := 50000) (b := 128) (i 0).val (i 0).isLt (i 1).val (i 1).isLt := by idx_eq
  refine (congrArg (val_main_v392 (F := Ideal) x0 x1 x2 x3 x4 x5 x6 x7 x8 x11 x12) hi).trans ((reluL_at x0 x1 x2 x3 x4 x5 x6 x7 x8 x11 x12 _ _ _ _).trans ?_)
  rfl

/-- The L branch with the layer's input added back. -/
theorem lnrL_eq : val_main_v466 (F := Ideal) x0 x1 x2 x3 x4 x5 x6 x7 x8 x11 x12 = Cert.Spec.lnr (val_main_v366 (F := Ideal) x0 x1 x2 x3 x4 x5 x6 x7 x8 x11 x12) (fun k => val_main_v323 (F := Ideal) x2 (ValueIdx.ix1 k)) (fun k => x7 (ValueIdx.ix1 k)) (fun k => x8 (ValueIdx.ix1 k)) (val_main_v319 (F := Ideal) x0 x1 x2 x3 x4 x5 x6 x7 x8 x11 x12) := by
  funext i
  rw [val_main_v466_apply, Ideal.addf_def, lnL_eq]
  rfl

/-- Row r of the aggregated array plus the bias row (G branch). -/
abbrev rowG (r : Nat) (hr : r < 50000) : Fin 128 → EReal := fun k =>
  val_main_v439 (F := Ideal) x0 x1 x2 x3 x4 x5 x6 x7 x8 x11 x12 (at2 (a := 50000) (b := 128) r hr k.val k.isLt) + val_main_v396 (F := Ideal) x4 (ValueIdx.ix1 k)

/-- The biased array at row r, column k. -/
theorem biasedG_at (r : Nat) (hr : r < 50000) (k : Nat) (hk : k < 128) :
    val_main_v442 (F := Ideal) x0 x1 x2 x3 x4 x5 x6 x7 x8 x11 x12 (at2 r hr k hk) = rowG x0 x1 x2 x3 x4 x5 x6 x7 x8 x11 x12 r hr ⟨k, hk⟩ := by
  rw [val_main_v442_apply, val_main_v441_apply, val_main_v440_apply, Ideal.addf_def]
  have e : idx_main_v440 (idx_main_v441 (at2 r hr k hk)) = ValueIdx.ix1 ⟨k, hk⟩ := by idx_eq
  rw [e]

/-- The row mean: the row's sum divided by 128. -/
theorem meanG_at (r : Nat) (hr : r < 50000) (j : S50000x1.Idx) (hj : (j 0).val = r) :
    val_main_v446 (F := Ideal) x0 x1 x2 x3 x4 x5 x6 x7 x8 x11 x12 j = mean (rowG x0 x1 x2 x3 x4 x5 x6 x7 x8 x11 x12 r hr) := by
  subst hj
  rw [val_main_v446_apply, val_main_v444_apply, val_main_v443_apply, val_main_v445_apply, val_main_cst_90_apply, val_main_cst_89_apply, Ideal.hostDivf_def, Ideal.ofBits_def, Ideal.ofBits_def]
  refine mean_of_sum _ _ fun k => ?_
  have e : idx_main_v443 (idx_main_v444 j) k = at2 (a := 50000) (b := 128) (j 0).val hr k.val k.isLt := by idx_eq
  rw [e, biasedG_at]

/-- The centred row at row r, column k. -/
theorem centredG_at (r : Nat) (hr : r < 50000) (k : Nat) (hk : k < 128) :
    val_main_v448 (F := Ideal) x0 x1 x2 x3 x4 x5 x6 x7 x8 x11 x12 (at2 r hr k hk) = rowG x0 x1 x2 x3 x4 x5 x6 x7 x8 x11 x12 r hr ⟨k, hk⟩ - mean (rowG x0 x1 x2 x3 x4 x5 x6 x7 x8 x11 x12 r hr) := by
  rw [val_main_v448_apply, val_main_v447_apply, meanG_at x0 x1 x2 x3 x4 x5 x6 x7 x8 x11 x12 r hr (idx_main_v447 (at2 r hr k hk)) rfl, biasedG_at, Ideal.subf_def]

/-- The row variance: the mean of the squared centred row. -/
theorem varG_at (r : Nat) (hr : r < 50000) (j : S50000x1.Idx) (hj : (j 0).val = r) :
    val_main_v453 (F := Ideal) x0 x1 x2 x3 x4 x5 x6 x7 x8 x11 x12 j = mean (fun k => (rowG x0 x1 x2 x3 x4 x5 x6 x7 x8 x11 x12 r hr k - mean (rowG x0 x1 x2 x3 x4 x5 x6 x7 x8 x11 x12 r hr)) * (rowG x0 x1 x2 x3 x4 x5 x6 x7 x8 x11 x12 r hr k - mean (rowG x0 x1 x2 x3 x4 x5 x6 x7 x8 x11 x12 r hr))) := by
  subst hj
  rw [val_main_v453_apply, val_main_v451_apply, val_main_v450_apply, val_main_v452_apply, val_main_cst_92_apply, val_main_cst_91_apply, Ideal.hostDivf_def, Ideal.ofBits_def, Ideal.ofBits_def]
  refine mean_of_sum _ _ fun k => ?_
  have e : idx_main_v450 (idx_main_v451 j) k = at2 (a := 50000) (b := 128) (j 0).val hr k.val k.isLt := by idx_eq
  rw [val_main_v449_apply, e, centredG_at, Ideal.mulf_def]

/-- The normalised, scaled, shifted and clamped array at row r, column k. -/
theorem reluG_at (r : Nat) (hr : r < 50000) (k : Nat) (hk : k < 128) :
    val_main_v465 (F := Ideal) x0 x1 x2 x3 x4 x5 x6 x7 x8 x11 x12 (at2 r hr k hk) = lnRow (rowG x0 x1 x2 x3 x4 x5 x6 x7 x8 x11 x12 r hr) (fun q => x7 (ValueIdx.ix1 q)) (fun q => x8 (ValueIdx.ix1 q)) ⟨k, hk⟩ := by
  rw [val_main_v465_apply, val_main_v464_apply, val_main_v461_apply, val_main_v458_apply, val_main_v457_apply, val_main_v456_apply, val_main_v455_apply, varG_at x0 x1 x2 x3 x4 x5 x6 x7 x8 x11 x12 r hr (idx_main_v457 (at2 r hr k hk)) rfl, val_main_v454_apply, val_main_cst_93_apply, centredG_at, val_main_v460_apply, val_main_v459_apply, val_main_v463_apply, val_main_v462_apply, val_main_call5_v0_apply, val_main_call5_cst_apply, Ideal.maximumf_def, Ideal.addf_def, Ideal.addf_def, Ideal.mulf_def, Ideal.mulf_def, Ideal.hostUnary_rsqrt_def, Ideal.ofBits_def, Ideal.ofBits_def]
  unfold lnRow ceps czero
  have eg : idx_main_v459 (idx_main_v460 (at2 r hr k hk)) = ValueIdx.ix1 ⟨k, hk⟩ := by idx_eq
  have eb : idx_main_v462 (idx_main_v463 (at2 r hr k hk)) = ValueIdx.ix1 ⟨k, hk⟩ := by idx_eq
  rw [eg, eb]

/-- The G branch's normalisation step is the specification's. -/
theorem lnG_eq : val_main_v465 (F := Ideal) x0 x1 x2 x3 x4 x5 x6 x7 x8 x11 x12 = Cert.Spec.ln (val_main_v439 (F := Ideal) x0 x1 x2 x3 x4 x5 x6 x7 x8 x11 x12) (fun k => val_main_v396 (F := Ideal) x4 (ValueIdx.ix1 k)) (fun k => x7 (ValueIdx.ix1 k)) (fun k => x8 (ValueIdx.ix1 k)) := by
  funext i
  have hi : i = at2 (a := 50000) (b := 128) (i 0).val (i 0).isLt (i 1).val (i 1).isLt := by idx_eq
  refine (congrArg (val_main_v465 (F := Ideal) x0 x1 x2 x3 x4 x5 x6 x7 x8 x11 x12) hi).trans ((reluG_at x0 x1 x2 x3 x4 x5 x6 x7 x8 x11 x12 _ _ _ _).trans ?_)
  rfl

/-- The G branch with the layer's input added back. -/
theorem lnrG_eq : val_main_v467 (F := Ideal) x0 x1 x2 x3 x4 x5 x6 x7 x8 x11 x12 = Cert.Spec.lnr (val_main_v439 (F := Ideal) x0 x1 x2 x3 x4 x5 x6 x7 x8 x11 x12) (fun k => val_main_v396 (F := Ideal) x4 (ValueIdx.ix1 k)) (fun k => x7 (ValueIdx.ix1 k)) (fun k => x8 (ValueIdx.ix1 k)) (val_main_v319 (F := Ideal) x0 x1 x2 x3 x4 x5 x6 x7 x8 x11 x12) := by
  funext i
  rw [val_main_v467_apply, Ideal.addf_def, lnG_eq]
  rfl

/-- The joined array at a column of its first half is the first branch. -/
theorem cat2_left (r : Nat) (hr : r < 50000) (k : Nat) (hk : k < 128) :
    val_main_v468 (F := Ideal) x0 x1 x2 x3 x4 x5 x6 x7 x8 x11 x12 (at2 (a := 50000) (b := 256) r hr k (by omega)) = val_main_v467 (F := Ideal) x0 x1 x2 x3 x4 x5 x6 x7 x8 x11 x12 (at2 r hr k hk) := by
  unfold val_main_v468
  refine concatenate_pair_apply_left (t := S50000x256) (s₁ := S50000x128) (s₂ := S50000x128) (1 : Fin 2) _ _
    concatenates_S50000x128_S50000x128_S50000x256_d1 (at2 (a := 50000) (b := 256) r hr k (by omega)) rfl
    (at2 (a := 50000) (b := 128) r hr k hk) ?_
  intro b
  match b with
  | ⟨0, _⟩ => rfl
  | ⟨1, _⟩ => rfl

/-- The joined array at a column of its second half is the second branch. -/
theorem cat2_right (r : Nat) (hr : r < 50000) (k : Nat) (hk : k < 128) :
    val_main_v468 (F := Ideal) x0 x1 x2 x3 x4 x5 x6 x7 x8 x11 x12 (at2 (a := 50000) (b := 256) r hr (128 + k) (by omega)) = val_main_v466 (F := Ideal) x0 x1 x2 x3 x4 x5 x6 x7 x8 x11 x12 (at2 r hr k hk) := by
  unfold val_main_v468
  refine concatenate_pair_apply_right (t := S50000x256) (s₁ := S50000x128) (s₂ := S50000x128) (1 : Fin 2) _ _
    concatenates_S50000x128_S50000x128_S50000x256_d1 (at2 (a := 50000) (b := 256) r hr (128 + k) (by omega)) rfl rfl
    (at2 (a := 50000) (b := 128) r hr k hk) ?_ ?_
  · intro b hb
    match b, hb with
    | ⟨0, _⟩, _ => rfl
    | ⟨1, _⟩, hb => exact absurd rfl hb
  · show k + 128 = 128 + k
    omega

/-- The layer's output: the two branches against the two halves of the matrix, plus the bias row. -/
theorem out_eq : val_main_v476 (F := Ideal) x0 x1 x2 x3 x4 x5 x6 x7 x8 x11 x12 = Cert.Spec.cl (val_main_v467 (F := Ideal) x0 x1 x2 x3 x4 x5 x6 x7 x8 x11 x12) (val_main_v466 (F := Ideal) x0 x1 x2 x3 x4 x5 x6 x7 x8 x11 x12) (val_main_v470 (F := Ideal) x5) (fun k => val_main_v473 (F := Ideal) x6 (ValueIdx.ix1 k)) := by
  funext i
  have h0 : (i 0).val < 50000 := (i 0).isLt
  have h1 : (i 1).val < 128 := (i 1).isLt
  rw [val_main_v476_apply, val_main_v471_apply, val_main_v475_apply, val_main_v474_apply, Ideal.addf_def]
  unfold Cert.Spec.cl
  have hs : ∀ f : Fin 256 → EReal, ∑ k : Fin 256, f k = ∑ k : Fin 128, f (Fin.castAdd 128 k) + ∑ k : Fin 128, f (Fin.natAdd 128 k) :=
    fun f => Fin.sum_univ_add (a := 128) (b := 128) f
  rw [hs]
  refine congrArg₂ (· + ·) (congrArg₂ (· + ·) (Finset.sum_congr rfl fun k _ => ?_) (Finset.sum_congr rfl fun k _ => ?_)) ?_
  · have e1 : lidx_main_v471 i (Fin.castAdd 128 k) = at2 (a := 50000) (b := 256) (i 0).val h0 k.val (by have := k.isLt; omega) := by idx_eq
    have e2 : ridx_main_v471 i (Fin.castAdd 128 k) = at2 (a := 256) (b := 128) k.val (by have := k.isLt; omega) (i 1).val h1 := by idx_eq
    exact congrArg₂ (· * ·) ((congrArg (val_main_v468 (F := Ideal) x0 x1 x2 x3 x4 x5 x6 x7 x8 x11 x12) e1).trans (cat2_left x0 x1 x2 x3 x4 x5 x6 x7 x8 x11 x12 (i 0).val h0 k.val k.isLt)) (congrArg (val_main_v470 (F := Ideal) x5) e2)
  · have e1 : lidx_main_v471 i (Fin.natAdd 128 k) = at2 (a := 50000) (b := 256) (i 0).val h0 (128 + k.val) (by have := k.isLt; omega) := by idx_eq
    have e2 : ridx_main_v471 i (Fin.natAdd 128 k) = at2 (a := 256) (b := 128) (128 + k.val) (by have := k.isLt; omega) (i 1).val h1 := by idx_eq
    exact congrArg₂ (· * ·) ((congrArg (val_main_v468 (F := Ideal) x0 x1 x2 x3 x4 x5 x6 x7 x8 x11 x12) e1).trans (cat2_right x0 x1 x2 x3 x4 x5 x6 x7 x8 x11 x12 (i 0).val h0 k.val k.isLt)) (congrArg (val_main_v470 (F := Ideal) x5) e2)
  · exact congrArg (val_main_v473 (F := Ideal) x6) (by idx_eq)

end Cert.ReferenceIdeal.RefL2

end
-- ==== Proof.RefFin.lean ====
/-
  The last step of the reference program, read index by index: entry (r, c) of the 50000 × 64 result is the sum over k
  of x[r, k] · w[k, c] plus entry c of the bias row, where x is the third layer's output.
-/
import proofs.«164762_j10505490006519_1_alg».proof.Proof.RRead
import proofs.«164762_j10505490006519_1_alg».proof.Proof.Spec

noncomputable section

namespace Cert.ReferenceIdeal.RefFin

open Cert.ReferenceIdeal Cert.ReferenceIdeal.Gen Cert.ReferenceIdeal.RRead Idealize.ShloMosaic Idealize.ShloMosaic.StableHlo Cert.Spec

variable (x0 : (⟨S50000x128, .f32⟩ : BufTy).Contents (Elt Ideal))
  (x1 : (⟨S3x128x128, .f32⟩ : BufTy).Contents (Elt Ideal))
  (x2 : (⟨S3x128, .f32⟩ : BufTy).Contents (Elt Ideal))
  (x3 : (⟨S3x128x128, .f32⟩ : BufTy).Contents (Elt Ideal))
  (x4 : (⟨S3x128, .f32⟩ : BufTy).Contents (Elt Ideal))
  (x5 : (⟨S3x256x128, .f32⟩ : BufTy).Contents (Elt Ideal))
  (x6 : (⟨S3x128, .f32⟩ : BufTy).Contents (Elt Ideal))
  (x7 : (⟨S128, .f32⟩ : BufTy).Contents (Elt Ideal))
  (x8 : (⟨S128, .f32⟩ : BufTy).Contents (Elt Ideal))
  (x9 : (⟨S128x64, .f32⟩ : BufTy).Contents (Elt Ideal))
  (x10 : (⟨S64, .f32⟩ : BufTy).Contents (Elt Ideal))
  (x11 : (⟨S2x600000, .i32⟩ : BufTy).Contents (Elt Ideal))
  (x12 : (⟨S2x400000, .i32⟩ : BufTy).Contents (Elt Ideal))

/-- Two index functions are equal when they agree on every axis. -/
local macro "idx_eq" : tactic =>
  `(tactic| first
    | rfl
    | (funext a; match a with | ⟨0, _⟩ => rfl | ⟨1, _⟩ => rfl)
    | (funext a; match a with | ⟨0, _⟩ => rfl))

/-- The last projection: the sum over k of x[r, k] · w[k, c], plus the bias row. -/
theorem fin_eq : val_main_v480 (F := Ideal) x0 x1 x2 x3 x4 x5 x6 x7 x8 x9 x10 x11 x12 = Cert.Spec.fl (val_main_v476 (F := Ideal) x0 x1 x2 x3 x4 x5 x6 x7 x8 x11 x12) x9 (fun k => x10 (ValueIdx.ix1 k)) := by
  funext i
  have h0 : (i 0).val < 50000 := (i 0).isLt
  have h1 : (i 1).val < 64 := (i 1).isLt
  rw [val_main_v480_apply, val_main_v477_apply, val_main_v479_apply, val_main_v478_apply, Ideal.addf_def]
  unfold Cert.Spec.fl
  refine congrArg₂ (· + ·) (Finset.sum_congr rfl fun k _ => ?_) ?_
  · have e1 : lidx_main_v477 i k = at2 (a := 50000) (b := 128) (i 0).val h0 k.val k.isLt := by idx_eq
    have e2 : ridx_main_v477 i k = at2 (a := 128) (b := 64) k.val k.isLt (i 1).val h1 := by idx_eq
    exact congrArg₂ (fun a b => (val_main_v476 (F := Ideal) x0 x1 x2 x3 x4 x5 x6 x7 x8 x11 x12) a * x9 b) e1 e2
  · exact congrArg x10 (by idx_eq)

end Cert.ReferenceIdeal.RefFin

end
-- ==== Proof.RefBridge.lean ====
/-
  The reference program's layers in the words of the network: the weight slices, bias rows and edge aggregations the
  reference computes are the same compositions of host operations as the ones the network's layers are written in,
  and the 256 × 128 matrix of a layer's combining step, read at its rows 0–127 and 128–255, is the two 128 × 128
  halves. With these, each layer's output and the last projection are the network's layer functions of the
  previous layer's output.
-/
import proofs.«164762_j10505490006519_1_alg».proof.Proof.RRead
import proofs.«164762_j10505490006519_1_alg».proof.Proof.RefL0
import proofs.«164762_j10505490006519_1_alg».proof.Proof.RefL1
import proofs.«164762_j10505490006519_1_alg».proof.Proof.RefL2
import proofs.«164762_j10505490006519_1_alg».proof.Proof.RefFin
import proofs.«164762_j10505490006519_1_alg».proof.Proof.KNet
import proofs.«164762_j10505490006519_1_alg».proof.Proof.Gen.KernelIdeal

noncomputable section

namespace Cert.ReferenceIdeal.RefBridge

open Cert.ReferenceIdeal Cert.ReferenceIdeal.Gen Cert.ReferenceIdeal.RRead Idealize.ShloMosaic Idealize.ShloMosaic.StableHlo Cert.Spec
open Cert.KernelIdeal.KChain Cert.KernelIdeal.KNet

variable (x0 : (⟨S50000x128, .f32⟩ : BufTy).Contents (Elt Ideal))
  (x1 : (⟨S3x128x128, .f32⟩ : BufTy).Contents (Elt Ideal))
  (x2 : (⟨S3x128, .f32⟩ : BufTy).Contents (Elt Ideal))
  (x3 : (⟨S3x128x128, .f32⟩ : BufTy).Contents (Elt Ideal))
  (x4 : (⟨S3x128, .f32⟩ : BufTy).Contents (Elt Ideal))
  (x5 : (⟨S3x256x128, .f32⟩ : BufTy).Contents (Elt Ideal))
  (x6 : (⟨S3x128, .f32⟩ : BufTy).Contents (Elt Ideal))
  (x7 : (⟨S128, .f32⟩ : BufTy).Contents (Elt Ideal))
  (x8 : (⟨S128, .f32⟩ : BufTy).Contents (Elt Ideal))
  (x9 : (⟨S128x64, .f32⟩ : BufTy).Contents (Elt Ideal))
  (x10 : (⟨S64, .f32⟩ : BufTy).Contents (Elt Ideal))
  (x11 : (⟨S2x600000, .i32⟩ : BufTy).Contents (Elt Ideal))
  (x12 : (⟨S2x400000, .i32⟩ : BufTy).Contents (Elt Ideal))

/-- A 128-vector recast as a 1 × 128 array and read as its one row is the vector. -/
theorem row_cast128 (u : S128.Idx → EReal) (h : S128.ShapeCasts S1x128) :
    (fun k : Fin 128 => u (ValueIdx.ix1 k)) = rowf (n := 128) (shapeCast S1x128 u h) := by
  funext k
  refine (shapeCast_apply u h (at2 (a := 1) (b := 128) 0 (by decide) k.val k.isLt) (ValueIdx.ix1 k) ?_).symm
  rw [Shape.rowMajor_val_one, Shape.rowMajor_val_two]
  show k.val = 0 * 128 + k.val
  omega

/-- A 64-vector recast as a 1 × 64 array and read as its one row is the vector. -/
theorem row_cast64 (u : S64.Idx → EReal) (h : S64.ShapeCasts S1x64) :
    (fun k : Fin 64 => u (ValueIdx.ix1 k)) = rowf (n := 64) (shapeCast S1x64 u h) := by
  funext k
  refine (shapeCast_apply u h (at2 (a := 1) (b := 64) 0 (by decide) k.val k.isLt) (ValueIdx.ix1 k) ?_).symm
  rw [Shape.rowMajor_val_one, Shape.rowMajor_val_two]
  show k.val = 0 * 64 + k.val
  omega

/-- The combining step against a 256 × 128 matrix is the combining step against its two halves. -/
theorem cl_halves (xg xl : SN.Idx → EReal) (w : SW2.Idx → EReal) (b : Fin 128 → EReal)
    (h0 : S256x128.Slices ![0, 0] S128x128) (h1 : S256x128.Slices ![128, 0] S128x128) :
    cl xg xl w b = cl2 xg xl (extractStridedSlice S128x128 ![0, 0] w h0) (extractStridedSlice S128x128 ![128, 0] w h1) b := by
  funext i
  unfold cl cl2
  refine congrArg₂ (· + ·) (congrArg₂ (· + ·) (Finset.sum_congr rfl fun k _ => ?_) (Finset.sum_congr rfl fun k _ => ?_)) rfl
  · refine congrArg (_ * ·) (extractStridedSlice_apply ![0, 0] w h0 _ _ fun a => ?_).symm
    match a with
    | ⟨0, _⟩ => show k.val = 0 + k.val; omega
    | ⟨1, _⟩ => show (i 1).val = 0 + (i 1).val; omega
  · refine congrArg (_ * ·) (extractStridedSlice_apply ![128, 0] w h1 _ _ fun a => ?_).symm
    match a with
    | ⟨0, _⟩ => show 128 + k.val = 128 + k.val; rfl
    | ⟨1, _⟩ => show (i 1).val = 0 + (i 1).val; omega

theorem g_eq : (fun k : Fin 128 => x7 (ValueIdx.ix1 k)) = rowf (row128 x7) := row_cast128 _ _
theorem be_eq : (fun k : Fin 128 => x8 (ValueIdx.ix1 k)) = rowf (row128 x8) := row_cast128 _ _

/-! ## Layer 0 -/

theorem wl0_eq : val_main_v9 (F := Ideal) x1 = wl0 x1 := rfl
theorem wg0_eq : val_main_v82 (F := Ideal) x3 = wg0 x3 := rfl
theorem bL0_eq : (fun k : Fin 128 => val_main_v11 (F := Ideal) x2 (ValueIdx.ix1 k)) = rowf (bL0 x2) := row_cast128 _ _
theorem bG0_eq : (fun k : Fin 128 => val_main_v84 (F := Ideal) x4 (ValueIdx.ix1 k)) = rowf (bG0 x4) := row_cast128 _ _
theorem lb0_eq : (fun k : Fin 128 => val_main_v159 (F := Ideal) x6 (ValueIdx.ix1 k)) = rowf (lb0 x6) := row_cast128 _ _

/-- The first branch's aggregation is the network's, of the same projection. -/
theorem aggL0_eq : val_main_v54 (F := Ideal) x0 x1 x12 = aggL (val_main_v12 (F := Ideal) x0 x1) (srcL x12) (dstL x12) (coefL (srcL x12) (dstL x12) (dinvL (dstL x12))) (selfW (dinvL (dstL x12))) := rfl
/-- The second branch's aggregation is the network's, of the same projection. -/
theorem aggG0_eq : val_main_v127 (F := Ideal) x0 x3 x11 = aggG (val_main_v85 (F := Ideal) x0 x3) (srcG x11) (dstG x11) (coefG (srcG x11) (dstG x11) (dinvG (dstG x11))) (selfW (dinvG (dstG x11))) := rfl

/-- The layer's 256 × 128 matrix read by halves. -/
theorem halves0 (xg xl : SN.Idx → EReal) (b : Fin 128 → EReal) :
    cl xg xl (val_main_v156 (F := Ideal) x5) b = cl2 xg xl (wgh0 x5) (wlh0 x5) b :=
  cl_halves xg xl _ b (by decide) (by decide)

/-- Layer 0 of the reference is the network's layer function of the input. -/
theorem L0 : val_main_v162 (F := Ideal) x0 x1 x2 x3 x4 x5 x6 x7 x8 x11 x12 = layer0 (x0) (wl0 x1) (wg0 x3) (wgh0 x5) (wlh0 x5) (bL0 x2) (bG0 x4) (row128 x7) (row128 x8) (lb0 x6) x12 x11 := by
  rw [RefL0.out_eq, RefL0.lnL_eq, RefL0.lnG_eq, aggL0_eq, aggG0_eq, RefL0.projL_eq, RefL0.projG_eq, wl0_eq, wg0_eq, bL0_eq, bG0_eq, lb0_eq, g_eq, be_eq, halves0]
  rfl

/-! ## Layer 1 -/

theorem wl1_eq : val_main_v164 (F := Ideal) x1 = wl1 x1 := rfl
theorem wg1_eq : val_main_v237 (F := Ideal) x3 = wg1 x3 := rfl
theorem bL1_eq : (fun k : Fin 128 => val_main_v166 (F := Ideal) x2 (ValueIdx.ix1 k)) = rowf (bL1 x2) := row_cast128 _ _
theorem bG1_eq : (fun k : Fin 128 => val_main_v239 (F := Ideal) x4 (ValueIdx.ix1 k)) = rowf (bG1 x4) := row_cast128 _ _
theorem lb1_eq : (fun k : Fin 128 => val_main_v316 (F := Ideal) x6 (ValueIdx.ix1 k)) = rowf (lb1 x6) := row_cast128 _ _

/-- The first branch's aggregation is the network's, of the same projection. -/
theorem aggL1_eq : val_main_v209 (F := Ideal) x0 x1 x2 x3 x4 x5 x6 x7 x8 x11 x12 = aggL (val_main_v167 (F := Ideal) x0 x1 x2 x3 x4 x5 x6 x7 x8 x11 x12) (srcL x12) (dstL x12) (coefL (srcL x12) (dstL x12) (dinvL (dstL x12))) (selfW (dinvL (dstL x12))) := rfl
/-- The second branch's aggregation is the network's, of the same projection. -/
theorem aggG1_eq : val_main_v282 (F := Ideal) x0 x1 x2 x3 x4 x5 x6 x7 x8 x11 x12 = aggG (val_main_v240 (F := Ideal) x0 x1 x2 x3 x4 x5 x6 x7 x8 x11 x12) (srcG x11) (dstG x11) (coefG (srcG x11) (dstG x11) (dinvG (dstG x11))) (selfW (dinvG (dstG x11))) := rfl

/-- The layer's 256 × 128 matrix read by halves. -/
theorem halves1 (xg xl : SN.Idx → EReal) (b : Fin 128 → EReal) :
    cl xg xl (val_main_v313 (F := Ideal) x5) b = cl2 xg xl (wgh1 x5) (wlh1 x5) b :=
  cl_halves xg xl _ b (by decide) (by decide)

/-- Layer 1 of the reference is the network's layer function of the previous layer's output. -/
theorem L1 : val_main_v319 (F := Ideal) x0 x1 x2 x3 x4 x5 x6 x7 x8 x11 x12 = layerR (val_main_v162 (F := Ideal) x0 x1 x2 x3 x4 x5 x6 x7 x8 x11 x12) (wl1 x1) (wg1 x3) (wgh1 x5) (wlh1 x5) (bL1 x2) (bG1 x4) (row128 x7) (row128 x8) (lb1 x6) x12 x11 := by
  rw [RefL1.out_eq, RefL1.lnrL_eq, RefL1.lnrG_eq, aggL1_eq, aggG1_eq, RefL1.projL_eq, RefL1.projG_eq, wl1_eq, wg1_eq, bL1_eq, bG1_eq, lb1_eq, g_eq, be_eq, halves1]
  rfl

/-! ## Layer 2 -/

theorem wl2_eq : val_main_v321 (F := Ideal) x1 = wl2 x1 := rfl
theorem wg2_eq : val_main_v394 (F := Ideal) x3 = wg2 x3 := rfl
theorem bL2_eq : (fun k : Fin 128 => val_main_v323 (F := Ideal) x2 (ValueIdx.ix1 k)) = rowf (bL2 x2) := row_cast128 _ _
theorem bG2_eq : (fun k : Fin 128 => val_main_v396 (F := Ideal) x4 (ValueIdx.ix1 k)) = rowf (bG2 x4) := row_cast128 _ _
theorem lb2_eq : (fun k : Fin 128 => val_main_v473 (F := Ideal) x6 (ValueIdx.ix1 k)) = rowf (lb2 x6) := row_cast128 _ _

/-- The first branch's aggregation is the network's, of the same projection. -/
theorem aggL2_eq : val_main_v366 (F := Ideal) x0 x1 x2 x3 x4 x5 x6 x7 x8 x11 x12 = aggL (val_main_v324 (F := Ideal) x0 x1 x2 x3 x4 x5 x6 x7 x8 x11 x12) (srcL x12) (dstL x12) (coefL (srcL x12) (dstL x12) (dinvL (dstL x12))) (selfW (dinvL (dstL x12))) := rfl
/-- The second branch's aggregation is the network's, of the same projection. -/
theorem aggG2_eq : val_main_v439 (F := Ideal) x0 x1 x2 x3 x4 x5 x6 x7 x8 x11 x12 = aggG (val_main_v397 (F := Ideal) x0 x1 x2 x3 x4 x5 x6 x7 x8 x11 x12) (srcG x11) (dstG x11) (coefG (srcG x11) (dstG x11) (dinvG (dstG x11))) (selfW (dinvG (dstG x11))) := rfl

/-- The layer's 256 × 128 matrix read by halves. -/
theorem halves2 (xg xl : SN.Idx → EReal) (b : Fin 128 → EReal) :
    cl xg xl (val_main_v470 (F := Ideal) x5) b = cl2 xg xl (wgh2 x5) (wlh2 x5) b :=
  cl_halves xg xl _ b (by decide) (by decide)

/-- Layer 2 of the reference is the network's layer function of the previous layer's output. -/
theorem L2 : val_main_v476 (F := Ideal) x0 x1 x2 x3 x4 x5 x6 x7 x8 x11 x12 = layerR (val_main_v319 (F := Ideal) x0 x1 x2 x3 x4 x5 x6 x7 x8 x11 x12) (wl2 x1) (wg2 x3) (wgh2 x5) (wlh2 x5) (bL2 x2) (bG2 x4) (row128 x7) (row128 x8) (lb2 x6) x12 x11 := by
  rw [RefL2.out_eq, RefL2.lnrL_eq, RefL2.lnrG_eq, aggL2_eq, aggG2_eq, RefL2.projL_eq, RefL2.projG_eq, wl2_eq, wg2_eq, bL2_eq, bG2_eq, lb2_eq, g_eq, be_eq, halves2]
  rfl

/-! ## The last projection -/

theorem fb_eq : (fun k : Fin 64 => x10 (ValueIdx.ix1 k)) = rowf (fb x10) := row_cast64 _ _

/-- The reference's first result is the last projection of the third layer's output. -/
theorem LF : val_main_v480 (F := Ideal) x0 x1 x2 x3 x4 x5 x6 x7 x8 x9 x10 x11 x12 = Cert.Spec.fl (val_main_v476 (F := Ideal) x0 x1 x2 x3 x4 x5 x6 x7 x8 x11 x12) x9 (rowf (fb x10)) := by
  rw [RefFin.fin_eq, fb_eq]

end Cert.ReferenceIdeal.RefBridge

end
-- ==== Proof.RefOps.lean ====
/-
  The reference program's line of 589 operations, cut into four pieces.

  The line is cut after each layer's output: layer 0 (with the four edge-index arrays, which every layer reads), layer 1,
  layer 2, and the last projection with its bias row. Every operation writes one buffer, and no two operations write
  the same one: each piece comes with the list of the buffers it writes, and a buffer not in the list keeps its contents
  through the piece. The three operations that join two arrays side by side carry their function under a name, so that
  the two arrays are plain arguments of it.
-/
import proofs.«164762_j10505490006519_1_alg».proof.Proof.Gen.ReferenceIdeal
import Idealize.ShloMosaic.Lib.StableHlo.Run

-- a piece of some two hundred operations, and every term over it, exceeds the default budgets
set_option maxHeartbeats 400000000
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two 50000 × 128 arrays joined side by side (the function of the three joining operations, under a name: its list of
    operands is then no argument that a later argument's type mentions). -/
def catPair (a b : (⟨S50000x128, .f32⟩ : BufTy).Contents (Elt F)) : (⟨S50000x256, .f32⟩ : BufTy).Contents (Elt F) :=
  concatenate S50000x256 1 [⟨S50000x128, a⟩, ⟨S50000x128, b⟩] concatenates_S50000x128_S50000x128_S50000x256_d1

/-- Layer 0: everything up to and including the operation that writes the layer's output. -/
abbrev opsA : List (HloOp τ sig (Elt F)) :=
  [ unary main_arg11 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg11 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    unary main_arg12 main_v4 ((extractStridedSlice S1x400000 ![0, 0] · slices_S2x400000_S1x400000_0_0) : (⟨S2x400000, .i32⟩ : BufTy).Contents (Elt F) → (⟨S1x400000, .i32⟩ : BufTy).Contents (Elt F)),
    reshape main_v4 main_v5 rfl shapeCasts_S1x400000_S400000,
    unary main_arg12 main_v6 ((extractStridedSlice S1x400000 ![1, 0] · slices_S2x400000_S1x400000_1_0) : (⟨S2x400000, .i32⟩ : BufTy).Contents (Elt F) → (⟨S1x400000, .i32⟩ : BufTy).Contents (Elt F)),
    reshape main_v6 main_v7 rfl shapeCasts_S1x400000_S400000,
    unary main_arg1 main_v8 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v8 main_v9 rfl shapeCasts_S1x128x128_S128x128,
    unary main_arg2 main_v10 ((extractStridedSlice S1x128 ![0, 0] · slices_S3x128_S1x128_0_0) : (⟨S3x128, .f32⟩ : BufTy).Contents (Elt F) → (⟨S1x128, .f32⟩ : BufTy).Contents (Elt F)),
    reshape main_v10 main_v11 rfl shapeCasts_S1x128_S128,
    binary main_arg0 main_v9 main_v12 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v13 (broadcastInDim S400000 ![] bcast_S_S400000 : (⟨S_, .f32⟩ : BufTy).Contents (Elt F) → (⟨S400000, .f32⟩ : BufTy).Contents (Elt F)),
    nullary main_cst_0 (constant S_ .f32 0x00000000#32),
    unary main_cst_0 main_v14 (broadcastInDim S50000 ![] bcast_S_S50000 : (⟨S_, .f32⟩ : BufTy).Contents (Elt F) → (⟨S50000, .f32⟩ : BufTy).Contents (Elt F)),
    unary main_v7 main_v15 (broadcastInDim S400000x1 ![0] bcast_S400000_S400000x1_0 : (⟨S400000, .i32⟩ : BufTy).Contents (Elt F) → (⟨S400000x1, .i32⟩ : BufTy).Contents (Elt F)),
    ternary main_v14 main_v15 main_v13 main_v16 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_1 (constant S_ .f32 0x40000000#32),
    unary main_cst_1 main_v17 (broadcastInDim S50000 ![] bcast_S_S50000 : (⟨S_, .f32⟩ : BufTy).Contents (Elt F) → (⟨S50000, .f32⟩ : BufTy).Contents (Elt F)),
    binary main_v16 main_v17 main_v18 (addf : (⟨S50000, .f32⟩ : BufTy).Contents (Elt F) → (⟨S50000, .f32⟩ : BufTy).Contents (Elt F) → (⟨S50000, .f32⟩ : BufTy).Contents (Elt F)),
    unary main_v18 main_v19 (Host.rsqrt : (⟨S50000, .f32⟩ : BufTy).Contents (Elt F) → (⟨S50000, .f32⟩ : BufTy).Contents (Elt F)),
    nullary main_c (constantI S_ 32 0#32),
    unary main_c main_v20 (broadcastInDim S400000 ![] bcast_S_S400000 : (⟨S_, .i32⟩ : BufTy).Contents (Elt F) → (⟨S400000, .i32⟩ : BufTy).Contents (Elt F)),
    binary main_v5 main_v20 main_v21 (cmpi .slt : (⟨S400000, .i32⟩ : BufTy).Contents (Elt F) → (⟨S400000, .i32⟩ : BufTy).Contents (Elt F) → (⟨S400000, .i1⟩ : BufTy).Contents (Elt F)),
    nullary main_c_2 (constantI S_ 32 50000#32),
    unary main_c_2 main_v22 (broadcastInDim S400000 ![] bcast_S_S400000 : (⟨S_, .i32⟩ : BufTy).Contents (Elt F) → (⟨S400000, .i32⟩ : BufTy).Contents (Elt F)),
    binary main_v5 main_v22 main_v23 (addi : (⟨S400000, .i32⟩ : BufTy).Contents (Elt F) → (⟨S400000, .i32⟩ : BufTy).Contents (Elt F) → (⟨S400000, .i32⟩ : BufTy).Contents (Elt F)),
    ternary main_v21 main_v23 main_v5 main_v24 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v24 main_v25 (broadcastInDim S400000x1 ![0] bcast_S400000_S400000x1_0 : (⟨S400000, .i32⟩ : BufTy).Contents (Elt F) → (⟨S400000x1, .i32⟩ : BufTy).Contents (Elt F)),
    binary main_v19 main_v25 main_v26 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    nullary main_c_3 (constantI S_ 32 0#32),
    unary main_c_3 main_v27 (broadcastInDim S400000 ![] bcast_S_S400000 : (⟨S_, .i32⟩ : BufTy).Contents (Elt F) → (⟨S400000, .i32⟩ : BufTy).Contents (Elt F)),
    binary main_v7 main_v27 main_v28 (cmpi .slt : (⟨S400000, .i32⟩ : BufTy).Contents (Elt F) → (⟨S400000, .i32⟩ : BufTy).Contents (Elt F) → (⟨S400000, .i1⟩ : BufTy).Contents (Elt F)),
    nullary main_c_4 (constantI S_ 32 50000#32),
    unary main_c_4 main_v29 (broadcastInDim S400000 ![] bcast_S_S400000 : (⟨S_, .i32⟩ : BufTy).Contents (Elt F) → (⟨S400000, .i32⟩ : BufTy).Contents (Elt F)),
    binary main_v7 main_v29 main_v30 (addi : (⟨S400000, .i32⟩ : BufTy).Contents (Elt F) → (⟨S400000, .i32⟩ : BufTy).Contents (Elt F) → (⟨S400000, .i32⟩ : BufTy).Contents (Elt F)),
    ternary main_v28 main_v30 main_v7 main_v31 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v31 main_v32 (broadcastInDim S400000x1 ![0] bcast_S400000_S400000x1_0 : (⟨S400000, .i32⟩ : BufTy).Contents (Elt F) → (⟨S400000x1, .i32⟩ : BufTy).Contents (Elt F)),
    binary main_v19 main_v32 main_v33 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v26 main_v33 main_v34 (mulf : (⟨S400000, .f32⟩ : BufTy).Contents (Elt F) → (⟨S400000, .f32⟩ : BufTy).Contents (Elt F) → (⟨S400000, .f32⟩ : BufTy).Contents (Elt F)),
    nullary main_c_5 (constantI S_ 32 0#32),
    unary main_c_5 main_v35 (broadcastInDim S400000 ![] bcast_S_S400000 : (⟨S_, .i32⟩ : BufTy).Contents (Elt F) → (⟨S400000, .i32⟩ : BufTy).Contents (Elt F)),
    binary main_v5 main_v35 main_v36 (cmpi .slt : (⟨S400000, .i32⟩ : BufTy).Contents (Elt F) → (⟨S400000, .i32⟩ : BufTy).Contents (Elt F) → (⟨S400000, .i1⟩ : BufTy).Contents (Elt F)),
    nullary main_c_6 (constantI S_ 32 50000#32),
    unary main_c_6 main_v37 (broadcastInDim S400000 ![] bcast_S_S400000 : (⟨S_, .i32⟩ : BufTy).Contents (Elt F) → (⟨S400000, .i32⟩ : BufTy).Contents (Elt F)),
    binary main_v5 main_v37 main_v38 (addi : (⟨S400000, .i32⟩ : BufTy).Contents (Elt F) → (⟨S400000, .i32⟩ : BufTy).Contents (Elt F) → (⟨S400000, .i32⟩ : BufTy).Contents (Elt F)),
    ternary main_v36 main_v38 main_v5 main_v39 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v39 main_v40 (broadcastInDim S400000x1 ![0] bcast_S400000_S400000x1_0 : (⟨S400000, .i32⟩ : BufTy).Contents (Elt F) → (⟨S400000x1, .i32⟩ : BufTy).Contents (Elt F)),
    binary main_v12 main_v40 main_v41 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    unary main_v34 main_v42 (broadcastInDim S400000x1 ![0] bcast_S400000_S400000x1_0 : (⟨S400000, .f32⟩ : BufTy).Contents (Elt F) → (⟨S400000x1, .f32⟩ : BufTy).Contents (Elt F)),
    unary main_v42 main_v43 (broadcastInDim S400000x128 ![0, 1] bcast_S400000x1_S400000x128_0_1 : (⟨S400000x1, .f32⟩ : BufTy).Contents (Elt F) → (⟨S400000x128, .f32⟩ : BufTy).Contents (Elt F)),
    binary main_v41 main_v43 main_v44 (mulf : (⟨S400000x128, .f32⟩ : BufTy).Contents (Elt F) → (⟨S400000x128, .f32⟩ : BufTy).Contents (Elt F) → (⟨S400000x128, .f32⟩ : BufTy).Contents (Elt F)),
    nullary main_cst_7 (constant S_ .f32 0x00000000#32),
    unary main_cst_7 main_v45 (broadcastInDim S50000x128 ![] bcast_S_S50000x128 : (⟨S_, .f32⟩ : BufTy).Contents (Elt F) → (⟨S50000x128, .f32⟩ : BufTy).Contents (Elt F)),
    unary main_v7 main_v46 (broadcastInDim S400000x1 ![0] bcast_S400000_S400000x1_0 : (⟨S400000, .i32⟩ : BufTy).Contents (Elt F) → (⟨S400000x1, .i32⟩ : BufTy).Contents (Elt F)),
    ternary main_v45 main_v46 main_v44 main_v47 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    nullary main_cst_8 (constant S_ .f32 0x40000000#32),
    unary main_cst_8 main_v48 (broadcastInDim S50000 ![] bcast_S_S50000 : (⟨S_, .f32⟩ : BufTy).Contents (Elt F) → (⟨S50000, .f32⟩ : BufTy).Contents (Elt F)),
    binary main_v48 main_v19 main_v49 (mulf : (⟨S50000, .f32⟩ : BufTy).Contents (Elt F) → (⟨S50000, .f32⟩ : BufTy).Contents (Elt F) → (⟨S50000, .f32⟩ : BufTy).Contents (Elt F)),
    binary main_v49 main_v19 main_v50 (mulf : (⟨S50000, .f32⟩ : BufTy).Contents (Elt F) → (⟨S50000, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x128 ![0, 1] bcast_S50000x1_S50000x128_0_1 : (⟨S50000x1, .f32⟩ : BufTy).Contents (Elt F) → (⟨S50000x128, .f32⟩ : BufTy).Contents (Elt F)),
    binary main_v12 main_v52 main_v53 (mulf : (⟨S50000x128, .f32⟩ : BufTy).Contents (Elt F) → (⟨S50000x128, .f32⟩ : BufTy).Contents (Elt F) → (⟨S50000x128, .f32⟩ : BufTy).Contents (Elt F)),
    binary main_v47 main_v53 main_v54 (addf : (⟨S50000x128, .f32⟩ : BufTy).Contents (Elt F) → (⟨S50000x128, .f32⟩ : BufTy).Contents (Elt F) → (⟨S50000x128, .f32⟩ : BufTy).Contents (Elt F)),
    unary main_v11 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v54 main_v56 main_v57 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    binary main_v57 main_cst_9 main_v58 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v58 main_v59 (broadcastInDim S50000x1 ![0] bcast_S50000_S50000x1_0 : (⟨S50000, .f32⟩ : BufTy).Contents (Elt F) → (⟨S50000x1, .f32⟩ : BufTy).Contents (Elt F)),
    nullary main_cst_10 (constant S_ .f32 0x43000000#32),
    unary main_cst_10 main_v60 (broadcastInDim S50000x1 ![] bcast_S_S50000x1 : (⟨S_, .f32⟩ : BufTy).Contents (Elt F) → (⟨S50000x1, .f32⟩ : BufTy).Contents (Elt F)),
    binary main_v59 main_v60 main_v61 (Host.divf : (⟨S50000x1, .f32⟩ : BufTy).Contents (Elt F) → (⟨S50000x1, .f32⟩ : BufTy).Contents (Elt F) → (⟨S50000x1, .f32⟩ : BufTy).Contents (Elt F)),
    unary main_v61 main_v62 (broadcastInDim S50000x128 ![0, 1] bcast_S50000x1_S50000x128_0_1 : (⟨S50000x1, .f32⟩ : BufTy).Contents (Elt F) → (⟨S50000x128, .f32⟩ : BufTy).Contents (Elt F)),
    binary main_v57 main_v62 main_v63 (subf : (⟨S50000x128, .f32⟩ : BufTy).Contents (Elt F) → (⟨S50000x128, .f32⟩ : BufTy).Contents (Elt F) → (⟨S50000x128, .f32⟩ : BufTy).Contents (Elt F)),
    binary main_v63 main_v63 main_v64 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v64 main_cst_11 main_v65 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v65 main_v66 (broadcastInDim S50000x1 ![0] bcast_S50000_S50000x1_0 : (⟨S50000, .f32⟩ : BufTy).Contents (Elt F) → (⟨S50000x1, .f32⟩ : BufTy).Contents (Elt F)),
    nullary main_cst_12 (constant S_ .f32 0x43000000#32),
    unary main_cst_12 main_v67 (broadcastInDim S50000x1 ![] bcast_S_S50000x1 : (⟨S_, .f32⟩ : BufTy).Contents (Elt F) → (⟨S50000x1, .f32⟩ : BufTy).Contents (Elt F)),
    binary main_v66 main_v67 main_v68 (Host.divf : (⟨S50000x1, .f32⟩ : BufTy).Contents (Elt F) → (⟨S50000x1, .f32⟩ : BufTy).Contents (Elt F) → (⟨S50000x1, .f32⟩ : BufTy).Contents (Elt F)),
    nullary main_cst_13 (constant S_ .f32 0x3727C5AC#32),
    unary main_cst_13 main_v69 (broadcastInDim S50000x1 ![] bcast_S_S50000x1 : (⟨S_, .f32⟩ : BufTy).Contents (Elt F) → (⟨S50000x1, .f32⟩ : BufTy).Contents (Elt F)),
    binary main_v68 main_v69 main_v70 (addf : (⟨S50000x1, .f32⟩ : BufTy).Contents (Elt F) → (⟨S50000x1, .f32⟩ : BufTy).Contents (Elt F) → (⟨S50000x1, .f32⟩ : BufTy).Contents (Elt F)),
    unary main_v70 main_v71 (Host.rsqrt : (⟨S50000x1, .f32⟩ : BufTy).Contents (Elt F) → (⟨S50000x1, .f32⟩ : BufTy).Contents (Elt F)),
    unary main_v71 main_v72 (broadcastInDim S50000x128 ![0, 1] bcast_S50000x1_S50000x128_0_1 : (⟨S50000x1, .f32⟩ : BufTy).Contents (Elt F) → (⟨S50000x128, .f32⟩ : BufTy).Contents (Elt F)),
    binary main_v63 main_v72 main_v73 (mulf : (⟨S50000x128, .f32⟩ : BufTy).Contents (Elt F) → (⟨S50000x128, .f32⟩ : BufTy).Contents (Elt F) → (⟨S50000x128, .f32⟩ : BufTy).Contents (Elt F)),
    unary main_arg7 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v73 main_v75 main_v76 (mulf : (⟨S50000x128, .f32⟩ : BufTy).Contents (Elt F) → (⟨S50000x128, .f32⟩ : BufTy).Contents (Elt F) → (⟨S50000x128, .f32⟩ : BufTy).Contents (Elt F)),
    unary main_arg8 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v79) (TRef.of (T := ⟨S50000x128, .f32⟩) main_call0_v0) (TRef.of (T := ⟨S50000x128, .f32⟩) main_v80) maximumf,
    unary main_arg3 main_v81 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v81 main_v82 rfl shapeCasts_S1x128x128_S128x128,
    unary main_arg4 main_v83 ((extractStridedSlice S1x128 ![0, 0] · slices_S3x128_S1x128_0_0) : (⟨S3x128, .f32⟩ : BufTy).Contents (Elt F) → (⟨S1x128, .f32⟩ : BufTy).Contents (Elt F)),
    reshape main_v83 main_v84 rfl shapeCasts_S1x128_S128,
    binary main_arg0 main_v82 main_v85 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_14 (constant S_ .f32 0x3F800000#32),
    unary main_cst_14 main_v86 (broadcastInDim S600000 ![] bcast_S_S600000 : (⟨S_, .f32⟩ : BufTy).Contents (Elt F) → (⟨S600000, .f32⟩ : BufTy).Contents (Elt F)),
    nullary main_cst_15 (constant S_ .f32 0x00000000#32),
    unary main_cst_15 main_v87 (broadcastInDim S50000 ![] bcast_S_S50000 : (⟨S_, .f32⟩ : BufTy).Contents (Elt F) → (⟨S50000, .f32⟩ : BufTy).Contents (Elt F)),
    unary main_v3 main_v88 (broadcastInDim S600000x1 ![0] bcast_S600000_S600000x1_0 : (⟨S600000, .i32⟩ : BufTy).Contents (Elt F) → (⟨S600000x1, .i32⟩ : BufTy).Contents (Elt F)),
    ternary main_v87 main_v88 main_v86 main_v89 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_16 (constant S_ .f32 0x40000000#32),
    unary main_cst_16 main_v90 (broadcastInDim S50000 ![] bcast_S_S50000 : (⟨S_, .f32⟩ : BufTy).Contents (Elt F) → (⟨S50000, .f32⟩ : BufTy).Contents (Elt F)),
    binary main_v89 main_v90 main_v91 (addf : (⟨S50000, .f32⟩ : BufTy).Contents (Elt F) → (⟨S50000, .f32⟩ : BufTy).Contents (Elt F) → (⟨S50000, .f32⟩ : BufTy).Contents (Elt F)),
    unary main_v91 main_v92 (Host.rsqrt : (⟨S50000, .f32⟩ : BufTy).Contents (Elt F) → (⟨S50000, .f32⟩ : BufTy).Contents (Elt F)),
    nullary main_c_17 (constantI S_ 32 0#32),
    unary main_c_17 main_v93 (broadcastInDim S600000 ![] bcast_S_S600000 : (⟨S_, .i32⟩ : BufTy).Contents (Elt F) → (⟨S600000, .i32⟩ : BufTy).Contents (Elt F)),
    binary main_v1 main_v93 main_v94 (cmpi .slt : (⟨S600000, .i32⟩ : BufTy).Contents (Elt F) → (⟨S600000, .i32⟩ : BufTy).Contents (Elt F) → (⟨S600000, .i1⟩ : BufTy).Contents (Elt F)),
    nullary main_c_18 (constantI S_ 32 50000#32),
    unary main_c_18 main_v95 (broadcastInDim S600000 ![] bcast_S_S600000 : (⟨S_, .i32⟩ : BufTy).Contents (Elt F) → (⟨S600000, .i32⟩ : BufTy).Contents (Elt F)),
    binary main_v1 main_v95 main_v96 (addi : (⟨S600000, .i32⟩ : BufTy).Contents (Elt F) → (⟨S600000, .i32⟩ : BufTy).Contents (Elt F) → (⟨S600000, .i32⟩ : BufTy).Contents (Elt F)),
    ternary main_v94 main_v96 main_v1 main_v97 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v97 main_v98 (broadcastInDim S600000x1 ![0] bcast_S600000_S600000x1_0 : (⟨S600000, .i32⟩ : BufTy).Contents (Elt F) → (⟨S600000x1, .i32⟩ : BufTy).Contents (Elt F)),
    binary main_v92 main_v98 main_v99 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_19 (constantI S_ 32 0#32),
    unary main_c_19 main_v100 (broadcastInDim S600000 ![] bcast_S_S600000 : (⟨S_, .i32⟩ : BufTy).Contents (Elt F) → (⟨S600000, .i32⟩ : BufTy).Contents (Elt F)),
    binary main_v3 main_v100 main_v101 (cmpi .slt : (⟨S600000, .i32⟩ : BufTy).Contents (Elt F) → (⟨S600000, .i32⟩ : BufTy).Contents (Elt F) → (⟨S600000, .i1⟩ : BufTy).Contents (Elt F)),
    nullary main_c_20 (constantI S_ 32 50000#32),
    unary main_c_20 main_v102 (broadcastInDim S600000 ![] bcast_S_S600000 : (⟨S_, .i32⟩ : BufTy).Contents (Elt F) → (⟨S600000, .i32⟩ : BufTy).Contents (Elt F)),
    binary main_v3 main_v102 main_v103 (addi : (⟨S600000, .i32⟩ : BufTy).Contents (Elt F) → (⟨S600000, .i32⟩ : BufTy).Contents (Elt F) → (⟨S600000, .i32⟩ : BufTy).Contents (Elt F)),
    ternary main_v101 main_v103 main_v3 main_v104 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v104 main_v105 (broadcastInDim S600000x1 ![0] bcast_S600000_S600000x1_0 : (⟨S600000, .i32⟩ : BufTy).Contents (Elt F) → (⟨S600000x1, .i32⟩ : BufTy).Contents (Elt F)),
    binary main_v92 main_v105 main_v106 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v99 main_v106 main_v107 (mulf : (⟨S600000, .f32⟩ : BufTy).Contents (Elt F) → (⟨S600000, .f32⟩ : BufTy).Contents (Elt F) → (⟨S600000, .f32⟩ : BufTy).Contents (Elt F)),
    nullary main_c_21 (constantI S_ 32 0#32),
    unary main_c_21 main_v108 (broadcastInDim S600000 ![] bcast_S_S600000 : (⟨S_, .i32⟩ : BufTy).Contents (Elt F) → (⟨S600000, .i32⟩ : BufTy).Contents (Elt F)),
    binary main_v1 main_v108 main_v109 (cmpi .slt : (⟨S600000, .i32⟩ : BufTy).Contents (Elt F) → (⟨S600000, .i32⟩ : BufTy).Contents (Elt F) → (⟨S600000, .i1⟩ : BufTy).Contents (Elt F)),
    nullary main_c_22 (constantI S_ 32 50000#32),
    unary main_c_22 main_v110 (broadcastInDim S600000 ![] bcast_S_S600000 : (⟨S_, .i32⟩ : BufTy).Contents (Elt F) → (⟨S600000, .i32⟩ : BufTy).Contents (Elt F)),
    binary main_v1 main_v110 main_v111 (addi : (⟨S600000, .i32⟩ : BufTy).Contents (Elt F) → (⟨S600000, .i32⟩ : BufTy).Contents (Elt F) → (⟨S600000, .i32⟩ : BufTy).Contents (Elt F)),
    ternary main_v109 main_v111 main_v1 main_v112 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v112 main_v113 (broadcastInDim S600000x1 ![0] bcast_S600000_S600000x1_0 : (⟨S600000, .i32⟩ : BufTy).Contents (Elt F) → (⟨S600000x1, .i32⟩ : BufTy).Contents (Elt F)),
    binary main_v85 main_v113 main_v114 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v107 main_v115 (broadcastInDim S600000x1 ![0] bcast_S600000_S600000x1_0 : (⟨S600000, .f32⟩ : BufTy).Contents (Elt F) → (⟨S600000x1, .f32⟩ : BufTy).Contents (Elt F)),
    unary main_v115 main_v116 (broadcastInDim S600000x128 ![0, 1] bcast_S600000x1_S600000x128_0_1 : (⟨S600000x1, .f32⟩ : BufTy).Contents (Elt F) → (⟨S600000x128, .f32⟩ : BufTy).Contents (Elt F)),
    binary main_v114 main_v116 main_v117 (mulf : (⟨S600000x128, .f32⟩ : BufTy).Contents (Elt F) → (⟨S600000x128, .f32⟩ : BufTy).Contents (Elt F) → (⟨S600000x128, .f32⟩ : BufTy).Contents (Elt F)),
    nullary main_cst_23 (constant S_ .f32 0x00000000#32),
    unary main_cst_23 main_v118 (broadcastInDim S50000x128 ![] bcast_S_S50000x128 : (⟨S_, .f32⟩ : BufTy).Contents (Elt F) → (⟨S50000x128, .f32⟩ : BufTy).Contents (Elt F)),
    unary main_v3 main_v119 (broadcastInDim S600000x1 ![0] bcast_S600000_S600000x1_0 : (⟨S600000, .i32⟩ : BufTy).Contents (Elt F) → (⟨S600000x1, .i32⟩ : BufTy).Contents (Elt F)),
    ternary main_v118 main_v119 main_v117 main_v120 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_24 (constant S_ .f32 0x40000000#32),
    unary main_cst_24 main_v121 (broadcastInDim S50000 ![] bcast_S_S50000 : (⟨S_, .f32⟩ : BufTy).Contents (Elt F) → (⟨S50000, .f32⟩ : BufTy).Contents (Elt F)),
    binary main_v121 main_v92 main_v122 (mulf : (⟨S50000, .f32⟩ : BufTy).Contents (Elt F) → (⟨S50000, .f32⟩ : BufTy).Contents (Elt F) → (⟨S50000, .f32⟩ : BufTy).Contents (Elt F)),
    binary main_v122 main_v92 main_v123 (mulf : (⟨S50000, .f32⟩ : BufTy).Contents (Elt F) → (⟨S50000, .f32⟩ : BufTy).Contents (Elt F) → (⟨S50000, .f32⟩ : BufTy).Contents (Elt F)),
    unary main_v123 main_v124 (broadcastInDim S50000x1 ![0] bcast_S50000_S50000x1_0 : (⟨S50000, .f32⟩ : BufTy).Contents (Elt F) → (⟨S50000x1, .f32⟩ : BufTy).Contents (Elt F)),
    unary main_v124 main_v125 (broadcastInDim S50000x128 ![0, 1] bcast_S50000x1_S50000x128_0_1 : (⟨S50000x1, .f32⟩ : BufTy).Contents (Elt F) → (⟨S50000x128, .f32⟩ : BufTy).Contents (Elt F)),
    binary main_v85 main_v125 main_v126 (mulf : (⟨S50000x128, .f32⟩ : BufTy).Contents (Elt F) → (⟨S50000x128, .f32⟩ : BufTy).Contents (Elt F) → (⟨S50000x128, .f32⟩ : BufTy).Contents (Elt F)),
    binary main_v120 main_v126 main_v127 (addf : (⟨S50000x128, .f32⟩ : BufTy).Contents (Elt F) → (⟨S50000x128, .f32⟩ : BufTy).Contents (Elt F) → (⟨S50000x128, .f32⟩ : BufTy).Contents (Elt F)),
    unary main_v84 main_v128 (broadcastInDim S1x128 ![1] bcast_S128_S1x128_1 : (⟨S128, .f32⟩ : BufTy).Contents (Elt F) → (⟨S1x128, .f32⟩ : BufTy).Contents (Elt F)),
    unary main_v128 main_v129 (broadcastInDim S50000x128 ![0, 1] bcast_S1x128_S50000x128_0_1 : (⟨S1x128, .f32⟩ : BufTy).Contents (Elt F) → (⟨S50000x128, .f32⟩ : BufTy).Contents (Elt F)),
    binary main_v127 main_v129 main_v130 (addf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v130 main_cst_25 main_v131 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v131 main_v132 (broadcastInDim S50000x1 ![0] bcast_S50000_S50000x1_0 : (⟨S50000, .f32⟩ : BufTy).Contents (Elt F) → (⟨S50000x1, .f32⟩ : BufTy).Contents (Elt F)),
    nullary main_cst_26 (constant S_ .f32 0x43000000#32),
    unary main_cst_26 main_v133 (broadcastInDim S50000x1 ![] bcast_S_S50000x1 : (⟨S_, .f32⟩ : BufTy).Contents (Elt F) → (⟨S50000x1, .f32⟩ : BufTy).Contents (Elt F)),
    binary main_v132 main_v133 main_v134 (Host.divf : (⟨S50000x1, .f32⟩ : BufTy).Contents (Elt F) → (⟨S50000x1, .f32⟩ : BufTy).Contents (Elt F) → (⟨S50000x1, .f32⟩ : BufTy).Contents (Elt F)),
    unary main_v134 main_v135 (broadcastInDim S50000x128 ![0, 1] bcast_S50000x1_S50000x128_0_1 : (⟨S50000x1, .f32⟩ : BufTy).Contents (Elt F) → (⟨S50000x128, .f32⟩ : BufTy).Contents (Elt F)),
    binary main_v130 main_v135 main_v136 (subf : (⟨S50000x128, .f32⟩ : BufTy).Contents (Elt F) → (⟨S50000x128, .f32⟩ : BufTy).Contents (Elt F) → (⟨S50000x128, .f32⟩ : BufTy).Contents (Elt F)),
    binary main_v136 main_v136 main_v137 (mulf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x00000000#32),
    binary main_v137 main_cst_27 main_v138 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v138 main_v139 (broadcastInDim S50000x1 ![0] bcast_S50000_S50000x1_0 : (⟨S50000, .f32⟩ : BufTy).Contents (Elt F) → (⟨S50000x1, .f32⟩ : BufTy).Contents (Elt F)),
    nullary main_cst_28 (constant S_ .f32 0x43000000#32),
    unary main_cst_28 main_v140 (broadcastInDim S50000x1 ![] bcast_S_S50000x1 : (⟨S_, .f32⟩ : BufTy).Contents (Elt F) → (⟨S50000x1, .f32⟩ : BufTy).Contents (Elt F)),
    binary main_v139 main_v140 main_v141 (Host.divf : (⟨S50000x1, .f32⟩ : BufTy).Contents (Elt F) → (⟨S50000x1, .f32⟩ : BufTy).Contents (Elt F) → (⟨S50000x1, .f32⟩ : BufTy).Contents (Elt F)),
    nullary main_cst_29 (constant S_ .f32 0x3727C5AC#32),
    unary main_cst_29 main_v142 (broadcastInDim S50000x1 ![] bcast_S_S50000x1 : (⟨S_, .f32⟩ : BufTy).Contents (Elt F) → (⟨S50000x1, .f32⟩ : BufTy).Contents (Elt F)),
    binary main_v141 main_v142 main_v143 (addf : (⟨S50000x1, .f32⟩ : BufTy).Contents (Elt F) → (⟨S50000x1, .f32⟩ : BufTy).Contents (Elt F) → (⟨S50000x1, .f32⟩ : BufTy).Contents (Elt F)),
    unary main_v143 main_v144 (Host.rsqrt : (⟨S50000x1, .f32⟩ : BufTy).Contents (Elt F) → (⟨S50000x1, .f32⟩ : BufTy).Contents (Elt F)),
    unary main_v144 main_v145 (broadcastInDim S50000x128 ![0, 1] bcast_S50000x1_S50000x128_0_1 : (⟨S50000x1, .f32⟩ : BufTy).Contents (Elt F) → (⟨S50000x128, .f32⟩ : BufTy).Contents (Elt F)),
    binary main_v136 main_v145 main_v146 (mulf : (⟨S50000x128, .f32⟩ : BufTy).Contents (Elt F) → (⟨S50000x128, .f32⟩ : BufTy).Contents (Elt F) → (⟨S50000x128, .f32⟩ : BufTy).Contents (Elt F)),
    unary main_arg7 main_v147 (broadcastInDim S1x128 ![1] bcast_S128_S1x128_1 : (⟨S128, .f32⟩ : BufTy).Contents (Elt F) → (⟨S1x128, .f32⟩ : BufTy).Contents (Elt F)),
    unary main_v147 main_v148 (broadcastInDim S50000x128 ![0, 1] bcast_S1x128_S50000x128_0_1 : (⟨S1x128, .f32⟩ : BufTy).Contents (Elt F) → (⟨S50000x128, .f32⟩ : BufTy).Contents (Elt F)),
    binary main_v146 main_v148 main_v149 (mulf : (⟨S50000x128, .f32⟩ : BufTy).Contents (Elt F) → (⟨S50000x128, .f32⟩ : BufTy).Contents (Elt F) → (⟨S50000x128, .f32⟩ : BufTy).Contents (Elt F)),
    unary main_arg8 main_v150 (broadcastInDim S1x128 ![1] bcast_S128_S1x128_1 : (⟨S128, .f32⟩ : BufTy).Contents (Elt F) → (⟨S1x128, .f32⟩ : BufTy).Contents (Elt F)),
    unary main_v150 main_v151 (broadcastInDim S50000x128 ![0, 1] bcast_S1x128_S50000x128_0_1 : (⟨S1x128, .f32⟩ : BufTy).Contents (Elt F) → (⟨S50000x128, .f32⟩ : BufTy).Contents (Elt F)),
    binary main_v149 main_v151 main_v152 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v152) (TRef.of (T := ⟨S50000x128, .f32⟩) main_call1_v0) (TRef.of (T := ⟨S50000x128, .f32⟩) main_v153) maximumf,
    binary main_v153 main_v80 main_v154 (catPair : (⟨S50000x128, .f32⟩ : BufTy).Contents (Elt F) → (⟨S50000x128, .f32⟩ : BufTy).Contents (Elt F) → (⟨S50000x256, .f32⟩ : BufTy).Contents (Elt F)),
    unary main_arg5 main_v155 ((extractStridedSlice S1x256x128 ![0, 0, 0] · slices_S3x256x128_S1x256x128_0_0_0) : (⟨S3x256x128, .f32⟩ : BufTy).Contents (Elt F) → (⟨S1x256x128, .f32⟩ : BufTy).Contents (Elt F)),
    reshape main_v155 main_v156 rfl shapeCasts_S1x256x128_S256x128,
    binary main_v154 main_v156 main_v157 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg6 main_v158 ((extractStridedSlice S1x128 ![0, 0] · slices_S3x128_S1x128_0_0) : (⟨S3x128, .f32⟩ : BufTy).Contents (Elt F) → (⟨S1x128, .f32⟩ : BufTy).Contents (Elt F)),
    reshape main_v158 main_v159 rfl shapeCasts_S1x128_S128,
    unary main_v159 main_v160 (broadcastInDim S1x128 ![1] bcast_S128_S1x128_1 : (⟨S128, .f32⟩ : BufTy).Contents (Elt F) → (⟨S1x128, .f32⟩ : BufTy).Contents (Elt F)),
    unary main_v160 main_v161 (broadcastInDim S50000x128 ![0, 1] bcast_S1x128_S50000x128_0_1 : (⟨S1x128, .f32⟩ : BufTy).Contents (Elt F) → (⟨S50000x128, .f32⟩ : BufTy).Contents (Elt F)),
    binary main_v157 main_v161 main_v162 (addf : (⟨S50000x128, .f32⟩ : BufTy).Contents (Elt F) → (⟨S50000x128, .f32⟩ : BufTy).Contents (Elt F) → (⟨S50000x128, .f32⟩ : BufTy).Contents (Elt F)) ]

/-- The buffers the piece's operations write, in order. -/
abbrev opsA_W : List (Ref sig .tc) := [main_v0, main_v1, main_v2, main_v3, main_v4, main_v5, main_v6, main_v7, main_v8, main_v9, main_v10, main_v11, main_v12, main_cst, main_v13, main_cst_0, main_v14, main_v15, main_v16, main_cst_1, main_v17, main_v18, main_v19, main_c, main_v20, main_v21, main_c_2, main_v22, main_v23, main_v24, main_v25, main_v26, main_c_3, main_v27, main_v28, main_c_4, main_v29, main_v30, main_v31, main_v32, main_v33, main_v34, main_c_5, main_v35, main_v36, main_c_6, main_v37, main_v38, main_v39, main_v40, main_v41, main_v42, main_v43, main_v44, main_cst_7, main_v45, main_v46, main_v47, main_cst_8, main_v48, main_v49, main_v50, main_v51, main_v52, main_v53, main_v54, main_v55, main_v56, main_v57, main_cst_9, main_v58, main_v59, main_cst_10, main_v60, main_v61, main_v62, main_v63, main_v64, main_cst_11, main_v65, main_v66, main_cst_12, main_v67, main_v68, main_cst_13, main_v69, main_v70, main_v71, main_v72, main_v73, main_v74, main_v75, main_v76, main_v77, main_v78, main_v79, main_call0_cst, main_call0_v0, main_v80, main_v81, main_v82, main_v83, main_v84, main_v85, main_cst_14, main_v86, main_cst_15, main_v87, main_v88, main_v89, main_cst_16, main_v90, main_v91, main_v92, main_c_17, main_v93, main_v94, main_c_18, main_v95, main_v96, main_v97, main_v98, main_v99, main_c_19, main_v100, main_v101, main_c_20, main_v102, main_v103, main_v104, main_v105, main_v106, main_v107, main_c_21, main_v108, main_v109, main_c_22, main_v110, main_v111, main_v112, main_v113, main_v114, main_v115, main_v116, main_v117, main_cst_23, main_v118, main_v119, main_v120, main_cst_24, main_v121, main_v122, main_v123, main_v124, main_v125, main_v126, main_v127, main_v128, main_v129, main_v130, main_cst_25, main_v131, main_v132, main_cst_26, main_v133, main_v134, main_v135, main_v136, main_v137, main_cst_27, main_v138, main_v139, main_cst_28, main_v140, main_v141, main_cst_29, main_v142, main_v143, main_v144, main_v145, main_v146, main_v147, main_v148, main_v149, main_v150, main_v151, main_v152, main_call1_cst, main_call1_v0, main_v153, main_v154, main_v155, main_v156, main_v157, main_v158, main_v159, main_v160, main_v161, main_v162]

/-- Every operation of the piece writes a buffer of the list. -/
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem opsA_keep (V : Valuation τ sig (Elt F)) (r : Ref sig .tc) (h : r ∉ opsA_W) :
    after (opsA (F := F)) V (Proc.devRef .tc r) = V (Proc.devRef .tc r) :=
  after_of_writes_sub opsA _ opsA_writes h

/-- Layer 1. -/
abbrev opsB : List (HloOp τ sig (Elt F)) :=
  [ unary main_arg1 main_v163 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v163 main_v164 rfl shapeCasts_S1x128x128_S128x128,
    unary main_arg2 main_v165 ((extractStridedSlice S1x128 ![1, 0] · slices_S3x128_S1x128_1_0) : (⟨S3x128, .f32⟩ : BufTy).Contents (Elt F) → (⟨S1x128, .f32⟩ : BufTy).Contents (Elt F)),
    reshape main_v165 main_v166 rfl shapeCasts_S1x128_S128,
    binary main_v162 main_v164 main_v167 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_30 (constant S_ .f32 0x3F800000#32),
    unary main_cst_30 main_v168 (broadcastInDim S400000 ![] bcast_S_S400000 : (⟨S_, .f32⟩ : BufTy).Contents (Elt F) → (⟨S400000, .f32⟩ : BufTy).Contents (Elt F)),
    nullary main_cst_31 (constant S_ .f32 0x00000000#32),
    unary main_cst_31 main_v169 (broadcastInDim S50000 ![] bcast_S_S50000 : (⟨S_, .f32⟩ : BufTy).Contents (Elt F) → (⟨S50000, .f32⟩ : BufTy).Contents (Elt F)),
    unary main_v7 main_v170 (broadcastInDim S400000x1 ![0] bcast_S400000_S400000x1_0 : (⟨S400000, .i32⟩ : BufTy).Contents (Elt F) → (⟨S400000x1, .i32⟩ : BufTy).Contents (Elt F)),
    ternary main_v169 main_v170 main_v168 main_v171 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_32 (constant S_ .f32 0x40000000#32),
    unary main_cst_32 main_v172 (broadcastInDim S50000 ![] bcast_S_S50000 : (⟨S_, .f32⟩ : BufTy).Contents (Elt F) → (⟨S50000, .f32⟩ : BufTy).Contents (Elt F)),
    binary main_v171 main_v172 main_v173 (addf : (⟨S50000, .f32⟩ : BufTy).Contents (Elt F) → (⟨S50000, .f32⟩ : BufTy).Contents (Elt F) → (⟨S50000, .f32⟩ : BufTy).Contents (Elt F)),
    unary main_v173 main_v174 (Host.rsqrt : (⟨S50000, .f32⟩ : BufTy).Contents (Elt F) → (⟨S50000, .f32⟩ : BufTy).Contents (Elt F)),
    nullary main_c_33 (constantI S_ 32 0#32),
    unary main_c_33 main_v175 (broadcastInDim S400000 ![] bcast_S_S400000 : (⟨S_, .i32⟩ : BufTy).Contents (Elt F) → (⟨S400000, .i32⟩ : BufTy).Contents (Elt F)),
    binary main_v5 main_v175 main_v176 (cmpi .slt : (⟨S400000, .i32⟩ : BufTy).Contents (Elt F) → (⟨S400000, .i32⟩ : BufTy).Contents (Elt F) → (⟨S400000, .i1⟩ : BufTy).Contents (Elt F)),
    nullary main_c_34 (constantI S_ 32 50000#32),
    unary main_c_34 main_v177 (broadcastInDim S400000 ![] bcast_S_S400000 : (⟨S_, .i32⟩ : BufTy).Contents (Elt F) → (⟨S400000, .i32⟩ : BufTy).Contents (Elt F)),
    binary main_v5 main_v177 main_v178 (addi : (⟨S400000, .i32⟩ : BufTy).Contents (Elt F) → (⟨S400000, .i32⟩ : BufTy).Contents (Elt F) → (⟨S400000, .i32⟩ : BufTy).Contents (Elt F)),
    ternary main_v176 main_v178 main_v5 main_v179 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v179 main_v180 (broadcastInDim S400000x1 ![0] bcast_S400000_S400000x1_0 : (⟨S400000, .i32⟩ : BufTy).Contents (Elt F) → (⟨S400000x1, .i32⟩ : BufTy).Contents (Elt F)),
    binary main_v174 main_v180 main_v181 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    nullary main_c_35 (constantI S_ 32 0#32),
    unary main_c_35 main_v182 (broadcastInDim S400000 ![] bcast_S_S400000 : (⟨S_, .i32⟩ : BufTy).Contents (Elt F) → (⟨S400000, .i32⟩ : BufTy).Contents (Elt F)),
    binary main_v7 main_v182 main_v183 (cmpi .slt : (⟨S400000, .i32⟩ : BufTy).Contents (Elt F) → (⟨S400000, .i32⟩ : BufTy).Contents (Elt F) → (⟨S400000, .i1⟩ : BufTy).Contents (Elt F)),
    nullary main_c_36 (constantI S_ 32 50000#32),
    unary main_c_36 main_v184 (broadcastInDim S400000 ![] bcast_S_S400000 : (⟨S_, .i32⟩ : BufTy).Contents (Elt F) → (⟨S400000, .i32⟩ : BufTy).Contents (Elt F)),
    binary main_v7 main_v184 main_v185 (addi : (⟨S400000, .i32⟩ : BufTy).Contents (Elt F) → (⟨S400000, .i32⟩ : BufTy).Contents (Elt F) → (⟨S400000, .i32⟩ : BufTy).Contents (Elt F)),
    ternary main_v183 main_v185 main_v7 main_v186 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v186 main_v187 (broadcastInDim S400000x1 ![0] bcast_S400000_S400000x1_0 : (⟨S400000, .i32⟩ : BufTy).Contents (Elt F) → (⟨S400000x1, .i32⟩ : BufTy).Contents (Elt F)),
    binary main_v174 main_v187 main_v188 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v181 main_v188 main_v189 (mulf : (⟨S400000, .f32⟩ : BufTy).Contents (Elt F) → (⟨S400000, .f32⟩ : BufTy).Contents (Elt F) → (⟨S400000, .f32⟩ : BufTy).Contents (Elt F)),
    nullary main_c_37 (constantI S_ 32 0#32),
    unary main_c_37 main_v190 (broadcastInDim S400000 ![] bcast_S_S400000 : (⟨S_, .i32⟩ : BufTy).Contents (Elt F) → (⟨S400000, .i32⟩ : BufTy).Contents (Elt F)),
    binary main_v5 main_v190 main_v191 (cmpi .slt : (⟨S400000, .i32⟩ : BufTy).Contents (Elt F) → (⟨S400000, .i32⟩ : BufTy).Contents (Elt F) → (⟨S400000, .i1⟩ : BufTy).Contents (Elt F)),
    nullary main_c_38 (constantI S_ 32 50000#32),
    unary main_c_38 main_v192 (broadcastInDim S400000 ![] bcast_S_S400000 : (⟨S_, .i32⟩ : BufTy).Contents (Elt F) → (⟨S400000, .i32⟩ : BufTy).Contents (Elt F)),
    binary main_v5 main_v192 main_v193 (addi : (⟨S400000, .i32⟩ : BufTy).Contents (Elt F) → (⟨S400000, .i32⟩ : BufTy).Contents (Elt F) → (⟨S400000, .i32⟩ : BufTy).Contents (Elt F)),
    ternary main_v191 main_v193 main_v5 main_v194 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v194 main_v195 (broadcastInDim S400000x1 ![0] bcast_S400000_S400000x1_0 : (⟨S400000, .i32⟩ : BufTy).Contents (Elt F) → (⟨S400000x1, .i32⟩ : BufTy).Contents (Elt F)),
    binary main_v167 main_v195 main_v196 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    unary main_v189 main_v197 (broadcastInDim S400000x1 ![0] bcast_S400000_S400000x1_0 : (⟨S400000, .f32⟩ : BufTy).Contents (Elt F) → (⟨S400000x1, .f32⟩ : BufTy).Contents (Elt F)),
    unary main_v197 main_v198 (broadcastInDim S400000x128 ![0, 1] bcast_S400000x1_S400000x128_0_1 : (⟨S400000x1, .f32⟩ : BufTy).Contents (Elt F) → (⟨S400000x128, .f32⟩ : BufTy).Contents (Elt F)),
    binary main_v196 main_v198 main_v199 (mulf : (⟨S400000x128, .f32⟩ : BufTy).Contents (Elt F) → (⟨S400000x128, .f32⟩ : BufTy).Contents (Elt F) → (⟨S400000x128, .f32⟩ : BufTy).Contents (Elt F)),
    nullary main_cst_39 (constant S_ .f32 0x00000000#32),
    unary main_cst_39 main_v200 (broadcastInDim S50000x128 ![] bcast_S_S50000x128 : (⟨S_, .f32⟩ : BufTy).Contents (Elt F) → (⟨S50000x128, .f32⟩ : BufTy).Contents (Elt F)),
    unary main_v7 main_v201 (broadcastInDim S400000x1 ![0] bcast_S400000_S400000x1_0 : (⟨S400000, .i32⟩ : BufTy).Contents (Elt F) → (⟨S400000x1, .i32⟩ : BufTy).Contents (Elt F)),
    ternary main_v200 main_v201 main_v199 main_v202 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    nullary main_cst_40 (constant S_ .f32 0x40000000#32),
    unary main_cst_40 main_v203 (broadcastInDim S50000 ![] bcast_S_S50000 : (⟨S_, .f32⟩ : BufTy).Contents (Elt F) → (⟨S50000, .f32⟩ : BufTy).Contents (Elt F)),
    binary main_v203 main_v174 main_v204 (mulf : (⟨S50000, .f32⟩ : BufTy).Contents (Elt F) → (⟨S50000, .f32⟩ : BufTy).Contents (Elt F) → (⟨S50000, .f32⟩ : BufTy).Contents (Elt F)),
    binary main_v204 main_v174 main_v205 (mulf : (⟨S50000, .f32⟩ : BufTy).Contents (Elt F) → (⟨S50000, .f32⟩ : BufTy).Contents (Elt F) → (⟨S50000, .f32⟩ : BufTy).Contents (Elt F)),
    unary main_v205 main_v206 (broadcastInDim S50000x1 ![0] bcast_S50000_S50000x1_0 : (⟨S50000, .f32⟩ : BufTy).Contents (Elt F) → (⟨S50000x1, .f32⟩ : BufTy).Contents (Elt F)),
    unary main_v206 main_v207 (broadcastInDim S50000x128 ![0, 1] bcast_S50000x1_S50000x128_0_1 : (⟨S50000x1, .f32⟩ : BufTy).Contents (Elt F) → (⟨S50000x128, .f32⟩ : BufTy).Contents (Elt F)),
    binary main_v167 main_v207 main_v208 (mulf : (⟨S50000x128, .f32⟩ : BufTy).Contents (Elt F) → (⟨S50000x128, .f32⟩ : BufTy).Contents (Elt F) → (⟨S50000x128, .f32⟩ : BufTy).Contents (Elt F)),
    binary main_v202 main_v208 main_v209 (addf : (⟨S50000x128, .f32⟩ : BufTy).Contents (Elt F) → (⟨S50000x128, .f32⟩ : BufTy).Contents (Elt F) → (⟨S50000x128, .f32⟩ : BufTy).Contents (Elt F)),
    unary main_v166 main_v210 (broadcastInDim S1x128 ![1] bcast_S128_S1x128_1 : (⟨S128, .f32⟩ : BufTy).Contents (Elt F) → (⟨S1x128, .f32⟩ : BufTy).Contents (Elt F)),
    unary main_v210 main_v211 (broadcastInDim S50000x128 ![0, 1] bcast_S1x128_S50000x128_0_1 : (⟨S1x128, .f32⟩ : BufTy).Contents (Elt F) → (⟨S50000x128, .f32⟩ : BufTy).Contents (Elt F)),
    binary main_v209 main_v211 main_v212 (addf : (⟨S50000x128, .f32⟩ : BufTy).Contents (Elt F) → (⟨S50000x128, .f32⟩ : BufTy).Contents (Elt F) → (⟨S50000x128, .f32⟩ : BufTy).Contents (Elt F)),
    nullary main_cst_41 (constant S_ .f32 0x00000000#32),
    binary main_v212 main_cst_41 main_v213 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v213 main_v214 (broadcastInDim S50000x1 ![0] bcast_S50000_S50000x1_0 : (⟨S50000, .f32⟩ : BufTy).Contents (Elt F) → (⟨S50000x1, .f32⟩ : BufTy).Contents (Elt F)),
    nullary main_cst_42 (constant S_ .f32 0x43000000#32),
    unary main_cst_42 main_v215 (broadcastInDim S50000x1 ![] bcast_S_S50000x1 : (⟨S_, .f32⟩ : BufTy).Contents (Elt F) → (⟨S50000x1, .f32⟩ : BufTy).Contents (Elt F)),
    binary main_v214 main_v215 main_v216 (Host.divf : (⟨S50000x1, .f32⟩ : BufTy).Contents (Elt F) → (⟨S50000x1, .f32⟩ : BufTy).Contents (Elt F) → (⟨S50000x1, .f32⟩ : BufTy).Contents (Elt F)),
    unary main_v216 main_v217 (broadcastInDim S50000x128 ![0, 1] bcast_S50000x1_S50000x128_0_1 : (⟨S50000x1, .f32⟩ : BufTy).Contents (Elt F) → (⟨S50000x128, .f32⟩ : BufTy).Contents (Elt F)),
    binary main_v212 main_v217 main_v218 (subf : (⟨S50000x128, .f32⟩ : BufTy).Contents (Elt F) → (⟨S50000x128, .f32⟩ : BufTy).Contents (Elt F) → (⟨S50000x128, .f32⟩ : BufTy).Contents (Elt F)),
    binary main_v218 main_v218 main_v219 (mulf : (⟨S50000x128, .f32⟩ : BufTy).Contents (Elt F) → (⟨S50000x128, .f32⟩ : BufTy).Contents (Elt F) → (⟨S50000x128, .f32⟩ : BufTy).Contents (Elt F)),
    nullary main_cst_43 (constant S_ .f32 0x00000000#32),
    binary main_v219 main_cst_43 main_v220 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v220 main_v221 (broadcastInDim S50000x1 ![0] bcast_S50000_S50000x1_0 : (⟨S50000, .f32⟩ : BufTy).Contents (Elt F) → (⟨S50000x1, .f32⟩ : BufTy).Contents (Elt F)),
    nullary main_cst_44 (constant S_ .f32 0x43000000#32),
    unary main_cst_44 main_v222 (broadcastInDim S50000x1 ![] bcast_S_S50000x1 : (⟨S_, .f32⟩ : BufTy).Contents (Elt F) → (⟨S50000x1, .f32⟩ : BufTy).Contents (Elt F)),
    binary main_v221 main_v222 main_v223 (Host.divf : (⟨S50000x1, .f32⟩ : BufTy).Contents (Elt F) → (⟨S50000x1, .f32⟩ : BufTy).Contents (Elt F) → (⟨S50000x1, .f32⟩ : BufTy).Contents (Elt F)),
    nullary main_cst_45 (constant S_ .f32 0x3727C5AC#32),
    unary main_cst_45 main_v224 (broadcastInDim S50000x1 ![] bcast_S_S50000x1 : (⟨S_, .f32⟩ : BufTy).Contents (Elt F) → (⟨S50000x1, .f32⟩ : BufTy).Contents (Elt F)),
    binary main_v223 main_v224 main_v225 (addf : (⟨S50000x1, .f32⟩ : BufTy).Contents (Elt F) → (⟨S50000x1, .f32⟩ : BufTy).Contents (Elt F) → (⟨S50000x1, .f32⟩ : BufTy).Contents (Elt F)),
    unary main_v225 main_v226 (Host.rsqrt : (⟨S50000x1, .f32⟩ : BufTy).Contents (Elt F) → (⟨S50000x1, .f32⟩ : BufTy).Contents (Elt F)),
    unary main_v226 main_v227 (broadcastInDim S50000x128 ![0, 1] bcast_S50000x1_S50000x128_0_1 : (⟨S50000x1, .f32⟩ : BufTy).Contents (Elt F) → (⟨S50000x128, .f32⟩ : BufTy).Contents (Elt F)),
    binary main_v218 main_v227 main_v228 (mulf : (⟨S50000x128, .f32⟩ : BufTy).Contents (Elt F) → (⟨S50000x128, .f32⟩ : BufTy).Contents (Elt F) → (⟨S50000x128, .f32⟩ : BufTy).Contents (Elt F)),
    unary main_arg7 main_v229 (broadcastInDim S1x128 ![1] bcast_S128_S1x128_1 : (⟨S128, .f32⟩ : BufTy).Contents (Elt F) → (⟨S1x128, .f32⟩ : BufTy).Contents (Elt F)),
    unary main_v229 main_v230 (broadcastInDim S50000x128 ![0, 1] bcast_S1x128_S50000x128_0_1 : (⟨S1x128, .f32⟩ : BufTy).Contents (Elt F) → (⟨S50000x128, .f32⟩ : BufTy).Contents (Elt F)),
    binary main_v228 main_v230 main_v231 (mulf : (⟨S50000x128, .f32⟩ : BufTy).Contents (Elt F) → (⟨S50000x128, .f32⟩ : BufTy).Contents (Elt F) → (⟨S50000x128, .f32⟩ : BufTy).Contents (Elt F)),
    unary main_arg8 main_v232 (broadcastInDim S1x128 ![1] bcast_S128_S1x128_1 : (⟨S128, .f32⟩ : BufTy).Contents (Elt F) → (⟨S1x128, .f32⟩ : BufTy).Contents (Elt F)),
    unary main_v232 main_v233 (broadcastInDim S50000x128 ![0, 1] bcast_S1x128_S50000x128_0_1 : (⟨S1x128, .f32⟩ : BufTy).Contents (Elt F) → (⟨S50000x128, .f32⟩ : BufTy).Contents (Elt F)),
    binary main_v231 main_v233 main_v234 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v234) (TRef.of (T := ⟨S50000x128, .f32⟩) main_call2_v0) (TRef.of (T := ⟨S50000x128, .f32⟩) main_v235) maximumf,
    unary main_arg3 main_v236 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v236 main_v237 rfl shapeCasts_S1x128x128_S128x128,
    unary main_arg4 main_v238 ((extractStridedSlice S1x128 ![1, 0] · slices_S3x128_S1x128_1_0) : (⟨S3x128, .f32⟩ : BufTy).Contents (Elt F) → (⟨S1x128, .f32⟩ : BufTy).Contents (Elt F)),
    reshape main_v238 main_v239 rfl shapeCasts_S1x128_S128,
    binary main_v162 main_v237 main_v240 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_46 (constant S_ .f32 0x3F800000#32),
    unary main_cst_46 main_v241 (broadcastInDim S600000 ![] bcast_S_S600000 : (⟨S_, .f32⟩ : BufTy).Contents (Elt F) → (⟨S600000, .f32⟩ : BufTy).Contents (Elt F)),
    nullary main_cst_47 (constant S_ .f32 0x00000000#32),
    unary main_cst_47 main_v242 (broadcastInDim S50000 ![] bcast_S_S50000 : (⟨S_, .f32⟩ : BufTy).Contents (Elt F) → (⟨S50000, .f32⟩ : BufTy).Contents (Elt F)),
    unary main_v3 main_v243 (broadcastInDim S600000x1 ![0] bcast_S600000_S600000x1_0 : (⟨S600000, .i32⟩ : BufTy).Contents (Elt F) → (⟨S600000x1, .i32⟩ : BufTy).Contents (Elt F)),
    ternary main_v242 main_v243 main_v241 main_v244 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_48 (constant S_ .f32 0x40000000#32),
    unary main_cst_48 main_v245 (broadcastInDim S50000 ![] bcast_S_S50000 : (⟨S_, .f32⟩ : BufTy).Contents (Elt F) → (⟨S50000, .f32⟩ : BufTy).Contents (Elt F)),
    binary main_v244 main_v245 main_v246 (addf : (⟨S50000, .f32⟩ : BufTy).Contents (Elt F) → (⟨S50000, .f32⟩ : BufTy).Contents (Elt F) → (⟨S50000, .f32⟩ : BufTy).Contents (Elt F)),
    unary main_v246 main_v247 (Host.rsqrt : (⟨S50000, .f32⟩ : BufTy).Contents (Elt F) → (⟨S50000, .f32⟩ : BufTy).Contents (Elt F)),
    nullary main_c_49 (constantI S_ 32 0#32),
    unary main_c_49 main_v248 (broadcastInDim S600000 ![] bcast_S_S600000 : (⟨S_, .i32⟩ : BufTy).Contents (Elt F) → (⟨S600000, .i32⟩ : BufTy).Contents (Elt F)),
    binary main_v1 main_v248 main_v249 (cmpi .slt : (⟨S600000, .i32⟩ : BufTy).Contents (Elt F) → (⟨S600000, .i32⟩ : BufTy).Contents (Elt F) → (⟨S600000, .i1⟩ : BufTy).Contents (Elt F)),
    nullary main_c_50 (constantI S_ 32 50000#32),
    unary main_c_50 main_v250 (broadcastInDim S600000 ![] bcast_S_S600000 : (⟨S_, .i32⟩ : BufTy).Contents (Elt F) → (⟨S600000, .i32⟩ : BufTy).Contents (Elt F)),
    binary main_v1 main_v250 main_v251 (addi : (⟨S600000, .i32⟩ : BufTy).Contents (Elt F) → (⟨S600000, .i32⟩ : BufTy).Contents (Elt F) → (⟨S600000, .i32⟩ : BufTy).Contents (Elt F)),
    ternary main_v249 main_v251 main_v1 main_v252 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v252 main_v253 (broadcastInDim S600000x1 ![0] bcast_S600000_S600000x1_0 : (⟨S600000, .i32⟩ : BufTy).Contents (Elt F) → (⟨S600000x1, .i32⟩ : BufTy).Contents (Elt F)),
    binary main_v247 main_v253 main_v254 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_51 (constantI S_ 32 0#32),
    unary main_c_51 main_v255 (broadcastInDim S600000 ![] bcast_S_S600000 : (⟨S_, .i32⟩ : BufTy).Contents (Elt F) → (⟨S600000, .i32⟩ : BufTy).Contents (Elt F)),
    binary main_v3 main_v255 main_v256 (cmpi .slt : (⟨S600000, .i32⟩ : BufTy).Contents (Elt F) → (⟨S600000, .i32⟩ : BufTy).Contents (Elt F) → (⟨S600000, .i1⟩ : BufTy).Contents (Elt F)),
    nullary main_c_52 (constantI S_ 32 50000#32),
    unary main_c_52 main_v257 (broadcastInDim S600000 ![] bcast_S_S600000 : (⟨S_, .i32⟩ : BufTy).Contents (Elt F) → (⟨S600000, .i32⟩ : BufTy).Contents (Elt F)),
    binary main_v3 main_v257 main_v258 (addi : (⟨S600000, .i32⟩ : BufTy).Contents (Elt F) → (⟨S600000, .i32⟩ : BufTy).Contents (Elt F) → (⟨S600000, .i32⟩ : BufTy).Contents (Elt F)),
    ternary main_v256 main_v258 main_v3 main_v259 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v259 main_v260 (broadcastInDim S600000x1 ![0] bcast_S600000_S600000x1_0 : (⟨S600000, .i32⟩ : BufTy).Contents (Elt F) → (⟨S600000x1, .i32⟩ : BufTy).Contents (Elt F)),
    binary main_v247 main_v260 main_v261 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v254 main_v261 main_v262 (mulf : (⟨S600000, .f32⟩ : BufTy).Contents (Elt F) → (⟨S600000, .f32⟩ : BufTy).Contents (Elt F) → (⟨S600000, .f32⟩ : BufTy).Contents (Elt F)),
    nullary main_c_53 (constantI S_ 32 0#32),
    unary main_c_53 main_v263 (broadcastInDim S600000 ![] bcast_S_S600000 : (⟨S_, .i32⟩ : BufTy).Contents (Elt F) → (⟨S600000, .i32⟩ : BufTy).Contents (Elt F)),
    binary main_v1 main_v263 main_v264 (cmpi .slt : (⟨S600000, .i32⟩ : BufTy).Contents (Elt F) → (⟨S600000, .i32⟩ : BufTy).Contents (Elt F) → (⟨S600000, .i1⟩ : BufTy).Contents (Elt F)),
    nullary main_c_54 (constantI S_ 32 50000#32),
    unary main_c_54 main_v265 (broadcastInDim S600000 ![] bcast_S_S600000 : (⟨S_, .i32⟩ : BufTy).Contents (Elt F) → (⟨S600000, .i32⟩ : BufTy).Contents (Elt F)),
    binary main_v1 main_v265 main_v266 (addi : (⟨S600000, .i32⟩ : BufTy).Contents (Elt F) → (⟨S600000, .i32⟩ : BufTy).Contents (Elt F) → (⟨S600000, .i32⟩ : BufTy).Contents (Elt F)),
    ternary main_v264 main_v266 main_v1 main_v267 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v267 main_v268 (broadcastInDim S600000x1 ![0] bcast_S600000_S600000x1_0 : (⟨S600000, .i32⟩ : BufTy).Contents (Elt F) → (⟨S600000x1, .i32⟩ : BufTy).Contents (Elt F)),
    binary main_v240 main_v268 main_v269 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v262 main_v270 (broadcastInDim S600000x1 ![0] bcast_S600000_S600000x1_0 : (⟨S600000, .f32⟩ : BufTy).Contents (Elt F) → (⟨S600000x1, .f32⟩ : BufTy).Contents (Elt F)),
    unary main_v270 main_v271 (broadcastInDim S600000x128 ![0, 1] bcast_S600000x1_S600000x128_0_1 : (⟨S600000x1, .f32⟩ : BufTy).Contents (Elt F) → (⟨S600000x128, .f32⟩ : BufTy).Contents (Elt F)),
    binary main_v269 main_v271 main_v272 (mulf : (⟨S600000x128, .f32⟩ : BufTy).Contents (Elt F) → (⟨S600000x128, .f32⟩ : BufTy).Contents (Elt F) → (⟨S600000x128, .f32⟩ : BufTy).Contents (Elt F)),
    nullary main_cst_55 (constant S_ .f32 0x00000000#32),
    unary main_cst_55 main_v273 (broadcastInDim S50000x128 ![] bcast_S_S50000x128 : (⟨S_, .f32⟩ : BufTy).Contents (Elt F) → (⟨S50000x128, .f32⟩ : BufTy).Contents (Elt F)),
    unary main_v3 main_v274 (broadcastInDim S600000x1 ![0] bcast_S600000_S600000x1_0 : (⟨S600000, .i32⟩ : BufTy).Contents (Elt F) → (⟨S600000x1, .i32⟩ : BufTy).Contents (Elt F)),
    ternary main_v273 main_v274 main_v272 main_v275 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_56 (constant S_ .f32 0x40000000#32),
    unary main_cst_56 main_v276 (broadcastInDim S50000 ![] bcast_S_S50000 : (⟨S_, .f32⟩ : BufTy).Contents (Elt F) → (⟨S50000, .f32⟩ : BufTy).Contents (Elt F)),
    binary main_v276 main_v247 main_v277 (mulf : (⟨S50000, .f32⟩ : BufTy).Contents (Elt F) → (⟨S50000, .f32⟩ : BufTy).Contents (Elt F) → (⟨S50000, .f32⟩ : BufTy).Contents (Elt F)),
    binary main_v277 main_v247 main_v278 (mulf : (⟨S50000, .f32⟩ : BufTy).Contents (Elt F) → (⟨S50000, .f32⟩ : BufTy).Contents (Elt F) → (⟨S50000, .f32⟩ : BufTy).Contents (Elt F)),
    unary main_v278 main_v279 (broadcastInDim S50000x1 ![0] bcast_S50000_S50000x1_0 : (⟨S50000, .f32⟩ : BufTy).Contents (Elt F) → (⟨S50000x1, .f32⟩ : BufTy).Contents (Elt F)),
    unary main_v279 main_v280 (broadcastInDim S50000x128 ![0, 1] bcast_S50000x1_S50000x128_0_1 : (⟨S50000x1, .f32⟩ : BufTy).Contents (Elt F) → (⟨S50000x128, .f32⟩ : BufTy).Contents (Elt F)),
    binary main_v240 main_v280 main_v281 (mulf : (⟨S50000x128, .f32⟩ : BufTy).Contents (Elt F) → (⟨S50000x128, .f32⟩ : BufTy).Contents (Elt F) → (⟨S50000x128, .f32⟩ : BufTy).Contents (Elt F)),
    binary main_v275 main_v281 main_v282 (addf : (⟨S50000x128, .f32⟩ : BufTy).Contents (Elt F) → (⟨S50000x128, .f32⟩ : BufTy).Contents (Elt F) → (⟨S50000x128, .f32⟩ : BufTy).Contents (Elt F)),
    unary main_v239 main_v283 (broadcastInDim S1x128 ![1] bcast_S128_S1x128_1 : (⟨S128, .f32⟩ : BufTy).Contents (Elt F) → (⟨S1x128, .f32⟩ : BufTy).Contents (Elt F)),
    unary main_v283 main_v284 (broadcastInDim S50000x128 ![0, 1] bcast_S1x128_S50000x128_0_1 : (⟨S1x128, .f32⟩ : BufTy).Contents (Elt F) → (⟨S50000x128, .f32⟩ : BufTy).Contents (Elt F)),
    binary main_v282 main_v284 main_v285 (addf : (⟨S50000x128, .f32⟩ : BufTy).Contents (Elt F) → (⟨S50000x128, .f32⟩ : BufTy).Contents (Elt F) → (⟨S50000x128, .f32⟩ : BufTy).Contents (Elt F)),
    nullary main_cst_57 (constant S_ .f32 0x00000000#32),
    binary main_v285 main_cst_57 main_v286 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v286 main_v287 (broadcastInDim S50000x1 ![0] bcast_S50000_S50000x1_0 : (⟨S50000, .f32⟩ : BufTy).Contents (Elt F) → (⟨S50000x1, .f32⟩ : BufTy).Contents (Elt F)),
    nullary main_cst_58 (constant S_ .f32 0x43000000#32),
    unary main_cst_58 main_v288 (broadcastInDim S50000x1 ![] bcast_S_S50000x1 : (⟨S_, .f32⟩ : BufTy).Contents (Elt F) → (⟨S50000x1, .f32⟩ : BufTy).Contents (Elt F)),
    binary main_v287 main_v288 main_v289 (Host.divf : (⟨S50000x1, .f32⟩ : BufTy).Contents (Elt F) → (⟨S50000x1, .f32⟩ : BufTy).Contents (Elt F) → (⟨S50000x1, .f32⟩ : BufTy).Contents (Elt F)),
    unary main_v289 main_v290 (broadcastInDim S50000x128 ![0, 1] bcast_S50000x1_S50000x128_0_1 : (⟨S50000x1, .f32⟩ : BufTy).Contents (Elt F) → (⟨S50000x128, .f32⟩ : BufTy).Contents (Elt F)),
    binary main_v285 main_v290 main_v291 (subf : (⟨S50000x128, .f32⟩ : BufTy).Contents (Elt F) → (⟨S50000x128, .f32⟩ : BufTy).Contents (Elt F) → (⟨S50000x128, .f32⟩ : BufTy).Contents (Elt F)),
    binary main_v291 main_v291 main_v292 (mulf : (⟨S50000x128, .f32⟩ : BufTy).Contents (Elt F) → (⟨S50000x128, .f32⟩ : BufTy).Contents (Elt F) → (⟨S50000x128, .f32⟩ : BufTy).Contents (Elt F)),
    nullary main_cst_59 (constant S_ .f32 0x00000000#32),
    binary main_v292 main_cst_59 main_v293 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v293 main_v294 (broadcastInDim S50000x1 ![0] bcast_S50000_S50000x1_0 : (⟨S50000, .f32⟩ : BufTy).Contents (Elt F) → (⟨S50000x1, .f32⟩ : BufTy).Contents (Elt F)),
    nullary main_cst_60 (constant S_ .f32 0x43000000#32),
    unary main_cst_60 main_v295 (broadcastInDim S50000x1 ![] bcast_S_S50000x1 : (⟨S_, .f32⟩ : BufTy).Contents (Elt F) → (⟨S50000x1, .f32⟩ : BufTy).Contents (Elt F)),
    binary main_v294 main_v295 main_v296 (Host.divf : (⟨S50000x1, .f32⟩ : BufTy).Contents (Elt F) → (⟨S50000x1, .f32⟩ : BufTy).Contents (Elt F) → (⟨S50000x1, .f32⟩ : BufTy).Contents (Elt F)),
    nullary main_cst_61 (constant S_ .f32 0x3727C5AC#32),
    unary main_cst_61 main_v297 (broadcastInDim S50000x1 ![] bcast_S_S50000x1 : (⟨S_, .f32⟩ : BufTy).Contents (Elt F) → (⟨S50000x1, .f32⟩ : BufTy).Contents (Elt F)),
    binary main_v296 main_v297 main_v298 (addf : (⟨S50000x1, .f32⟩ : BufTy).Contents (Elt F) → (⟨S50000x1, .f32⟩ : BufTy).Contents (Elt F) → (⟨S50000x1, .f32⟩ : BufTy).Contents (Elt F)),
    unary main_v298 main_v299 (Host.rsqrt : (⟨S50000x1, .f32⟩ : BufTy).Contents (Elt F) → (⟨S50000x1, .f32⟩ : BufTy).Contents (Elt F)),
    unary main_v299 main_v300 (broadcastInDim S50000x128 ![0, 1] bcast_S50000x1_S50000x128_0_1 : (⟨S50000x1, .f32⟩ : BufTy).Contents (Elt F) → (⟨S50000x128, .f32⟩ : BufTy).Contents (Elt F)),
    binary main_v291 main_v300 main_v301 (mulf : (⟨S50000x128, .f32⟩ : BufTy).Contents (Elt F) → (⟨S50000x128, .f32⟩ : BufTy).Contents (Elt F) → (⟨S50000x128, .f32⟩ : BufTy).Contents (Elt F)),
    unary main_arg7 main_v302 (broadcastInDim S1x128 ![1] bcast_S128_S1x128_1 : (⟨S128, .f32⟩ : BufTy).Contents (Elt F) → (⟨S1x128, .f32⟩ : BufTy).Contents (Elt F)),
    unary main_v302 main_v303 (broadcastInDim S50000x128 ![0, 1] bcast_S1x128_S50000x128_0_1 : (⟨S1x128, .f32⟩ : BufTy).Contents (Elt F) → (⟨S50000x128, .f32⟩ : BufTy).Contents (Elt F)),
    binary main_v301 main_v303 main_v304 (mulf : (⟨S50000x128, .f32⟩ : BufTy).Contents (Elt F) → (⟨S50000x128, .f32⟩ : BufTy).Contents (Elt F) → (⟨S50000x128, .f32⟩ : BufTy).Contents (Elt F)),
    unary main_arg8 main_v305 (broadcastInDim S1x128 ![1] bcast_S128_S1x128_1 : (⟨S128, .f32⟩ : BufTy).Contents (Elt F) → (⟨S1x128, .f32⟩ : BufTy).Contents (Elt F)),
    unary main_v305 main_v306 (broadcastInDim S50000x128 ![0, 1] bcast_S1x128_S50000x128_0_1 : (⟨S1x128, .f32⟩ : BufTy).Contents (Elt F) → (⟨S50000x128, .f32⟩ : BufTy).Contents (Elt F)),
    binary main_v304 main_v306 main_v307 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v307) (TRef.of (T := ⟨S50000x128, .f32⟩) main_call3_v0) (TRef.of (T := ⟨S50000x128, .f32⟩) main_v308) maximumf,
    binary main_v235 main_v162 main_v309 (addf : (⟨S50000x128, .f32⟩ : BufTy).Contents (Elt F) → (⟨S50000x128, .f32⟩ : BufTy).Contents (Elt F) → (⟨S50000x128, .f32⟩ : BufTy).Contents (Elt F)),
    binary main_v308 main_v162 main_v310 (addf : (⟨S50000x128, .f32⟩ : BufTy).Contents (Elt F) → (⟨S50000x128, .f32⟩ : BufTy).Contents (Elt F) → (⟨S50000x128, .f32⟩ : BufTy).Contents (Elt F)),
    binary main_v310 main_v309 main_v311 (catPair : (⟨S50000x128, .f32⟩ : BufTy).Contents (Elt F) → (⟨S50000x128, .f32⟩ : BufTy).Contents (Elt F) → (⟨S50000x256, .f32⟩ : BufTy).Contents (Elt F)),
    unary main_arg5 main_v312 ((extractStridedSlice S1x256x128 ![1, 0, 0] · slices_S3x256x128_S1x256x128_1_0_0) : (⟨S3x256x128, .f32⟩ : BufTy).Contents (Elt F) → (⟨S1x256x128, .f32⟩ : BufTy).Contents (Elt F)),
    reshape main_v312 main_v313 rfl shapeCasts_S1x256x128_S256x128,
    binary main_v311 main_v313 main_v314 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg6 main_v315 ((extractStridedSlice S1x128 ![1, 0] · slices_S3x128_S1x128_1_0) : (⟨S3x128, .f32⟩ : BufTy).Contents (Elt F) → (⟨S1x128, .f32⟩ : BufTy).Contents (Elt F)),
    reshape main_v315 main_v316 rfl shapeCasts_S1x128_S128,
    unary main_v316 main_v317 (broadcastInDim S1x128 ![1] bcast_S128_S1x128_1 : (⟨S128, .f32⟩ : BufTy).Contents (Elt F) → (⟨S1x128, .f32⟩ : BufTy).Contents (Elt F)),
    unary main_v317 main_v318 (broadcastInDim S50000x128 ![0, 1] bcast_S1x128_S50000x128_0_1 : (⟨S1x128, .f32⟩ : BufTy).Contents (Elt F) → (⟨S50000x128, .f32⟩ : BufTy).Contents (Elt F)),
    binary main_v314 main_v318 main_v319 (addf : (⟨S50000x128, .f32⟩ : BufTy).Contents (Elt F) → (⟨S50000x128, .f32⟩ : BufTy).Contents (Elt F) → (⟨S50000x128, .f32⟩ : BufTy).Contents (Elt F)) ]

/-- The buffers the piece's operations write, in order. -/
abbrev opsB_W : List (Ref sig .tc) := [main_v163, main_v164, main_v165, main_v166, main_v167, main_cst_30, main_v168, main_cst_31, main_v169, main_v170, main_v171, main_cst_32, main_v172, main_v173, main_v174, main_c_33, main_v175, main_v176, main_c_34, main_v177, main_v178, main_v179, main_v180, main_v181, main_c_35, main_v182, main_v183, main_c_36, main_v184, main_v185, main_v186, main_v187, main_v188, main_v189, main_c_37, main_v190, main_v191, main_c_38, main_v192, main_v193, main_v194, main_v195, main_v196, main_v197, main_v198, main_v199, main_cst_39, main_v200, main_v201, main_v202, main_cst_40, main_v203, main_v204, main_v205, main_v206, main_v207, main_v208, main_v209, main_v210, main_v211, main_v212, main_cst_41, main_v213, main_v214, main_cst_42, main_v215, main_v216, main_v217, main_v218, main_v219, main_cst_43, main_v220, main_v221, main_cst_44, main_v222, main_v223, main_cst_45, main_v224, main_v225, main_v226, main_v227, main_v228, main_v229, main_v230, main_v231, main_v232, main_v233, main_v234, main_call2_cst, main_call2_v0, main_v235, main_v236, main_v237, main_v238, main_v239, main_v240, main_cst_46, main_v241, main_cst_47, main_v242, main_v243, main_v244, main_cst_48, main_v245, main_v246, main_v247, main_c_49, main_v248, main_v249, main_c_50, main_v250, main_v251, main_v252, main_v253, main_v254, main_c_51, main_v255, main_v256, main_c_52, main_v257, main_v258, main_v259, main_v260, main_v261, main_v262, main_c_53, main_v263, main_v264, main_c_54, main_v265, main_v266, main_v267, main_v268, main_v269, main_v270, main_v271, main_v272, main_cst_55, main_v273, main_v274, main_v275, main_cst_56, main_v276, main_v277, main_v278, main_v279, main_v280, main_v281, main_v282, main_v283, main_v284, main_v285, main_cst_57, main_v286, main_v287, main_cst_58, main_v288, main_v289, main_v290, main_v291, main_v292, main_cst_59, main_v293, main_v294, main_cst_60, main_v295, main_v296, main_cst_61, main_v297, main_v298, main_v299, main_v300, main_v301, main_v302, main_v303, main_v304, main_v305, main_v306, main_v307, main_call3_cst, main_call3_v0, main_v308, main_v309, main_v310, main_v311, main_v312, main_v313, main_v314, main_v315, main_v316, main_v317, main_v318, main_v319]

/-- Every operation of the piece writes a buffer of the list. -/
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem opsB_keep (V : Valuation τ sig (Elt F)) (r : Ref sig .tc) (h : r ∉ opsB_W) :
    after (opsB (F := F)) V (Proc.devRef .tc r) = V (Proc.devRef .tc r) :=
  after_of_writes_sub opsB _ opsB_writes h

/-- Layer 2. -/
abbrev opsC : List (HloOp τ sig (Elt F)) :=
  [ unary main_arg1 main_v320 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v320 main_v321 rfl shapeCasts_S1x128x128_S128x128,
    unary main_arg2 main_v322 ((extractStridedSlice S1x128 ![2, 0] · slices_S3x128_S1x128_2_0) : (⟨S3x128, .f32⟩ : BufTy).Contents (Elt F) → (⟨S1x128, .f32⟩ : BufTy).Contents (Elt F)),
    reshape main_v322 main_v323 rfl shapeCasts_S1x128_S128,
    binary main_v319 main_v321 main_v324 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_62 (constant S_ .f32 0x3F800000#32),
    unary main_cst_62 main_v325 (broadcastInDim S400000 ![] bcast_S_S400000 : (⟨S_, .f32⟩ : BufTy).Contents (Elt F) → (⟨S400000, .f32⟩ : BufTy).Contents (Elt F)),
    nullary main_cst_63 (constant S_ .f32 0x00000000#32),
    unary main_cst_63 main_v326 (broadcastInDim S50000 ![] bcast_S_S50000 : (⟨S_, .f32⟩ : BufTy).Contents (Elt F) → (⟨S50000, .f32⟩ : BufTy).Contents (Elt F)),
    unary main_v7 main_v327 (broadcastInDim S400000x1 ![0] bcast_S400000_S400000x1_0 : (⟨S400000, .i32⟩ : BufTy).Contents (Elt F) → (⟨S400000x1, .i32⟩ : BufTy).Contents (Elt F)),
    ternary main_v326 main_v327 main_v325 main_v328 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_64 (constant S_ .f32 0x40000000#32),
    unary main_cst_64 main_v329 (broadcastInDim S50000 ![] bcast_S_S50000 : (⟨S_, .f32⟩ : BufTy).Contents (Elt F) → (⟨S50000, .f32⟩ : BufTy).Contents (Elt F)),
    binary main_v328 main_v329 main_v330 (addf : (⟨S50000, .f32⟩ : BufTy).Contents (Elt F) → (⟨S50000, .f32⟩ : BufTy).Contents (Elt F) → (⟨S50000, .f32⟩ : BufTy).Contents (Elt F)),
    unary main_v330 main_v331 (Host.rsqrt : (⟨S50000, .f32⟩ : BufTy).Contents (Elt F) → (⟨S50000, .f32⟩ : BufTy).Contents (Elt F)),
    nullary main_c_65 (constantI S_ 32 0#32),
    unary main_c_65 main_v332 (broadcastInDim S400000 ![] bcast_S_S400000 : (⟨S_, .i32⟩ : BufTy).Contents (Elt F) → (⟨S400000, .i32⟩ : BufTy).Contents (Elt F)),
    binary main_v5 main_v332 main_v333 (cmpi .slt : (⟨S400000, .i32⟩ : BufTy).Contents (Elt F) → (⟨S400000, .i32⟩ : BufTy).Contents (Elt F) → (⟨S400000, .i1⟩ : BufTy).Contents (Elt F)),
    nullary main_c_66 (constantI S_ 32 50000#32),
    unary main_c_66 main_v334 (broadcastInDim S400000 ![] bcast_S_S400000 : (⟨S_, .i32⟩ : BufTy).Contents (Elt F) → (⟨S400000, .i32⟩ : BufTy).Contents (Elt F)),
    binary main_v5 main_v334 main_v335 (addi : (⟨S400000, .i32⟩ : BufTy).Contents (Elt F) → (⟨S400000, .i32⟩ : BufTy).Contents (Elt F) → (⟨S400000, .i32⟩ : BufTy).Contents (Elt F)),
    ternary main_v333 main_v335 main_v5 main_v336 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v336 main_v337 (broadcastInDim S400000x1 ![0] bcast_S400000_S400000x1_0 : (⟨S400000, .i32⟩ : BufTy).Contents (Elt F) → (⟨S400000x1, .i32⟩ : BufTy).Contents (Elt F)),
    binary main_v331 main_v337 main_v338 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    nullary main_c_67 (constantI S_ 32 0#32),
    unary main_c_67 main_v339 (broadcastInDim S400000 ![] bcast_S_S400000 : (⟨S_, .i32⟩ : BufTy).Contents (Elt F) → (⟨S400000, .i32⟩ : BufTy).Contents (Elt F)),
    binary main_v7 main_v339 main_v340 (cmpi .slt : (⟨S400000, .i32⟩ : BufTy).Contents (Elt F) → (⟨S400000, .i32⟩ : BufTy).Contents (Elt F) → (⟨S400000, .i1⟩ : BufTy).Contents (Elt F)),
    nullary main_c_68 (constantI S_ 32 50000#32),
    unary main_c_68 main_v341 (broadcastInDim S400000 ![] bcast_S_S400000 : (⟨S_, .i32⟩ : BufTy).Contents (Elt F) → (⟨S400000, .i32⟩ : BufTy).Contents (Elt F)),
    binary main_v7 main_v341 main_v342 (addi : (⟨S400000, .i32⟩ : BufTy).Contents (Elt F) → (⟨S400000, .i32⟩ : BufTy).Contents (Elt F) → (⟨S400000, .i32⟩ : BufTy).Contents (Elt F)),
    ternary main_v340 main_v342 main_v7 main_v343 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v343 main_v344 (broadcastInDim S400000x1 ![0] bcast_S400000_S400000x1_0 : (⟨S400000, .i32⟩ : BufTy).Contents (Elt F) → (⟨S400000x1, .i32⟩ : BufTy).Contents (Elt F)),
    binary main_v331 main_v344 main_v345 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v338 main_v345 main_v346 (mulf : (⟨S400000, .f32⟩ : BufTy).Contents (Elt F) → (⟨S400000, .f32⟩ : BufTy).Contents (Elt F) → (⟨S400000, .f32⟩ : BufTy).Contents (Elt F)),
    nullary main_c_69 (constantI S_ 32 0#32),
    unary main_c_69 main_v347 (broadcastInDim S400000 ![] bcast_S_S400000 : (⟨S_, .i32⟩ : BufTy).Contents (Elt F) → (⟨S400000, .i32⟩ : BufTy).Contents (Elt F)),
    binary main_v5 main_v347 main_v348 (cmpi .slt : (⟨S400000, .i32⟩ : BufTy).Contents (Elt F) → (⟨S400000, .i32⟩ : BufTy).Contents (Elt F) → (⟨S400000, .i1⟩ : BufTy).Contents (Elt F)),
    nullary main_c_70 (constantI S_ 32 50000#32),
    unary main_c_70 main_v349 (broadcastInDim S400000 ![] bcast_S_S400000 : (⟨S_, .i32⟩ : BufTy).Contents (Elt F) → (⟨S400000, .i32⟩ : BufTy).Contents (Elt F)),
    binary main_v5 main_v349 main_v350 (addi : (⟨S400000, .i32⟩ : BufTy).Contents (Elt F) → (⟨S400000, .i32⟩ : BufTy).Contents (Elt F) → (⟨S400000, .i32⟩ : BufTy).Contents (Elt F)),
    ternary main_v348 main_v350 main_v5 main_v351 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v351 main_v352 (broadcastInDim S400000x1 ![0] bcast_S400000_S400000x1_0 : (⟨S400000, .i32⟩ : BufTy).Contents (Elt F) → (⟨S400000x1, .i32⟩ : BufTy).Contents (Elt F)),
    binary main_v324 main_v352 main_v353 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    unary main_v346 main_v354 (broadcastInDim S400000x1 ![0] bcast_S400000_S400000x1_0 : (⟨S400000, .f32⟩ : BufTy).Contents (Elt F) → (⟨S400000x1, .f32⟩ : BufTy).Contents (Elt F)),
    unary main_v354 main_v355 (broadcastInDim S400000x128 ![0, 1] bcast_S400000x1_S400000x128_0_1 : (⟨S400000x1, .f32⟩ : BufTy).Contents (Elt F) → (⟨S400000x128, .f32⟩ : BufTy).Contents (Elt F)),
    binary main_v353 main_v355 main_v356 (mulf : (⟨S400000x128, .f32⟩ : BufTy).Contents (Elt F) → (⟨S400000x128, .f32⟩ : BufTy).Contents (Elt F) → (⟨S400000x128, .f32⟩ : BufTy).Contents (Elt F)),
    nullary main_cst_71 (constant S_ .f32 0x00000000#32),
    unary main_cst_71 main_v357 (broadcastInDim S50000x128 ![] bcast_S_S50000x128 : (⟨S_, .f32⟩ : BufTy).Contents (Elt F) → (⟨S50000x128, .f32⟩ : BufTy).Contents (Elt F)),
    unary main_v7 main_v358 (broadcastInDim S400000x1 ![0] bcast_S400000_S400000x1_0 : (⟨S400000, .i32⟩ : BufTy).Contents (Elt F) → (⟨S400000x1, .i32⟩ : BufTy).Contents (Elt F)),
    ternary main_v357 main_v358 main_v356 main_v359 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    nullary main_cst_72 (constant S_ .f32 0x40000000#32),
    unary main_cst_72 main_v360 (broadcastInDim S50000 ![] bcast_S_S50000 : (⟨S_, .f32⟩ : BufTy).Contents (Elt F) → (⟨S50000, .f32⟩ : BufTy).Contents (Elt F)),
    binary main_v360 main_v331 main_v361 (mulf : (⟨S50000, .f32⟩ : BufTy).Contents (Elt F) → (⟨S50000, .f32⟩ : BufTy).Contents (Elt F) → (⟨S50000, .f32⟩ : BufTy).Contents (Elt F)),
    binary main_v361 main_v331 main_v362 (mulf : (⟨S50000, .f32⟩ : BufTy).Contents (Elt F) → (⟨S50000, .f32⟩ : BufTy).Contents (Elt F) → (⟨S50000, .f32⟩ : BufTy).Contents (Elt F)),
    unary main_v362 main_v363 (broadcastInDim S50000x1 ![0] bcast_S50000_S50000x1_0 : (⟨S50000, .f32⟩ : BufTy).Contents (Elt F) → (⟨S50000x1, .f32⟩ : BufTy).Contents (Elt F)),
    unary main_v363 main_v364 (broadcastInDim S50000x128 ![0, 1] bcast_S50000x1_S50000x128_0_1 : (⟨S50000x1, .f32⟩ : BufTy).Contents (Elt F) → (⟨S50000x128, .f32⟩ : BufTy).Contents (Elt F)),
    binary main_v324 main_v364 main_v365 (mulf : (⟨S50000x128, .f32⟩ : BufTy).Contents (Elt F) → (⟨S50000x128, .f32⟩ : BufTy).Contents (Elt F) → (⟨S50000x128, .f32⟩ : BufTy).Contents (Elt F)),
    binary main_v359 main_v365 main_v366 (addf : (⟨S50000x128, .f32⟩ : BufTy).Contents (Elt F) → (⟨S50000x128, .f32⟩ : BufTy).Contents (Elt F) → (⟨S50000x128, .f32⟩ : BufTy).Contents (Elt F)),
    unary main_v323 main_v367 (broadcastInDim S1x128 ![1] bcast_S128_S1x128_1 : (⟨S128, .f32⟩ : BufTy).Contents (Elt F) → (⟨S1x128, .f32⟩ : BufTy).Contents (Elt F)),
    unary main_v367 main_v368 (broadcastInDim S50000x128 ![0, 1] bcast_S1x128_S50000x128_0_1 : (⟨S1x128, .f32⟩ : BufTy).Contents (Elt F) → (⟨S50000x128, .f32⟩ : BufTy).Contents (Elt F)),
    binary main_v366 main_v368 main_v369 (addf : (⟨S50000x128, .f32⟩ : BufTy).Contents (Elt F) → (⟨S50000x128, .f32⟩ : BufTy).Contents (Elt F) → (⟨S50000x128, .f32⟩ : BufTy).Contents (Elt F)),
    nullary main_cst_73 (constant S_ .f32 0x00000000#32),
    binary main_v369 main_cst_73 main_v370 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v370 main_v371 (broadcastInDim S50000x1 ![0] bcast_S50000_S50000x1_0 : (⟨S50000, .f32⟩ : BufTy).Contents (Elt F) → (⟨S50000x1, .f32⟩ : BufTy).Contents (Elt F)),
    nullary main_cst_74 (constant S_ .f32 0x43000000#32),
    unary main_cst_74 main_v372 (broadcastInDim S50000x1 ![] bcast_S_S50000x1 : (⟨S_, .f32⟩ : BufTy).Contents (Elt F) → (⟨S50000x1, .f32⟩ : BufTy).Contents (Elt F)),
    binary main_v371 main_v372 main_v373 (Host.divf : (⟨S50000x1, .f32⟩ : BufTy).Contents (Elt F) → (⟨S50000x1, .f32⟩ : BufTy).Contents (Elt F) → (⟨S50000x1, .f32⟩ : BufTy).Contents (Elt F)),
    unary main_v373 main_v374 (broadcastInDim S50000x128 ![0, 1] bcast_S50000x1_S50000x128_0_1 : (⟨S50000x1, .f32⟩ : BufTy).Contents (Elt F) → (⟨S50000x128, .f32⟩ : BufTy).Contents (Elt F)),
    binary main_v369 main_v374 main_v375 (subf : (⟨S50000x128, .f32⟩ : BufTy).Contents (Elt F) → (⟨S50000x128, .f32⟩ : BufTy).Contents (Elt F) → (⟨S50000x128, .f32⟩ : BufTy).Contents (Elt F)),
    binary main_v375 main_v375 main_v376 (mulf : (⟨S50000x128, .f32⟩ : BufTy).Contents (Elt F) → (⟨S50000x128, .f32⟩ : BufTy).Contents (Elt F) → (⟨S50000x128, .f32⟩ : BufTy).Contents (Elt F)),
    nullary main_cst_75 (constant S_ .f32 0x00000000#32),
    binary main_v376 main_cst_75 main_v377 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v377 main_v378 (broadcastInDim S50000x1 ![0] bcast_S50000_S50000x1_0 : (⟨S50000, .f32⟩ : BufTy).Contents (Elt F) → (⟨S50000x1, .f32⟩ : BufTy).Contents (Elt F)),
    nullary main_cst_76 (constant S_ .f32 0x43000000#32),
    unary main_cst_76 main_v379 (broadcastInDim S50000x1 ![] bcast_S_S50000x1 : (⟨S_, .f32⟩ : BufTy).Contents (Elt F) → (⟨S50000x1, .f32⟩ : BufTy).Contents (Elt F)),
    binary main_v378 main_v379 main_v380 (Host.divf : (⟨S50000x1, .f32⟩ : BufTy).Contents (Elt F) → (⟨S50000x1, .f32⟩ : BufTy).Contents (Elt F) → (⟨S50000x1, .f32⟩ : BufTy).Contents (Elt F)),
    nullary main_cst_77 (constant S_ .f32 0x3727C5AC#32),
    unary main_cst_77 main_v381 (broadcastInDim S50000x1 ![] bcast_S_S50000x1 : (⟨S_, .f32⟩ : BufTy).Contents (Elt F) → (⟨S50000x1, .f32⟩ : BufTy).Contents (Elt F)),
    binary main_v380 main_v381 main_v382 (addf : (⟨S50000x1, .f32⟩ : BufTy).Contents (Elt F) → (⟨S50000x1, .f32⟩ : BufTy).Contents (Elt F) → (⟨S50000x1, .f32⟩ : BufTy).Contents (Elt F)),
    unary main_v382 main_v383 (Host.rsqrt : (⟨S50000x1, .f32⟩ : BufTy).Contents (Elt F) → (⟨S50000x1, .f32⟩ : BufTy).Contents (Elt F)),
    unary main_v383 main_v384 (broadcastInDim S50000x128 ![0, 1] bcast_S50000x1_S50000x128_0_1 : (⟨S50000x1, .f32⟩ : BufTy).Contents (Elt F) → (⟨S50000x128, .f32⟩ : BufTy).Contents (Elt F)),
    binary main_v375 main_v384 main_v385 (mulf : (⟨S50000x128, .f32⟩ : BufTy).Contents (Elt F) → (⟨S50000x128, .f32⟩ : BufTy).Contents (Elt F) → (⟨S50000x128, .f32⟩ : BufTy).Contents (Elt F)),
    unary main_arg7 main_v386 (broadcastInDim S1x128 ![1] bcast_S128_S1x128_1 : (⟨S128, .f32⟩ : BufTy).Contents (Elt F) → (⟨S1x128, .f32⟩ : BufTy).Contents (Elt F)),
    unary main_v386 main_v387 (broadcastInDim S50000x128 ![0, 1] bcast_S1x128_S50000x128_0_1 : (⟨S1x128, .f32⟩ : BufTy).Contents (Elt F) → (⟨S50000x128, .f32⟩ : BufTy).Contents (Elt F)),
    binary main_v385 main_v387 main_v388 (mulf : (⟨S50000x128, .f32⟩ : BufTy).Contents (Elt F) → (⟨S50000x128, .f32⟩ : BufTy).Contents (Elt F) → (⟨S50000x128, .f32⟩ : BufTy).Contents (Elt F)),
    unary main_arg8 main_v389 (broadcastInDim S1x128 ![1] bcast_S128_S1x128_1 : (⟨S128, .f32⟩ : BufTy).Contents (Elt F) → (⟨S1x128, .f32⟩ : BufTy).Contents (Elt F)),
    unary main_v389 main_v390 (broadcastInDim S50000x128 ![0, 1] bcast_S1x128_S50000x128_0_1 : (⟨S1x128, .f32⟩ : BufTy).Contents (Elt F) → (⟨S50000x128, .f32⟩ : BufTy).Contents (Elt F)),
    binary main_v388 main_v390 main_v391 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v391) (TRef.of (T := ⟨S50000x128, .f32⟩) main_call4_v0) (TRef.of (T := ⟨S50000x128, .f32⟩) main_v392) maximumf,
    unary main_arg3 main_v393 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v393 main_v394 rfl shapeCasts_S1x128x128_S128x128,
    unary main_arg4 main_v395 ((extractStridedSlice S1x128 ![2, 0] · slices_S3x128_S1x128_2_0) : (⟨S3x128, .f32⟩ : BufTy).Contents (Elt F) → (⟨S1x128, .f32⟩ : BufTy).Contents (Elt F)),
    reshape main_v395 main_v396 rfl shapeCasts_S1x128_S128,
    binary main_v319 main_v394 main_v397 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_78 (constant S_ .f32 0x3F800000#32),
    unary main_cst_78 main_v398 (broadcastInDim S600000 ![] bcast_S_S600000 : (⟨S_, .f32⟩ : BufTy).Contents (Elt F) → (⟨S600000, .f32⟩ : BufTy).Contents (Elt F)),
    nullary main_cst_79 (constant S_ .f32 0x00000000#32),
    unary main_cst_79 main_v399 (broadcastInDim S50000 ![] bcast_S_S50000 : (⟨S_, .f32⟩ : BufTy).Contents (Elt F) → (⟨S50000, .f32⟩ : BufTy).Contents (Elt F)),
    unary main_v3 main_v400 (broadcastInDim S600000x1 ![0] bcast_S600000_S600000x1_0 : (⟨S600000, .i32⟩ : BufTy).Contents (Elt F) → (⟨S600000x1, .i32⟩ : BufTy).Contents (Elt F)),
    ternary main_v399 main_v400 main_v398 main_v401 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_80 (constant S_ .f32 0x40000000#32),
    unary main_cst_80 main_v402 (broadcastInDim S50000 ![] bcast_S_S50000 : (⟨S_, .f32⟩ : BufTy).Contents (Elt F) → (⟨S50000, .f32⟩ : BufTy).Contents (Elt F)),
    binary main_v401 main_v402 main_v403 (addf : (⟨S50000, .f32⟩ : BufTy).Contents (Elt F) → (⟨S50000, .f32⟩ : BufTy).Contents (Elt F) → (⟨S50000, .f32⟩ : BufTy).Contents (Elt F)),
    unary main_v403 main_v404 (Host.rsqrt : (⟨S50000, .f32⟩ : BufTy).Contents (Elt F) → (⟨S50000, .f32⟩ : BufTy).Contents (Elt F)),
    nullary main_c_81 (constantI S_ 32 0#32),
    unary main_c_81 main_v405 (broadcastInDim S600000 ![] bcast_S_S600000 : (⟨S_, .i32⟩ : BufTy).Contents (Elt F) → (⟨S600000, .i32⟩ : BufTy).Contents (Elt F)),
    binary main_v1 main_v405 main_v406 (cmpi .slt : (⟨S600000, .i32⟩ : BufTy).Contents (Elt F) → (⟨S600000, .i32⟩ : BufTy).Contents (Elt F) → (⟨S600000, .i1⟩ : BufTy).Contents (Elt F)),
    nullary main_c_82 (constantI S_ 32 50000#32),
    unary main_c_82 main_v407 (broadcastInDim S600000 ![] bcast_S_S600000 : (⟨S_, .i32⟩ : BufTy).Contents (Elt F) → (⟨S600000, .i32⟩ : BufTy).Contents (Elt F)),
    binary main_v1 main_v407 main_v408 (addi : (⟨S600000, .i32⟩ : BufTy).Contents (Elt F) → (⟨S600000, .i32⟩ : BufTy).Contents (Elt F) → (⟨S600000, .i32⟩ : BufTy).Contents (Elt F)),
    ternary main_v406 main_v408 main_v1 main_v409 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v409 main_v410 (broadcastInDim S600000x1 ![0] bcast_S600000_S600000x1_0 : (⟨S600000, .i32⟩ : BufTy).Contents (Elt F) → (⟨S600000x1, .i32⟩ : BufTy).Contents (Elt F)),
    binary main_v404 main_v410 main_v411 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_83 (constantI S_ 32 0#32),
    unary main_c_83 main_v412 (broadcastInDim S600000 ![] bcast_S_S600000 : (⟨S_, .i32⟩ : BufTy).Contents (Elt F) → (⟨S600000, .i32⟩ : BufTy).Contents (Elt F)),
    binary main_v3 main_v412 main_v413 (cmpi .slt : (⟨S600000, .i32⟩ : BufTy).Contents (Elt F) → (⟨S600000, .i32⟩ : BufTy).Contents (Elt F) → (⟨S600000, .i1⟩ : BufTy).Contents (Elt F)),
    nullary main_c_84 (constantI S_ 32 50000#32),
    unary main_c_84 main_v414 (broadcastInDim S600000 ![] bcast_S_S600000 : (⟨S_, .i32⟩ : BufTy).Contents (Elt F) → (⟨S600000, .i32⟩ : BufTy).Contents (Elt F)),
    binary main_v3 main_v414 main_v415 (addi : (⟨S600000, .i32⟩ : BufTy).Contents (Elt F) → (⟨S600000, .i32⟩ : BufTy).Contents (Elt F) → (⟨S600000, .i32⟩ : BufTy).Contents (Elt F)),
    ternary main_v413 main_v415 main_v3 main_v416 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v416 main_v417 (broadcastInDim S600000x1 ![0] bcast_S600000_S600000x1_0 : (⟨S600000, .i32⟩ : BufTy).Contents (Elt F) → (⟨S600000x1, .i32⟩ : BufTy).Contents (Elt F)),
    binary main_v404 main_v417 main_v418 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v411 main_v418 main_v419 (mulf : (⟨S600000, .f32⟩ : BufTy).Contents (Elt F) → (⟨S600000, .f32⟩ : BufTy).Contents (Elt F) → (⟨S600000, .f32⟩ : BufTy).Contents (Elt F)),
    nullary main_c_85 (constantI S_ 32 0#32),
    unary main_c_85 main_v420 (broadcastInDim S600000 ![] bcast_S_S600000 : (⟨S_, .i32⟩ : BufTy).Contents (Elt F) → (⟨S600000, .i32⟩ : BufTy).Contents (Elt F)),
    binary main_v1 main_v420 main_v421 (cmpi .slt : (⟨S600000, .i32⟩ : BufTy).Contents (Elt F) → (⟨S600000, .i32⟩ : BufTy).Contents (Elt F) → (⟨S600000, .i1⟩ : BufTy).Contents (Elt F)),
    nullary main_c_86 (constantI S_ 32 50000#32),
    unary main_c_86 main_v422 (broadcastInDim S600000 ![] bcast_S_S600000 : (⟨S_, .i32⟩ : BufTy).Contents (Elt F) → (⟨S600000, .i32⟩ : BufTy).Contents (Elt F)),
    binary main_v1 main_v422 main_v423 (addi : (⟨S600000, .i32⟩ : BufTy).Contents (Elt F) → (⟨S600000, .i32⟩ : BufTy).Contents (Elt F) → (⟨S600000, .i32⟩ : BufTy).Contents (Elt F)),
    ternary main_v421 main_v423 main_v1 main_v424 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v424 main_v425 (broadcastInDim S600000x1 ![0] bcast_S600000_S600000x1_0 : (⟨S600000, .i32⟩ : BufTy).Contents (Elt F) → (⟨S600000x1, .i32⟩ : BufTy).Contents (Elt F)),
    binary main_v397 main_v425 main_v426 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v419 main_v427 (broadcastInDim S600000x1 ![0] bcast_S600000_S600000x1_0 : (⟨S600000, .f32⟩ : BufTy).Contents (Elt F) → (⟨S600000x1, .f32⟩ : BufTy).Contents (Elt F)),
    unary main_v427 main_v428 (broadcastInDim S600000x128 ![0, 1] bcast_S600000x1_S600000x128_0_1 : (⟨S600000x1, .f32⟩ : BufTy).Contents (Elt F) → (⟨S600000x128, .f32⟩ : BufTy).Contents (Elt F)),
    binary main_v426 main_v428 main_v429 (mulf : (⟨S600000x128, .f32⟩ : BufTy).Contents (Elt F) → (⟨S600000x128, .f32⟩ : BufTy).Contents (Elt F) → (⟨S600000x128, .f32⟩ : BufTy).Contents (Elt F)),
    nullary main_cst_87 (constant S_ .f32 0x00000000#32),
    unary main_cst_87 main_v430 (broadcastInDim S50000x128 ![] bcast_S_S50000x128 : (⟨S_, .f32⟩ : BufTy).Contents (Elt F) → (⟨S50000x128, .f32⟩ : BufTy).Contents (Elt F)),
    unary main_v3 main_v431 (broadcastInDim S600000x1 ![0] bcast_S600000_S600000x1_0 : (⟨S600000, .i32⟩ : BufTy).Contents (Elt F) → (⟨S600000x1, .i32⟩ : BufTy).Contents (Elt F)),
    ternary main_v430 main_v431 main_v429 main_v432 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_88 (constant S_ .f32 0x40000000#32),
    unary main_cst_88 main_v433 (broadcastInDim S50000 ![] bcast_S_S50000 : (⟨S_, .f32⟩ : BufTy).Contents (Elt F) → (⟨S50000, .f32⟩ : BufTy).Contents (Elt F)),
    binary main_v433 main_v404 main_v434 (mulf : (⟨S50000, .f32⟩ : BufTy).Contents (Elt F) → (⟨S50000, .f32⟩ : BufTy).Contents (Elt F) → (⟨S50000, .f32⟩ : BufTy).Contents (Elt F)),
    binary main_v434 main_v404 main_v435 (mulf : (⟨S50000, .f32⟩ : BufTy).Contents (Elt F) → (⟨S50000, .f32⟩ : BufTy).Contents (Elt F) → (⟨S50000, .f32⟩ : BufTy).Contents (Elt F)),
    unary main_v435 main_v436 (broadcastInDim S50000x1 ![0] bcast_S50000_S50000x1_0 : (⟨S50000, .f32⟩ : BufTy).Contents (Elt F) → (⟨S50000x1, .f32⟩ : BufTy).Contents (Elt F)),
    unary main_v436 main_v437 (broadcastInDim S50000x128 ![0, 1] bcast_S50000x1_S50000x128_0_1 : (⟨S50000x1, .f32⟩ : BufTy).Contents (Elt F) → (⟨S50000x128, .f32⟩ : BufTy).Contents (Elt F)),
    binary main_v397 main_v437 main_v438 (mulf : (⟨S50000x128, .f32⟩ : BufTy).Contents (Elt F) → (⟨S50000x128, .f32⟩ : BufTy).Contents (Elt F) → (⟨S50000x128, .f32⟩ : BufTy).Contents (Elt F)),
    binary main_v432 main_v438 main_v439 (addf : (⟨S50000x128, .f32⟩ : BufTy).Contents (Elt F) → (⟨S50000x128, .f32⟩ : BufTy).Contents (Elt F) → (⟨S50000x128, .f32⟩ : BufTy).Contents (Elt F)),
    unary main_v396 main_v440 (broadcastInDim S1x128 ![1] bcast_S128_S1x128_1 : (⟨S128, .f32⟩ : BufTy).Contents (Elt F) → (⟨S1x128, .f32⟩ : BufTy).Contents (Elt F)),
    unary main_v440 main_v441 (broadcastInDim S50000x128 ![0, 1] bcast_S1x128_S50000x128_0_1 : (⟨S1x128, .f32⟩ : BufTy).Contents (Elt F) → (⟨S50000x128, .f32⟩ : BufTy).Contents (Elt F)),
    binary main_v439 main_v441 main_v442 (addf : (⟨S50000x128, .f32⟩ : BufTy).Contents (Elt F) → (⟨S50000x128, .f32⟩ : BufTy).Contents (Elt F) → (⟨S50000x128, .f32⟩ : BufTy).Contents (Elt F)),
    nullary main_cst_89 (constant S_ .f32 0x00000000#32),
    binary main_v442 main_cst_89 main_v443 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v443 main_v444 (broadcastInDim S50000x1 ![0] bcast_S50000_S50000x1_0 : (⟨S50000, .f32⟩ : BufTy).Contents (Elt F) → (⟨S50000x1, .f32⟩ : BufTy).Contents (Elt F)),
    nullary main_cst_90 (constant S_ .f32 0x43000000#32),
    unary main_cst_90 main_v445 (broadcastInDim S50000x1 ![] bcast_S_S50000x1 : (⟨S_, .f32⟩ : BufTy).Contents (Elt F) → (⟨S50000x1, .f32⟩ : BufTy).Contents (Elt F)),
    binary main_v444 main_v445 main_v446 (Host.divf : (⟨S50000x1, .f32⟩ : BufTy).Contents (Elt F) → (⟨S50000x1, .f32⟩ : BufTy).Contents (Elt F) → (⟨S50000x1, .f32⟩ : BufTy).Contents (Elt F)),
    unary main_v446 main_v447 (broadcastInDim S50000x128 ![0, 1] bcast_S50000x1_S50000x128_0_1 : (⟨S50000x1, .f32⟩ : BufTy).Contents (Elt F) → (⟨S50000x128, .f32⟩ : BufTy).Contents (Elt F)),
    binary main_v442 main_v447 main_v448 (subf : (⟨S50000x128, .f32⟩ : BufTy).Contents (Elt F) → (⟨S50000x128, .f32⟩ : BufTy).Contents (Elt F) → (⟨S50000x128, .f32⟩ : BufTy).Contents (Elt F)),
    binary main_v448 main_v448 main_v449 (mulf : (⟨S50000x128, .f32⟩ : BufTy).Contents (Elt F) → (⟨S50000x128, .f32⟩ : BufTy).Contents (Elt F) → (⟨S50000x128, .f32⟩ : BufTy).Contents (Elt F)),
    nullary main_cst_91 (constant S_ .f32 0x00000000#32),
    binary main_v449 main_cst_91 main_v450 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v450 main_v451 (broadcastInDim S50000x1 ![0] bcast_S50000_S50000x1_0 : (⟨S50000, .f32⟩ : BufTy).Contents (Elt F) → (⟨S50000x1, .f32⟩ : BufTy).Contents (Elt F)),
    nullary main_cst_92 (constant S_ .f32 0x43000000#32),
    unary main_cst_92 main_v452 (broadcastInDim S50000x1 ![] bcast_S_S50000x1 : (⟨S_, .f32⟩ : BufTy).Contents (Elt F) → (⟨S50000x1, .f32⟩ : BufTy).Contents (Elt F)),
    binary main_v451 main_v452 main_v453 (Host.divf : (⟨S50000x1, .f32⟩ : BufTy).Contents (Elt F) → (⟨S50000x1, .f32⟩ : BufTy).Contents (Elt F) → (⟨S50000x1, .f32⟩ : BufTy).Contents (Elt F)),
    nullary main_cst_93 (constant S_ .f32 0x3727C5AC#32),
    unary main_cst_93 main_v454 (broadcastInDim S50000x1 ![] bcast_S_S50000x1 : (⟨S_, .f32⟩ : BufTy).Contents (Elt F) → (⟨S50000x1, .f32⟩ : BufTy).Contents (Elt F)),
    binary main_v453 main_v454 main_v455 (addf : (⟨S50000x1, .f32⟩ : BufTy).Contents (Elt F) → (⟨S50000x1, .f32⟩ : BufTy).Contents (Elt F) → (⟨S50000x1, .f32⟩ : BufTy).Contents (Elt F)),
    unary main_v455 main_v456 (Host.rsqrt : (⟨S50000x1, .f32⟩ : BufTy).Contents (Elt F) → (⟨S50000x1, .f32⟩ : BufTy).Contents (Elt F)),
    unary main_v456 main_v457 (broadcastInDim S50000x128 ![0, 1] bcast_S50000x1_S50000x128_0_1 : (⟨S50000x1, .f32⟩ : BufTy).Contents (Elt F) → (⟨S50000x128, .f32⟩ : BufTy).Contents (Elt F)),
    binary main_v448 main_v457 main_v458 (mulf : (⟨S50000x128, .f32⟩ : BufTy).Contents (Elt F) → (⟨S50000x128, .f32⟩ : BufTy).Contents (Elt F) → (⟨S50000x128, .f32⟩ : BufTy).Contents (Elt F)),
    unary main_arg7 main_v459 (broadcastInDim S1x128 ![1] bcast_S128_S1x128_1 : (⟨S128, .f32⟩ : BufTy).Contents (Elt F) → (⟨S1x128, .f32⟩ : BufTy).Contents (Elt F)),
    unary main_v459 main_v460 (broadcastInDim S50000x128 ![0, 1] bcast_S1x128_S50000x128_0_1 : (⟨S1x128, .f32⟩ : BufTy).Contents (Elt F) → (⟨S50000x128, .f32⟩ : BufTy).Contents (Elt F)),
    binary main_v458 main_v460 main_v461 (mulf : (⟨S50000x128, .f32⟩ : BufTy).Contents (Elt F) → (⟨S50000x128, .f32⟩ : BufTy).Contents (Elt F) → (⟨S50000x128, .f32⟩ : BufTy).Contents (Elt F)),
    unary main_arg8 main_v462 (broadcastInDim S1x128 ![1] bcast_S128_S1x128_1 : (⟨S128, .f32⟩ : BufTy).Contents (Elt F) → (⟨S1x128, .f32⟩ : BufTy).Contents (Elt F)),
    unary main_v462 main_v463 (broadcastInDim S50000x128 ![0, 1] bcast_S1x128_S50000x128_0_1 : (⟨S1x128, .f32⟩ : BufTy).Contents (Elt F) → (⟨S50000x128, .f32⟩ : BufTy).Contents (Elt F)),
    binary main_v461 main_v463 main_v464 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v464) (TRef.of (T := ⟨S50000x128, .f32⟩) main_call5_v0) (TRef.of (T := ⟨S50000x128, .f32⟩) main_v465) maximumf,
    binary main_v392 main_v319 main_v466 (addf : (⟨S50000x128, .f32⟩ : BufTy).Contents (Elt F) → (⟨S50000x128, .f32⟩ : BufTy).Contents (Elt F) → (⟨S50000x128, .f32⟩ : BufTy).Contents (Elt F)),
    binary main_v465 main_v319 main_v467 (addf : (⟨S50000x128, .f32⟩ : BufTy).Contents (Elt F) → (⟨S50000x128, .f32⟩ : BufTy).Contents (Elt F) → (⟨S50000x128, .f32⟩ : BufTy).Contents (Elt F)),
    binary main_v467 main_v466 main_v468 (catPair : (⟨S50000x128, .f32⟩ : BufTy).Contents (Elt F) → (⟨S50000x128, .f32⟩ : BufTy).Contents (Elt F) → (⟨S50000x256, .f32⟩ : BufTy).Contents (Elt F)),
    unary main_arg5 main_v469 ((extractStridedSlice S1x256x128 ![2, 0, 0] · slices_S3x256x128_S1x256x128_2_0_0) : (⟨S3x256x128, .f32⟩ : BufTy).Contents (Elt F) → (⟨S1x256x128, .f32⟩ : BufTy).Contents (Elt F)),
    reshape main_v469 main_v470 rfl shapeCasts_S1x256x128_S256x128,
    binary main_v468 main_v470 main_v471 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg6 main_v472 ((extractStridedSlice S1x128 ![2, 0] · slices_S3x128_S1x128_2_0) : (⟨S3x128, .f32⟩ : BufTy).Contents (Elt F) → (⟨S1x128, .f32⟩ : BufTy).Contents (Elt F)),
    reshape main_v472 main_v473 rfl shapeCasts_S1x128_S128,
    unary main_v473 main_v474 (broadcastInDim S1x128 ![1] bcast_S128_S1x128_1 : (⟨S128, .f32⟩ : BufTy).Contents (Elt F) → (⟨S1x128, .f32⟩ : BufTy).Contents (Elt F)),
    unary main_v474 main_v475 (broadcastInDim S50000x128 ![0, 1] bcast_S1x128_S50000x128_0_1 : (⟨S1x128, .f32⟩ : BufTy).Contents (Elt F) → (⟨S50000x128, .f32⟩ : BufTy).Contents (Elt F)),
    binary main_v471 main_v475 main_v476 (addf : (⟨S50000x128, .f32⟩ : BufTy).Contents (Elt F) → (⟨S50000x128, .f32⟩ : BufTy).Contents (Elt F) → (⟨S50000x128, .f32⟩ : BufTy).Contents (Elt F)) ]

/-- The buffers the piece's operations write, in order. -/
abbrev opsC_W : List (Ref sig .tc) := [main_v320, main_v321, main_v322, main_v323, main_v324, main_cst_62, main_v325, main_cst_63, main_v326, main_v327, main_v328, main_cst_64, main_v329, main_v330, main_v331, main_c_65, main_v332, main_v333, main_c_66, main_v334, main_v335, main_v336, main_v337, main_v338, main_c_67, main_v339, main_v340, main_c_68, main_v341, main_v342, main_v343, main_v344, main_v345, main_v346, main_c_69, main_v347, main_v348, main_c_70, main_v349, main_v350, main_v351, main_v352, main_v353, main_v354, main_v355, main_v356, main_cst_71, main_v357, main_v358, main_v359, main_cst_72, main_v360, main_v361, main_v362, main_v363, main_v364, main_v365, main_v366, main_v367, main_v368, main_v369, main_cst_73, main_v370, main_v371, main_cst_74, main_v372, main_v373, main_v374, main_v375, main_v376, main_cst_75, main_v377, main_v378, main_cst_76, main_v379, main_v380, main_cst_77, main_v381, main_v382, main_v383, main_v384, main_v385, main_v386, main_v387, main_v388, main_v389, main_v390, main_v391, main_call4_cst, main_call4_v0, main_v392, main_v393, main_v394, main_v395, main_v396, main_v397, main_cst_78, main_v398, main_cst_79, main_v399, main_v400, main_v401, main_cst_80, main_v402, main_v403, main_v404, main_c_81, main_v405, main_v406, main_c_82, main_v407, main_v408, main_v409, main_v410, main_v411, main_c_83, main_v412, main_v413, main_c_84, main_v414, main_v415, main_v416, main_v417, main_v418, main_v419, main_c_85, main_v420, main_v421, main_c_86, main_v422, main_v423, main_v424, main_v425, main_v426, main_v427, main_v428, main_v429, main_cst_87, main_v430, main_v431, main_v432, main_cst_88, main_v433, main_v434, main_v435, main_v436, main_v437, main_v438, main_v439, main_v440, main_v441, main_v442, main_cst_89, main_v443, main_v444, main_cst_90, main_v445, main_v446, main_v447, main_v448, main_v449, main_cst_91, main_v450, main_v451, main_cst_92, main_v452, main_v453, main_cst_93, main_v454, main_v455, main_v456, main_v457, main_v458, main_v459, main_v460, main_v461, main_v462, main_v463, main_v464, main_call5_cst, main_call5_v0, main_v465, main_v466, main_v467, main_v468, main_v469, main_v470, main_v471, main_v472, main_v473, main_v474, main_v475, main_v476]

/-- Every operation of the piece writes a buffer of the list. -/
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem opsC_keep (V : Valuation τ sig (Elt F)) (r : Ref sig .tc) (h : r ∉ opsC_W) :
    after (opsC (F := F)) V (Proc.devRef .tc r) = V (Proc.devRef .tc r) :=
  after_of_writes_sub opsC _ opsC_writes h

/-- The last projection and its bias row. -/
abbrev opsD : List (HloOp τ sig (Elt F)) :=
  [ binary main_v476 main_arg9 main_v477 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg10 main_v478 (broadcastInDim S1x64 ![1] bcast_S64_S1x64_1 : (⟨S64, .f32⟩ : BufTy).Contents (Elt F) → (⟨S1x64, .f32⟩ : BufTy).Contents (Elt F)),
    unary main_v478 main_v479 (broadcastInDim S50000x64 ![0, 1] bcast_S1x64_S50000x64_0_1 : (⟨S1x64, .f32⟩ : BufTy).Contents (Elt F) → (⟨S50000x64, .f32⟩ : BufTy).Contents (Elt F)),
    binary main_v477 main_v479 main_v480 (addf : (⟨S50000x64, .f32⟩ : BufTy).Contents (Elt F) → (⟨S50000x64, .f32⟩ : BufTy).Contents (Elt F) → (⟨S50000x64, .f32⟩ : BufTy).Contents (Elt F)) ]

/-- The buffers the piece's operations write, in order. -/
abbrev opsD_W : List (Ref sig .tc) := [main_v477, main_v478, main_v479, main_v480]

/-- Every operation of the piece writes a buffer of the list. -/
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem opsD_keep (V : Valuation τ sig (Elt F)) (r : Ref sig .tc) (h : r ∉ opsD_W) :
    after (opsD (F := F)) V (Proc.devRef .tc r) = V (Proc.devRef .tc r) :=
  after_of_writes_sub opsD _ opsD_writes h

end Cert.ReferenceIdeal.RefRun

end
-- ==== Proof.RefPiece0.lean ====
/-
  The fold of the program's operations leaves in each result buffer the composition its per-operation definitions spell:
  layer 0.

  What the fold of a piece of the line leaves at a buffer is the operation that writes it applied to what the fold
  leaves at the operation's operands, down to the buffers the piece reads and does not write. The statement is for an
  arbitrary state of the buffers at the piece's start; where the piece reads the previous layer's output and the
  edge-index arrays, it assumes that the state holds them as their definitions spell them (the composed term of a whole
  layer over the previous one is a tree in which the previous layer's output occurs four times, so it is never spelt
  out over the arguments).
-/
import proofs.«164762_j10505490006519_1_alg».proof.Proof.RefOps
import proofs.«164762_j10505490006519_1_alg».proof.Proof.RRead

-- a piece of some two hundred operations, and every term over it, exceeds the default budgets
set_option maxHeartbeats 400000000
set_option maxRecDepth 16384

noncomputable section

namespace Cert.ReferenceIdeal.RefRun

open Cert.ReferenceIdeal Cert.ReferenceIdeal.Gen Cert.ReferenceIdeal.RRead Idealize.ShloMosaic Idealize.ShloMosaic.TcCoe Idealize.SL.Sem Idealize.ShloMosaic.StableHlo

variable {F : FTy → Type} [FloatOps F]

/-- Layer 0 leaves at main_v1 what its definition spells, of the arguments as the state holds them. -/
theorem opsA_main_v1 (V : Valuation τ sig (Elt F)) :
    after (opsA (F := F)) V (Proc.devRef .tc main_v1) = val_main_v1 (V (Proc.devRef .tc main_arg11)) := by
  after_results_simp <;> rfl

/-- Layer 0 leaves at main_v3 what its definition spells, of the arguments as the state holds them. -/
theorem opsA_main_v3 (V : Valuation τ sig (Elt F)) :
    after (opsA (F := F)) V (Proc.devRef .tc main_v3) = val_main_v3 (V (Proc.devRef .tc main_arg11)) := by
  after_results_simp <;> rfl

/-- Layer 0 leaves at main_v5 what its definition spells, of the arguments as the state holds them. -/
theorem opsA_main_v5 (V : Valuation τ sig (Elt F)) :
    after (opsA (F := F)) V (Proc.devRef .tc main_v5) = val_main_v5 (V (Proc.devRef .tc main_arg12)) := by
  after_results_simp <;> rfl

/-- Layer 0 leaves at main_v7 what its definition spells, of the arguments as the state holds them. -/
theorem opsA_main_v7 (V : Valuation τ sig (Elt F)) :
    after (opsA (F := F)) V (Proc.devRef .tc main_v7) = val_main_v7 (V (Proc.devRef .tc main_arg12)) := by
  after_results_simp <;> rfl

/-- Layer 0 leaves at main_v162 what its definition spells, of the arguments as the state holds them. -/
theorem opsA_main_v162 (V : Valuation τ sig (Elt F)) :
    after (opsA (F := F)) V (Proc.devRef .tc main_v162) = val_main_v162 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) := by
  after_results_simp <;> rfl

end Cert.ReferenceIdeal.RefRun

end
-- ==== Proof.RefPiece1.lean ====
/-
  The fold of the program's operations leaves in each result buffer the composition its per-operation definitions spell:
  layer 1.

  What the fold of a piece of the line leaves at a buffer is the operation that writes it applied to what the fold
  leaves at the operation's operands, down to the buffers the piece reads and does not write. The statement is for an
  arbitrary state of the buffers at the piece's start; where the piece reads the previous layer's output and the
  edge-index arrays, it assumes that the state holds them as their definitions spell them (the composed term of a whole
  layer over the previous one is a tree in which the previous layer's output occurs four times, so it is never spelt
  out over the arguments).
-/
import proofs.«164762_j10505490006519_1_alg».proof.Proof.RefOps
import proofs.«164762_j10505490006519_1_alg».proof.Proof.RRead

-- a piece of some two hundred operations, and every term over it, exceeds the default budgets
set_option maxHeartbeats 400000000
set_option maxRecDepth 16384

noncomputable section

namespace Cert.ReferenceIdeal.RefRun

open Cert.ReferenceIdeal Cert.ReferenceIdeal.Gen Cert.ReferenceIdeal.RRead Idealize.ShloMosaic Idealize.ShloMosaic.TcCoe Idealize.SL.Sem Idealize.ShloMosaic.StableHlo

variable {F : FTy → Type} [FloatOps F]

/-- From a state that holds the arguments, the four edge-index arrays and the previous layer's output as their
    definitions spell them, the piece leaves at main_v319 what its definition spells. -/
theorem opsB_main_v319 (V : Valuation τ sig (Elt F)) (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S3x256x128, .f32⟩ : BufTy).Contents (Elt F)) (x6 : (⟨S3x128, .f32⟩ : BufTy).Contents (Elt F)) (x7 : (⟨S128, .f32⟩ : BufTy).Contents (Elt F)) (x8 : (⟨S128, .f32⟩ : BufTy).Contents (Elt F)) (x11 : (⟨S2x600000, .i32⟩ : BufTy).Contents (Elt F)) (x12 : (⟨S2x400000, .i32⟩ : BufTy).Contents (Elt F))
    (hin : V (Proc.devRef .tc main_v162) = val_main_v162 x0 x1 x2 x3 x4 x5 x6 x7 x8 x11 x12)
    (hv1 : V (Proc.devRef .tc main_v1) = val_main_v1 x11)
    (hv3 : V (Proc.devRef .tc main_v3) = val_main_v3 x11)
    (hv5 : V (Proc.devRef .tc main_v5) = val_main_v5 x12)
    (hv7 : V (Proc.devRef .tc main_v7) = val_main_v7 x12)
    (ha1 : V (Proc.devRef .tc main_arg1) = x1)
    (ha2 : V (Proc.devRef .tc main_arg2) = x2)
    (ha3 : V (Proc.devRef .tc main_arg3) = x3)
    (ha4 : V (Proc.devRef .tc main_arg4) = x4)
    (ha5 : V (Proc.devRef .tc main_arg5) = x5)
    (ha6 : V (Proc.devRef .tc main_arg6) = x6)
    (ha7 : V (Proc.devRef .tc main_arg7) = x7)
    (ha8 : V (Proc.devRef .tc main_arg8) = x8) :
    after (opsB (F := F)) V (Proc.devRef .tc main_v319) = val_main_v319 x0 x1 x2 x3 x4 x5 x6 x7 x8 x11 x12 := by
  after_results_simp
  simp only [hin, hv1, hv3, hv5, hv7, ha1, ha2, ha3, ha4, ha5, ha6, ha7, ha8]
  rfl

end Cert.ReferenceIdeal.RefRun

end
-- ==== Proof.RefPiece2.lean ====
/-
  The fold of the program's operations leaves in each result buffer the composition its per-operation definitions spell:
  layer 2 and the last projection.

  What the fold of a piece of the line leaves at a buffer is the operation that writes it applied to what the fold
  leaves at the operation's operands, down to the buffers the piece reads and does not write. The statement is for an
  arbitrary state of the buffers at the piece's start; where the piece reads the previous layer's output and the
  edge-index arrays, it assumes that the state holds them as their definitions spell them (the composed term of a whole
  layer over the previous one is a tree in which the previous layer's output occurs four times, so it is never spelt
  out over the arguments).
-/
import proofs.«164762_j10505490006519_1_alg».proof.Proof.RefOps
import proofs.«164762_j10505490006519_1_alg».proof.Proof.RRead

-- a piece of some two hundred operations, and every term over it, exceeds the default budgets
set_option maxHeartbeats 400000000
set_option maxRecDepth 16384

noncomputable section

namespace Cert.ReferenceIdeal.RefRun

open Cert.ReferenceIdeal Cert.ReferenceIdeal.Gen Cert.ReferenceIdeal.RRead Idealize.ShloMosaic Idealize.ShloMosaic.TcCoe Idealize.SL.Sem Idealize.ShloMosaic.StableHlo

variable {F : FTy → Type} [FloatOps F]

/-- From a state that holds the arguments, the four edge-index arrays and the previous layer's output as their
    definitions spell them, the piece leaves at main_v476 what its definition spells. -/
theorem opsC_main_v476 (V : Valuation τ sig (Elt F)) (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S3x256x128, .f32⟩ : BufTy).Contents (Elt F)) (x6 : (⟨S3x128, .f32⟩ : BufTy).Contents (Elt F)) (x7 : (⟨S128, .f32⟩ : BufTy).Contents (Elt F)) (x8 : (⟨S128, .f32⟩ : BufTy).Contents (Elt F)) (x11 : (⟨S2x600000, .i32⟩ : BufTy).Contents (Elt F)) (x12 : (⟨S2x400000, .i32⟩ : BufTy).Contents (Elt F))
    (hin : V (Proc.devRef .tc main_v319) = val_main_v319 x0 x1 x2 x3 x4 x5 x6 x7 x8 x11 x12)
    (hv1 : V (Proc.devRef .tc main_v1) = val_main_v1 x11)
    (hv3 : V (Proc.devRef .tc main_v3) = val_main_v3 x11)
    (hv5 : V (Proc.devRef .tc main_v5) = val_main_v5 x12)
    (hv7 : V (Proc.devRef .tc main_v7) = val_main_v7 x12)
    (ha1 : V (Proc.devRef .tc main_arg1) = x1)
    (ha2 : V (Proc.devRef .tc main_arg2) = x2)
    (ha3 : V (Proc.devRef .tc main_arg3) = x3)
    (ha4 : V (Proc.devRef .tc main_arg4) = x4)
    (ha5 : V (Proc.devRef .tc main_arg5) = x5)
    (ha6 : V (Proc.devRef .tc main_arg6) = x6)
    (ha7 : V (Proc.devRef .tc main_arg7) = x7)
    (ha8 : V (Proc.devRef .tc main_arg8) = x8) :
    after (opsC (F := F)) V (Proc.devRef .tc main_v476) = val_main_v476 x0 x1 x2 x3 x4 x5 x6 x7 x8 x11 x12 := by
  after_results_simp
  simp only [hin, hv1, hv3, hv5, hv7, ha1, ha2, ha3, ha4, ha5, ha6, ha7, ha8]
  rfl

/-- From a state that holds layer 2's output as its definition spells it, and the last projection's matrix and bias
    row, the last piece leaves at main_v480 what its definition spells. -/
theorem opsD_main_v480 (V : Valuation τ sig (Elt F)) (x0 : (⟨S50000x128, .f32⟩ : BufTy).Contents (Elt F)) (x1 : (⟨S3x128x128, .f32⟩ : BufTy).Contents (Elt F)) (x2 : (⟨S3x128, .f32⟩ : BufTy).Contents (Elt F)) (x3 : (⟨S3x128x128, .f32⟩ : BufTy).Contents (Elt F)) (x4 : (⟨S3x128, .f32⟩ : BufTy).Contents (Elt F)) (x5 : (⟨S3x256x128, .f32⟩ : BufTy).Contents (Elt F)) (x6 : (⟨S3x128, .f32⟩ : BufTy).Contents (Elt F)) (x7 : (⟨S128, .f32⟩ : BufTy).Contents (Elt F)) (x8 : (⟨S128, .f32⟩ : BufTy).Contents (Elt F)) (x9 : (⟨S128x64, .f32⟩ : BufTy).Contents (Elt F)) (x10 : (⟨S64, .f32⟩ : BufTy).Contents (Elt F)) (x11 : (⟨S2x600000, .i32⟩ : BufTy).Contents (Elt F)) (x12 : (⟨S2x400000, .i32⟩ : BufTy).Contents (Elt F))
    (hin : V (Proc.devRef .tc main_v476) = val_main_v476 x0 x1 x2 x3 x4 x5 x6 x7 x8 x11 x12)
    (ha9 : V (Proc.devRef .tc main_arg9) = x9) (ha10 : V (Proc.devRef .tc main_arg10) = x10) :
    after (opsD (F := F)) V (Proc.devRef .tc main_v480) = val_main_v480 x0 x1 x2 x3 x4 x5 x6 x7 x8 x9 x10 x11 x12 := by
  after_results_simp
  simp only [hin, ha9, ha10]
  rfl

end Cert.ReferenceIdeal.RefRun

end
-- ==== Proof.RefRun.lean ====
/-
  The fold of the program's operations leaves in each result buffer the composition its per-operation definitions spell.

  The line of 589 operations is its four pieces in a row, so its fold is the pieces' folds one after the other. From
  the launch contents, layer 0 leaves its output and the four edge-index arrays as their definitions spell them and
  does not touch the arguments; each later piece starts from a state that holds what it reads as the definitions spell
  it, writes its own output accordingly and leaves the rest alone. The second result is layer 2's output, which the
  last piece does not write; the first result is the last piece's output.
-/
import proofs.«164762_j10505490006519_1_alg».proof.Proof.RRun
import proofs.«164762_j10505490006519_1_alg».proof.Proof.RRead
import proofs.«164762_j10505490006519_1_alg».proof.Proof.RefOps
import proofs.«164762_j10505490006519_1_alg».proof.Proof.RefPiece0
import proofs.«164762_j10505490006519_1_alg».proof.Proof.RefPiece1
import proofs.«164762_j10505490006519_1_alg».proof.Proof.RefPiece2

-- a piece of some two hundred operations, and every term over it, exceeds the default budgets
set_option maxHeartbeats 400000000
set_option maxRecDepth 16384

noncomputable section

namespace Cert.ReferenceIdeal.RefRun

open Cert.ReferenceIdeal Cert.ReferenceIdeal.Gen Cert.ReferenceIdeal.RRun Cert.ReferenceIdeal.RRead Idealize.ShloMosaic Idealize.ShloMosaic.TcCoe Idealize.SL.Sem Idealize.ShloMosaic.StableHlo

variable {F : FTy → Type} [FloatOps F]

/-- The fold over two lines in a row is the second line's fold over the first's. -/
theorem after_two : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_two l₁ l₂]

/-- The line is its four pieces in a row. -/
theorem ops_split : (ops : List (HloOp τ sig (Elt F))) = opsA ++ (opsB ++ (opsC ++ opsD)) := rfl

/-- The buffers after layer 0, after layer 1 and after layer 2. -/
abbrev stA (m : (ℓ : Loc nD τ sig) → Buf (Elt F) ℓ) (c : Dev nD) : Valuation τ sig (Elt F) := after opsA (launchContents m c)
abbrev stB (m : (ℓ : Loc nD τ sig) → Buf (Elt F) ℓ) (c : Dev nD) : Valuation τ sig (Elt F) := after opsB (stA m c)
abbrev stC (m : (ℓ : Loc nD τ sig) → Buf (Elt F) ℓ) (c : Dev nD) : Valuation τ sig (Elt F) := after opsC (stB m c)

/-- The whole line's fold is the last piece's over the state after layer 2. -/
theorem after_ops (m : (ℓ : Loc nD τ sig) → Buf (Elt F) ℓ) (c : Dev nD) : after (ops (F := F)) (launchContents m c) = after opsD (stC m c) := by
  rw [ops_split, after_two, after_two, after_two]

/-- Layer 0's output. -/
theorem run_v162 (m : (ℓ : Loc nD τ sig) → Buf (Elt F) ℓ) (c : Dev nD) :
    stA m c (Proc.devRef .tc main_v162) = val_main_v162 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) :=
  opsA_main_v162 _

/-- Layer 1's output. -/
theorem run_v319 (m : (ℓ : Loc nD τ sig) → Buf (Elt F) ℓ) (c : Dev nD) :
    stB m c (Proc.devRef .tc main_v319) = val_main_v319 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) :=
  opsB_main_v319 (stA m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12))
    (run_v162 m c) (opsA_main_v1 _) (opsA_main_v3 _) (opsA_main_v5 _) (opsA_main_v7 _)
    (opsA_keep _ main_arg1 (by decide)) (opsA_keep _ main_arg2 (by decide)) (opsA_keep _ main_arg3 (by decide)) (opsA_keep _ main_arg4 (by decide)) (opsA_keep _ main_arg5 (by decide)) (opsA_keep _ main_arg6 (by decide)) (opsA_keep _ main_arg7 (by decide)) (opsA_keep _ main_arg8 (by decide))

/-- Layer 2's output. -/
theorem run_v476_C (m : (ℓ : Loc nD τ sig) → Buf (Elt F) ℓ) (c : Dev nD) :
    stC m c (Proc.devRef .tc main_v476) = val_main_v476 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) :=
  opsC_main_v476 (stB m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12))
    (run_v319 m c)
    ((opsB_keep _ main_v1 (by decide)).trans (opsA_main_v1 _)) ((opsB_keep _ main_v3 (by decide)).trans (opsA_main_v3 _)) ((opsB_keep _ main_v5 (by decide)).trans (opsA_main_v5 _)) ((opsB_keep _ main_v7 (by decide)).trans (opsA_main_v7 _))
    ((opsB_keep _ main_arg1 (by decide)).trans (opsA_keep _ main_arg1 (by decide))) ((opsB_keep _ main_arg2 (by decide)).trans (opsA_keep _ main_arg2 (by decide))) ((opsB_keep _ main_arg3 (by decide)).trans (opsA_keep _ main_arg3 (by decide))) ((opsB_keep _ main_arg4 (by decide)).trans (opsA_keep _ main_arg4 (by decide))) ((opsB_keep _ main_arg5 (by decide)).trans (opsA_keep _ main_arg5 (by decide))) ((opsB_keep _ main_arg6 (by decide)).trans (opsA_keep _ main_arg6 (by decide))) ((opsB_keep _ main_arg7 (by decide)).trans (opsA_keep _ main_arg7 (by decide))) ((opsB_keep _ main_arg8 (by decide)).trans (opsA_keep _ main_arg8 (by decide)))

/-- The second result: the fold of the whole line leaves at main_v476 what its definition spells. -/
theorem run_v476 (m : (ℓ : Loc nD τ sig) → Buf (Elt F) ℓ) (c : Dev nD) :
    after (ops (F := F)) (launchContents m c) (Proc.devRef .tc main_v476) = val_main_v476 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [after_ops]
  exact (opsD_keep _ main_v476 (by decide)).trans (run_v476_C m c)

/-- The first result: the fold of the whole line leaves at main_v480 what its definition spells. -/
theorem run_v480 (m : (ℓ : Loc nD τ sig) → Buf (Elt F) ℓ) (c : Dev nD) :
    after (ops (F := F)) (launchContents m c) (Proc.devRef .tc main_v480) = val_main_v480 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [after_ops]
  exact opsD_main_v480 (stC m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
    (run_v476_C m c)
    ((opsC_keep _ main_arg9 (by decide)).trans ((opsB_keep _ main_arg9 (by decide)).trans (opsA_keep _ main_arg9 (by decide)))) ((opsC_keep _ main_arg10 (by decide)).trans ((opsB_keep _ main_arg10 (by decide)).trans (opsA_keep _ main_arg10 (by decide))))

end Cert.ReferenceIdeal.RefRun

end
-- ==== Proof.RefFinal.lean ====
/-
  The reference program's run in the words of its operations' values. On every device every weakly fair execution of
  the reference terminates. Afterwards every buffer holds the fold of the operations' results over the launch
  contents; for the thirteen argument arrays that is what they held at the start, and for the two result arrays it
  is the value of the last operation writing them, as a function of the argument arrays.
-/
import proofs.«164762_j10505490006519_1_alg».proof.Defs
import proofs.«164762_j10505490006519_1_alg».proof.Proof.Gen.ReferenceIdeal
import proofs.«164762_j10505490006519_1_alg».proof.Proof.Gen.Pre_finite_inputs
import proofs.«164762_j10505490006519_1_alg».proof.Proof.RRun
import proofs.«164762_j10505490006519_1_alg».proof.Proof.RRead
import proofs.«164762_j10505490006519_1_alg».proof.Proof.RefRun

noncomputable section

namespace Cert.ReferenceIdeal.RefFinal

open Cert.ReferenceIdeal Cert.ReferenceIdeal.Gen Cert.ReferenceIdeal.RRead Idealize.ShloMosaic Idealize.ShloMosaic.TcCoe Idealize.SL.Sem Idealize.ShloMosaic.StableHlo

/-- The reference runs and leaves its thirteen argument arrays unchanged. -/
theorem frame : Cert.frame_ReferenceIdeal := fun m ρ _ =>
  (θ_run (Cert.ReferenceIdeal.defs (F := Ideal)) _ _).mono
    (fun _ h c => ⟨(h c main_arg0).trans (RRun.kept_main_arg0 m c),
      (h c main_arg1).trans (RRun.kept_main_arg1 m c),
      (h c main_arg2).trans (RRun.kept_main_arg2 m c),
      (h c main_arg3).trans (RRun.kept_main_arg3 m c),
      (h c main_arg4).trans (RRun.kept_main_arg4 m c),
      (h c main_arg5).trans (RRun.kept_main_arg5 m c),
      (h c main_arg6).trans (RRun.kept_main_arg6 m c),
      (h c main_arg7).trans (RRun.kept_main_arg7 m c),
      (h c main_arg8).trans (RRun.kept_main_arg8 m c),
      (h c main_arg9).trans (RRun.kept_main_arg9 m c),
      (h c main_arg10).trans (RRun.kept_main_arg10 m c),
      (h c main_arg11).trans (RRun.kept_main_arg11 m c),
      (h c main_arg12).trans (RRun.kept_main_arg12 m c)⟩)
    (RRun.run_all (F := Ideal) m ρ)

/-- The reference runs; its two results are the values of its last operations at the argument arrays, and the
    argument arrays are unchanged. -/
theorem results (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v480) = val_main_v480 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v476) = val_main_v476 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (Cert.ReferenceIdeal.defs (F := Ideal)) _ _).mono
    (fun _ h c => ⟨(h c main_v480).trans (RefRun.run_v480 m c), (h c main_v476).trans (RefRun.run_v476 m c),
      (h c main_arg0).trans (RRun.kept_main_arg0 m c),
      (h c main_arg1).trans (RRun.kept_main_arg1 m c),
      (h c main_arg2).trans (RRun.kept_main_arg2 m c),
      (h c main_arg3).trans (RRun.kept_main_arg3 m c),
      (h c main_arg4).trans (RRun.kept_main_arg4 m c),
      (h c main_arg5).trans (RRun.kept_main_arg5 m c),
      (h c main_arg6).trans (RRun.kept_main_arg6 m c),
      (h c main_arg7).trans (RRun.kept_main_arg7 m c),
      (h c main_arg8).trans (RRun.kept_main_arg8 m c),
      (h c main_arg9).trans (RRun.kept_main_arg9 m c),
      (h c main_arg10).trans (RRun.kept_main_arg10 m c),
      (h c main_arg11).trans (RRun.kept_main_arg11 m c),
      (h c main_arg12).trans (RRun.kept_main_arg12 m c)⟩)
    (RRun.run_all (F := Ideal) m ρ)

end Cert.ReferenceIdeal.RefFinal

end
-- ==== Proof.lean ====
/-
  The certificate of the claim: a three-layer network over 50000 nodes with 128 features, computed by sixteen launches
  with host operations between them, equals its reference at the ideal instance.

  Both programs compute, layer by layer, the same function of the argument arrays. In each layer the input x is projected
  by two 128 × 128 matrices — the launches multiply 5000-row blocks, the reference the whole array, and the blocks tile
  the rows —; each projection is aggregated over its graph's edges by the same host operations in both programs; the
  bias row is added and every row normalised, scaled, shifted and clamped at zero — a row's result depends on that row
  only, so the blocked computation is the whole-array one —, from the second layer on the layer's input is added back;
  and the two branches are multiplied by the two halves of a 256 × 128 matrix and added, which is the reference's one
  product of the concatenated branches with the whole matrix, the sum over 256 split into its two halves. The last step
  is a 128 × 64 product plus a bias row on both sides. No step uses more than commutative-monoid facts about sums, so
  the finiteness of the inputs is never used.

  The three frames: the two kernel programs' frames are generated; the reference's is its run with the results dropped.
  The idealization rewrote nothing, so its claim is trivial.
-/
import proofs.«164762_j10505490006519_1_alg».proof.Defs
import proofs.«164762_j10505490006519_1_alg».proof.Proof.Gen.Kernel
import proofs.«164762_j10505490006519_1_alg».proof.Proof.Gen.Kernel.Skeleton
import proofs.«164762_j10505490006519_1_alg».proof.Proof.Gen.Kernel.Launch
import proofs.«164762_j10505490006519_1_alg».proof.Proof.Gen.Kernel.Points
import proofs.«164762_j10505490006519_1_alg».proof.Proof.Gen.Kernel.Frame
import proofs.«164762_j10505490006519_1_alg».proof.Proof.Gen.KernelIdeal
import proofs.«164762_j10505490006519_1_alg».proof.Proof.Gen.KernelIdeal.Skeleton
import proofs.«164762_j10505490006519_1_alg».proof.Proof.Gen.KernelIdeal.Launch
import proofs.«164762_j10505490006519_1_alg».proof.Proof.Gen.KernelIdeal.Points
import proofs.«164762_j10505490006519_1_alg».proof.Proof.Gen.KernelIdeal.Frame
import proofs.«164762_j10505490006519_1_alg».proof.Proof.Gen.ReferenceIdeal
import proofs.«164762_j10505490006519_1_alg».proof.Proof.Gen.Pre_finite_inputs
import proofs.«164762_j10505490006519_1_alg».proof.Proof.KRun
import proofs.«164762_j10505490006519_1_alg».proof.Proof.KStage
import proofs.«164762_j10505490006519_1_alg».proof.Proof.RefBridge
import proofs.«164762_j10505490006519_1_alg».proof.Proof.RefFinal
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Gen Cert.KernelIdeal.KStage Cert.KernelIdeal.KNet Cert.KernelIdeal.KChain Cert.ReferenceIdeal.RRead Cert.ReferenceIdeal.RefBridge

section Values

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The kernel program's second result — the third layer's output — is the reference's composition of the argument
    arrays: three layers, each the same function on both sides. -/
theorem kernel_x3 : W32 m ρ c (Proc.devRef .tc Cert.KernelIdeal.main_v243) = val_main_v476 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  rw [E3x, E2, E1, E0, L2, L1, L0]

/-- The kernel program's first result — the last projection of the third layer's output plus the bias row. -/
theorem kernel_out : W32 m ρ c (Proc.devRef .tc Cert.KernelIdeal.main_v245) = val_main_v480 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  rw [E3, E2, E1, E0, LF, L2, L1, L0]

end Values

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := Cert.ReferenceIdeal.RefFinal.frame

/-- The idealization rewrote no operation. -/
theorem preserves : Cert.preserves_Kernel_KernelIdeal := trivial

/-- From memories agreeing on the arguments both programs run, and both results are the reference's composition of the
    kernel memory's argument arrays. -/
theorem algebraic : Cert.algebraic_KernelIdeal_ReferenceIdeal := by
  intro m ρ m' ρ' _ hagree
  refine ⟨fun c => val_main_v480 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => val_main_v476 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (kernel_out m ρ c), (h c).2.1.trans (kernel_x3 m ρ c), (h c).2.2⟩)
      (Cert.KernelIdeal.KRun.run_results m ρ)
  · refine (θ_run Cert.ReferenceIdeal.defs _ _).mono (fun r h c => ?_) (Cert.ReferenceIdeal.RefFinal.results m' ρ')
    obtain ⟨a0, a1, a2, a3, a4, a5, a6, a7, a8, a9, a10, a11, a12⟩ := hagree c
    obtain ⟨h480, h476, hk⟩ := h c
    refine ⟨h480.trans ?_, h476.trans ?_, hk⟩
    · rw [a0, a1, a2, a3, a4, a5, a6, a7, a8, a9, a10, a11, a12]
    · rw [a0, a1, a2, a3, a4, a5, a6, a7, a8, a11, a12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
